-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27)) (m ((c.tc : Thread Cert.Kernel.nD Cert.Kernel.τ).loc Cert.Kernel.main_arg28)) (m ((c.tc : Thread Cert.Kernel.nD Cert.Kernel.τ).loc Cert.Kernel.main_arg29))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28)) (m ((c.tc : Thread Cert.ReferenceIdeal.nD Cert.ReferenceIdeal.τ).loc Cert.ReferenceIdeal.main_arg29))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27)
      ∧ r.2.mem ((c.tc : Thread Cert.Kernel.nD Cert.Kernel.τ).loc Cert.Kernel.main_arg28) = m ((c.tc : Thread Cert.Kernel.nD Cert.Kernel.τ).loc Cert.Kernel.main_arg28)
      ∧ r.2.mem ((c.tc : Thread Cert.Kernel.nD Cert.Kernel.τ).loc Cert.Kernel.main_arg29) = m ((c.tc : Thread Cert.Kernel.nD Cert.Kernel.τ).loc Cert.Kernel.main_arg29))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
      ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28)
      ∧ r.2.mem ((c.tc : Thread Cert.ReferenceIdeal.nD Cert.ReferenceIdeal.τ).loc Cert.ReferenceIdeal.main_arg29) = m ((c.tc : Thread Cert.ReferenceIdeal.nD Cert.ReferenceIdeal.τ).loc Cert.ReferenceIdeal.main_arg29))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)
      ∧ m' ((c.tc : Thread Cert.ReferenceIdeal.nD Cert.ReferenceIdeal.τ).loc Cert.ReferenceIdeal.main_arg29) = m ((c.tc : Thread Cert.KernelIdeal.nD Cert.KernelIdeal.τ).loc Cert.KernelIdeal.main_arg29)) →
    ∃ (v0 : (c : Dev Cert.KernelIdeal.nD) → Buf (Elt Ideal) ((c.tc : Thread Cert.KernelIdeal.nD Cert.KernelIdeal.τ).loc Cert.KernelIdeal.main_v82_1)) (v1 : (c : Dev Cert.KernelIdeal.nD) → Buf (Elt Ideal) ((c.tc : Thread Cert.KernelIdeal.nD Cert.KernelIdeal.τ).loc Cert.KernelIdeal.main_v82_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v82_1) = v0 c
          ∧ r.2.mem ((c.tc : Thread Cert.KernelIdeal.nD Cert.KernelIdeal.τ).loc Cert.KernelIdeal.main_v82_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
          ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
          ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v149) = v0 c
          ∧ r.2.mem ((c.tc : Thread Cert.ReferenceIdeal.nD Cert.ReferenceIdeal.τ).loc Cert.ReferenceIdeal.main_v144) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
          ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28)
          ∧ r.2.mem ((c.tc : Thread Cert.ReferenceIdeal.nD Cert.ReferenceIdeal.τ).loc Cert.ReferenceIdeal.main_arg29) = m' ((c.tc : Thread Cert.ReferenceIdeal.nD Cert.ReferenceIdeal.τ).loc Cert.ReferenceIdeal.main_arg29))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x768 : Shape := ⟨2, ![50000, 768]⟩
abbrev S2x800000 : Shape := ⟨2, ![2, 800000]⟩
abbrev S800000 : Shape := ⟨1, ![800000]⟩
abbrev S50000x5 : Shape := ⟨2, ![50000, 5]⟩
abbrev S50000x1 : Shape := ⟨2, ![50000, 1]⟩
abbrev S32x768 : Shape := ⟨2, ![32, 768]⟩
abbrev S32 : Shape := ⟨1, ![32]⟩
abbrev S32x5 : Shape := ⟨2, ![32, 5]⟩
abbrev S32x1 : Shape := ⟨2, ![32, 1]⟩
abbrev S192x192 : Shape := ⟨2, ![192, 192]⟩
abbrev S192 : Shape := ⟨1, ![192]⟩
abbrev S96x192 : Shape := ⟨2, ![96, 192]⟩
abbrev S96 : Shape := ⟨1, ![96]⟩
abbrev S2x96 : Shape := ⟨2, ![2, 96]⟩
abbrev S2 : Shape := ⟨1, ![2]⟩
abbrev S_ : Shape := ⟨0, ![]⟩

class Facts : Prop where
  bcast_S_S50000x768 : S_.BroadcastsInDim S50000x768 (![] : Fin 0 → Fin S50000x768.rank)
  reducesTo_S50000x768_S_d0_1 : S50000x768.ReducesTo [0, 1] S_
  h_S_ : 0 < S_.numel
  bcast_S_S50000x5 : S_.BroadcastsInDim S50000x5 (![] : Fin 0 → Fin S50000x5.rank)
  reducesTo_S50000x5_S_d0_1 : S50000x5.ReducesTo [0, 1] S_
  bcast_S_S50000x1 : S_.BroadcastsInDim S50000x1 (![] : Fin 0 → Fin S50000x1.rank)
  reducesTo_S50000x1_S_d0_1 : S50000x1.ReducesTo [0, 1] S_
  bcast_S_S32x768 : S_.BroadcastsInDim S32x768 (![] : Fin 0 → Fin S32x768.rank)
  reducesTo_S32x768_S_d0_1 : S32x768.ReducesTo [0, 1] S_
  bcast_S_S32 : S_.BroadcastsInDim S32 (![] : Fin 0 → Fin S32.rank)
  reducesTo_S32_S_d0 : S32.ReducesTo [0] S_
  bcast_S_S32x5 : S_.BroadcastsInDim S32x5 (![] : Fin 0 → Fin S32x5.rank)
  reducesTo_S32x5_S_d0_1 : S32x5.ReducesTo [0, 1] S_
  bcast_S_S32x1 : S_.BroadcastsInDim S32x1 (![] : Fin 0 → Fin S32x1.rank)
  reducesTo_S32x1_S_d0_1 : S32x1.ReducesTo [0, 1] S_
  bcast_S_S192x192 : S_.BroadcastsInDim S192x192 (![] : Fin 0 → Fin S192x192.rank)
  reducesTo_S192x192_S_d0_1 : S192x192.ReducesTo [0, 1] S_
  bcast_S_S192 : S_.BroadcastsInDim S192 (![] : Fin 0 → Fin S192.rank)
  reducesTo_S192_S_d0 : S192.ReducesTo [0] S_
  bcast_S_S96x192 : S_.BroadcastsInDim S96x192 (![] : Fin 0 → Fin S96x192.rank)
  reducesTo_S96x192_S_d0_1 : S96x192.ReducesTo [0, 1] S_
  bcast_S_S96 : S_.BroadcastsInDim S96 (![] : Fin 0 → Fin S96.rank)
  reducesTo_S96_S_d0 : S96.ReducesTo [0] S_
  bcast_S_S2x96 : S_.BroadcastsInDim S2x96 (![] : Fin 0 → Fin S2x96.rank)
  reducesTo_S2x96_S_d0_1 : S2x96.ReducesTo [0, 1] S_
  bcast_S_S2 : S_.BroadcastsInDim S2 (![] : Fin 0 → Fin S2.rank)
  reducesTo_S2_S_d0 : S2.ReducesTo [0] S_

variable [Facts]

def fn_part8 {F : FTy → Type} [FloatOps F] (main_v133 : IVec S_ 1) (main_v136 : IVec S2 1) : IVec S_ 1 :=
  let main_c_53 : IVec S_ 1 := constantI S_ 1 1#1
  let main_v137 : IVec S_ 1 := (fun x v => Host.reduce IntOp.andi x v reducesTo_S2_S_d0 h_S_) main_v136 main_c_53
  let main_v138 : IVec S_ 1 := andi main_v133 main_v137
  main_v138

def fn_part7 {F : FTy → Type} [FloatOps F] (main_arg27 : FVec F S96 .f32) (main_arg28 : FVec F S2x96 .f32) (main_arg29 : FVec F S2 .f32) (main_v118 : IVec S_ 1) (main_v119 : FVec F S96x192 .f32) : IVec S_ 1 :=
  let main_cst_46 : FVec F S_ .f32 := constant S_ .f32 0x7F800000#32
  let main_v120 : FVec F S96x192 .f32 := broadcastInDim S96x192 ![] bcast_S_S96x192 main_cst_46
  let main_v121 : IVec S96x192 1 := cmpf .olt main_v119 main_v120
  let main_c_47 : IVec S_ 1 := constantI S_ 1 1#1
  let main_v122 : IVec S_ 1 := (fun x v => Host.reduce IntOp.andi x v reducesTo_S96x192_S_d0_1 h_S_) main_v121 main_c_47
  let main_v123 : IVec S_ 1 := andi main_v118 main_v122
  let main_v124 : FVec F S96 .f32 := Host.absf main_arg27
  let main_cst_48 : FVec F S_ .f32 := constant S_ .f32 0x7F800000#32
  let main_v125 : FVec F S96 .f32 := broadcastInDim S96 ![] bcast_S_S96 main_cst_48
  let main_v126 : IVec S96 1 := cmpf .olt main_v124 main_v125
  let main_c_49 : IVec S_ 1 := constantI S_ 1 1#1
  let main_v127 : IVec S_ 1 := (fun x v => Host.reduce IntOp.andi x v reducesTo_S96_S_d0 h_S_) main_v126 main_c_49
  let main_v128 : IVec S_ 1 := andi main_v123 main_v127
  let main_v129 : FVec F S2x96 .f32 := Host.absf main_arg28
  let main_cst_50 : FVec F S_ .f32 := constant S_ .f32 0x7F800000#32
  let main_v130 : FVec F S2x96 .f32 := broadcastInDim S2x96 ![] bcast_S_S2x96 main_cst_50
  let main_v131 : IVec S2x96 1 := cmpf .olt main_v129 main_v130
  let main_c_51 : IVec S_ 1 := constantI S_ 1 1#1
  let main_v132 : IVec S_ 1 := (fun x v => Host.reduce IntOp.andi x v reducesTo_S2x96_S_d0_1 h_S_) main_v131 main_c_51
  let main_v133 : IVec S_ 1 := andi main_v128 main_v132
  let main_v134 : FVec F S2 .f32 := Host.absf main_arg29
  let main_cst_52 : FVec F S_ .f32 := constant S_ .f32 0x7F800000#32
  let main_v135 : FVec F S2 .f32 := broadcastInDim S2 ![] bcast_S_S2 main_cst_52
  let main_v136 : IVec S2 1 := cmpf .olt main_v134 main_v135
  fn_part8 (F := F) main_v133 main_v136

def fn_part6 {F : FTy → Type} [FloatOps F] (main_arg23 : FVec F S192 .f32) (main_arg24 : FVec F S192x192 .f32) (main_arg25 : FVec F S192 .f32) (main_arg26 : FVec F S96x192 .f32) (main_arg27 : FVec F S96 .f32) (main_arg28 : FVec F S2x96 .f32) (main_arg29 : FVec F S2 .f32) (main_v98 : IVec S_ 1) (main_v101 : IVec S192x192 1) (main_c_39 : IVec S_ 1) : IVec S_ 1 :=
  let main_v102 : IVec S_ 1 := (fun x v => Host.reduce IntOp.andi x v reducesTo_S192x192_S_d0_1 h_S_) main_v101 main_c_39
  let main_v103 : IVec S_ 1 := andi main_v98 main_v102
  let main_v104 : FVec F S192 .f32 := Host.absf main_arg23
  let main_cst_40 : FVec F S_ .f32 := constant S_ .f32 0x7F800000#32
  let main_v105 : FVec F S192 .f32 := broadcastInDim S192 ![] bcast_S_S192 main_cst_40
  let main_v106 : IVec S192 1 := cmpf .olt main_v104 main_v105
  let main_c_41 : IVec S_ 1 := constantI S_ 1 1#1
  let main_v107 : IVec S_ 1 := (fun x v => Host.reduce IntOp.andi x v reducesTo_S192_S_d0 h_S_) main_v106 main_c_41
  let main_v108 : IVec S_ 1 := andi main_v103 main_v107
  let main_v109 : FVec F S192x192 .f32 := Host.absf main_arg24
  let main_cst_42 : FVec F S_ .f32 := constant S_ .f32 0x7F800000#32
  let main_v110 : FVec F S192x192 .f32 := broadcastInDim S192x192 ![] bcast_S_S192x192 main_cst_42
  let main_v111 : IVec S192x192 1 := cmpf .olt main_v109 main_v110
  let main_c_43 : IVec S_ 1 := constantI S_ 1 1#1
  let main_v112 : IVec S_ 1 := (fun x v => Host.reduce IntOp.andi x v reducesTo_S192x192_S_d0_1 h_S_) main_v111 main_c_43
  let main_v113 : IVec S_ 1 := andi main_v108 main_v112
  let main_v114 : FVec F S192 .f32 := Host.absf main_arg25
  let main_cst_44 : FVec F S_ .f32 := constant S_ .f32 0x7F800000#32
  let main_v115 : FVec F S192 .f32 := broadcastInDim S192 ![] bcast_S_S192 main_cst_44
  let main_v116 : IVec S192 1 := cmpf .olt main_v114 main_v115
  let main_c_45 : IVec S_ 1 := constantI S_ 1 1#1
  let main_v117 : IVec S_ 1 := (fun x v => Host.reduce IntOp.andi x v reducesTo_S192_S_d0 h_S_) main_v116 main_c_45
  let main_v118 : IVec S_ 1 := andi main_v113 main_v117
  let main_v119 : FVec F S96x192 .f32 := Host.absf main_arg26
  fn_part7 (F := F) main_arg27 main_arg28 main_arg29 main_v118 main_v119

def fn_part5 {F : FTy → Type} [FloatOps F] (main_arg20 : FVec F S192x192 .f32) (main_arg21 : FVec F S192 .f32) (main_arg22 : FVec F S192x192 .f32) (main_arg23 : FVec F S192 .f32) (main_arg24 : FVec F S192x192 .f32) (main_arg25 : FVec F S192 .f32) (main_arg26 : FVec F S96x192 .f32) (main_arg27 : FVec F S96 .f32) (main_arg28 : FVec F S2x96 .f32) (main_arg29 : FVec F S2 .f32) (main_v83 : IVec S_ 1) (main_v84 : FVec F S32 .f32) (main_cst_32 : FVec F S_ .f32) : IVec S_ 1 :=
  let main_v85 : FVec F S32 .f32 := broadcastInDim S32 ![] bcast_S_S32 main_cst_32
  let main_v86 : IVec S32 1 := cmpf .olt main_v84 main_v85
  let main_c_33 : IVec S_ 1 := constantI S_ 1 1#1
  let main_v87 : IVec S_ 1 := (fun x v => Host.reduce IntOp.andi x v reducesTo_S32_S_d0 h_S_) main_v86 main_c_33
  let main_v88 : IVec S_ 1 := andi main_v83 main_v87
  let main_v89 : FVec F S192x192 .f32 := Host.absf main_arg20
  let main_cst_34 : FVec F S_ .f32 := constant S_ .f32 0x7F800000#32
  let main_v90 : FVec F S192x192 .f32 := broadcastInDim S192x192 ![] bcast_S_S192x192 main_cst_34
  let main_v91 : IVec S192x192 1 := cmpf .olt main_v89 main_v90
  let main_c_35 : IVec S_ 1 := constantI S_ 1 1#1
  let main_v92 : IVec S_ 1 := (fun x v => Host.reduce IntOp.andi x v reducesTo_S192x192_S_d0_1 h_S_) main_v91 main_c_35
  let main_v93 : IVec S_ 1 := andi main_v88 main_v92
  let main_v94 : FVec F S192 .f32 := Host.absf main_arg21
  let main_cst_36 : FVec F S_ .f32 := constant S_ .f32 0x7F800000#32
  let main_v95 : FVec F S192 .f32 := broadcastInDim S192 ![] bcast_S_S192 main_cst_36
  let main_v96 : IVec S192 1 := cmpf .olt main_v94 main_v95
  let main_c_37 : IVec S_ 1 := constantI S_ 1 1#1
  let main_v97 : IVec S_ 1 := (fun x v => Host.reduce IntOp.andi x v reducesTo_S192_S_d0 h_S_) main_v96 main_c_37
  let main_v98 : IVec S_ 1 := andi main_v93 main_v97
  let main_v99 : FVec F S192x192 .f32 := Host.absf main_arg22
  let main_cst_38 : FVec F S_ .f32 := constant S_ .f32 0x7F800000#32
  let main_v100 : FVec F S192x192 .f32 := broadcastInDim S192x192 ![] bcast_S_S192x192 main_cst_38
  let main_v101 : IVec S192x192 1 := cmpf .olt main_v99 main_v100
  let main_c_39 : IVec S_ 1 := constantI S_ 1 1#1
  fn_part6 (F := F) main_arg23 main_arg24 main_arg25 main_arg26 main_arg27 main_arg28 main_arg29 main_v98 main_v101 main_c_39

def fn_part4 {F : FTy → Type} [FloatOps F] (main_arg16 : FVec F S32x1 .f32) (main_arg17 : FVec F S32 .f32) (main_arg18 : FVec F S32x768 .f32) (main_arg19 : FVec F S32 .f32) (main_arg20 : FVec F S192x192 .f32) (main_arg21 : FVec F S192 .f32) (main_arg22 : FVec F S192x192 .f32) (main_arg23 : FVec F S192 .f32) (main_arg24 : FVec F S192x192 .f32) (main_arg25 : FVec F S192 .f32) (main_arg26 : FVec F S96x192 .f32) (main_arg27 : FVec F S96 .f32) (main_arg28 : FVec F S2x96 .f32) (main_arg29 : FVec F S2 .f32) (main_v63 : IVec S_ 1) (main_v67 : IVec S_ 1) : IVec S_ 1 :=
  let main_v68 : IVec S_ 1 := andi main_v63 main_v67
  let main_v69 : FVec F S32x1 .f32 := Host.absf main_arg16
  let main_cst_26 : FVec F S_ .f32 := constant S_ .f32 0x7F800000#32
  let main_v70 : FVec F S32x1 .f32 := broadcastInDim S32x1 ![] bcast_S_S32x1 main_cst_26
  let main_v71 : IVec S32x1 1 := cmpf .olt main_v69 main_v70
  let main_c_27 : IVec S_ 1 := constantI S_ 1 1#1
  let main_v72 : IVec S_ 1 := (fun x v => Host.reduce IntOp.andi x v reducesTo_S32x1_S_d0_1 h_S_) main_v71 main_c_27
  let main_v73 : IVec S_ 1 := andi main_v68 main_v72
  let main_v74 : FVec F S32 .f32 := Host.absf main_arg17
  let main_cst_28 : FVec F S_ .f32 := constant S_ .f32 0x7F800000#32
  let main_v75 : FVec F S32 .f32 := broadcastInDim S32 ![] bcast_S_S32 main_cst_28
  let main_v76 : IVec S32 1 := cmpf .olt main_v74 main_v75
  let main_c_29 : IVec S_ 1 := constantI S_ 1 1#1
  let main_v77 : IVec S_ 1 := (fun x v => Host.reduce IntOp.andi x v reducesTo_S32_S_d0 h_S_) main_v76 main_c_29
  let main_v78 : IVec S_ 1 := andi main_v73 main_v77
  let main_v79 : FVec F S32x768 .f32 := Host.absf main_arg18
  let main_cst_30 : FVec F S_ .f32 := constant S_ .f32 0x7F800000#32
  let main_v80 : FVec F S32x768 .f32 := broadcastInDim S32x768 ![] bcast_S_S32x768 main_cst_30
  let main_v81 : IVec S32x768 1 := cmpf .olt main_v79 main_v80
  let main_c_31 : IVec S_ 1 := constantI S_ 1 1#1
  let main_v82 : IVec S_ 1 := (fun x v => Host.reduce IntOp.andi x v reducesTo_S32x768_S_d0_1 h_S_) main_v81 main_c_31
  let main_v83 : IVec S_ 1 := andi main_v78 main_v82
  let main_v84 : FVec F S32 .f32 := Host.absf main_arg19
  let main_cst_32 : FVec F S_ .f32 := constant S_ .f32 0x7F800000#32
  fn_part5 (F := F) main_arg20 main_arg21 main_arg22 main_arg23 main_arg24 main_arg25 main_arg26 main_arg27 main_arg28 main_arg29 main_v83 main_v84 main_cst_32

def fn_part3 {F : FTy → Type} [FloatOps F] (main_arg13 : FVec F S32 .f32) (main_arg14 : FVec F S32x5 .f32) (main_arg15 : FVec F S32 .f32) (main_arg16 : FVec F S32x1 .f32) (main_arg17 : FVec F S32 .f32) (main_arg18 : FVec F S32x768 .f32) (main_arg19 : FVec F S32 .f32) (main_arg20 : FVec F S192x192 .f32) (main_arg21 : FVec F S192 .f32) (main_arg22 : FVec F S192x192 .f32) (main_arg23 : FVec F S192 .f32) (main_arg24 : FVec F S192x192 .f32) (main_arg25 : FVec F S192 .f32) (main_arg26 : FVec F S96x192 .f32) (main_arg27 : FVec F S96 .f32) (main_arg28 : FVec F S2x96 .f32) (main_arg29 : FVec F S2 .f32) (main_v48 : IVec S_ 1) (main_v49 : FVec F S32x768 .f32) (main_v50 : FVec F S32x768 .f32) : IVec S_ 1 :=
  let main_v51 : IVec S32x768 1 := cmpf .olt main_v49 main_v50
  let main_c_19 : IVec S_ 1 := constantI S_ 1 1#1
  let main_v52 : IVec S_ 1 := (fun x v => Host.reduce IntOp.andi x v reducesTo_S32x768_S_d0_1 h_S_) main_v51 main_c_19
  let main_v53 : IVec S_ 1 := andi main_v48 main_v52
  let main_v54 : FVec F S32 .f32 := Host.absf main_arg13
  let main_cst_20 : FVec F S_ .f32 := constant S_ .f32 0x7F800000#32
  let main_v55 : FVec F S32 .f32 := broadcastInDim S32 ![] bcast_S_S32 main_cst_20
  let main_v56 : IVec S32 1 := cmpf .olt main_v54 main_v55
  let main_c_21 : IVec S_ 1 := constantI S_ 1 1#1
  let main_v57 : IVec S_ 1 := (fun x v => Host.reduce IntOp.andi x v reducesTo_S32_S_d0 h_S_) main_v56 main_c_21
  let main_v58 : IVec S_ 1 := andi main_v53 main_v57
  let main_v59 : FVec F S32x5 .f32 := Host.absf main_arg14
  let main_cst_22 : FVec F S_ .f32 := constant S_ .f32 0x7F800000#32
  let main_v60 : FVec F S32x5 .f32 := broadcastInDim S32x5 ![] bcast_S_S32x5 main_cst_22
  let main_v61 : IVec S32x5 1 := cmpf .olt main_v59 main_v60
  let main_c_23 : IVec S_ 1 := constantI S_ 1 1#1
  let main_v62 : IVec S_ 1 := (fun x v => Host.reduce IntOp.andi x v reducesTo_S32x5_S_d0_1 h_S_) main_v61 main_c_23
  let main_v63 : IVec S_ 1 := andi main_v58 main_v62
  let main_v64 : FVec F S32 .f32 := Host.absf main_arg15
  let main_cst_24 : FVec F S_ .f32 := constant S_ .f32 0x7F800000#32
  let main_v65 : FVec F S32 .f32 := broadcastInDim S32 ![] bcast_S_S32 main_cst_24
  let main_v66 : IVec S32 1 := cmpf .olt main_v64 main_v65
  let main_c_25 : IVec S_ 1 := constantI S_ 1 1#1
  let main_v67 : IVec S_ 1 := (fun x v => Host.reduce IntOp.andi x v reducesTo_S32_S_d0 h_S_) main_v66 main_c_25
  fn_part4 (F := F) main_arg16 main_arg17 main_arg18 main_arg19 main_arg20 main_arg21 main_arg22 main_arg23 main_arg24 main_arg25 main_arg26 main_arg27 main_arg28 main_arg29 main_v63 main_v67

def fn_part2 {F : FTy → Type} [FloatOps F] (main_arg9 : FVec F S32 .f32) (main_arg10 : FVec F S32x768 .f32) (main_arg11 : FVec F S32 .f32) (main_arg12 : FVec F S32x768 .f32) (main_arg13 : FVec F S32 .f32) (main_arg14 : FVec F S32x5 .f32) (main_arg15 : FVec F S32 .f32) (main_arg16 : FVec F S32x1 .f32) (main_arg17 : FVec F S32 .f32) (main_arg18 : FVec F S32x768 .f32) (main_arg19 : FVec F S32 .f32) (main_arg20 : FVec F S192x192 .f32) (main_arg21 : FVec F S192 .f32) (main_arg22 : FVec F S192x192 .f32) (main_arg23 : FVec F S192 .f32) (main_arg24 : FVec F S192x192 .f32) (main_arg25 : FVec F S192 .f32) (main_arg26 : FVec F S96x192 .f32) (main_arg27 : FVec F S96 .f32) (main_arg28 : FVec F S2x96 .f32) (main_arg29 : FVec F S2 .f32) (main_v33 : IVec S_ 1) : IVec S_ 1 :=
  let main_v34 : FVec F S32 .f32 := Host.absf main_arg9
  let main_cst_12 : FVec F S_ .f32 := constant S_ .f32 0x7F800000#32
  let main_v35 : FVec F S32 .f32 := broadcastInDim S32 ![] bcast_S_S32 main_cst_12
  let main_v36 : IVec S32 1 := cmpf .olt main_v34 main_v35
  let main_c_13 : IVec S_ 1 := constantI S_ 1 1#1
  let main_v37 : IVec S_ 1 := (fun x v => Host.reduce IntOp.andi x v reducesTo_S32_S_d0 h_S_) main_v36 main_c_13
  let main_v38 : IVec S_ 1 := andi main_v33 main_v37
  let main_v39 : FVec F S32x768 .f32 := Host.absf main_arg10
  let main_cst_14 : FVec F S_ .f32 := constant S_ .f32 0x7F800000#32
  let main_v40 : FVec F S32x768 .f32 := broadcastInDim S32x768 ![] bcast_S_S32x768 main_cst_14
  let main_v41 : IVec S32x768 1 := cmpf .olt main_v39 main_v40
  let main_c_15 : IVec S_ 1 := constantI S_ 1 1#1
  let main_v42 : IVec S_ 1 := (fun x v => Host.reduce IntOp.andi x v reducesTo_S32x768_S_d0_1 h_S_) main_v41 main_c_15
  let main_v43 : IVec S_ 1 := andi main_v38 main_v42
  let main_v44 : FVec F S32 .f32 := Host.absf main_arg11
  let main_cst_16 : FVec F S_ .f32 := constant S_ .f32 0x7F800000#32
  let main_v45 : FVec F S32 .f32 := broadcastInDim S32 ![] bcast_S_S32 main_cst_16
  let main_v46 : IVec S32 1 := cmpf .olt main_v44 main_v45
  let main_c_17 : IVec S_ 1 := constantI S_ 1 1#1
  let main_v47 : IVec S_ 1 := (fun x v => Host.reduce IntOp.andi x v reducesTo_S32_S_d0 h_S_) main_v46 main_c_17
  let main_v48 : IVec S_ 1 := andi main_v43 main_v47
  let main_v49 : FVec F S32x768 .f32 := Host.absf main_arg12
  let main_cst_18 : FVec F S_ .f32 := constant S_ .f32 0x7F800000#32
  let main_v50 : FVec F S32x768 .f32 := broadcastInDim S32x768 ![] bcast_S_S32x768 main_cst_18
  fn_part3 (F := F) main_arg13 main_arg14 main_arg15 main_arg16 main_arg17 main_arg18 main_arg19 main_arg20 main_arg21 main_arg22 main_arg23 main_arg24 main_arg25 main_arg26 main_arg27 main_arg28 main_arg29 main_v48 main_v49 main_v50

def fn_part1 {F : FTy → Type} [FloatOps F] (main_arg6 : FVec F S50000x768 .f32) (main_arg7 : FVec F S50000x768 .f32) (main_arg8 : FVec F S32x768 .f32) (main_arg9 : FVec F S32 .f32) (main_arg10 : FVec F S32x768 .f32) (main_arg11 : FVec F S32 .f32) (main_arg12 : FVec F S32x768 .f32) (main_arg13 : FVec F S32 .f32) (main_arg14 : FVec F S32x5 .f32) (main_arg15 : FVec F S32 .f32) (main_arg16 : FVec F S32x1 .f32) (main_arg17 : FVec F S32 .f32) (main_arg18 : FVec F S32x768 .f32) (main_arg19 : FVec F S32 .f32) (main_arg20 : FVec F S192x192 .f32) (main_arg21 : FVec F S192 .f32) (main_arg22 : FVec F S192x192 .f32) (main_arg23 : FVec F S192 .f32) (main_arg24 : FVec F S192x192 .f32) (main_arg25 : FVec F S192 .f32) (main_arg26 : FVec F S96x192 .f32) (main_arg27 : FVec F S96 .f32) (main_arg28 : FVec F S2x96 .f32) (main_arg29 : FVec F S2 .f32) (main_v13 : IVec S_ 1) (main_v16 : IVec S50000x1 1) : IVec S_ 1 :=
  let main_c_5 : IVec S_ 1 := constantI S_ 1 1#1
  let main_v17 : IVec S_ 1 := (fun x v => Host.reduce IntOp.andi x v reducesTo_S50000x1_S_d0_1 h_S_) main_v16 main_c_5
  let main_v18 : IVec S_ 1 := andi main_v13 main_v17
  let main_v19 : FVec F S50000x768 .f32 := Host.absf main_arg6
  let main_cst_6 : FVec F S_ .f32 := constant S_ .f32 0x7F800000#32
  let main_v20 : FVec F S50000x768 .f32 := broadcastInDim S50000x768 ![] bcast_S_S50000x768 main_cst_6
  let main_v21 : IVec S50000x768 1 := cmpf .olt main_v19 main_v20
  let main_c_7 : IVec S_ 1 := constantI S_ 1 1#1
  let main_v22 : IVec S_ 1 := (fun x v => Host.reduce IntOp.andi x v reducesTo_S50000x768_S_d0_1 h_S_) main_v21 main_c_7
  let main_v23 : IVec S_ 1 := andi main_v18 main_v22
  let main_v24 : FVec F S50000x768 .f32 := Host.absf main_arg7
  let main_cst_8 : FVec F S_ .f32 := constant S_ .f32 0x7F800000#32
  let main_v25 : FVec F S50000x768 .f32 := broadcastInDim S50000x768 ![] bcast_S_S50000x768 main_cst_8
  let main_v26 : IVec S50000x768 1 := cmpf .olt main_v24 main_v25
  let main_c_9 : IVec S_ 1 := constantI S_ 1 1#1
  let main_v27 : IVec S_ 1 := (fun x v => Host.reduce IntOp.andi x v reducesTo_S50000x768_S_d0_1 h_S_) main_v26 main_c_9
  let main_v28 : IVec S_ 1 := andi main_v23 main_v27
  let main_v29 : FVec F S32x768 .f32 := Host.absf main_arg8
  let main_cst_10 : FVec F S_ .f32 := constant S_ .f32 0x7F800000#32
  let main_v30 : FVec F S32x768 .f32 := broadcastInDim S32x768 ![] bcast_S_S32x768 main_cst_10
  let main_v31 : IVec S32x768 1 := cmpf .olt main_v29 main_v30
  let main_c_11 : IVec S_ 1 := constantI S_ 1 1#1
  let main_v32 : IVec S_ 1 := (fun x v => Host.reduce IntOp.andi x v reducesTo_S32x768_S_d0_1 h_S_) main_v31 main_c_11
  let main_v33 : IVec S_ 1 := andi main_v28 main_v32
  fn_part2 (F := F) main_arg9 main_arg10 main_arg11 main_arg12 main_arg13 main_arg14 main_arg15 main_arg16 main_arg17 main_arg18 main_arg19 main_arg20 main_arg21 main_arg22 main_arg23 main_arg24 main_arg25 main_arg26 main_arg27 main_arg28 main_arg29 main_v33

def fn {F : FTy → Type} [FloatOps F] (main_arg0 : FVec F S50000x768 .f32) (main_arg1 : FVec F S50000x768 .f32) (main_arg2 : IVec S2x800000 32) (main_arg3 : IVec S800000 32) (main_arg4 : FVec F S50000x5 .f32) (main_arg5 : FVec F S50000x1 .f32) (main_arg6 : FVec F S50000x768 .f32) (main_arg7 : FVec F S50000x768 .f32) (main_arg8 : FVec F S32x768 .f32) (main_arg9 : FVec F S32 .f32) (main_arg10 : FVec F S32x768 .f32) (main_arg11 : FVec F S32 .f32) (main_arg12 : FVec F S32x768 .f32) (main_arg13 : FVec F S32 .f32) (main_arg14 : FVec F S32x5 .f32) (main_arg15 : FVec F S32 .f32) (main_arg16 : FVec F S32x1 .f32) (main_arg17 : FVec F S32 .f32) (main_arg18 : FVec F S32x768 .f32) (main_arg19 : FVec F S32 .f32) (main_arg20 : FVec F S192x192 .f32) (main_arg21 : FVec F S192 .f32) (main_arg22 : FVec F S192x192 .f32) (main_arg23 : FVec F S192 .f32) (main_arg24 : FVec F S192x192 .f32) (main_arg25 : FVec F S192 .f32) (main_arg26 : FVec F S96x192 .f32) (main_arg27 : FVec F S96 .f32) (main_arg28 : FVec F S2x96 .f32) (main_arg29 : FVec F S2 .f32) : IVec S_ 1 :=
  let main_v0 : FVec F S50000x768 .f32 := Host.absf main_arg0
  let main_cst : FVec F S_ .f32 := constant S_ .f32 0x7F800000#32
  let main_v1 : FVec F S50000x768 .f32 := broadcastInDim S50000x768 ![] bcast_S_S50000x768 main_cst
  let main_v2 : IVec S50000x768 1 := cmpf .olt main_v0 main_v1
  let main_c : IVec S_ 1 := constantI S_ 1 1#1
  let main_v3 : IVec S_ 1 := (fun x v => Host.reduce IntOp.andi x v reducesTo_S50000x768_S_d0_1 h_S_) main_v2 main_c
  let main_v4 : FVec F S50000x768 .f32 := Host.absf main_arg1
  let main_cst_0 : FVec F S_ .f32 := constant S_ .f32 0x7F800000#32
  let main_v5 : FVec F S50000x768 .f32 := broadcastInDim S50000x768 ![] bcast_S_S50000x768 main_cst_0
  let main_v6 : IVec S50000x768 1 := cmpf .olt main_v4 main_v5
  let main_c_1 : IVec S_ 1 := constantI S_ 1 1#1
  let main_v7 : IVec S_ 1 := (fun x v => Host.reduce IntOp.andi x v reducesTo_S50000x768_S_d0_1 h_S_) main_v6 main_c_1
  let main_v8 : IVec S_ 1 := andi main_v3 main_v7
  let main_v9 : FVec F S50000x5 .f32 := Host.absf main_arg4
  let main_cst_2 : FVec F S_ .f32 := constant S_ .f32 0x7F800000#32
  let main_v10 : FVec F S50000x5 .f32 := broadcastInDim S50000x5 ![] bcast_S_S50000x5 main_cst_2
  let main_v11 : IVec S50000x5 1 := cmpf .olt main_v9 main_v10
  let main_c_3 : IVec S_ 1 := constantI S_ 1 1#1
  let main_v12 : IVec S_ 1 := (fun x v => Host.reduce IntOp.andi x v reducesTo_S50000x5_S_d0_1 h_S_) main_v11 main_c_3
  let main_v13 : IVec S_ 1 := andi main_v8 main_v12
  let main_v14 : FVec F S50000x1 .f32 := Host.absf main_arg5
  let main_cst_4 : FVec F S_ .f32 := constant S_ .f32 0x7F800000#32
  let main_v15 : FVec F S50000x1 .f32 := broadcastInDim S50000x1 ![] bcast_S_S50000x1 main_cst_4
  let main_v16 : IVec S50000x1 1 := cmpf .olt main_v14 main_v15
  fn_part1 (F := F) main_arg6 main_arg7 main_arg8 main_arg9 main_arg10 main_arg11 main_arg12 main_arg13 main_arg14 main_arg15 main_arg16 main_arg17 main_arg18 main_arg19 main_arg20 main_arg21 main_arg22 main_arg23 main_arg24 main_arg25 main_arg26 main_arg27 main_arg28 main_arg29 main_v13 main_v16
-- ==== Kernel.lean ====
abbrev S50000x768 : Shape := ⟨2, ![50000, 768]⟩
abbrev S2x800000 : Shape := ⟨2, ![2, 800000]⟩
abbrev S800000 : Shape := ⟨1, ![800000]⟩
abbrev S50000x5 : Shape := ⟨2, ![50000, 5]⟩
abbrev S50000x1 : Shape := ⟨2, ![50000, 1]⟩
abbrev S32x768 : Shape := ⟨2, ![32, 768]⟩
abbrev S32 : Shape := ⟨1, ![32]⟩
abbrev S32x5 : Shape := ⟨2, ![32, 5]⟩
abbrev S32x1 : Shape := ⟨2, ![32, 1]⟩
abbrev S192x192 : Shape := ⟨2, ![192, 192]⟩
abbrev S192 : Shape := ⟨1, ![192]⟩
abbrev S96x192 : Shape := ⟨2, ![96, 192]⟩
abbrev S96 : Shape := ⟨1, ![96]⟩
abbrev S2x96 : Shape := ⟨2, ![2, 96]⟩
abbrev S2 : Shape := ⟨1, ![2]⟩
abbrev S1x32 : Shape := ⟨2, ![1, 32]⟩
abbrev S1x192 : Shape := ⟨2, ![1, 192]⟩
abbrev S50000x192 : Shape := ⟨2, ![50000, 192]⟩
abbrev S1000x768 : Shape := ⟨2, ![1000, 768]⟩
abbrev S1000x5 : Shape := ⟨2, ![1000, 5]⟩
abbrev S1000x1 : Shape := ⟨2, ![1000, 1]⟩
abbrev S1000x192 : Shape := ⟨2, ![1000, 192]⟩
abbrev S768x32 : Shape := ⟨2, ![768, 32]⟩
abbrev S1000x32 : Shape := ⟨2, ![1000, 32]⟩
abbrev S5x32 : Shape := ⟨2, ![5, 32]⟩
abbrev S1x800000 : Shape := ⟨2, ![1, 800000]⟩
abbrev S_ : Shape := ⟨0, ![]⟩
abbrev S50000 : Shape := ⟨1, ![50000]⟩
abbrev S800000x1 : Shape := ⟨2, ![800000, 1]⟩
abbrev S5000x192 : Shape := ⟨2, ![5000, 192]⟩
abbrev S800000x192 : Shape := ⟨2, ![800000, 192]⟩
abbrev S1x96 : Shape := ⟨2, ![1, 96]⟩
abbrev S1x2 : Shape := ⟨2, ![1, 2]⟩
abbrev S50000x96 : Shape := ⟨2, ![50000, 96]⟩
abbrev S50000x2 : Shape := ⟨2, ![50000, 2]⟩
abbrev S5000x96 : Shape := ⟨2, ![5000, 96]⟩
abbrev S5000x2 : Shape := ⟨2, ![5000, 2]⟩
abbrev S192x96 : Shape := ⟨2, ![192, 96]⟩
abbrev S96x2 : Shape := ⟨2, ![96, 2]⟩

abbrev nBuf : Space → Nat
  | .hbm => 129
  | .vmem => 48
  | .smem => 0
  | _ => 0

abbrev hbmTy0_0 (i : Nat) : BufTy := match i % 128 with
  | 0 => ⟨S50000x768, .f32⟩
  | 1 => ⟨S50000x768, .f32⟩
  | 2 => ⟨S2x800000, .i32⟩
  | 3 => ⟨S800000, .i32⟩
  | 4 => ⟨S50000x5, .f32⟩
  | 5 => ⟨S50000x1, .f32⟩
  | 6 => ⟨S50000x768, .f32⟩
  | 7 => ⟨S50000x768, .f32⟩
  | 8 => ⟨S32x768, .f32⟩
  | 9 => ⟨S32, .f32⟩
  | 10 => ⟨S32x768, .f32⟩
  | 11 => ⟨S32, .f32⟩
  | 12 => ⟨S32x768, .f32⟩
  | 13 => ⟨S32, .f32⟩
  | 14 => ⟨S32x5, .f32⟩
  | 15 => ⟨S32, .f32⟩
  | 16 => ⟨S32x1, .f32⟩
  | 17 => ⟨S32, .f32⟩
  | 18 => ⟨S32x768, .f32⟩
  | 19 => ⟨S32, .f32⟩
  | 20 => ⟨S192x192, .f32⟩
  | 21 => ⟨S192, .f32⟩
  | 22 => ⟨S192x192, .f32⟩
  | 23 => ⟨S192, .f32⟩
  | 24 => ⟨S192x192, .f32⟩
  | 25 => ⟨S192, .f32⟩
  | 26 => ⟨S96x192, .f32⟩
  | 27 => ⟨S96, .f32⟩
  | 28 => ⟨S2x96, .f32⟩
  | 29 => ⟨S2, .f32⟩
  | 30 => ⟨S1x32, .f32⟩
  | 31 => ⟨S1x32, .f32⟩
  | 32 => ⟨S1x32, .f32⟩
  | 33 => ⟨S1x32, .f32⟩
  | 34 => ⟨S1x32, .f32⟩
  | 35 => ⟨S1x32, .f32⟩
  | 36 => ⟨S1x192, .f32⟩
  | 37 => ⟨S50000x192, .f32⟩
  | 38 => ⟨S1x800000, .i32⟩
  | 39 => ⟨S800000, .i32⟩
  | 40 => ⟨S1x800000, .i32⟩
  | 41 => ⟨S800000, .i32⟩
  | 42 => ⟨S_, .f32⟩
  | 43 => ⟨S800000, .f32⟩
  | 44 => ⟨S_, .f32⟩
  | 45 => ⟨S50000, .f32⟩
  | 46 => ⟨S800000x1, .i32⟩
  | 47 => ⟨S50000, .f32⟩
  | 48 => ⟨S_, .f32⟩
  | 49 => ⟨S50000, .f32⟩
  | 50 => ⟨S50000, .f32⟩
  | 51 => ⟨S50000, .f32⟩
  | 52 => ⟨S_, .i32⟩
  | 53 => ⟨S800000, .i32⟩
  | 54 => ⟨S800000, .i1⟩
  | 55 => ⟨S_, .i32⟩
  | 56 => ⟨S800000, .i32⟩
  | 57 => ⟨S800000, .i32⟩
  | 58 => ⟨S800000, .i32⟩
  | 59 => ⟨S800000x1, .i32⟩
  | 60 => ⟨S800000, .f32⟩
  | 61 => ⟨S_, .i32⟩
  | 62 => ⟨S800000, .i32⟩
  | 63 => ⟨S800000, .i1⟩
  | 64 => ⟨S_, .i32⟩
  | 65 => ⟨S800000, .i32⟩
  | 66 => ⟨S800000, .i32⟩
  | 67 => ⟨S800000, .i32⟩
  | 68 => ⟨S800000x1, .i32⟩
  | 69 => ⟨S800000, .f32⟩
  | 70 => ⟨S800000, .f32⟩
  | 71 => ⟨S50000x192, .f32⟩
  | 72 => ⟨S_, .i32⟩
  | 73 => ⟨S800000, .i32⟩
  | 74 => ⟨S800000, .i1⟩
  | 75 => ⟨S_, .i32⟩
  | 76 => ⟨S800000, .i32⟩
  | 77 => ⟨S800000, .i32⟩
  | 78 => ⟨S800000, .i32⟩
  | 79 => ⟨S800000x1, .i32⟩
  | 80 => ⟨S800000x192, .f32⟩
  | 81 => ⟨S800000x1, .f32⟩
  | 82 => ⟨S800000x192, .f32⟩
  | 83 => ⟨S800000x192, .f32⟩
  | 84 => ⟨S_, .f32⟩
  | 85 => ⟨S50000x192, .f32⟩
  | 86 => ⟨S800000x1, .i32⟩
  | 87 => ⟨S50000x192, .f32⟩
  | 88 => ⟨S_, .f32⟩
  | 89 => ⟨S50000, .f32⟩
  | 90 => ⟨S50000, .f32⟩
  | 91 => ⟨S50000x1, .f32⟩
  | 92 => ⟨S50000x192, .f32⟩
  | 93 => ⟨S50000x192, .f32⟩
  | 94 => ⟨S50000x192, .f32⟩
  | 95 => ⟨S1x192, .f32⟩
  | 96 => ⟨S50000x192, .f32⟩
  | 97 => ⟨S50000x192, .f32⟩
  | 98 => ⟨S50000x192, .f32⟩
  | 99 => ⟨S_, .i32⟩
  | 100 => ⟨S800000, .i32⟩
  | 101 => ⟨S800000, .i1⟩
  | 102 => ⟨S_, .i32⟩
  | 103 => ⟨S800000, .i32⟩
  | 104 => ⟨S800000, .i32⟩
  | 105 => ⟨S800000, .i32⟩
  | 106 => ⟨S800000x1, .i32⟩
  | 107 => ⟨S800000x192, .f32⟩
  | 108 => ⟨S800000x1, .f32⟩
  | 109 => ⟨S800000x192, .f32⟩
  | 110 => ⟨S800000x192, .f32⟩
  | 111 => ⟨S_, .f32⟩
  | 112 => ⟨S50000x192, .f32⟩
  | 113 => ⟨S800000x1, .i32⟩
  | 114 => ⟨S50000x192, .f32⟩
  | 115 => ⟨S_, .f32⟩
  | 116 => ⟨S50000, .f32⟩
  | 117 => ⟨S50000, .f32⟩
  | 118 => ⟨S50000x1, .f32⟩
  | 119 => ⟨S50000x192, .f32⟩
  | 120 => ⟨S50000x192, .f32⟩
  | 121 => ⟨S50000x192, .f32⟩
  | 122 => ⟨S1x192, .f32⟩
  | 123 => ⟨S50000x192, .f32⟩
  | 124 => ⟨S50000x192, .f32⟩
  | 125 => ⟨S1x96, .f32⟩
  | 126 => ⟨S1x2, .f32⟩
  | 127 => ⟨S50000x96, .f32⟩
  | _ => ⟨S50000x768, .f32⟩

abbrev hbmTy0_1 (i : Nat) : BufTy := match i % 128 with
  | 0 => ⟨S50000x2, .f32⟩
  | _ => ⟨S50000x768, .f32⟩

abbrev hbmTy (i : Nat) : BufTy := match i / 128 with
  | 0 => hbmTy0_0 i
  | 1 => hbmTy0_1 i
  | _ => ⟨S50000x768, .f32⟩

abbrev bufTy : (tb : Table) → Fin (tcTables nBuf tb) → BufTy
  | .hbm, ⟨i, _⟩ => hbmTy i
  | .local _ .vmem, ⟨0, _⟩ => ⟨S1000x768, .f32⟩
  | .local _ .vmem, ⟨1, _⟩ => ⟨S1000x768, .f32⟩
  | .local _ .vmem, ⟨2, _⟩ => ⟨S1000x768, .f32⟩
  | .local _ .vmem, ⟨3, _⟩ => ⟨S1000x768, .f32⟩
  | .local _ .vmem, ⟨4, _⟩ => ⟨S1000x768, .f32⟩
  | .local _ .vmem, ⟨5, _⟩ => ⟨S1000x768, .f32⟩
  | .local _ .vmem, ⟨6, _⟩ => ⟨S1000x5, .f32⟩
  | .local _ .vmem, ⟨7, _⟩ => ⟨S1000x5, .f32⟩
  | .local _ .vmem, ⟨8, _⟩ => ⟨S1000x1, .f32⟩
  | .local _ .vmem, ⟨9, _⟩ => ⟨S1000x1, .f32⟩
  | .local _ .vmem, ⟨10, _⟩ => ⟨S1000x768, .f32⟩
  | .local _ .vmem, ⟨11, _⟩ => ⟨S1000x768, .f32⟩
  | .local _ .vmem, ⟨12, _⟩ => ⟨S32x768, .f32⟩
  | .local _ .vmem, ⟨13, _⟩ => ⟨S1x32, .f32⟩
  | .local _ .vmem, ⟨14, _⟩ => ⟨S32x768, .f32⟩
  | .local _ .vmem, ⟨15, _⟩ => ⟨S1x32, .f32⟩
  | .local _ .vmem, ⟨16, _⟩ => ⟨S32x768, .f32⟩
  | .local _ .vmem, ⟨17, _⟩ => ⟨S1x32, .f32⟩
  | .local _ .vmem, ⟨18, _⟩ => ⟨S32x5, .f32⟩
  | .local _ .vmem, ⟨19, _⟩ => ⟨S1x32, .f32⟩
  | .local _ .vmem, ⟨20, _⟩ => ⟨S32x1, .f32⟩
  | .local _ .vmem, ⟨21, _⟩ => ⟨S1x32, .f32⟩
  | .local _ .vmem, ⟨22, _⟩ => ⟨S32x768, .f32⟩
  | .local _ .vmem, ⟨23, _⟩ => ⟨S1x32, .f32⟩
  | .local _ .vmem, ⟨24, _⟩ => ⟨S192x192, .f32⟩
  | .local _ .vmem, ⟨25, _⟩ => ⟨S1x192, .f32⟩
  | .local _ .vmem, ⟨26, _⟩ => ⟨S1000x192, .f32⟩
  | .local _ .vmem, ⟨27, _⟩ => ⟨S1000x192, .f32⟩
  | .local _ .vmem, ⟨28, _⟩ => ⟨S5000x192, .f32⟩
  | .local _ .vmem, ⟨29, _⟩ => ⟨S5000x192, .f32⟩
  | .local _ .vmem, ⟨30, _⟩ => ⟨S192x192, .f32⟩
  | .local _ .vmem, ⟨31, _⟩ => ⟨S5000x192, .f32⟩
  | .local _ .vmem, ⟨32, _⟩ => ⟨S5000x192, .f32⟩
  | .local _ .vmem, ⟨33, _⟩ => ⟨S5000x192, .f32⟩
  | .local _ .vmem, ⟨34, _⟩ => ⟨S5000x192, .f32⟩
  | .local _ .vmem, ⟨35, _⟩ => ⟨S192x192, .f32⟩
  | .local _ .vmem, ⟨36, _⟩ => ⟨S5000x192, .f32⟩
  | .local _ .vmem, ⟨37, _⟩ => ⟨S5000x192, .f32⟩
  | .local _ .vmem, ⟨38, _⟩ => ⟨S5000x192, .f32⟩
  | .local _ .vmem, ⟨39, _⟩ => ⟨S5000x192, .f32⟩
  | .local _ .vmem, ⟨40, _⟩ => ⟨S96x192, .f32⟩
  | .local _ .vmem, ⟨41, _⟩ => ⟨S1x96, .f32⟩
  | .local _ .vmem, ⟨42, _⟩ => ⟨S2x96, .f32⟩
  | .local _ .vmem, ⟨43, _⟩ => ⟨S1x2, .f32⟩
  | .local _ .vmem, ⟨44, _⟩ => ⟨S5000x96, .f32⟩
  | .local _ .vmem, ⟨45, _⟩ => ⟨S5000x96, .f32⟩
  | .local _ .vmem, ⟨46, _⟩ => ⟨S5000x2, .f32⟩
  | .local _ .vmem, ⟨47, _⟩ => ⟨S5000x2, .f32⟩
  | _, _ => ⟨S50000x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | _, _ => false

abbrev semScoped : Fin 0 → Bool
  | ⟨_, h⟩ => absurd h (Nat.not_lt_zero _)

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  ofTc nBuf bufTy 0 48 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_v0 : Ref sig .tc := ⟨.hbm, 30, rfl⟩
abbrev main_v1 : Ref sig .tc := ⟨.hbm, 31, rfl⟩
abbrev main_v2 : Ref sig .tc := ⟨.hbm, 32, rfl⟩
abbrev main_v3 : Ref sig .tc := ⟨.hbm, 33, rfl⟩
abbrev main_v4 : Ref sig .tc := ⟨.hbm, 34, rfl⟩
abbrev main_v5 : Ref sig .tc := ⟨.hbm, 35, rfl⟩
abbrev main_v6 : Ref sig .tc := ⟨.hbm, 36, rfl⟩
abbrev main_v7 : Ref sig .tc := ⟨.hbm, 37, rfl⟩
abbrev main_v8 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev main_cst : Ref sig .tc := ⟨.hbm, 42, rfl⟩
abbrev main_v12 : Ref sig .tc := ⟨.hbm, 43, rfl⟩
abbrev main_cst_0 : Ref sig .tc := ⟨.hbm, 44, rfl⟩
abbrev main_v13 : Ref sig .tc := ⟨.hbm, 45, rfl⟩
abbrev main_v14 : Ref sig .tc := ⟨.hbm, 46, rfl⟩
abbrev main_v15 : Ref sig .tc := ⟨.hbm, 47, rfl⟩
abbrev main_cst_1 : Ref sig .tc := ⟨.hbm, 48, rfl⟩
abbrev main_v16 : Ref sig .tc := ⟨.hbm, 49, rfl⟩
abbrev main_v17 : Ref sig .tc := ⟨.hbm, 50, rfl⟩
abbrev main_v18 : Ref sig .tc := ⟨.hbm, 51, rfl⟩
abbrev main_c : Ref sig .tc := ⟨.hbm, 52, rfl⟩
abbrev main_v19 : Ref sig .tc := ⟨.hbm, 53, rfl⟩
abbrev main_v20 : Ref sig .tc := ⟨.hbm, 54, rfl⟩
abbrev main_c_2 : Ref sig .tc := ⟨.hbm, 55, rfl⟩
abbrev main_v21 : Ref sig .tc := ⟨.hbm, 56, rfl⟩
abbrev main_v22 : Ref sig .tc := ⟨.hbm, 57, rfl⟩
abbrev main_v23 : Ref sig .tc := ⟨.hbm, 58, rfl⟩
abbrev main_v24 : Ref sig .tc := ⟨.hbm, 59, rfl⟩
abbrev main_v25 : Ref sig .tc := ⟨.hbm, 60, rfl⟩
abbrev main_c_3 : Ref sig .tc := ⟨.hbm, 61, rfl⟩
abbrev main_v26 : Ref sig .tc := ⟨.hbm, 62, rfl⟩
abbrev main_v27 : Ref sig .tc := ⟨.hbm, 63, rfl⟩
abbrev main_c_4 : Ref sig .tc := ⟨.hbm, 64, rfl⟩
abbrev main_v28 : Ref sig .tc := ⟨.hbm, 65, rfl⟩
abbrev main_v29 : Ref sig .tc := ⟨.hbm, 66, rfl⟩
abbrev main_v30 : Ref sig .tc := ⟨.hbm, 67, rfl⟩
abbrev main_v31 : Ref sig .tc := ⟨.hbm, 68, rfl⟩
abbrev main_v32 : Ref sig .tc := ⟨.hbm, 69, rfl⟩
abbrev main_v33 : Ref sig .tc := ⟨.hbm, 70, rfl⟩
abbrev main_v34 : Ref sig .tc := ⟨.hbm, 71, rfl⟩
abbrev main_c_5 : Ref sig .tc := ⟨.hbm, 72, rfl⟩
abbrev main_v35 : Ref sig .tc := ⟨.hbm, 73, rfl⟩
abbrev main_v36 : Ref sig .tc := ⟨.hbm, 74, rfl⟩
abbrev main_c_6 : Ref sig .tc := ⟨.hbm, 75, rfl⟩
abbrev main_v37 : Ref sig .tc := ⟨.hbm, 76, rfl⟩
abbrev main_v38 : Ref sig .tc := ⟨.hbm, 77, rfl⟩
abbrev main_v39 : Ref sig .tc := ⟨.hbm, 78, rfl⟩
abbrev main_v40 : Ref sig .tc := ⟨.hbm, 79, rfl⟩
abbrev main_v41 : Ref sig .tc := ⟨.hbm, 80, rfl⟩
abbrev main_v42 : Ref sig .tc := ⟨.hbm, 81, rfl⟩
abbrev main_v43 : Ref sig .tc := ⟨.hbm, 82, rfl⟩
abbrev main_v44 : Ref sig .tc := ⟨.hbm, 83, rfl⟩
abbrev main_cst_7 : Ref sig .tc := ⟨.hbm, 84, rfl⟩
abbrev main_v45 : Ref sig .tc := ⟨.hbm, 85, rfl⟩
abbrev main_v46 : Ref sig .tc := ⟨.hbm, 86, rfl⟩
abbrev main_v47 : Ref sig .tc := ⟨.hbm, 87, rfl⟩
abbrev main_cst_8 : Ref sig .tc := ⟨.hbm, 88, rfl⟩
abbrev main_v48 : Ref sig .tc := ⟨.hbm, 89, rfl⟩
abbrev main_v49 : Ref sig .tc := ⟨.hbm, 90, rfl⟩
abbrev main_v50 : Ref sig .tc := ⟨.hbm, 91, rfl⟩
abbrev main_v51 : Ref sig .tc := ⟨.hbm, 92, rfl⟩
abbrev main_v52 : Ref sig .tc := ⟨.hbm, 93, rfl⟩
abbrev main_v53 : Ref sig .tc := ⟨.hbm, 94, rfl⟩
abbrev main_v54 : Ref sig .tc := ⟨.hbm, 95, rfl⟩
abbrev main_v55 : Ref sig .tc := ⟨.hbm, 96, rfl⟩
abbrev main_v56 : Ref sig .tc := ⟨.hbm, 97, rfl⟩
abbrev main_v57 : Ref sig .tc := ⟨.hbm, 98, rfl⟩
abbrev main_c_9 : Ref sig .tc := ⟨.hbm, 99, rfl⟩
abbrev main_v58 : Ref sig .tc := ⟨.hbm, 100, rfl⟩
abbrev main_v59 : Ref sig .tc := ⟨.hbm, 101, rfl⟩
abbrev main_c_10 : Ref sig .tc := ⟨.hbm, 102, rfl⟩
abbrev main_v60 : Ref sig .tc := ⟨.hbm, 103, rfl⟩
abbrev main_v61 : Ref sig .tc := ⟨.hbm, 104, rfl⟩
abbrev main_v62 : Ref sig .tc := ⟨.hbm, 105, rfl⟩
abbrev main_v63 : Ref sig .tc := ⟨.hbm, 106, rfl⟩
abbrev main_v64 : Ref sig .tc := ⟨.hbm, 107, rfl⟩
abbrev main_v65 : Ref sig .tc := ⟨.hbm, 108, rfl⟩
abbrev main_v66 : Ref sig .tc := ⟨.hbm, 109, rfl⟩
abbrev main_v67 : Ref sig .tc := ⟨.hbm, 110, rfl⟩
abbrev main_cst_11 : Ref sig .tc := ⟨.hbm, 111, rfl⟩
abbrev main_v68 : Ref sig .tc := ⟨.hbm, 112, rfl⟩
abbrev main_v69 : Ref sig .tc := ⟨.hbm, 113, rfl⟩
abbrev main_v70 : Ref sig .tc := ⟨.hbm, 114, rfl⟩
abbrev main_cst_12 : Ref sig .tc := ⟨.hbm, 115, rfl⟩
abbrev main_v71 : Ref sig .tc := ⟨.hbm, 116, rfl⟩
abbrev main_v72 : Ref sig .tc := ⟨.hbm, 117, rfl⟩
abbrev main_v73 : Ref sig .tc := ⟨.hbm, 118, rfl⟩
abbrev main_v74 : Ref sig .tc := ⟨.hbm, 119, rfl⟩
abbrev main_v75 : Ref sig .tc := ⟨.hbm, 120, rfl⟩
abbrev main_v76 : Ref sig .tc := ⟨.hbm, 121, rfl⟩
abbrev main_v77 : Ref sig .tc := ⟨.hbm, 122, rfl⟩
abbrev main_v78 : Ref sig .tc := ⟨.hbm, 123, rfl⟩
abbrev main_v79 : Ref sig .tc := ⟨.hbm, 124, rfl⟩
abbrev main_v80 : Ref sig .tc := ⟨.hbm, 125, rfl⟩
abbrev main_v81 : Ref sig .tc := ⟨.hbm, 126, rfl⟩
abbrev main_v82_0 : Ref sig .tc := ⟨.hbm, 127, rfl⟩
abbrev main_v82_1 : Ref sig .tc := ⟨.hbm, 128, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg14_0 : Ref sig .tc := ⟨.vmem, 20, rfl⟩
abbrev cc0_stg15_0 : Ref sig .tc := ⟨.vmem, 21, rfl⟩
abbrev cc0_stg16_0 : Ref sig .tc := ⟨.vmem, 22, rfl⟩
abbrev cc0_stg17_0 : Ref sig .tc := ⟨.vmem, 23, rfl⟩
abbrev cc0_stg18_0 : Ref sig .tc := ⟨.vmem, 24, rfl⟩
abbrev cc0_stg19_0 : Ref sig .tc := ⟨.vmem, 25, rfl⟩
abbrev cc0_stg20_0 : Ref sig .tc := ⟨.vmem, 26, rfl⟩
abbrev cc0_stg20_1 : Ref sig .tc := ⟨.vmem, 27, rfl⟩
abbrev cc1_stg0_0 : Ref sig .tc := ⟨.vmem, 28, rfl⟩
abbrev cc1_stg0_1 : Ref sig .tc := ⟨.vmem, 29, rfl⟩
abbrev cc1_stg1_0 : Ref sig .tc := ⟨.vmem, 30, rfl⟩
abbrev cc1_stg2_0 : Ref sig .tc := ⟨.vmem, 31, rfl⟩
abbrev cc1_stg2_1 : Ref sig .tc := ⟨.vmem, 32, rfl⟩
abbrev cc2_stg0_0 : Ref sig .tc := ⟨.vmem, 33, rfl⟩
abbrev cc2_stg0_1 : Ref sig .tc := ⟨.vmem, 34, rfl⟩
abbrev cc2_stg1_0 : Ref sig .tc := ⟨.vmem, 35, rfl⟩
abbrev cc2_stg2_0 : Ref sig .tc := ⟨.vmem, 36, rfl⟩
abbrev cc2_stg2_1 : Ref sig .tc := ⟨.vmem, 37, rfl⟩
abbrev cc3_stg0_0 : Ref sig .tc := ⟨.vmem, 38, rfl⟩
abbrev cc3_stg0_1 : Ref sig .tc := ⟨.vmem, 39, rfl⟩
abbrev cc3_stg1_0 : Ref sig .tc := ⟨.vmem, 40, rfl⟩
abbrev cc3_stg2_0 : Ref sig .tc := ⟨.vmem, 41, rfl⟩
abbrev cc3_stg3_0 : Ref sig .tc := ⟨.vmem, 42, rfl⟩
abbrev cc3_stg4_0 : Ref sig .tc := ⟨.vmem, 43, rfl⟩
abbrev cc3_stg5_0 : Ref sig .tc := ⟨.vmem, 44, rfl⟩
abbrev cc3_stg5_1 : Ref sig .tc := ⟨.vmem, 45, rfl⟩
abbrev cc3_stg6_0 : Ref sig .tc := ⟨.vmem, 46, rfl⟩
abbrev cc3_stg6_1 : Ref sig .tc := ⟨.vmem, 47, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem14_0 : DmaSem sig := 20
abbrev cc0_sem15_0 : DmaSem sig := 21
abbrev cc0_sem16_0 : DmaSem sig := 22
abbrev cc0_sem17_0 : DmaSem sig := 23
abbrev cc0_sem18_0 : DmaSem sig := 24
abbrev cc0_sem19_0 : DmaSem sig := 25
abbrev cc0_sem20_0 : DmaSem sig := 26
abbrev cc0_sem20_1 : DmaSem sig := 27
abbrev cc1_sem0_0 : DmaSem sig := 28
abbrev cc1_sem0_1 : DmaSem sig := 29
abbrev cc1_sem1_0 : DmaSem sig := 30
abbrev cc1_sem2_0 : DmaSem sig := 31
abbrev cc1_sem2_1 : DmaSem sig := 32
abbrev cc2_sem0_0 : DmaSem sig := 33
abbrev cc2_sem0_1 : DmaSem sig := 34
abbrev cc2_sem1_0 : DmaSem sig := 35
abbrev cc2_sem2_0 : DmaSem sig := 36
abbrev cc2_sem2_1 : DmaSem sig := 37
abbrev cc3_sem0_0 : DmaSem sig := 38
abbrev cc3_sem0_1 : DmaSem sig := 39
abbrev cc3_sem1_0 : DmaSem sig := 40
abbrev cc3_sem2_0 : DmaSem sig := 41
abbrev cc3_sem3_0 : DmaSem sig := 42
abbrev cc3_sem4_0 : DmaSem sig := 43
abbrev cc3_sem5_0 : DmaSem sig := 44
abbrev cc3_sem5_1 : DmaSem sig := 45
abbrev cc3_sem6_0 : DmaSem sig := 46
abbrev cc3_sem6_1 : DmaSem sig := 47

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1000x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1000x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1000x5 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1000x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1000x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S32x768 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x32 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S32x768 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x32 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S32x768 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x32 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S32x5 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x32 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S32x1 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x32 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S32x768 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x32 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S192x192 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1x192 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 2 → Memref sig .tc .vmem S1000x192 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x192 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S192x192 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x192 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x192 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S192x192 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x192 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x192 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S96x192 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x96 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S2x96 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x2 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x96 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 2 → Memref sig .tc .vmem S5000x2 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

class Facts₀ : Prop where
  shapeCasts_S32_S1x32 : S32.ShapeCasts S1x32
  shapeCasts_S192_S1x192 : S192.ShapeCasts S1x192
  inb_S1000x768_S1000x768_0_0 : ∀ a, (![0, 0] : Fin 2 → Nat) a + S1000x768.size a ≤ S1000x768.size a
  h_S1000x768 : 0 < S1000x768.numel
  bitsLt_bf16_f32 : FTy.bits .bf16 < FTy.bits .f32
  inb_S32x768_S32x768_0_0 : ∀ a, (![0, 0] : Fin 2 → Nat) a + S32x768.size a ≤ S32x768.size a
  h_S32x768 : 0 < S32x768.numel
  transposes_S32x768_p1_0_S768x32 : S32x768.Transposes [1, 0] S768x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S1000x32 : S1x32.Broadcasts S1000x32
  inb_S1000x5_S1000x5_0_0 : ∀ a, (![0, 0] : Fin 2 → Nat) a + S1000x5.size a ≤ S1000x5.size a
  h_S1000x5 : 0 < S1000x5.numel
  inb_S32x5_S32x5_0_0 : ∀ a, (![0, 0] : Fin 2 → Nat) a + S32x5.size a ≤ S32x5.size a
  h_S32x5 : 0 < S32x5.numel
  transposes_S32x5_p1_0_S5x32 : S32x5.Transposes [1, 0] S5x32
  inb_S1000x1_S1000x1_0_0 : ∀ a, (![0, 0] : Fin 2 → Nat) a + S1000x1.size a ≤ S1000x1.size a
  h_S1000x1 : 0 < S1000x1.numel
  inb_S32x1_S32x1_0_0 : ∀ a, (![0, 0] : Fin 2 → Nat) a + S32x1.size a ≤ S32x1.size a
  h_S32x1 : 0 < S32x1.numel
  transposes_S32x1_p1_0_S1x32 : S32x1.Transposes [1, 0] S1x32
  concatenates_S1000x32_S1000x32_S1000x32_S1000x32_S1000x32_S1000x32_S1000x192_d1 : Shape.Concatenates [S1000x32, S1000x32, S1000x32, S1000x32, S1000x32, S1000x32] S1000x192 1
  inb_S192x192_S192x192_0_0 : ∀ a, (![0, 0] : Fin 2 → Nat) a + S192x192.size a ≤ S192x192.size a
  h_S192x192 : 0 < S192x192.numel
  transposes_S192x192_p1_0_S192x192 : S192x192.Transposes [1, 0] S192x192
  inb_S1x192_S1x192_0_0 : ∀ a, (![0, 0] : Fin 2 → Nat) a + S1x192.size a ≤ S1x192.size a
  h_S1x192 : 0 < S1x192.numel
  shapeCasts_S1x192_S1x192 : S1x192.ShapeCasts S1x192
  broadcasts_S1x192_S1000x192 : S1x192.Broadcasts S1000x192
  inb_S1000x192_S1000x192_0_0 : ∀ a, (![0, 0] : Fin 2 → Nat) a + S1000x192.size a ≤ S1000x192.size a
  h_S1000x192 : 0 < S1000x192.numel
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  inb_S5000x192_S5000x192_0_0 : ∀ a, (![0, 0] : Fin 2 → Nat) a + S5000x192.size a ≤ S5000x192.size a
  h_S5000x192 : 0 < S5000x192.numel
  shapeCasts_S5000x192_S5000x192 : S5000x192.ShapeCasts S5000x192
  bcast_S800000x1_S800000x192_0_1 : S800000x1.BroadcastsInDim S800000x192 (![0, 1] : Fin 2 → Fin S800000x192.rank)
  bcast_S_S50000x192 : S_.BroadcastsInDim S50000x192 (![] : Fin 0 → Fin S50000x192.rank)
  bcast_S50000_S50000x1_0 : S50000.BroadcastsInDim S50000x1 (![0] : Fin 1 → Fin S50000x1.rank)
  bcast_S50000x1_S50000x192_0_1 : S50000x1.BroadcastsInDim S50000x192 (![0, 1] : Fin 2 → Fin S50000x192.rank)
  bcast_S192_S1x192_1 : S192.BroadcastsInDim S1x192 (![1] : Fin 1 → Fin S1x192.rank)
  bcast_S1x192_S50000x192_0_1 : S1x192.BroadcastsInDim S50000x192 (![0, 1] : Fin 2 → Fin S50000x192.rank)
  shapeCasts_S96_S1x96 : S96.ShapeCasts S1x96
  shapeCasts_S2_S1x2 : S2.ShapeCasts S1x2
  inb_S96x192_S96x192_0_0 : ∀ a, (![0, 0] : Fin 2 → Nat) a + S96x192.size a ≤ S96x192.size a
  h_S96x192 : 0 < S96x192.numel
  transposes_S96x192_p1_0_S192x96 : S96x192.Transposes [1, 0] S192x96
  inb_S1x96_S1x96_0_0 : ∀ a, (![0, 0] : Fin 2 → Nat) a + S1x96.size a ≤ S1x96.size a
  h_S1x96 : 0 < S1x96.numel
  shapeCasts_S1x96_S1x96 : S1x96.ShapeCasts S1x96
  broadcasts_S1x96_S5000x96 : S1x96.Broadcasts S5000x96
  inb_S5000x96_S5000x96_0_0 : ∀ a, (![0, 0] : Fin 2 → Nat) a + S5000x96.size a ≤ S5000x96.size a
  h_S5000x96 : 0 < S5000x96.numel
  inb_S2x96_S2x96_0_0 : ∀ a, (![0, 0] : Fin 2 → Nat) a + S2x96.size a ≤ S2x96.size a
  h_S2x96 : 0 < S2x96.numel
  transposes_S2x96_p1_0_S96x2 : S2x96.Transposes [1, 0] S96x2
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S5000x2 : S1x2.Broadcasts S5000x2
  inb_S5000x2_S5000x2_0_0 : ∀ a, (![0, 0] : Fin 2 → Nat) a + S5000x2.size a ≤ S5000x2.size a
  h_S5000x2 : 0 < S5000x2.numel
  dot_S1000x768_S768x32_S1000x32_1_0_0_1_n_n_wf : DotDims.WF S1000x768 S768x32 S1000x32 [1] [0] [0] [1] [] []
  dot_S1000x5_S5x32_S1000x32_1_0_0_1_n_n_wf : DotDims.WF S1000x5 S5x32 S1000x32 [1] [0] [0] [1] [] []
  dot_S1000x1_S1x32_S1000x32_1_0_0_1_n_n_wf : DotDims.WF S1000x1 S1x32 S1000x32 [1] [0] [0] [1] [] []
  dot_S1000x192_S192x192_S1000x192_1_0_0_1_n_n_wf : DotDims.WF S1000x192 S192x192 S1000x192 [1] [0] [0] [1] [] []
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  dot_S5000x192_S192x192_S5000x192_1_0_0_1_n_n_wf : DotDims.WF S5000x192 S192x192 S5000x192 [1] [0] [0] [1] [] []
  gather_S50000x192_S800000x1_S800000x192_1_0_n_n_0_1_1192_wf : GatherDims.WF S50000x192 S800000x1 S800000x192 [1] [0] [] [0] [] 1 ![1, 192]
  scatter_S50000x192_S800000x1_S800000x192_1_0_0_1_wf : ScatterDims.WF S50000x192 S800000x1 S800000x192 [1] [0] [0] 1
  dot_S5000x192_S192x96_S5000x96_1_0_0_1_n_n_wf : DotDims.WF S5000x192 S192x96 S5000x96 [1] [0] [0] [1] [] []
  dot_S5000x96_S96x2_S5000x2_1_0_0_1_n_n_wf : DotDims.WF S5000x96 S96x2 S5000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x768.size a ≤ S50000x768.size a
  hwx0_0 : ∀ i : grid0.Coords, EltTy.bits .f32 = 32 ∨ (Rect.block (s := S50000x768) S1000x768.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1000x768.size a ≤ S50000x768.size a
  hwx0_1 : ∀ i : grid0.Coords, EltTy.bits .f32 = 32 ∨ (Rect.block (s := S50000x768) S1000x768.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1000x768.size a ≤ S50000x768.size a
  hwx0_2 : ∀ i : grid0.Coords, EltTy.bits .f32 = 32 ∨ (Rect.block (s := S50000x768) S1000x768.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1000x5.size a ≤ S50000x5.size a
  hwx0_3 : ∀ i : grid0.Coords, EltTy.bits .f32 = 32 ∨ (Rect.block (s := S50000x5) S1000x5.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1000x1.size a ≤ S50000x1.size a
  hwx0_4 : ∀ i : grid0.Coords, EltTy.bits .f32 = 32 ∨ (Rect.block (s := S50000x1) S1000x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1000x768.size a ≤ S50000x768.size a
  hwx0_5 : ∀ i : grid0.Coords, EltTy.bits .f32 = 32 ∨ (Rect.block (s := S50000x768) S1000x768.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S32x768.size a ≤ S32x768.size a
  hwx0_6 : ∀ i : grid0.Coords, EltTy.bits .f32 = 32 ∨ (Rect.block (s := S32x768) S32x768.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x32.size a ≤ S1x32.size a
  hwx0_7 : ∀ i : grid0.Coords, EltTy.bits .f32 = 32 ∨ (Rect.block (s := S1x32) S1x32.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S32x768.size a ≤ S32x768.size a
  hwx0_8 : ∀ i : grid0.Coords, EltTy.bits .f32 = 32 ∨ (Rect.block (s := S32x768) S32x768.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x32.size a ≤ S1x32.size a
  hwx0_9 : ∀ i : grid0.Coords, EltTy.bits .f32 = 32 ∨ (Rect.block (s := S1x32) S1x32.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S32x768.size a ≤ S32x768.size a
  hwx0_10 : ∀ i : grid0.Coords, EltTy.bits .f32 = 32 ∨ (Rect.block (s := S32x768) S32x768.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x32.size a ≤ S1x32.size a
  hwx0_11 : ∀ i : grid0.Coords, EltTy.bits .f32 = 32 ∨ (Rect.block (s := S1x32) S1x32.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S32x5.size a ≤ S32x5.size a
  hwx0_12 : ∀ i : grid0.Coords, EltTy.bits .f32 = 32 ∨ (Rect.block (s := S32x5) S32x5.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1x32.size a ≤ S1x32.size a
  hwx0_13 : ∀ i : grid0.Coords, EltTy.bits .f32 = 32 ∨ (Rect.block (s := S1x32) S1x32.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S32x1.size a ≤ S32x1.size a
  hwx0_14 : ∀ i : grid0.Coords, EltTy.bits .f32 = 32 ∨ (Rect.block (s := S32x1) S32x1.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S1x32.size a ≤ S1x32.size a
  hwx0_15 : ∀ i : grid0.Coords, EltTy.bits .f32 = 32 ∨ (Rect.block (s := S1x32) S1x32.size (cc0_transform_15 i) (hinb0_15 i)).WholeWords (EltTy.packing .f32)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S32x768.size a ≤ S32x768.size a
  hwx0_16 : ∀ i : grid0.Coords, EltTy.bits .f32 = 32 ∨ (Rect.block (s := S32x768) S32x768.size (cc0_transform_16 i) (hinb0_16 i)).WholeWords (EltTy.packing .f32)
  hstage0_17 : ∀ j, (stage0_17 j).IsWhole
  nbuf0_17 : grid0.bufCount reads0_17 true = 1
  hreads0_17 : ∀ i i' : grid0.Coords, (∀ a, reads0_17 a = true → i a = i' a) → cc0_transform_17 i = cc0_transform_17 i'
  hinb0_17 : ∀ (i : grid0.Coords) a, (cc0_transform_17 i a + 1) * S1x32.size a ≤ S1x32.size a
  hwx0_17 : ∀ i : grid0.Coords, EltTy.bits .f32 = 32 ∨ (Rect.block (s := S1x32) S1x32.size (cc0_transform_17 i) (hinb0_17 i)).WholeWords (EltTy.packing .f32)
  hstage0_18 : ∀ j, (stage0_18 j).IsWhole
  nbuf0_18 : grid0.bufCount reads0_18 true = 1
  hreads0_18 : ∀ i i' : grid0.Coords, (∀ a, reads0_18 a = true → i a = i' a) → cc0_transform_18 i = cc0_transform_18 i'
  hinb0_18 : ∀ (i : grid0.Coords) a, (cc0_transform_18 i a + 1) * S192x192.size a ≤ S192x192.size a
  hwx0_18 : ∀ i : grid0.Coords, EltTy.bits .f32 = 32 ∨ (Rect.block (s := S192x192) S192x192.size (cc0_transform_18 i) (hinb0_18 i)).WholeWords (EltTy.packing .f32)
  hstage0_19 : ∀ j, (stage0_19 j).IsWhole
  nbuf0_19 : grid0.bufCount reads0_19 true = 1
  hreads0_19 : ∀ i i' : grid0.Coords, (∀ a, reads0_19 a = true → i a = i' a) → cc0_transform_19 i = cc0_transform_19 i'
  hinb0_19 : ∀ (i : grid0.Coords) a, (cc0_transform_19 i a + 1) * S1x192.size a ≤ S1x192.size a
  hwx0_19 : ∀ i : grid0.Coords, EltTy.bits .f32 = 32 ∨ (Rect.block (s := S1x192) S1x192.size (cc0_transform_19 i) (hinb0_19 i)).WholeWords (EltTy.packing .f32)
  hstage0_20 : ∀ j, (stage0_20 j).IsWhole
  nbuf0_20 : grid0.bufCount reads0_20 false = 2
  hreads0_20 : ∀ i i' : grid0.Coords, (∀ a, reads0_20 a = true → i a = i' a) → cc0_transform_20 i = cc0_transform_20 i'
  hinb0_20 : ∀ (i : grid0.Coords) a, (cc0_transform_20 i a + 1) * S1000x192.size a ≤ S50000x192.size a
  hwx0_20 : ∀ i : grid0.Coords, EltTy.bits .f32 = 32 ∨ (Rect.block (s := S50000x192) S1000x192.size (cc0_transform_20 i) (hinb0_20 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x192.size a ≤ S50000x192.size a
  hwx1_0 : ∀ i : grid1.Coords, EltTy.bits .f32 = 32 ∨ (Rect.block (s := S50000x192) S5000x192.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S192x192.size a ≤ S192x192.size a
  hwx1_1 : ∀ i : grid1.Coords, EltTy.bits .f32 = 32 ∨ (Rect.block (s := S192x192) S192x192.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x192.size a ≤ S50000x192.size a
  hwx1_2 : ∀ i : grid1.Coords, EltTy.bits .f32 = 32 ∨ (Rect.block (s := S50000x192) S5000x192.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x192.size a ≤ S50000x192.size a
  hwx2_0 : ∀ i : grid2.Coords, EltTy.bits .f32 = 32 ∨ (Rect.block (s := S50000x192) S5000x192.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S192x192.size a ≤ S192x192.size a
  hwx2_1 : ∀ i : grid2.Coords, EltTy.bits .f32 = 32 ∨ (Rect.block (s := S192x192) S192x192.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x192.size a ≤ S50000x192.size a
  hwx2_2 : ∀ i : grid2.Coords, EltTy.bits .f32 = 32 ∨ (Rect.block (s := S50000x192) S5000x192.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x192.size a ≤ S50000x192.size a
  hwx3_0 : ∀ i : grid3.Coords, EltTy.bits .f32 = 32 ∨ (Rect.block (s := S50000x192) S5000x192.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S96x192.size a ≤ S96x192.size a
  hwx3_1 : ∀ i : grid3.Coords, EltTy.bits .f32 = 32 ∨ (Rect.block (s := S96x192) S96x192.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x96.size a ≤ S1x96.size a
  hwx3_2 : ∀ i : grid3.Coords, EltTy.bits .f32 = 32 ∨ (Rect.block (s := S1x96) S1x96.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S2x96.size a ≤ S2x96.size a
  hwx3_3 : ∀ i : grid3.Coords, EltTy.bits .f32 = 32 ∨ (Rect.block (s := S2x96) S2x96.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x2.size a ≤ S1x2.size a
  hwx3_4 : ∀ i : grid3.Coords, EltTy.bits .f32 = 32 ∨ (Rect.block (s := S1x2) S1x2.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x96.size a ≤ S50000x96.size a
  hwx3_5 : ∀ i : grid3.Coords, EltTy.bits .f32 = 32 ∨ (Rect.block (s := S50000x96) S5000x96.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S5000x2.size a ≤ S50000x2.size a
  hwx3_6 : ∀ i : grid3.Coords, EltTy.bits .f32 = 32 ∨ (Rect.block (s := S50000x2) S5000x2.size (cc3_transform_6 i) (hinb3_6 i)).WholeWords (EltTy.packing .f32)

variable [Facts₀]

def dot_S1000x768_S768x32_S1000x32_1_0_0_1_n_n : DotDims S1000x768 S768x32 S1000x32 where
  lhsContracting := [1]
  rhsContracting := [0]
  lhsNonContracting := [0]
  rhsNonContracting := [1]
  lhsBatch := []
  rhsBatch := []
  wf := dot_S1000x768_S768x32_S1000x32_1_0_0_1_n_n_wf
def dot_S1000x5_S5x32_S1000x32_1_0_0_1_n_n : DotDims S1000x5 S5x32 S1000x32 where
  lhsContracting := [1]
  rhsContracting := [0]
  lhsNonContracting := [0]
  rhsNonContracting := [1]
  lhsBatch := []
  rhsBatch := []
  wf := dot_S1000x5_S5x32_S1000x32_1_0_0_1_n_n_wf
def dot_S1000x1_S1x32_S1000x32_1_0_0_1_n_n : DotDims S1000x1 S1x32 S1000x32 where
  lhsContracting := [1]
  rhsContracting := [0]
  lhsNonContracting := [0]
  rhsNonContracting := [1]
  lhsBatch := []
  rhsBatch := []
  wf := dot_S1000x1_S1x32_S1000x32_1_0_0_1_n_n_wf
def dot_S1000x192_S192x192_S1000x192_1_0_0_1_n_n : DotDims S1000x192 S192x192 S1000x192 where
  lhsContracting := [1]
  rhsContracting := [0]
  lhsNonContracting := [0]
  rhsNonContracting := [1]
  lhsBatch := []
  rhsBatch := []
  wf := dot_S1000x192_S192x192_S1000x192_1_0_0_1_n_n_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def dot_S5000x192_S192x192_S5000x192_1_0_0_1_n_n : DotDims S5000x192 S192x192 S5000x192 where
  lhsContracting := [1]
  rhsContracting := [0]
  lhsNonContracting := [0]
  rhsNonContracting := [1]
  lhsBatch := []
  rhsBatch := []
  wf := dot_S5000x192_S192x192_S5000x192_1_0_0_1_n_n_wf
def gather_S50000x192_S800000x1_S800000x192_1_0_n_n_0_1_1192 : GatherDims S50000x192 S800000x1 S800000x192 where
  offsetDims := [1]
  collapsedSliceDims := [0]
  operandBatchingDims := []
  startIndicesBatchingDims := []
  startIndexMap := [0]
  indexVectorDim := 1
  sliceSizes := ![1, 192]
  wf := gather_S50000x192_S800000x1_S800000x192_1_0_n_n_0_1_1192_wf
def scatter_S50000x192_S800000x1_S800000x192_1_0_0_1 : ScatterDims S50000x192 S800000x1 S800000x192 where
  updateWindowDims := [1]
  insertedWindowDims := [0]
  scatterDimsToOperandDims := [0]
  indexVectorDim := 1
  wf := scatter_S50000x192_S800000x1_S800000x192_1_0_0_1_wf
def dot_S5000x192_S192x96_S5000x96_1_0_0_1_n_n : DotDims S5000x192 S192x96 S5000x96 where
  lhsContracting := [1]
  rhsContracting := [0]
  lhsNonContracting := [0]
  rhsNonContracting := [1]
  lhsBatch := []
  rhsBatch := []
  wf := dot_S5000x192_S192x96_S5000x96_1_0_0_1_n_n_wf
def dot_S5000x96_S96x2_S5000x2_1_0_0_1_n_n : DotDims S5000x96 S96x2 S5000x2 where
  lhsContracting := [1]
  rhsContracting := [0]
  lhsNonContracting := [0]
  rhsNonContracting := [1]
  lhsBatch := []
  rhsBatch := []
  wf := dot_S5000x96_S96x2_S5000x2_1_0_0_1_n_n_wf

abbrev win0_0 : Pipeline.Window sig grid0 :=
  Pipeline.Window.ofSpec (Memref.whole main_arg6) S1000x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1000x768.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S1000x768.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S1000x5.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S1000x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg7) S1000x768.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_arg8) S32x768.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v0) S1x32.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg10) S32x768.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v1) S1x32.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg12) S32x768.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v2) S1x32.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg14) S32x5.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v3) S1x32.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_arg16) S32x1.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v4) S1x32.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_arg18) S32x768.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_v5) S1x32.size cc0_transform_17 reads0_17 false true 1 stage0_17 sem0_17
    hrank0 hreads0_17 hinb0_17 nbuf0_17 (Memref.isWhole_whole _) hwx0_17 hstage0_17

abbrev win0_18 : Pipeline.Window sig grid0 :=
  Pipeline.Window.ofSpec (Memref.whole main_arg20) S192x192.size cc0_transform_18 reads0_18 false true 1 stage0_18 sem0_18
    hrank0 hreads0_18 hinb0_18 nbuf0_18 (Memref.isWhole_whole _) hwx0_18 hstage0_18

abbrev win0_19 : Pipeline.Window sig grid0 :=
  Pipeline.Window.ofSpec (Memref.whole main_v6) S1x192.size cc0_transform_19 reads0_19 false true 1 stage0_19 sem0_19
    hrank0 hreads0_19 hinb0_19 nbuf0_19 (Memref.isWhole_whole _) hwx0_19 hstage0_19

abbrev win0_20 : Pipeline.Window sig grid0 :=
  Pipeline.Window.ofSpec (Memref.whole main_v7) S1000x192.size cc0_transform_20 reads0_20 true false 2 stage0_20 sem0_20
    hrank0 hreads0_20 hinb0_20 nbuf0_20 (Memref.isWhole_whole _) hwx0_20 hstage0_20

abbrev win0 : Fin 21 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | 20 => win0_20 | ⟨_ + 21, h⟩ => absurd h (Nat.not_lt.2 (Nat.le_add_left _ _))
abbrev spec0 : Fin 21 → Pipeline.WinSpec sig grid0.rank := fun w => (win0 w).toWinSpec

abbrev win1_0 : Pipeline.Window sig grid1 :=
  Pipeline.Window.ofSpec (Memref.whole main_v7) S5000x192.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg22) S192x192.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v34) S5000x192.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v56) S5000x192.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg24) S192x192.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v57) S5000x192.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v79) S5000x192.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg26) S96x192.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v80) S1x96.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg28) S2x96.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v81) S1x2.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v82_0) S5000x96.size cc3_transform_5 reads3_5 true false 2 stage3_5 sem3_5
    hrank3 hreads3_5 hinb3_5 nbuf3_5 (Memref.isWhole_whole _) hwx3_5 hstage3_5

abbrev win3_6 : Pipeline.Window sig grid3 :=
  Pipeline.Window.ofSpec (Memref.whole main_v82_1) S5000x2.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

class Facts : Prop extends Facts₀ where

variable [Facts]
-- ==== ReferenceIdeal.lean ====
abbrev S50000x768 : Shape := ⟨2, ![50000, 768]⟩
abbrev S2x800000 : Shape := ⟨2, ![2, 800000]⟩
abbrev S800000 : Shape := ⟨1, ![800000]⟩
abbrev S50000x5 : Shape := ⟨2, ![50000, 5]⟩
abbrev S50000x1 : Shape := ⟨2, ![50000, 1]⟩
abbrev S32x768 : Shape := ⟨2, ![32, 768]⟩
abbrev S32 : Shape := ⟨1, ![32]⟩
abbrev S32x5 : Shape := ⟨2, ![32, 5]⟩
abbrev S32x1 : Shape := ⟨2, ![32, 1]⟩
abbrev S192x192 : Shape := ⟨2, ![192, 192]⟩
abbrev S192 : Shape := ⟨1, ![192]⟩
abbrev S96x192 : Shape := ⟨2, ![96, 192]⟩
abbrev S96 : Shape := ⟨1, ![96]⟩
abbrev S2x96 : Shape := ⟨2, ![2, 96]⟩
abbrev S2 : Shape := ⟨1, ![2]⟩
abbrev S768x32 : Shape := ⟨2, ![768, 32]⟩
abbrev S50000x32 : Shape := ⟨2, ![50000, 32]⟩
abbrev S1x32 : Shape := ⟨2, ![1, 32]⟩
abbrev S_ : Shape := ⟨0, ![]⟩
abbrev S5x32 : Shape := ⟨2, ![5, 32]⟩
abbrev S50000x192 : Shape := ⟨2, ![50000, 192]⟩
abbrev S1x192 : Shape := ⟨2, ![1, 192]⟩
abbrev S1x800000 : Shape := ⟨2, ![1, 800000]⟩
abbrev S50000 : Shape := ⟨1, ![50000]⟩
abbrev S800000x1 : Shape := ⟨2, ![800000, 1]⟩
abbrev S800000x192 : Shape := ⟨2, ![800000, 192]⟩
abbrev S192x96 : Shape := ⟨2, ![192, 96]⟩
abbrev S50000x96 : Shape := ⟨2, ![50000, 96]⟩
abbrev S1x96 : Shape := ⟨2, ![1, 96]⟩
abbrev S96x2 : Shape := ⟨2, ![96, 2]⟩
abbrev S50000x2 : Shape := ⟨2, ![50000, 2]⟩
abbrev S1x2 : Shape := ⟨2, ![1, 2]⟩

abbrev nBuf : Space → Nat
  | .hbm => 258
  | .vmem => 0
  | .smem => 0
  | _ => 0

abbrev hbmTy0_0 (i : Nat) : BufTy := match i % 128 with
  | 0 => ⟨S50000x768, .f32⟩
  | 1 => ⟨S50000x768, .f32⟩
  | 2 => ⟨S2x800000, .i32⟩
  | 3 => ⟨S800000, .i32⟩
  | 4 => ⟨S50000x5, .f32⟩
  | 5 => ⟨S50000x1, .f32⟩
  | 6 => ⟨S50000x768, .f32⟩
  | 7 => ⟨S50000x768, .f32⟩
  | 8 => ⟨S32x768, .f32⟩
  | 9 => ⟨S32, .f32⟩
  | 10 => ⟨S32x768, .f32⟩
  | 11 => ⟨S32, .f32⟩
  | 12 => ⟨S32x768, .f32⟩
  | 13 => ⟨S32, .f32⟩
  | 14 => ⟨S32x5, .f32⟩
  | 15 => ⟨S32, .f32⟩
  | 16 => ⟨S32x1, .f32⟩
  | 17 => ⟨S32, .f32⟩
  | 18 => ⟨S32x768, .f32⟩
  | 19 => ⟨S32, .f32⟩
  | 20 => ⟨S192x192, .f32⟩
  | 21 => ⟨S192, .f32⟩
  | 22 => ⟨S192x192, .f32⟩
  | 23 => ⟨S192, .f32⟩
  | 24 => ⟨S192x192, .f32⟩
  | 25 => ⟨S192, .f32⟩
  | 26 => ⟨S96x192, .f32⟩
  | 27 => ⟨S96, .f32⟩
  | 28 => ⟨S2x96, .f32⟩
  | 29 => ⟨S2, .f32⟩
  | 30 => ⟨S768x32, .f32⟩
  | 31 => ⟨S50000x32, .f32⟩
  | 32 => ⟨S1x32, .f32⟩
  | 33 => ⟨S50000x32, .f32⟩
  | 34 => ⟨S50000x32, .f32⟩
  | 35 => ⟨S_, .f32⟩
  | 36 => ⟨S_, .f32⟩
  | 37 => ⟨S50000x32, .f32⟩
  | 38 => ⟨S50000x32, .i1⟩
  | 39 => ⟨S_, .f32⟩
  | 40 => ⟨S50000x32, .f32⟩
  | 41 => ⟨S50000x32, .f32⟩
  | 42 => ⟨S50000x32, .f32⟩
  | 43 => ⟨S768x32, .f32⟩
  | 44 => ⟨S50000x32, .f32⟩
  | 45 => ⟨S1x32, .f32⟩
  | 46 => ⟨S50000x32, .f32⟩
  | 47 => ⟨S50000x32, .f32⟩
  | 48 => ⟨S_, .f32⟩
  | 49 => ⟨S_, .f32⟩
  | 50 => ⟨S50000x32, .f32⟩
  | 51 => ⟨S50000x32, .i1⟩
  | 52 => ⟨S_, .f32⟩
  | 53 => ⟨S50000x32, .f32⟩
  | 54 => ⟨S50000x32, .f32⟩
  | 55 => ⟨S50000x32, .f32⟩
  | 56 => ⟨S768x32, .f32⟩
  | 57 => ⟨S50000x32, .f32⟩
  | 58 => ⟨S1x32, .f32⟩
  | 59 => ⟨S50000x32, .f32⟩
  | 60 => ⟨S50000x32, .f32⟩
  | 61 => ⟨S_, .f32⟩
  | 62 => ⟨S_, .f32⟩
  | 63 => ⟨S50000x32, .f32⟩
  | 64 => ⟨S50000x32, .i1⟩
  | 65 => ⟨S_, .f32⟩
  | 66 => ⟨S50000x32, .f32⟩
  | 67 => ⟨S50000x32, .f32⟩
  | 68 => ⟨S50000x32, .f32⟩
  | 69 => ⟨S5x32, .f32⟩
  | 70 => ⟨S50000x32, .f32⟩
  | 71 => ⟨S1x32, .f32⟩
  | 72 => ⟨S50000x32, .f32⟩
  | 73 => ⟨S50000x32, .f32⟩
  | 74 => ⟨S_, .f32⟩
  | 75 => ⟨S_, .f32⟩
  | 76 => ⟨S50000x32, .f32⟩
  | 77 => ⟨S50000x32, .i1⟩
  | 78 => ⟨S_, .f32⟩
  | 79 => ⟨S50000x32, .f32⟩
  | 80 => ⟨S50000x32, .f32⟩
  | 81 => ⟨S50000x32, .f32⟩
  | 82 => ⟨S1x32, .f32⟩
  | 83 => ⟨S50000x32, .f32⟩
  | 84 => ⟨S1x32, .f32⟩
  | 85 => ⟨S50000x32, .f32⟩
  | 86 => ⟨S50000x32, .f32⟩
  | 87 => ⟨S_, .f32⟩
  | 88 => ⟨S_, .f32⟩
  | 89 => ⟨S50000x32, .f32⟩
  | 90 => ⟨S50000x32, .i1⟩
  | 91 => ⟨S_, .f32⟩
  | 92 => ⟨S50000x32, .f32⟩
  | 93 => ⟨S50000x32, .f32⟩
  | 94 => ⟨S50000x32, .f32⟩
  | 95 => ⟨S768x32, .f32⟩
  | 96 => ⟨S50000x32, .f32⟩
  | 97 => ⟨S1x32, .f32⟩
  | 98 => ⟨S50000x32, .f32⟩
  | 99 => ⟨S50000x32, .f32⟩
  | 100 => ⟨S_, .f32⟩
  | 101 => ⟨S_, .f32⟩
  | 102 => ⟨S50000x32, .f32⟩
  | 103 => ⟨S50000x32, .i1⟩
  | 104 => ⟨S_, .f32⟩
  | 105 => ⟨S50000x32, .f32⟩
  | 106 => ⟨S50000x32, .f32⟩
  | 107 => ⟨S50000x32, .f32⟩
  | 108 => ⟨S50000x192, .f32⟩
  | 109 => ⟨S192x192, .f32⟩
  | 110 => ⟨S50000x192, .f32⟩
  | 111 => ⟨S1x192, .f32⟩
  | 112 => ⟨S50000x192, .f32⟩
  | 113 => ⟨S50000x192, .f32⟩
  | 114 => ⟨S_, .f32⟩
  | 115 => ⟨S_, .f32⟩
  | 116 => ⟨S50000x192, .f32⟩
  | 117 => ⟨S50000x192, .i1⟩
  | 118 => ⟨S_, .f32⟩
  | 119 => ⟨S50000x192, .f32⟩
  | 120 => ⟨S50000x192, .f32⟩
  | 121 => ⟨S50000x192, .f32⟩
  | 122 => ⟨S1x800000, .i32⟩
  | 123 => ⟨S800000, .i32⟩
  | 124 => ⟨S1x800000, .i32⟩
  | 125 => ⟨S800000, .i32⟩
  | 126 => ⟨S192x192, .f32⟩
  | 127 => ⟨S50000x192, .f32⟩
  | _ => ⟨S50000x768, .f32⟩

abbrev hbmTy0_1 (i : Nat) : BufTy := match i % 128 with
  | 0 => ⟨S_, .f32⟩
  | 1 => ⟨S800000, .f32⟩
  | 2 => ⟨S_, .f32⟩
  | 3 => ⟨S50000, .f32⟩
  | 4 => ⟨S800000x1, .i32⟩
  | 5 => ⟨S50000, .f32⟩
  | 6 => ⟨S_, .f32⟩
  | 7 => ⟨S50000, .f32⟩
  | 8 => ⟨S50000, .f32⟩
  | 9 => ⟨S50000, .f32⟩
  | 10 => ⟨S_, .i32⟩
  | 11 => ⟨S800000, .i32⟩
  | 12 => ⟨S800000, .i1⟩
  | 13 => ⟨S_, .i32⟩
  | 14 => ⟨S800000, .i32⟩
  | 15 => ⟨S800000, .i32⟩
  | 16 => ⟨S800000, .i32⟩
  | 17 => ⟨S800000x1, .i32⟩
  | 18 => ⟨S800000, .f32⟩
  | 19 => ⟨S_, .i32⟩
  | 20 => ⟨S800000, .i32⟩
  | 21 => ⟨S800000, .i1⟩
  | 22 => ⟨S_, .i32⟩
  | 23 => ⟨S800000, .i32⟩
  | 24 => ⟨S800000, .i32⟩
  | 25 => ⟨S800000, .i32⟩
  | 26 => ⟨S800000x1, .i32⟩
  | 27 => ⟨S800000, .f32⟩
  | 28 => ⟨S800000, .f32⟩
  | 29 => ⟨S_, .i32⟩
  | 30 => ⟨S800000, .i32⟩
  | 31 => ⟨S800000, .i1⟩
  | 32 => ⟨S_, .i32⟩
  | 33 => ⟨S800000, .i32⟩
  | 34 => ⟨S800000, .i32⟩
  | 35 => ⟨S800000, .i32⟩
  | 36 => ⟨S800000x1, .i32⟩
  | 37 => ⟨S800000x192, .f32⟩
  | 38 => ⟨S800000x1, .f32⟩
  | 39 => ⟨S800000x192, .f32⟩
  | 40 => ⟨S800000x192, .f32⟩
  | 41 => ⟨S_, .f32⟩
  | 42 => ⟨S50000x192, .f32⟩
  | 43 => ⟨S800000x1, .i32⟩
  | 44 => ⟨S50000x192, .f32⟩
  | 45 => ⟨S_, .f32⟩
  | 46 => ⟨S50000, .f32⟩
  | 47 => ⟨S50000, .f32⟩
  | 48 => ⟨S50000x1, .f32⟩
  | 49 => ⟨S50000x192, .f32⟩
  | 50 => ⟨S50000x192, .f32⟩
  | 51 => ⟨S50000x192, .f32⟩
  | 52 => ⟨S1x192, .f32⟩
  | 53 => ⟨S50000x192, .f32⟩
  | 54 => ⟨S50000x192, .f32⟩
  | 55 => ⟨S192x192, .f32⟩
  | 56 => ⟨S50000x192, .f32⟩
  | 57 => ⟨S_, .f32⟩
  | 58 => ⟨S800000, .f32⟩
  | 59 => ⟨S_, .f32⟩
  | 60 => ⟨S50000, .f32⟩
  | 61 => ⟨S800000x1, .i32⟩
  | 62 => ⟨S50000, .f32⟩
  | 63 => ⟨S_, .f32⟩
  | 64 => ⟨S50000, .f32⟩
  | 65 => ⟨S50000, .f32⟩
  | 66 => ⟨S50000, .f32⟩
  | 67 => ⟨S_, .i32⟩
  | 68 => ⟨S800000, .i32⟩
  | 69 => ⟨S800000, .i1⟩
  | 70 => ⟨S_, .i32⟩
  | 71 => ⟨S800000, .i32⟩
  | 72 => ⟨S800000, .i32⟩
  | 73 => ⟨S800000, .i32⟩
  | 74 => ⟨S800000x1, .i32⟩
  | 75 => ⟨S800000, .f32⟩
  | 76 => ⟨S_, .i32⟩
  | 77 => ⟨S800000, .i32⟩
  | 78 => ⟨S800000, .i1⟩
  | 79 => ⟨S_, .i32⟩
  | 80 => ⟨S800000, .i32⟩
  | 81 => ⟨S800000, .i32⟩
  | 82 => ⟨S800000, .i32⟩
  | 83 => ⟨S800000x1, .i32⟩
  | 84 => ⟨S800000, .f32⟩
  | 85 => ⟨S800000, .f32⟩
  | 86 => ⟨S_, .i32⟩
  | 87 => ⟨S800000, .i32⟩
  | 88 => ⟨S800000, .i1⟩
  | 89 => ⟨S_, .i32⟩
  | 90 => ⟨S800000, .i32⟩
  | 91 => ⟨S800000, .i32⟩
  | 92 => ⟨S800000, .i32⟩
  | 93 => ⟨S800000x1, .i32⟩
  | 94 => ⟨S800000x192, .f32⟩
  | 95 => ⟨S800000x1, .f32⟩
  | 96 => ⟨S800000x192, .f32⟩
  | 97 => ⟨S800000x192, .f32⟩
  | 98 => ⟨S_, .f32⟩
  | 99 => ⟨S50000x192, .f32⟩
  | 100 => ⟨S800000x1, .i32⟩
  | 101 => ⟨S50000x192, .f32⟩
  | 102 => ⟨S_, .f32⟩
  | 103 => ⟨S50000, .f32⟩
  | 104 => ⟨S50000, .f32⟩
  | 105 => ⟨S50000x1, .f32⟩
  | 106 => ⟨S50000x192, .f32⟩
  | 107 => ⟨S50000x192, .f32⟩
  | 108 => ⟨S50000x192, .f32⟩
  | 109 => ⟨S1x192, .f32⟩
  | 110 => ⟨S50000x192, .f32⟩
  | 111 => ⟨S50000x192, .f32⟩
  | 112 => ⟨S192x96, .f32⟩
  | 113 => ⟨S50000x96, .f32⟩
  | 114 => ⟨S1x96, .f32⟩
  | 115 => ⟨S50000x96, .f32⟩
  | 116 => ⟨S50000x96, .f32⟩
  | 117 => ⟨S_, .f32⟩
  | 118 => ⟨S_, .f32⟩
  | 119 => ⟨S50000x96, .f32⟩
  | 120 => ⟨S50000x96, .i1⟩
  | 121 => ⟨S_, .f32⟩
  | 122 => ⟨S50000x96, .f32⟩
  | 123 => ⟨S50000x96, .f32⟩
  | 124 => ⟨S50000x96, .f32⟩
  | 125 => ⟨S96x2, .f32⟩
  | 126 => ⟨S50000x2, .f32⟩
  | 127 => ⟨S1x2, .f32⟩
  | _ => ⟨S50000x768, .f32⟩

abbrev hbmTy0_2 (i : Nat) : BufTy := match i % 128 with
  | 0 => ⟨S50000x2, .f32⟩
  | 1 => ⟨S50000x2, .f32⟩
  | _ => ⟨S50000x768, .f32⟩

abbrev hbmTy (i : Nat) : BufTy := match i / 128 with
  | 0 => hbmTy0_0 i
  | 1 => hbmTy0_1 i
  | 2 => hbmTy0_2 i
  | _ => ⟨S50000x768, .f32⟩

abbrev bufTy : (tb : Table) → Fin (tcTables nBuf tb) → BufTy
  | .hbm, ⟨i, _⟩ => hbmTy i
  | _, _ => ⟨S50000x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_v0 : Ref sig .tc := ⟨.hbm, 30, rfl⟩
abbrev main_v1 : Ref sig .tc := ⟨.hbm, 31, rfl⟩
abbrev main_v2 : Ref sig .tc := ⟨.hbm, 32, rfl⟩
abbrev main_v3 : Ref sig .tc := ⟨.hbm, 33, rfl⟩
abbrev main_v4 : Ref sig .tc := ⟨.hbm, 34, rfl⟩
abbrev main_cst : Ref sig .tc := ⟨.hbm, 35, rfl⟩
abbrev main_call0_cst : Ref sig .tc := ⟨.hbm, 36, rfl⟩
abbrev main_call0_v0 : Ref sig .tc := ⟨.hbm, 37, rfl⟩
abbrev main_call0_v1 : Ref sig .tc := ⟨.hbm, 38, rfl⟩
abbrev main_call0_v2 : Ref sig .tc := ⟨.hbm, 39, rfl⟩
abbrev main_call0_v3 : Ref sig .tc := ⟨.hbm, 40, rfl⟩
abbrev main_call0_v4 : Ref sig .tc := ⟨.hbm, 41, rfl⟩
abbrev main_v5 : Ref sig .tc := ⟨.hbm, 42, rfl⟩
abbrev main_v6 : Ref sig .tc := ⟨.hbm, 43, rfl⟩
abbrev main_v7 : Ref sig .tc := ⟨.hbm, 44, rfl⟩
abbrev main_v8 : Ref sig .tc := ⟨.hbm, 45, rfl⟩
abbrev main_v9 : Ref sig .tc := ⟨.hbm, 46, rfl⟩
abbrev main_v10 : Ref sig .tc := ⟨.hbm, 47, rfl⟩
abbrev main_cst_0 : Ref sig .tc := ⟨.hbm, 48, rfl⟩
abbrev main_call1_cst : Ref sig .tc := ⟨.hbm, 49, rfl⟩
abbrev main_call1_v0 : Ref sig .tc := ⟨.hbm, 50, rfl⟩
abbrev main_call1_v1 : Ref sig .tc := ⟨.hbm, 51, rfl⟩
abbrev main_call1_v2 : Ref sig .tc := ⟨.hbm, 52, rfl⟩
abbrev main_call1_v3 : Ref sig .tc := ⟨.hbm, 53, rfl⟩
abbrev main_call1_v4 : Ref sig .tc := ⟨.hbm, 54, rfl⟩
abbrev main_v11 : Ref sig .tc := ⟨.hbm, 55, rfl⟩
abbrev main_v12 : Ref sig .tc := ⟨.hbm, 56, rfl⟩
abbrev main_v13 : Ref sig .tc := ⟨.hbm, 57, rfl⟩
abbrev main_v14 : Ref sig .tc := ⟨.hbm, 58, rfl⟩
abbrev main_v15 : Ref sig .tc := ⟨.hbm, 59, rfl⟩
abbrev main_v16 : Ref sig .tc := ⟨.hbm, 60, rfl⟩
abbrev main_cst_1 : Ref sig .tc := ⟨.hbm, 61, rfl⟩
abbrev main_call2_cst : Ref sig .tc := ⟨.hbm, 62, rfl⟩
abbrev main_call2_v0 : Ref sig .tc := ⟨.hbm, 63, rfl⟩
abbrev main_call2_v1 : Ref sig .tc := ⟨.hbm, 64, rfl⟩
abbrev main_call2_v2 : Ref sig .tc := ⟨.hbm, 65, rfl⟩
abbrev main_call2_v3 : Ref sig .tc := ⟨.hbm, 66, rfl⟩
abbrev main_call2_v4 : Ref sig .tc := ⟨.hbm, 67, rfl⟩
abbrev main_v17 : Ref sig .tc := ⟨.hbm, 68, rfl⟩
abbrev main_v18 : Ref sig .tc := ⟨.hbm, 69, rfl⟩
abbrev main_v19 : Ref sig .tc := ⟨.hbm, 70, rfl⟩
abbrev main_v20 : Ref sig .tc := ⟨.hbm, 71, rfl⟩
abbrev main_v21 : Ref sig .tc := ⟨.hbm, 72, rfl⟩
abbrev main_v22 : Ref sig .tc := ⟨.hbm, 73, rfl⟩
abbrev main_cst_2 : Ref sig .tc := ⟨.hbm, 74, rfl⟩
abbrev main_call3_cst : Ref sig .tc := ⟨.hbm, 75, rfl⟩
abbrev main_call3_v0 : Ref sig .tc := ⟨.hbm, 76, rfl⟩
abbrev main_call3_v1 : Ref sig .tc := ⟨.hbm, 77, rfl⟩
abbrev main_call3_v2 : Ref sig .tc := ⟨.hbm, 78, rfl⟩
abbrev main_call3_v3 : Ref sig .tc := ⟨.hbm, 79, rfl⟩
abbrev main_call3_v4 : Ref sig .tc := ⟨.hbm, 80, rfl⟩
abbrev main_v23 : Ref sig .tc := ⟨.hbm, 81, rfl⟩
abbrev main_v24 : Ref sig .tc := ⟨.hbm, 82, rfl⟩
abbrev main_v25 : Ref sig .tc := ⟨.hbm, 83, rfl⟩
abbrev main_v26 : Ref sig .tc := ⟨.hbm, 84, rfl⟩
abbrev main_v27 : Ref sig .tc := ⟨.hbm, 85, rfl⟩
abbrev main_v28 : Ref sig .tc := ⟨.hbm, 86, rfl⟩
abbrev main_cst_3 : Ref sig .tc := ⟨.hbm, 87, rfl⟩
abbrev main_call4_cst : Ref sig .tc := ⟨.hbm, 88, rfl⟩
abbrev main_call4_v0 : Ref sig .tc := ⟨.hbm, 89, rfl⟩
abbrev main_call4_v1 : Ref sig .tc := ⟨.hbm, 90, rfl⟩
abbrev main_call4_v2 : Ref sig .tc := ⟨.hbm, 91, rfl⟩
abbrev main_call4_v3 : Ref sig .tc := ⟨.hbm, 92, rfl⟩
abbrev main_call4_v4 : Ref sig .tc := ⟨.hbm, 93, rfl⟩
abbrev main_v29 : Ref sig .tc := ⟨.hbm, 94, rfl⟩
abbrev main_v30 : Ref sig .tc := ⟨.hbm, 95, rfl⟩
abbrev main_v31 : Ref sig .tc := ⟨.hbm, 96, rfl⟩
abbrev main_v32 : Ref sig .tc := ⟨.hbm, 97, rfl⟩
abbrev main_v33 : Ref sig .tc := ⟨.hbm, 98, rfl⟩
abbrev main_v34 : Ref sig .tc := ⟨.hbm, 99, rfl⟩
abbrev main_cst_4 : Ref sig .tc := ⟨.hbm, 100, rfl⟩
abbrev main_call5_cst : Ref sig .tc := ⟨.hbm, 101, rfl⟩
abbrev main_call5_v0 : Ref sig .tc := ⟨.hbm, 102, rfl⟩
abbrev main_call5_v1 : Ref sig .tc := ⟨.hbm, 103, rfl⟩
abbrev main_call5_v2 : Ref sig .tc := ⟨.hbm, 104, rfl⟩
abbrev main_call5_v3 : Ref sig .tc := ⟨.hbm, 105, rfl⟩
abbrev main_call5_v4 : Ref sig .tc := ⟨.hbm, 106, rfl⟩
abbrev main_v35 : Ref sig .tc := ⟨.hbm, 107, rfl⟩
abbrev main_v36 : Ref sig .tc := ⟨.hbm, 108, rfl⟩
abbrev main_v37 : Ref sig .tc := ⟨.hbm, 109, rfl⟩
abbrev main_v38 : Ref sig .tc := ⟨.hbm, 110, rfl⟩
abbrev main_v39 : Ref sig .tc := ⟨.hbm, 111, rfl⟩
abbrev main_v40 : Ref sig .tc := ⟨.hbm, 112, rfl⟩
abbrev main_v41 : Ref sig .tc := ⟨.hbm, 113, rfl⟩
abbrev main_cst_5 : Ref sig .tc := ⟨.hbm, 114, rfl⟩
abbrev main_call6_cst : Ref sig .tc := ⟨.hbm, 115, rfl⟩
abbrev main_call6_v0 : Ref sig .tc := ⟨.hbm, 116, rfl⟩
abbrev main_call6_v1 : Ref sig .tc := ⟨.hbm, 117, rfl⟩
abbrev main_call6_v2 : Ref sig .tc := ⟨.hbm, 118, rfl⟩
abbrev main_call6_v3 : Ref sig .tc := ⟨.hbm, 119, rfl⟩
abbrev main_call6_v4 : Ref sig .tc := ⟨.hbm, 120, rfl⟩
abbrev main_v42 : Ref sig .tc := ⟨.hbm, 121, rfl⟩
abbrev main_v43 : Ref sig .tc := ⟨.hbm, 122, rfl⟩
abbrev main_v44 : Ref sig .tc := ⟨.hbm, 123, rfl⟩
abbrev main_v45 : Ref sig .tc := ⟨.hbm, 124, rfl⟩
abbrev main_v46 : Ref sig .tc := ⟨.hbm, 125, rfl⟩
abbrev main_v47 : Ref sig .tc := ⟨.hbm, 126, rfl⟩
abbrev main_v48 : Ref sig .tc := ⟨.hbm, 127, rfl⟩
abbrev main_cst_6 : Ref sig .tc := ⟨.hbm, 128, rfl⟩
abbrev main_v49 : Ref sig .tc := ⟨.hbm, 129, rfl⟩
abbrev main_cst_7 : Ref sig .tc := ⟨.hbm, 130, rfl⟩
abbrev main_v50 : Ref sig .tc := ⟨.hbm, 131, rfl⟩
abbrev main_v51 : Ref sig .tc := ⟨.hbm, 132, rfl⟩
abbrev main_v52 : Ref sig .tc := ⟨.hbm, 133, rfl⟩
abbrev main_cst_8 : Ref sig .tc := ⟨.hbm, 134, rfl⟩
abbrev main_v53 : Ref sig .tc := ⟨.hbm, 135, rfl⟩
abbrev main_v54 : Ref sig .tc := ⟨.hbm, 136, rfl⟩
abbrev main_v55 : Ref sig .tc := ⟨.hbm, 137, rfl⟩
abbrev main_c : Ref sig .tc := ⟨.hbm, 138, rfl⟩
abbrev main_v56 : Ref sig .tc := ⟨.hbm, 139, rfl⟩
abbrev main_v57 : Ref sig .tc := ⟨.hbm, 140, rfl⟩
abbrev main_c_9 : Ref sig .tc := ⟨.hbm, 141, rfl⟩
abbrev main_v58 : Ref sig .tc := ⟨.hbm, 142, rfl⟩
abbrev main_v59 : Ref sig .tc := ⟨.hbm, 143, rfl⟩
abbrev main_v60 : Ref sig .tc := ⟨.hbm, 144, rfl⟩
abbrev main_v61 : Ref sig .tc := ⟨.hbm, 145, rfl⟩
abbrev main_v62 : Ref sig .tc := ⟨.hbm, 146, rfl⟩
abbrev main_c_10 : Ref sig .tc := ⟨.hbm, 147, rfl⟩
abbrev main_v63 : Ref sig .tc := ⟨.hbm, 148, rfl⟩
abbrev main_v64 : Ref sig .tc := ⟨.hbm, 149, rfl⟩
abbrev main_c_11 : Ref sig .tc := ⟨.hbm, 150, rfl⟩
abbrev main_v65 : Ref sig .tc := ⟨.hbm, 151, rfl⟩
abbrev main_v66 : Ref sig .tc := ⟨.hbm, 152, rfl⟩
abbrev main_v67 : Ref sig .tc := ⟨.hbm, 153, rfl⟩
abbrev main_v68 : Ref sig .tc := ⟨.hbm, 154, rfl⟩
abbrev main_v69 : Ref sig .tc := ⟨.hbm, 155, rfl⟩
abbrev main_v70 : Ref sig .tc := ⟨.hbm, 156, rfl⟩
abbrev main_c_12 : Ref sig .tc := ⟨.hbm, 157, rfl⟩
abbrev main_v71 : Ref sig .tc := ⟨.hbm, 158, rfl⟩
abbrev main_v72 : Ref sig .tc := ⟨.hbm, 159, rfl⟩
abbrev main_c_13 : Ref sig .tc := ⟨.hbm, 160, rfl⟩
abbrev main_v73 : Ref sig .tc := ⟨.hbm, 161, rfl⟩
abbrev main_v74 : Ref sig .tc := ⟨.hbm, 162, rfl⟩
abbrev main_v75 : Ref sig .tc := ⟨.hbm, 163, rfl⟩
abbrev main_v76 : Ref sig .tc := ⟨.hbm, 164, rfl⟩
abbrev main_v77 : Ref sig .tc := ⟨.hbm, 165, rfl⟩
abbrev main_v78 : Ref sig .tc := ⟨.hbm, 166, rfl⟩
abbrev main_v79 : Ref sig .tc := ⟨.hbm, 167, rfl⟩
abbrev main_v80 : Ref sig .tc := ⟨.hbm, 168, rfl⟩
abbrev main_cst_14 : Ref sig .tc := ⟨.hbm, 169, rfl⟩
abbrev main_v81 : Ref sig .tc := ⟨.hbm, 170, rfl⟩
abbrev main_v82 : Ref sig .tc := ⟨.hbm, 171, rfl⟩
abbrev main_v83 : Ref sig .tc := ⟨.hbm, 172, rfl⟩
abbrev main_cst_15 : Ref sig .tc := ⟨.hbm, 173, rfl⟩
abbrev main_v84 : Ref sig .tc := ⟨.hbm, 174, rfl⟩
abbrev main_v85 : Ref sig .tc := ⟨.hbm, 175, rfl⟩
abbrev main_v86 : Ref sig .tc := ⟨.hbm, 176, rfl⟩
abbrev main_v87 : Ref sig .tc := ⟨.hbm, 177, rfl⟩
abbrev main_v88 : Ref sig .tc := ⟨.hbm, 178, rfl⟩
abbrev main_v89 : Ref sig .tc := ⟨.hbm, 179, rfl⟩
abbrev main_v90 : Ref sig .tc := ⟨.hbm, 180, rfl⟩
abbrev main_v91 : Ref sig .tc := ⟨.hbm, 181, rfl⟩
abbrev main_v92 : Ref sig .tc := ⟨.hbm, 182, rfl⟩
abbrev main_v93 : Ref sig .tc := ⟨.hbm, 183, rfl⟩
abbrev main_v94 : Ref sig .tc := ⟨.hbm, 184, rfl⟩
abbrev main_cst_16 : Ref sig .tc := ⟨.hbm, 185, rfl⟩
abbrev main_v95 : Ref sig .tc := ⟨.hbm, 186, rfl⟩
abbrev main_cst_17 : Ref sig .tc := ⟨.hbm, 187, rfl⟩
abbrev main_v96 : Ref sig .tc := ⟨.hbm, 188, rfl⟩
abbrev main_v97 : Ref sig .tc := ⟨.hbm, 189, rfl⟩
abbrev main_v98 : Ref sig .tc := ⟨.hbm, 190, rfl⟩
abbrev main_cst_18 : Ref sig .tc := ⟨.hbm, 191, rfl⟩
abbrev main_v99 : Ref sig .tc := ⟨.hbm, 192, rfl⟩
abbrev main_v100 : Ref sig .tc := ⟨.hbm, 193, rfl⟩
abbrev main_v101 : Ref sig .tc := ⟨.hbm, 194, rfl⟩
abbrev main_c_19 : Ref sig .tc := ⟨.hbm, 195, rfl⟩
abbrev main_v102 : Ref sig .tc := ⟨.hbm, 196, rfl⟩
abbrev main_v103 : Ref sig .tc := ⟨.hbm, 197, rfl⟩
abbrev main_c_20 : Ref sig .tc := ⟨.hbm, 198, rfl⟩
abbrev main_v104 : Ref sig .tc := ⟨.hbm, 199, rfl⟩
abbrev main_v105 : Ref sig .tc := ⟨.hbm, 200, rfl⟩
abbrev main_v106 : Ref sig .tc := ⟨.hbm, 201, rfl⟩
abbrev main_v107 : Ref sig .tc := ⟨.hbm, 202, rfl⟩
abbrev main_v108 : Ref sig .tc := ⟨.hbm, 203, rfl⟩
abbrev main_c_21 : Ref sig .tc := ⟨.hbm, 204, rfl⟩
abbrev main_v109 : Ref sig .tc := ⟨.hbm, 205, rfl⟩
abbrev main_v110 : Ref sig .tc := ⟨.hbm, 206, rfl⟩
abbrev main_c_22 : Ref sig .tc := ⟨.hbm, 207, rfl⟩
abbrev main_v111 : Ref sig .tc := ⟨.hbm, 208, rfl⟩
abbrev main_v112 : Ref sig .tc := ⟨.hbm, 209, rfl⟩
abbrev main_v113 : Ref sig .tc := ⟨.hbm, 210, rfl⟩
abbrev main_v114 : Ref sig .tc := ⟨.hbm, 211, rfl⟩
abbrev main_v115 : Ref sig .tc := ⟨.hbm, 212, rfl⟩
abbrev main_v116 : Ref sig .tc := ⟨.hbm, 213, rfl⟩
abbrev main_c_23 : Ref sig .tc := ⟨.hbm, 214, rfl⟩
abbrev main_v117 : Ref sig .tc := ⟨.hbm, 215, rfl⟩
abbrev main_v118 : Ref sig .tc := ⟨.hbm, 216, rfl⟩
abbrev main_c_24 : Ref sig .tc := ⟨.hbm, 217, rfl⟩
abbrev main_v119 : Ref sig .tc := ⟨.hbm, 218, rfl⟩
abbrev main_v120 : Ref sig .tc := ⟨.hbm, 219, rfl⟩
abbrev main_v121 : Ref sig .tc := ⟨.hbm, 220, rfl⟩
abbrev main_v122 : Ref sig .tc := ⟨.hbm, 221, rfl⟩
abbrev main_v123 : Ref sig .tc := ⟨.hbm, 222, rfl⟩
abbrev main_v124 : Ref sig .tc := ⟨.hbm, 223, rfl⟩
abbrev main_v125 : Ref sig .tc := ⟨.hbm, 224, rfl⟩
abbrev main_v126 : Ref sig .tc := ⟨.hbm, 225, rfl⟩
abbrev main_cst_25 : Ref sig .tc := ⟨.hbm, 226, rfl⟩
abbrev main_v127 : Ref sig .tc := ⟨.hbm, 227, rfl⟩
abbrev main_v128 : Ref sig .tc := ⟨.hbm, 228, rfl⟩
abbrev main_v129 : Ref sig .tc := ⟨.hbm, 229, rfl⟩
abbrev main_cst_26 : Ref sig .tc := ⟨.hbm, 230, rfl⟩
abbrev main_v130 : Ref sig .tc := ⟨.hbm, 231, rfl⟩
abbrev main_v131 : Ref sig .tc := ⟨.hbm, 232, rfl⟩
abbrev main_v132 : Ref sig .tc := ⟨.hbm, 233, rfl⟩
abbrev main_v133 : Ref sig .tc := ⟨.hbm, 234, rfl⟩
abbrev main_v134 : Ref sig .tc := ⟨.hbm, 235, rfl⟩
abbrev main_v135 : Ref sig .tc := ⟨.hbm, 236, rfl⟩
abbrev main_v136 : Ref sig .tc := ⟨.hbm, 237, rfl⟩
abbrev main_v137 : Ref sig .tc := ⟨.hbm, 238, rfl⟩
abbrev main_v138 : Ref sig .tc := ⟨.hbm, 239, rfl⟩
abbrev main_v139 : Ref sig .tc := ⟨.hbm, 240, rfl⟩
abbrev main_v140 : Ref sig .tc := ⟨.hbm, 241, rfl⟩
abbrev main_v141 : Ref sig .tc := ⟨.hbm, 242, rfl⟩
abbrev main_v142 : Ref sig .tc := ⟨.hbm, 243, rfl⟩
abbrev main_v143 : Ref sig .tc := ⟨.hbm, 244, rfl⟩
abbrev main_cst_27 : Ref sig .tc := ⟨.hbm, 245, rfl⟩
abbrev main_call7_cst : Ref sig .tc := ⟨.hbm, 246, rfl⟩
abbrev main_call7_v0 : Ref sig .tc := ⟨.hbm, 247, rfl⟩
abbrev main_call7_v1 : Ref sig .tc := ⟨.hbm, 248, rfl⟩
abbrev main_call7_v2 : Ref sig .tc := ⟨.hbm, 249, rfl⟩
abbrev main_call7_v3 : Ref sig .tc := ⟨.hbm, 250, rfl⟩
abbrev main_call7_v4 : Ref sig .tc := ⟨.hbm, 251, rfl⟩
abbrev main_v144 : Ref sig .tc := ⟨.hbm, 252, rfl⟩
abbrev main_v145 : Ref sig .tc := ⟨.hbm, 253, rfl⟩
abbrev main_v146 : Ref sig .tc := ⟨.hbm, 254, rfl⟩
abbrev main_v147 : Ref sig .tc := ⟨.hbm, 255, rfl⟩
abbrev main_v148 : Ref sig .tc := ⟨.hbm, 256, rfl⟩
abbrev main_v149 : Ref sig .tc := ⟨.hbm, 257, rfl⟩

abbrev nD : Nat := 1
abbrev τ : Topo := Topo.v7x

variable {F : FTy → Type} [FloatOps F]

class Facts₀ : Prop where
  transposes_S32x768_S768x32_1_0 : S32x768.Transposes [1, 0] S768x32
  bcast_S32_S1x32_1 : S32.BroadcastsInDim S1x32 (![1] : Fin 1 → Fin S1x32.rank)
  bcast_S1x32_S50000x32_0_1 : S1x32.BroadcastsInDim S50000x32 (![0, 1] : Fin 2 → Fin S50000x32.rank)
  bcast_S_S50000x32 : S_.BroadcastsInDim S50000x32 (![] : Fin 0 → Fin S50000x32.rank)
  transposes_S32x5_S5x32_1_0 : S32x5.Transposes [1, 0] S5x32
  transposes_S32x1_S1x32_1_0 : S32x1.Transposes [1, 0] S1x32
  concatenates_S50000x32_S50000x32_S50000x32_S50000x32_S50000x32_S50000x32_S50000x192_d1 : Shape.Concatenates [S50000x32, S50000x32, S50000x32, S50000x32, S50000x32, S50000x32] S50000x192 1
  transposes_S192x192_S192x192_1_0 : S192x192.Transposes [1, 0] S192x192
  bcast_S192_S1x192_1 : S192.BroadcastsInDim S1x192 (![1] : Fin 1 → Fin S1x192.rank)
  bcast_S1x192_S50000x192_0_1 : S1x192.BroadcastsInDim S50000x192 (![0, 1] : Fin 2 → Fin S50000x192.rank)
  bcast_S_S50000x192 : S_.BroadcastsInDim S50000x192 (![] : Fin 0 → Fin S50000x192.rank)
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S800000x1_S800000x192_0_1 : S800000x1.BroadcastsInDim S800000x192 (![0, 1] : Fin 2 → Fin S800000x192.rank)
  bcast_S50000_S50000x1_0 : S50000.BroadcastsInDim S50000x1 (![0] : Fin 1 → Fin S50000x1.rank)
  bcast_S50000x1_S50000x192_0_1 : S50000x1.BroadcastsInDim S50000x192 (![0, 1] : Fin 2 → Fin S50000x192.rank)
  transposes_S96x192_S192x96_1_0 : S96x192.Transposes [1, 0] S192x96
  bcast_S96_S1x96_1 : S96.BroadcastsInDim S1x96 (![1] : Fin 1 → Fin S1x96.rank)
  bcast_S1x96_S50000x96_0_1 : S1x96.BroadcastsInDim S50000x96 (![0, 1] : Fin 2 → Fin S50000x96.rank)
  bcast_S_S50000x96 : S_.BroadcastsInDim S50000x96 (![] : Fin 0 → Fin S50000x96.rank)
  transposes_S2x96_S96x2_1_0 : S2x96.Transposes [1, 0] S96x2
  bcast_S2_S1x2_1 : S2.BroadcastsInDim S1x2 (![1] : Fin 1 → Fin S1x2.rank)
  bcast_S1x2_S50000x2_0_1 : S1x2.BroadcastsInDim S50000x2 (![0, 1] : Fin 2 → Fin S50000x2.rank)
  dot_S50000x768_S768x32_S50000x32_1_0_0_1_n_n_wf : DotDims.WF S50000x768 S768x32 S50000x32 [1] [0] [0] [1] [] []
  dot_S50000x5_S5x32_S50000x32_1_0_0_1_n_n_wf : DotDims.WF S50000x5 S5x32 S50000x32 [1] [0] [0] [1] [] []
  dot_S50000x1_S1x32_S50000x32_1_0_0_1_n_n_wf : DotDims.WF S50000x1 S1x32 S50000x32 [1] [0] [0] [1] [] []
  dot_S50000x192_S192x192_S50000x192_1_0_0_1_n_n_wf : DotDims.WF S50000x192 S192x192 S50000x192 [1] [0] [0] [1] [] []
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  gather_S50000x192_S800000x1_S800000x192_1_0_n_n_0_1_1192_wf : GatherDims.WF S50000x192 S800000x1 S800000x192 [1] [0] [] [0] [] 1 ![1, 192]
  scatter_S50000x192_S800000x1_S800000x192_1_0_0_1_wf : ScatterDims.WF S50000x192 S800000x1 S800000x192 [1] [0] [0] 1
  dot_S50000x192_S192x96_S50000x96_1_0_0_1_n_n_wf : DotDims.WF S50000x192 S192x96 S50000x96 [1] [0] [0] [1] [] []
  dot_S50000x96_S96x2_S50000x2_1_0_0_1_n_n_wf : DotDims.WF S50000x96 S96x2 S50000x2 [1] [0] [0] [1] [] []

variable [Facts₀]

def dot_S50000x768_S768x32_S50000x32_1_0_0_1_n_n : DotDims S50000x768 S768x32 S50000x32 where
  lhsContracting := [1]
  rhsContracting := [0]
  lhsNonContracting := [0]
  rhsNonContracting := [1]
  lhsBatch := []
  rhsBatch := []
  wf := dot_S50000x768_S768x32_S50000x32_1_0_0_1_n_n_wf
def dot_S50000x5_S5x32_S50000x32_1_0_0_1_n_n : DotDims S50000x5 S5x32 S50000x32 where
  lhsContracting := [1]
  rhsContracting := [0]
  lhsNonContracting := [0]
  rhsNonContracting := [1]
  lhsBatch := []
  rhsBatch := []
  wf := dot_S50000x5_S5x32_S50000x32_1_0_0_1_n_n_wf
def dot_S50000x1_S1x32_S50000x32_1_0_0_1_n_n : DotDims S50000x1 S1x32 S50000x32 where
  lhsContracting := [1]
  rhsContracting := [0]
  lhsNonContracting := [0]
  rhsNonContracting := [1]
  lhsBatch := []
  rhsBatch := []
  wf := dot_S50000x1_S1x32_S50000x32_1_0_0_1_n_n_wf
def dot_S50000x192_S192x192_S50000x192_1_0_0_1_n_n : DotDims S50000x192 S192x192 S50000x192 where
  lhsContracting := [1]
  rhsContracting := [0]
  lhsNonContracting := [0]
  rhsNonContracting := [1]
  lhsBatch := []
  rhsBatch := []
  wf := dot_S50000x192_S192x192_S50000x192_1_0_0_1_n_n_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x192_S800000x1_S800000x192_1_0_n_n_0_1_1192 : GatherDims S50000x192 S800000x1 S800000x192 where
  offsetDims := [1]
  collapsedSliceDims := [0]
  operandBatchingDims := []
  startIndicesBatchingDims := []
  startIndexMap := [0]
  indexVectorDim := 1
  sliceSizes := ![1, 192]
  wf := gather_S50000x192_S800000x1_S800000x192_1_0_n_n_0_1_1192_wf
def scatter_S50000x192_S800000x1_S800000x192_1_0_0_1 : ScatterDims S50000x192 S800000x1 S800000x192 where
  updateWindowDims := [1]
  insertedWindowDims := [0]
  scatterDimsToOperandDims := [0]
  indexVectorDim := 1
  wf := scatter_S50000x192_S800000x1_S800000x192_1_0_0_1_wf
def dot_S50000x192_S192x96_S50000x96_1_0_0_1_n_n : DotDims S50000x192 S192x96 S50000x96 where
  lhsContracting := [1]
  rhsContracting := [0]
  lhsNonContracting := [0]
  rhsNonContracting := [1]
  lhsBatch := []
  rhsBatch := []
  wf := dot_S50000x192_S192x96_S50000x96_1_0_0_1_n_n_wf
def dot_S50000x96_S96x2_S50000x2_1_0_0_1_n_n : DotDims S50000x96 S96x2 S50000x2 where
  lhsContracting := [1]
  rhsContracting := [0]
  lhsNonContracting := [0]
  rhsNonContracting := [1]
  lhsBatch := []
  rhsBatch := []
  wf := dot_S50000x96_S96x2_S50000x2_1_0_0_1_n_n_wf

class Facts : Prop extends Facts₀ where

variable [Facts]
-- ==== Proof.KerRun.lean ====
/-
  The kernel program's run with its two results named.

  The program is four tiled regions among stretches of host operations. Its generated frame follows the buffer
  contents through the eight segments, W0 (the launch memory) to W8 (after the last region), and reads the argument
  arrays off the last one. Here the same launch is read at the two result buffers as well: every weakly fair
  execution terminates, nothing faults, the arguments end unchanged, and the results end at what W8 holds for them —
  the last region's two output arrays as its write-backs leave them.
-/
import proofs.«136469_j28432683499972_1_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- Every weakly fair execution of the program terminates without a fault; the two results end at the contents the
    last segment leaves, and every argument array as launched. -/
theorem run_named : θ_run defs (onTc (τ := τ) (main (F := F))) ⟨m, fun _ => 0, ρ⟩ (fun r => ∀ c : Dev nD,
      (r.2.mem ((c.tc : Thread nD τ).loc main_v82_1) = W8 m ρ c (Proc.devRef .tc main_v82_1)
      ∧ r.2.mem ((c.tc : Thread nD τ).loc main_v82_0) = W8 m ρ c (Proc.devRef .tc main_v82_0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨⟨h c _ (mem_uc main_v82_1 (by decide)), h c _ (mem_uc main_v82_0 (by decide))⟩,
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c),
       (h c _ (mem_uc main_arg10 (by decide))).trans (W8_main_arg10 m ρ c),
       (h c _ (mem_uc main_arg11 (by decide))).trans (W8_main_arg11 m ρ c),
       (h c _ (mem_uc main_arg12 (by decide))).trans (W8_main_arg12 m ρ c),
       (h c _ (mem_uc main_arg13 (by decide))).trans (W8_main_arg13 m ρ c),
       (h c _ (mem_uc main_arg14 (by decide))).trans (W8_main_arg14 m ρ c),
       (h c _ (mem_uc main_arg15 (by decide))).trans (W8_main_arg15 m ρ c),
       (h c _ (mem_uc main_arg16 (by decide))).trans (W8_main_arg16 m ρ c),
       (h c _ (mem_uc main_arg17 (by decide))).trans (W8_main_arg17 m ρ c),
       (h c _ (mem_uc main_arg18 (by decide))).trans (W8_main_arg18 m ρ c),
       (h c _ (mem_uc main_arg19 (by decide))).trans (W8_main_arg19 m ρ c),
       (h c _ (mem_uc main_arg20 (by decide))).trans (W8_main_arg20 m ρ c),
       (h c _ (mem_uc main_arg21 (by decide))).trans (W8_main_arg21 m ρ c),
       (h c _ (mem_uc main_arg22 (by decide))).trans (W8_main_arg22 m ρ c),
       (h c _ (mem_uc main_arg23 (by decide))).trans (W8_main_arg23 m ρ c),
       (h c _ (mem_uc main_arg24 (by decide))).trans (W8_main_arg24 m ρ c),
       (h c _ (mem_uc main_arg25 (by decide))).trans (W8_main_arg25 m ρ c),
       (h c _ (mem_uc main_arg26 (by decide))).trans (W8_main_arg26 m ρ c),
       (h c _ (mem_uc main_arg27 (by decide))).trans (W8_main_arg27 m ρ c),
       (h c _ (mem_uc main_arg28 (by decide))).trans (W8_main_arg28 m ρ c),
       (h c _ (mem_uc main_arg29 (by decide))).trans (W8_main_arg29 m ρ c)⟩)

end Cert.KernelIdeal.Run

end
-- ==== Proof.KerGlue.lean ====
/-
  The host operations between the kernel program's regions, as pure functions.

  From the [2, E] edge list: the source and destination rows; an index below zero wrapped by the table's height
  (the usual reading of a negative index); the degree of a node, 1 + the number of edges arriving at it; the edge
  weight, the product of the inverse square roots of the two end degrees. One graph layer then takes the node
  features already multiplied by the layer's weight and returns, for node v,
  Σ over edges u → v of weight · features(u)  +  features(v) / degree(v)  +  bias.
-/
import proofs.«136469_j28432683499972_1_alg».proof.Proof.Gen.KernelIdeal
import Idealize.ShloMosaic.PureOps.Ideal

noncomputable section

namespace Cert.KernelIdeal.Glue

open Cert.KernelIdeal Cert.KernelIdeal.Gen Idealize.ShloMosaic

/-- Contents of an integer and of a float buffer of a given shape. -/
abbrev CI (s : Shape) : Type := IVec s 32
abbrev CF (s : Shape) : Type := FVec Ideal s .f32

/-- Row 0 and row 1 of the edge list, as vectors. -/
def srcK (ei : CI S2x800000) : CI S800000 :=
  fun i => shapeCast S800000 (extractStridedSlice S1x800000 ![0, 0] ei slices_S2x800000_S1x800000_0_0) shapeCasts_S1x800000_S800000 i
def dstK (ei : CI S2x800000) : CI S800000 :=
  fun i => shapeCast S800000 (extractStridedSlice S1x800000 ![1, 0] ei slices_S2x800000_S1x800000_1_0) shapeCasts_S1x800000_S800000 i

/-- A node index below zero is read from the end of the table. -/
def wrapK (v : CI S800000) : CI S800000 :=
  select (cmpi .slt v (broadcastInDim S800000 ![] bcast_S_S800000 (constantI S_ 32 0#32)))
    (addi v (broadcastInDim S800000 ![] bcast_S_S800000 (constantI S_ 32 50000#32))) v

/-- The index column a gather or a scatter takes. -/
def colK (v : CI S800000) : CI S800000x1 := broadcastInDim S800000x1 ![0] bcast_S800000_S800000x1_0 v

/-- 1 + the number of edges arriving at each node. -/
def degK (dst : CI S800000) : CF S50000 :=
  addf (Host.scatterAdd scatter_S50000_S800000x1_S800000_n_0_0_1
      (broadcastInDim S50000 ![] bcast_S_S50000 (constant (F := Ideal) S_ .f32 0x00000000#32))
      (colK dst)
      (broadcastInDim S800000 ![] bcast_S_S800000 (constant (F := Ideal) S_ .f32 0x3F800000#32)))
    (broadcastInDim S50000 ![] bcast_S_S50000 (constant (F := Ideal) S_ .f32 0x3F800000#32))

/-- The weight of each edge: the inverse square roots of its two end degrees, multiplied. -/
def normK (src dst : CI S800000) (deg : CF S50000) : CF S800000 :=
  mulf (Host.gather gather_S50000_S800000x1_S800000_n_0_n_n_0_1_1 (Host.rsqrt deg) (colK (wrapK src)))
    (Host.gather gather_S50000_S800000x1_S800000_n_0_n_n_0_1_1 (Host.rsqrt deg) (colK (wrapK dst)))

/-- One graph layer on features already multiplied by the layer's weight. -/
def combK (hW : CF S50000x192) (src dst : CI S800000) (norm : CF S800000) (deg : CF S50000) (b : CF S192) : CF S50000x192 :=
  addf
    (addf
      (Host.scatterAdd scatter_S50000x192_S800000x1_S800000x192_1_0_0_1
        (broadcastInDim S50000x192 ![] bcast_S_S50000x192 (constant (F := Ideal) S_ .f32 0x00000000#32))
        (colK dst)
        (mulf (Host.gather gather_S50000x192_S800000x1_S800000x192_1_0_n_n_0_1_1192 hW (colK (wrapK src)))
          (broadcastInDim S800000x192 ![0, 1] bcast_S800000x1_S800000x192_0_1
            (broadcastInDim S800000x1 ![0] bcast_S800000_S800000x1_0 norm))))
      (mulf hW
        (broadcastInDim S50000x192 ![0, 1] bcast_S50000x1_S50000x192_0_1
          (broadcastInDim S50000x1 ![0] bcast_S50000_S50000x1_0
            (Host.divf (broadcastInDim S50000 ![] bcast_S_S50000 (constant (F := Ideal) S_ .f32 0x3F800000#32)) deg)))))
    (broadcastInDim S50000x192 ![0, 1] bcast_S1x192_S50000x192_0_1 (broadcastInDim S1x192 ![1] bcast_S192_S1x192_1 b))

end Cert.KernelIdeal.Glue

end
-- ==== Proof.KerFold.lean ====
/-
  The buffer contents at each region's entry, read back through the segments.

  W0 is the launch memory; a host stretch applies its operations to the contents it finds; a region replaces its
  output arrays by what its write-backs leave and keeps every other buffer. Read back from any later stage, an
  argument array is the launch memory's; the seven bias rows are the bias vectors recast as [1, P] rows; the edge
  rows, the degrees and the edge weights are the glue functions of the edge list; and each graph layer's result is
  the layer function of the region output before it.
-/
import proofs.«136469_j28432683499972_1_alg».proof.Proof.Gen.KernelIdeal.Frame
import proofs.«136469_j28432683499972_1_alg».proof.Proof.KerGlue
import Idealize.ShloMosaic.Lib.StableHlo.Run

set_option maxRecDepth 16384

noncomputable section

namespace Cert.KernelIdeal.Fold

open Cert.KernelIdeal Cert.KernelIdeal.Gen Cert.KernelIdeal.Glue
open Idealize.ShloMosaic Idealize.ShloMosaic.TcCoe Idealize.ShloMosaic.StableHlo Idealize.SL.Sem

variable (m : (ℓ : Loc nD τ sig) → Buf (Elt Ideal) ℓ) (ρ : Dev nD → PrngReg)

/-- Reads a buffer one stage back for as long as the stage in front does not write it: a region keeps every buffer
    that is not one of its arrays, a host stretch every buffer none of its operations writes. What is left is the
    launch memory, or the first stage that does write the buffer. -/
local macro "walk" : tactic => `(tactic| (
  repeat (first
    | (rw [W8_of_ne]; rotate_left; decide)
    | (rw [W6_of_ne]; rotate_left; decide)
    | (rw [W4_of_ne]; rotate_left; decide)
    | (rw [W2_of_ne]; rotate_left; decide)
    | (show StableHlo.after hostOps3 (W6 _ _ _) _ = _; after_results)
    | (show StableHlo.after hostOps2 (W4 _ _ _) _ = _; after_results)
    | (show StableHlo.after hostOps1 (W2 _ _ _) _ = _; after_results)
    | (show StableHlo.after hostOps0 (W0 _ _ _) _ = _; after_results))
  try rfl))

/-! ## Argument arrays, at the stage where each is read -/

theorem W1_arg0 (c : Dev nD) : W1 m ρ c (Proc.devRef .tc main_arg0) = m ((c : Thread nD τ).loc main_arg0) := by walk
theorem W1_arg1 (c : Dev nD) : W1 m ρ c (Proc.devRef .tc main_arg1) = m ((c : Thread nD τ).loc main_arg1) := by walk
theorem W1_arg4 (c : Dev nD) : W1 m ρ c (Proc.devRef .tc main_arg4) = m ((c : Thread nD τ).loc main_arg4) := by walk
theorem W1_arg5 (c : Dev nD) : W1 m ρ c (Proc.devRef .tc main_arg5) = m ((c : Thread nD τ).loc main_arg5) := by walk
theorem W1_arg6 (c : Dev nD) : W1 m ρ c (Proc.devRef .tc main_arg6) = m ((c : Thread nD τ).loc main_arg6) := by walk
theorem W1_arg7 (c : Dev nD) : W1 m ρ c (Proc.devRef .tc main_arg7) = m ((c : Thread nD τ).loc main_arg7) := by walk
theorem W1_arg8 (c : Dev nD) : W1 m ρ c (Proc.devRef .tc main_arg8) = m ((c : Thread nD τ).loc main_arg8) := by walk
theorem W1_arg10 (c : Dev nD) : W1 m ρ c (Proc.devRef .tc main_arg10) = m ((c : Thread nD τ).loc main_arg10) := by walk
theorem W1_arg12 (c : Dev nD) : W1 m ρ c (Proc.devRef .tc main_arg12) = m ((c : Thread nD τ).loc main_arg12) := by walk
theorem W1_arg14 (c : Dev nD) : W1 m ρ c (Proc.devRef .tc main_arg14) = m ((c : Thread nD τ).loc main_arg14) := by walk
theorem W1_arg16 (c : Dev nD) : W1 m ρ c (Proc.devRef .tc main_arg16) = m ((c : Thread nD τ).loc main_arg16) := by walk
theorem W1_arg18 (c : Dev nD) : W1 m ρ c (Proc.devRef .tc main_arg18) = m ((c : Thread nD τ).loc main_arg18) := by walk
theorem W1_arg20 (c : Dev nD) : W1 m ρ c (Proc.devRef .tc main_arg20) = m ((c : Thread nD τ).loc main_arg20) := by walk
theorem W2_arg2 (c : Dev nD) : W2 m ρ c (Proc.devRef .tc main_arg2) = m ((c : Thread nD τ).loc main_arg2) := by walk
theorem W3_arg22 (c : Dev nD) : W3 m ρ c (Proc.devRef .tc main_arg22) = m ((c : Thread nD τ).loc main_arg22) := by walk
theorem W4_arg23 (c : Dev nD) : W4 m ρ c (Proc.devRef .tc main_arg23) = m ((c : Thread nD τ).loc main_arg23) := by walk
theorem W5_arg24 (c : Dev nD) : W5 m ρ c (Proc.devRef .tc main_arg24) = m ((c : Thread nD τ).loc main_arg24) := by walk
theorem W6_arg25 (c : Dev nD) : W6 m ρ c (Proc.devRef .tc main_arg25) = m ((c : Thread nD τ).loc main_arg25) := by walk
theorem W6_arg27 (c : Dev nD) : W6 m ρ c (Proc.devRef .tc main_arg27) = m ((c : Thread nD τ).loc main_arg27) := by walk
theorem W6_arg29 (c : Dev nD) : W6 m ρ c (Proc.devRef .tc main_arg29) = m ((c : Thread nD τ).loc main_arg29) := by walk
set_option maxHeartbeats 1000000 in
theorem W7_arg26 (c : Dev nD) : W7 m ρ c (Proc.devRef .tc main_arg26) = m ((c : Thread nD τ).loc main_arg26) := by walk
set_option maxHeartbeats 1000000 in
theorem W7_arg28 (c : Dev nD) : W7 m ρ c (Proc.devRef .tc main_arg28) = m ((c : Thread nD τ).loc main_arg28) := by walk

/-! ## The first host stretch: the bias vectors recast as rows -/

theorem W1_v0 (c : Dev nD) : W1 m ρ c (Proc.devRef .tc main_v0)
    = fun i => shapeCast S1x32 (m ((c : Thread nD τ).loc main_arg9)) shapeCasts_S32_S1x32 i := by
  show StableHlo.after hostOps0 (W0 m ρ c) (Proc.devRef .tc main_v0) = _
  after_results; rfl
theorem W1_v1 (c : Dev nD) : W1 m ρ c (Proc.devRef .tc main_v1)
    = fun i => shapeCast S1x32 (m ((c : Thread nD τ).loc main_arg11)) shapeCasts_S32_S1x32 i := by
  show StableHlo.after hostOps0 (W0 m ρ c) (Proc.devRef .tc main_v1) = _
  after_results; rfl
theorem W1_v2 (c : Dev nD) : W1 m ρ c (Proc.devRef .tc main_v2)
    = fun i => shapeCast S1x32 (m ((c : Thread nD τ).loc main_arg13)) shapeCasts_S32_S1x32 i := by
  show StableHlo.after hostOps0 (W0 m ρ c) (Proc.devRef .tc main_v2) = _
  after_results; rfl
theorem W1_v3 (c : Dev nD) : W1 m ρ c (Proc.devRef .tc main_v3)
    = fun i => shapeCast S1x32 (m ((c : Thread nD τ).loc main_arg15)) shapeCasts_S32_S1x32 i := by
  show StableHlo.after hostOps0 (W0 m ρ c) (Proc.devRef .tc main_v3) = _
  after_results; rfl
theorem W1_v4 (c : Dev nD) : W1 m ρ c (Proc.devRef .tc main_v4)
    = fun i => shapeCast S1x32 (m ((c : Thread nD τ).loc main_arg17)) shapeCasts_S32_S1x32 i := by
  show StableHlo.after hostOps0 (W0 m ρ c) (Proc.devRef .tc main_v4) = _
  after_results; rfl
theorem W1_v5 (c : Dev nD) : W1 m ρ c (Proc.devRef .tc main_v5)
    = fun i => shapeCast S1x32 (m ((c : Thread nD τ).loc main_arg19)) shapeCasts_S32_S1x32 i := by
  show StableHlo.after hostOps0 (W0 m ρ c) (Proc.devRef .tc main_v5) = _
  after_results; rfl
theorem W1_v6 (c : Dev nD) : W1 m ρ c (Proc.devRef .tc main_v6)
    = fun i => shapeCast S1x192 (m ((c : Thread nD τ).loc main_arg21)) shapeCasts_S192_S1x192 i := by
  show StableHlo.after hostOps0 (W0 m ρ c) (Proc.devRef .tc main_v6) = _
  after_results; rfl

/-! ## The second host stretch: edge rows, degrees, edge weights; the first region's output passes through -/

theorem W3_v7 (c : Dev nD) : W3 m ρ c (Proc.devRef .tc main_v7) = W2 m ρ c (Proc.devRef .tc main_v7) := by
  show StableHlo.after hostOps1 (W2 m ρ c) (Proc.devRef .tc main_v7) = _
  after_results

theorem W3_src (c : Dev nD) : W3 m ρ c (Proc.devRef .tc main_v9) = srcK (m ((c : Thread nD τ).loc main_arg2)) := by
  show StableHlo.after hostOps1 (W2 m ρ c) (Proc.devRef .tc main_v9) = _
  after_results_simp
  rw [W2_arg2]
  unfold srcK
  rfl

theorem W3_dst (c : Dev nD) : W3 m ρ c (Proc.devRef .tc main_v11) = dstK (m ((c : Thread nD τ).loc main_arg2)) := by
  show StableHlo.after hostOps1 (W2 m ρ c) (Proc.devRef .tc main_v11) = _
  after_results_simp
  rw [W2_arg2]
  unfold dstK
  rfl

theorem W3_deg (c : Dev nD) : W3 m ρ c (Proc.devRef .tc main_v17) = degK (dstK (m ((c : Thread nD τ).loc main_arg2))) := by
  show StableHlo.after hostOps1 (W2 m ρ c) (Proc.devRef .tc main_v17) = _
  after_results_simp
  rw [W2_arg2]
  unfold degK colK dstK
  rfl

set_option maxHeartbeats 1000000 in
theorem W3_norm (c : Dev nD) : W3 m ρ c (Proc.devRef .tc main_v33)
    = normK (srcK (m ((c : Thread nD τ).loc main_arg2))) (dstK (m ((c : Thread nD τ).loc main_arg2)))
        (degK (dstK (m ((c : Thread nD τ).loc main_arg2)))) := by
  show StableHlo.after hostOps1 (W2 m ρ c) (Proc.devRef .tc main_v33) = _
  after_results_simp
  rw [W2_arg2]
  unfold normK degK colK wrapK srcK dstK
  rfl

/-! ## The edge buffers are carried unchanged to the later stages -/

theorem W4_src (c : Dev nD) : W4 m ρ c (Proc.devRef .tc main_v9) = srcK (m ((c : Thread nD τ).loc main_arg2)) :=
  (W4_of_ne m ρ c main_v9 (by decide)).trans (W3_src m ρ c)
theorem W4_dst (c : Dev nD) : W4 m ρ c (Proc.devRef .tc main_v11) = dstK (m ((c : Thread nD τ).loc main_arg2)) :=
  (W4_of_ne m ρ c main_v11 (by decide)).trans (W3_dst m ρ c)
theorem W4_deg (c : Dev nD) : W4 m ρ c (Proc.devRef .tc main_v17) = degK (dstK (m ((c : Thread nD τ).loc main_arg2))) :=
  (W4_of_ne m ρ c main_v17 (by decide)).trans (W3_deg m ρ c)
theorem W4_norm (c : Dev nD) : W4 m ρ c (Proc.devRef .tc main_v33)
    = normK (srcK (m ((c : Thread nD τ).loc main_arg2))) (dstK (m ((c : Thread nD τ).loc main_arg2)))
        (degK (dstK (m ((c : Thread nD τ).loc main_arg2)))) :=
  (W4_of_ne m ρ c main_v33 (by decide)).trans (W3_norm m ρ c)

theorem W6_src (c : Dev nD) : W6 m ρ c (Proc.devRef .tc main_v9) = srcK (m ((c : Thread nD τ).loc main_arg2)) := by
  rw [W6_of_ne m ρ c main_v9 (by decide)]
  show StableHlo.after hostOps2 (W4 m ρ c) (Proc.devRef .tc main_v9) = _
  after_results
  exact W4_src m ρ c
theorem W6_dst (c : Dev nD) : W6 m ρ c (Proc.devRef .tc main_v11) = dstK (m ((c : Thread nD τ).loc main_arg2)) := by
  rw [W6_of_ne m ρ c main_v11 (by decide)]
  show StableHlo.after hostOps2 (W4 m ρ c) (Proc.devRef .tc main_v11) = _
  after_results
  exact W4_dst m ρ c
theorem W6_deg (c : Dev nD) : W6 m ρ c (Proc.devRef .tc main_v17) = degK (dstK (m ((c : Thread nD τ).loc main_arg2))) := by
  rw [W6_of_ne m ρ c main_v17 (by decide)]
  show StableHlo.after hostOps2 (W4 m ρ c) (Proc.devRef .tc main_v17) = _
  after_results
  exact W4_deg m ρ c
theorem W6_norm (c : Dev nD) : W6 m ρ c (Proc.devRef .tc main_v33)
    = normK (srcK (m ((c : Thread nD τ).loc main_arg2))) (dstK (m ((c : Thread nD τ).loc main_arg2)))
        (degK (dstK (m ((c : Thread nD τ).loc main_arg2)))) := by
  rw [W6_of_ne m ρ c main_v33 (by decide)]
  show StableHlo.after hostOps2 (W4 m ρ c) (Proc.devRef .tc main_v33) = _
  after_results
  exact W4_norm m ρ c

/-! ## The two graph layers, and the last two bias rows -/

set_option maxHeartbeats 1000000 in
theorem W5_v56 (c : Dev nD) : W5 m ρ c (Proc.devRef .tc main_v56)
    = combK (W4 m ρ c (Proc.devRef .tc main_v34)) (W4 m ρ c (Proc.devRef .tc main_v9)) (W4 m ρ c (Proc.devRef .tc main_v11))
        (W4 m ρ c (Proc.devRef .tc main_v33)) (W4 m ρ c (Proc.devRef .tc main_v17)) (W4 m ρ c (Proc.devRef .tc main_arg23)) := by
  show StableHlo.after hostOps2 (W4 m ρ c) (Proc.devRef .tc main_v56) = _
  after_results_simp
  unfold combK colK wrapK
  rfl

set_option maxHeartbeats 1000000 in
theorem W7_v79 (c : Dev nD) : W7 m ρ c (Proc.devRef .tc main_v79)
    = combK (W6 m ρ c (Proc.devRef .tc main_v57)) (W6 m ρ c (Proc.devRef .tc main_v9)) (W6 m ρ c (Proc.devRef .tc main_v11))
        (W6 m ρ c (Proc.devRef .tc main_v33)) (W6 m ρ c (Proc.devRef .tc main_v17)) (W6 m ρ c (Proc.devRef .tc main_arg25)) := by
  show StableHlo.after hostOps3 (W6 m ρ c) (Proc.devRef .tc main_v79) = _
  after_results_simp
  unfold combK colK wrapK
  rfl

theorem W7_v80 (c : Dev nD) : W7 m ρ c (Proc.devRef .tc main_v80)
    = fun i => shapeCast S1x96 (m ((c : Thread nD τ).loc main_arg27)) shapeCasts_S96_S1x96 i := by
  show StableHlo.after hostOps3 (W6 m ρ c) (Proc.devRef .tc main_v80) = _
  after_results_simp
  rw [W6_arg27]
  rfl

theorem W7_v81 (c : Dev nD) : W7 m ρ c (Proc.devRef .tc main_v81)
    = fun i => shapeCast S1x2 (m ((c : Thread nD τ).loc main_arg29)) shapeCasts_S2_S1x2 i := by
  show StableHlo.after hostOps3 (W6 m ρ c) (Proc.devRef .tc main_v81) = _
  after_results_simp
  rw [W6_arg29]
  rfl

end Cert.KernelIdeal.Fold

end
-- ==== Proof.Spec.lean ====
/-
  The network both programs compute, written once, index by index, on the extended reals.

  Every dense layer is  y(p, q) = Σₖ x(p, k) · W(q, k) + β(q)  (the weight is stored [out, in], so the product is
  with its transpose), followed or not by the leaky rectifier  y ↦ y if 0 ≤ y, else y · s  with the slope word
  s = 0x3C23D70A.  Six such layers of width 32 are laid side by side into 192 columns (column j of the result is
  column j mod 32 of piece j div 32), and a seventh layer of width 192 reads that row.  All of it is row-local:
  row p of a result depends on row p of the inputs only, which is what lets a program compute it one block of
  rows at a time.
-/
import Idealize.ShloMosaic.PureOps.Ideal
import Idealize.ShloMosaic.Lib.ValueIdx

noncomputable section

namespace Cert.Spec

open Idealize.ShloMosaic Idealize.ShloMosaic.ValueIdx
open scoped BigOperators

/-- An [a, b] array of extended reals. -/
abbrev Arr2 (a b : Nat) : Type := FVec Ideal (⟨2, ![a, b]⟩ : Shape) .f32

/-- The zero word and the slope word, as extended reals. -/
def zero32 : EReal := Ideal.ofBits .f32 0x00000000#32
def slope : EReal := Ideal.ofBits .f32 0x3C23D70A#32

/-- The leaky rectifier: y where 0 ≤ y, y · slope elsewhere. -/
def lrelu (y : EReal) : EReal :=
  Scalar.select (FloatOps.cmpf (F := Ideal) (φ := .f32) .oge y zero32) y (y * slope)

/-- Entry (p, q) of x · Wᵀ. -/
def mulTAt {M K P : Nat} (x : Arr2 M K) (W : Arr2 P K) (p : Fin M) (q : Fin P) : EReal :=
  ∑ k : Fin K, x (ix2 p k) * W (ix2 q k)

/-- x · Wᵀ. -/
def mulT {M K P : Nat} (x : Arr2 M K) (W : Arr2 P K) : Arr2 M P :=
  fun i => mulTAt x W (i 0) (i 1)

/-- x · Wᵀ + β, the bias added along each row. -/
def lin {M K P : Nat} (x : Arr2 M K) (W : Arr2 P K) (β : Fin P → EReal) : Arr2 M P :=
  fun i => mulTAt x W (i 0) (i 1) + β (i 1)

/-- The rectified layer. -/
def act {M K P : Nat} (x : Arr2 M K) (W : Arr2 P K) (β : Fin P → EReal) : Arr2 M P :=
  fun i => lrelu (mulTAt x W (i 0) (i 1) + β (i 1))

/-- A bias held as a [1, P] row, and as a length-P vector, read as a function of the column. -/
def row {P : Nat} (b : Arr2 1 P) : Fin P → EReal := fun q => b (ix2 0 q)
def vec {P : Nat} (b : FVec Ideal (⟨1, ![P]⟩ : Shape) .f32) : Fin P → EReal := fun q => b (ix1 q)

/-- Piece number n of six. -/
def pick6 {α : Type} (a0 a1 a2 a3 a4 a5 : α) : Nat → α
  | 0 => a0 | 1 => a1 | 2 => a2 | 3 => a3 | 4 => a4 | _ => a5

/-- Six [M, 32] arrays side by side. -/
def cat6 {M : Nat} (a0 a1 a2 a3 a4 a5 : Arr2 M 32) : Arr2 M 192 :=
  fun i => pick6 a0 a1 a2 a3 a4 a5 ((i 1).val / 32) (ix2 (i 0) ⟨(i 1).val % 32, Nat.mod_lt _ (by decide)⟩)

/-- The first stage: six rectified layers of width 32 — on the five numeric properties, the category, the
    description, the tweets, and the two text embeddings, in that column order — then a rectified layer of width 192. -/
def stage0 {M : Nat} (des pre x tw : Arr2 M 768) (np : Arr2 M 5) (nc : Arr2 M 1)
    (Wdes Wpre Wx Wtw : Arr2 32 768) (Wnp : Arr2 32 5) (Wnc : Arr2 32 1) (Win : Arr2 192 192)
    (bdes bpre bx btw bnp bnc : Fin 32 → EReal) (bin : Fin 192 → EReal) : Arr2 M 192 :=
  act (cat6 (act np Wnp bnp) (act nc Wnc bnc) (act des Wdes bdes) (act tw Wtw btw) (act pre Wpre bpre) (act x Wx bx)) Win bin

theorem mulT_apply {M K P : Nat} (x : Arr2 M K) (W : Arr2 P K) (p : Fin M) (q : Fin P) :
    mulT x W (ix2 p q) = ∑ k : Fin K, x (ix2 p k) * W (ix2 q k) := rfl

theorem lin_apply {M K P : Nat} (x : Arr2 M K) (W : Arr2 P K) (β : Fin P → EReal) (p : Fin M) (q : Fin P) :
    lin x W β (ix2 p q) = (∑ k : Fin K, x (ix2 p k) * W (ix2 q k)) + β q := rfl

theorem act_apply {M K P : Nat} (x : Arr2 M K) (W : Arr2 P K) (β : Fin P → EReal) (p : Fin M) (q : Fin P) :
    act x W β (ix2 p q) = lrelu ((∑ k : Fin K, x (ix2 p k) * W (ix2 q k)) + β q) := rfl

theorem cat6_apply {M : Nat} (a0 a1 a2 a3 a4 a5 : Arr2 M 32) (p : Fin M) (j : Fin 192) :
    cat6 a0 a1 a2 a3 a4 a5 (ix2 p j)
      = pick6 a0 a1 a2 a3 a4 a5 (j.val / 32) (ix2 p ⟨j.val % 32, Nat.mod_lt _ (by decide)⟩) := rfl

end Cert.Spec

end
-- ==== Proof.LibPlainDot.lean ====
/-
  A plain matrix product read at an index, on the extended reals.

  For dimension numbers that contract the left operand's second axis against the right operand's first — an
  [M, K] array times a [K, P] array — the product into a zero accumulator, read at row `p` and column `q`, is
  `Σ k, l (p, k) · r (k, q)` over the K contraction coordinates. The contraction's index set has one axis; the sum is
  re-indexed through that axis's coordinate. The two facts about the free axes (the left index keeps the row, the right
  index keeps the column) are taken as hypotheses, since for given dimension numbers they hold by computation.
-/
import Idealize.ShloMosaic.PureOps.Ideal.Laws
import Idealize.ShloMosaic.Lib.ValueIdx

noncomputable section

open scoped BigOperators

namespace Cert.LibPlainDot

open Idealize.ShloMosaic Idealize.ShloMosaic.ValueIdx

/-- The matrix product into the zero accumulator at (p, q) is the sum over the contraction coordinate of the left
    operand at (p, k) times the right operand at (k, q). -/
theorem matmul_zero_apply {M K P : ℕ} {φ₁ φ₂ : FTy}
    (D : DotDims ⟨2, ![M, K]⟩ ⟨2, ![K, P]⟩ ⟨2, ![M, P]⟩)
    (hlc : D.lhsContracting = [1]) (hrc : D.rhsContracting = [0])
    (hl0 : ∀ (j : (⟨2, ![M, P]⟩ : Shape).Idx) (c : D.contr.Idx), (D.lhsIdx j c 0).val = (j 0).val)
    (hr1 : ∀ (j : (⟨2, ![M, P]⟩ : Shape).Idx) (c : D.contr.Idx), (D.rhsIdx j c 1).val = (j 1).val)
    (hrank : D.contr.rank = 1) (hsize : D.contr.size ⟨0, by omega⟩ = K)
    (prec : Option ContractPrecision)
    (l : FVec Ideal ⟨2, ![M, K]⟩ φ₁) (r : FVec Ideal ⟨2, ![K, P]⟩ φ₂) (p : Fin M) (q : Fin P) :
    FloatOps.matmul D prec l r (constant ⟨2, ![M, P]⟩ .f32 0x00000000#32) (ix2 p q)
      = ∑ k : Fin K, l (ix2 p k) * r (ix2 k q) := by
  rw [Ideal.matmul_constant_zero_apply, ← Equiv.sum_comp (contrEquiv1 D K hrank hsize).symm]
  refine Finset.sum_congr rfl fun k _ => ?_
  have hk := contrEquiv1_symm_val D K hrank hsize k
  have el : D.lhsIdx (ix2 p q) ((contrEquiv1 D K hrank hsize).symm k) = ix2 p k := funext fun a => Fin.ext (by
    match a with
    | ⟨0, _⟩ => exact hl0 _ _
    | ⟨1, _⟩ => exact (D.lhsIdx_val_of_single hlc _ _).trans hk)
  have er : D.rhsIdx (ix2 p q) ((contrEquiv1 D K hrank hsize).symm k) = ix2 k q := funext fun a => Fin.ext (by
    match a with
    | ⟨0, _⟩ => exact (D.rhsIdx_val_of_single hrc _ _).trans hk
    | ⟨1, _⟩ => exact hr1 _ _)
  rw [el, er]

end Cert.LibPlainDot

end
-- ==== Proof.KerBranchPay.lean ====
/-
  The first stage's block of rows, as the kernel computes it, is the network's first stage of the blocks it reads.

  Each of the six narrow layers, and the wide one after them, is the same term: cast the rows and the weight to the
  narrow format (the identity on the extended reals), transpose the weight, multiply into a zero accumulator, lay the
  bias row under every row, and rectify with  y ↦ y if 0 ≤ y, else y · s.  Read at row p and column q that term is
  the rectifier of  Σₖ x(p, k) · W(q, k) + b(0, q).  The six narrow results are laid side by side in the order
  numeric properties, category, description, tweets, and the two text embeddings; column j of the concatenation is
  column j mod 32 of piece j div 32.
-/
import proofs.«136469_j28432683499972_1_alg».proof.Proof.Gen.KernelIdeal.Frame
import proofs.«136469_j28432683499972_1_alg».proof.Proof.Spec
import proofs.«136469_j28432683499972_1_alg».proof.Proof.LibPlainDot
import Idealize.ShloMosaic.Lib.Pipeline.Value
import Idealize.ShloMosaic.Lib.ValueLayout

noncomputable section

namespace Cert.KernelIdeal.RegVal0

open Idealize.ShloMosaic Idealize.ShloMosaic.ValueIdx Idealize.ShloMosaic.TcCoe Idealize.SL.Sem
open Cert.KernelIdeal Cert.KernelIdeal.Gen
open scoped BigOperators

/-- The rectifier as the kernel writes it: keep y where 0 ≤ y, take y · s elsewhere. -/
def reluT {s : Shape} (y : FVec Ideal s .f32) : FVec Ideal s .f32 :=
  select (cmpf .oge y (broadcast s (Scalar.ofBits (F := Ideal) .f32 0x00000000#32))) y
    (mulf y (broadcast s (Scalar.ofBits (F := Ideal) .f32 0x3C23D70A#32)))

theorem reluT_apply {s : Shape} (y : FVec Ideal s .f32) (i : s.Idx) : reluT y i = Spec.lrelu (y i) := rfl

/-- The product with the transposed weight: the casts to the narrow format are the identity on the extended reals,
    the transposed weight at (k, q) is the weight at (q, k), and the product into the zero accumulator is the sum
    over the contraction coordinate. -/
theorem mm_apply {M K P : ℕ} (D : DotDims ⟨2, ![M, K]⟩ ⟨2, ![K, P]⟩ ⟨2, ![M, P]⟩)
    (hlc : D.lhsContracting = [1]) (hrc : D.rhsContracting = [0])
    (hl0 : ∀ (j : (⟨2, ![M, P]⟩ : Shape).Idx) (c : D.contr.Idx), (D.lhsIdx j c 0).val = (j 0).val)
    (hr1 : ∀ (j : (⟨2, ![M, P]⟩ : Shape).Idx) (c : D.contr.Idx), (D.rhsIdx j c 1).val = (j 1).val)
    (hrank : D.contr.rank = 1) (hsize : D.contr.size ⟨0, by omega⟩ = K)
    (x : FVec Ideal ⟨2, ![M, K]⟩ .f32) (W : FVec Ideal ⟨2, ![P, K]⟩ .f32)
    (hb : FTy.bf16.bits < FTy.f32.bits)
    (hT : (⟨2, ![P, K]⟩ : Shape).Transposes [1, 0] ⟨2, ![K, P]⟩) (p : Fin M) (q : Fin P) :
    matmul D none (truncf .bf16 x hb) (transpose ⟨2, ![K, P]⟩ [1, 0] (truncf .bf16 W hb) hT)
        (constant ⟨2, ![M, P]⟩ .f32 0x00000000#32) (ix2 p q)
      = Spec.mulTAt x W p q := by
  refine (LibPlainDot.matmul_zero_apply D hlc hrc hl0 hr1 hrank hsize none _ _ p q).trans ?_
  refine Finset.sum_congr rfl fun k _ => ?_
  rw [truncf_apply, transpose_apply [1, 0] _ hT (ix2 k q) (ix2 q k)
    (fun b => by match b with | ⟨0, _⟩ => rfl | ⟨1, _⟩ => rfl), truncf_apply]

/-- A bias row laid under every row of the block: entry (p, q) is the row's entry q. -/
theorem bias_apply {M P : ℕ} (b : FVec Ideal ⟨2, ![1, P]⟩ .f32)
    (hC : (⟨2, ![1, P]⟩ : Shape).ShapeCasts ⟨2, ![1, P]⟩) (hB : (⟨2, ![1, P]⟩ : Shape).Broadcasts ⟨2, ![M, P]⟩)
    (p : Fin M) (q : Fin P) :
    broadcastTo ⟨2, ![M, P]⟩ (shapeCast ⟨2, ![1, P]⟩ b hC) hB (ix2 p q) = Spec.row b q := by
  rw [shapeCast_self]
  exact broadcastTo_apply b hB (ix2 p q) (ix2 0 q) (fun a => by
    match a with
    | ⟨0, _⟩ => rfl
    | ⟨1, _⟩ =>
      show q.val = if P = 1 then 0 else q.val
      split_ifs with h
      · have := q.isLt; omega
      · rfl)

/-- One dense layer before the rectifier, as the kernel writes it. -/
def linT {M K P : ℕ} (D : DotDims ⟨2, ![M, K]⟩ ⟨2, ![K, P]⟩ ⟨2, ![M, P]⟩)
    (x : FVec Ideal ⟨2, ![M, K]⟩ .f32) (W : FVec Ideal ⟨2, ![P, K]⟩ .f32) (b : FVec Ideal ⟨2, ![1, P]⟩ .f32)
    (hb : FTy.bf16.bits < FTy.f32.bits) (hT : (⟨2, ![P, K]⟩ : Shape).Transposes [1, 0] ⟨2, ![K, P]⟩)
    (hC : (⟨2, ![1, P]⟩ : Shape).ShapeCasts ⟨2, ![1, P]⟩) (hB : (⟨2, ![1, P]⟩ : Shape).Broadcasts ⟨2, ![M, P]⟩) :
    FVec Ideal ⟨2, ![M, P]⟩ .f32 :=
  addf (matmul D none (truncf .bf16 x hb) (transpose ⟨2, ![K, P]⟩ [1, 0] (truncf .bf16 W hb) hT)
      (constant ⟨2, ![M, P]⟩ .f32 0x00000000#32))
    (broadcastTo ⟨2, ![M, P]⟩ (shapeCast ⟨2, ![1, P]⟩ b hC) hB)

/-- The rectified layer, as the kernel writes it, is the network's rectified layer. -/
theorem relu_linT {M K P : ℕ} (D : DotDims ⟨2, ![M, K]⟩ ⟨2, ![K, P]⟩ ⟨2, ![M, P]⟩)
    (hlc : D.lhsContracting = [1]) (hrc : D.rhsContracting = [0])
    (hl0 : ∀ (j : (⟨2, ![M, P]⟩ : Shape).Idx) (c : D.contr.Idx), (D.lhsIdx j c 0).val = (j 0).val)
    (hr1 : ∀ (j : (⟨2, ![M, P]⟩ : Shape).Idx) (c : D.contr.Idx), (D.rhsIdx j c 1).val = (j 1).val)
    (hrank : D.contr.rank = 1) (hsize : D.contr.size ⟨0, by omega⟩ = K)
    (x : FVec Ideal ⟨2, ![M, K]⟩ .f32) (W : FVec Ideal ⟨2, ![P, K]⟩ .f32) (b : FVec Ideal ⟨2, ![1, P]⟩ .f32)
    (hb : FTy.bf16.bits < FTy.f32.bits) (hT : (⟨2, ![P, K]⟩ : Shape).Transposes [1, 0] ⟨2, ![K, P]⟩)
    (hC : (⟨2, ![1, P]⟩ : Shape).ShapeCasts ⟨2, ![1, P]⟩) (hB : (⟨2, ![1, P]⟩ : Shape).Broadcasts ⟨2, ![M, P]⟩) :
    reluT (linT D x W b hb hT hC hB) = Spec.act x W (Spec.row b) := by
  funext j
  obtain ⟨p, q, rfl⟩ : ∃ (p : Fin M) (q : Fin P), j = ix2 p q := ⟨j 0, j 1, eq_ix2 j⟩
  refine (reluT_apply _ _).trans (congrArg Spec.lrelu ?_)
  unfold linT
  rw [addf_apply, mm_apply D hlc hrc hl0 hr1 hrank hsize x W hb hT p q, bias_apply b hC hB p q]
  rfl

/-- Six blocks of width 32, as the list the concatenation takes. -/
abbrev six {M : ℕ} (a0 a1 a2 a3 a4 a5 : FVec Ideal ⟨2, ![M, 32]⟩ .f32) : List ((s : Shape) × (s.Idx → Ideal .f32)) :=
  [⟨⟨2, ![M, 32]⟩, a0⟩, ⟨⟨2, ![M, 32]⟩, a1⟩, ⟨⟨2, ![M, 32]⟩, a2⟩, ⟨⟨2, ![M, 32]⟩, a3⟩, ⟨⟨2, ![M, 32]⟩, a4⟩, ⟨⟨2, ![M, 32]⟩, a5⟩]

/-- Six blocks of width 32 side by side: column j is column j mod 32 of piece j div 32. -/
theorem cat_apply {M : ℕ} (a0 a1 a2 a3 a4 a5 : FVec Ideal ⟨2, ![M, 32]⟩ .f32)
    (h : Shape.Concatenates ((six a0 a1 a2 a3 a4 a5).map (·.1)) ⟨2, ![M, 192]⟩ 1) :
    concatenate (⟨2, ![M, 192]⟩ : Shape) 1 (six a0 a1 a2 a3 a4 a5) h = Spec.cat6 a0 a1 a2 a3 a4 a5 := by
  funext j
  obtain ⟨p, q, rfl⟩ : ∃ (p : Fin M) (q : Fin 192), j = ix2 p q := ⟨j 0, j 1, eq_ix2 j⟩
  rw [Spec.cat6_apply]
  have hq := q.isLt
  have hi : ∀ (r : Fin 32) (b : Fin (⟨2, ![M, 32]⟩ : Shape).rank), b.cast (rfl : (2 : ℕ) = 2) ≠ (1 : Fin 2) →
      ((ix2 p r : (⟨2, ![M, 32]⟩ : Shape).Idx) b).val = ((ix2 p q : (⟨2, ![M, 192]⟩ : Shape).Idx) (b.cast rfl)).val := fun r b hb => by
    match b, hb with
    | ⟨0, _⟩, _ => rfl
    | ⟨1, _⟩, hb => exact absurd rfl hb
  obtain h0 | h1 | h2 | h3 | h4 | h5 : q.val / 32 = 0 ∨ q.val / 32 = 1 ∨ q.val / 32 = 2 ∨ q.val / 32 = 3
      ∨ q.val / 32 = 4 ∨ q.val / 32 = 5 := by omega
  · rw [h0]
    exact concatenate_apply_piece 1 (six a0 a1 a2 a3 a4 a5) h (ix2 p q) 0 (by show 0 < 6; omega) _ a0 rfl rfl 0 rfl
      (ix2 p ⟨q.val % 32, _⟩) (hi _) (by show 0 + q.val % 32 = q.val; omega)
  · rw [h1]
    exact concatenate_apply_piece 1 (six a0 a1 a2 a3 a4 a5) h (ix2 p q) 1 (by show 1 < 6; omega) _ a1 rfl rfl 32 rfl
      (ix2 p ⟨q.val % 32, _⟩) (hi _) (by show 32 + q.val % 32 = q.val; omega)
  · rw [h2]
    exact concatenate_apply_piece 1 (six a0 a1 a2 a3 a4 a5) h (ix2 p q) 2 (by show 2 < 6; omega) _ a2 rfl rfl 64 rfl
      (ix2 p ⟨q.val % 32, _⟩) (hi _) (by show 64 + q.val % 32 = q.val; omega)
  · rw [h3]
    exact concatenate_apply_piece 1 (six a0 a1 a2 a3 a4 a5) h (ix2 p q) 3 (by show 3 < 6; omega) _ a3 rfl rfl 96 rfl
      (ix2 p ⟨q.val % 32, _⟩) (hi _) (by show 96 + q.val % 32 = q.val; omega)
  · rw [h4]
    exact concatenate_apply_piece 1 (six a0 a1 a2 a3 a4 a5) h (ix2 p q) 4 (by show 4 < 6; omega) _ a4 rfl rfl 128 rfl
      (ix2 p ⟨q.val % 32, _⟩) (hi _) (by show 128 + q.val % 32 = q.val; omega)
  · rw [h5]
    exact concatenate_apply_piece 1 (six a0 a1 a2 a3 a4 a5) h (ix2 p q) 5 (by show 5 < 6; omega) _ a5 rfl rfl 160 rfl
      (ix2 p ⟨q.val % 32, _⟩) (hi _) (by show 160 + q.val % 32 = q.val; omega)

/-! ## The nine payloads -/

theorem pay2_eq (x : Vec Ideal S1000x768 .f32) (W : Vec Ideal S32x768 .f32) (b : Vec Ideal S1x32 .f32) :
    k0_pay2 (F := Ideal) x W b = Spec.act (M := 1000) (K := 768) (P := 32) x W (Spec.row b) :=
  (rfl : k0_pay2 (F := Ideal) x W b = reluT (linT dot_S1000x768_S768x32_S1000x32_1_0_0_1_n_n x W b bitsLt_bf16_f32
      transposes_S32x768_p1_0_S768x32 shapeCasts_S1x32_S1x32 broadcasts_S1x32_S1000x32)).trans
    (relu_linT _ rfl rfl (fun _ _ => rfl) (fun _ _ => rfl) rfl rfl x W b _ _ _ _)

theorem pay3_eq (x : Vec Ideal S1000x768 .f32) (W : Vec Ideal S32x768 .f32) (b : Vec Ideal S1x32 .f32) :
    k0_pay3 (F := Ideal) x W b = Spec.act (M := 1000) (K := 768) (P := 32) x W (Spec.row b) :=
  (rfl : k0_pay3 (F := Ideal) x W b = reluT (linT dot_S1000x768_S768x32_S1000x32_1_0_0_1_n_n x W b bitsLt_bf16_f32
      transposes_S32x768_p1_0_S768x32 shapeCasts_S1x32_S1x32 broadcasts_S1x32_S1000x32)).trans
    (relu_linT _ rfl rfl (fun _ _ => rfl) (fun _ _ => rfl) rfl rfl x W b _ _ _ _)

theorem pay54_eq (x : Vec Ideal S1000x768 .f32) (W : Vec Ideal S32x768 .f32) (b : Vec Ideal S1x32 .f32) :
    k0_pay5 (F := Ideal) (k0_pay4 x W) b = Spec.act (M := 1000) (K := 768) (P := 32) x W (Spec.row b) :=
  (rfl : k0_pay5 (F := Ideal) (k0_pay4 x W) b = reluT (linT dot_S1000x768_S768x32_S1000x32_1_0_0_1_n_n x W b bitsLt_bf16_f32
      transposes_S32x768_p1_0_S768x32 shapeCasts_S1x32_S1x32 broadcasts_S1x32_S1000x32)).trans
    (relu_linT _ rfl rfl (fun _ _ => rfl) (fun _ _ => rfl) rfl rfl x W b _ _ _ _)

theorem pay6_eq (x : Vec Ideal S1000x5 .f32) (W : Vec Ideal S32x5 .f32) (b : Vec Ideal S1x32 .f32) :
    k0_pay6 (F := Ideal) x W b = Spec.act (M := 1000) (K := 5) (P := 32) x W (Spec.row b) :=
  (rfl : k0_pay6 (F := Ideal) x W b = reluT (linT dot_S1000x5_S5x32_S1000x32_1_0_0_1_n_n x W b bitsLt_bf16_f32
      transposes_S32x5_p1_0_S5x32 shapeCasts_S1x32_S1x32 broadcasts_S1x32_S1000x32)).trans
    (relu_linT _ rfl rfl (fun _ _ => rfl) (fun _ _ => rfl) rfl rfl x W b _ _ _ _)

theorem pay789_eq (x : Vec Ideal S1000x1 .f32) (W : Vec Ideal S32x1 .f32) (b : Vec Ideal S1x32 .f32) :
    select (k0_pay8 (F := Ideal) x W b) (k0_pay7 (F := Ideal) x W b) (k0_pay9 (F := Ideal) x W b)
      = Spec.act (M := 1000) (K := 1) (P := 32) x W (Spec.row b) :=
  (rfl : select (k0_pay8 (F := Ideal) x W b) (k0_pay7 (F := Ideal) x W b) (k0_pay9 (F := Ideal) x W b)
      = reluT (linT dot_S1000x1_S1x32_S1000x32_1_0_0_1_n_n x W b bitsLt_bf16_f32
      transposes_S32x1_p1_0_S1x32 shapeCasts_S1x32_S1x32 broadcasts_S1x32_S1000x32)).trans
    (relu_linT _ rfl rfl (fun _ _ => rfl) (fun _ _ => rfl) rfl rfl x W b _ _ _ _)

/-- The store's payload: the sixth narrow layer, the six laid side by side, and the wide rectified layer. -/
theorem pay1_eq (v14 v29 v44 v59 v69 : FVec Ideal S1000x32 .f32) (v71 : IVec S1000x32 1) (v73 : FVec Ideal S1000x32 .f32)
    (tw : Vec Ideal S1000x768 .f32) (Wtw : Vec Ideal S32x768 .f32) (btw : Vec Ideal S1x32 .f32)
    (Win : Vec Ideal S192x192 .f32) (bin : Vec Ideal S1x192 .f32) :
    k0_pay1 (F := Ideal) v14 v29 v44 v59 v69 v71 v73 tw Wtw btw Win bin
      = Spec.act (M := 1000) (K := 192) (P := 192)
          (Spec.cat6 v59 (select v71 v69 v73) v14 (Spec.act (M := 1000) (K := 768) (P := 32) tw Wtw (Spec.row btw)) v29 v44)
          Win (Spec.row bin) := by
  refine (rfl : k0_pay1 (F := Ideal) v14 v29 v44 v59 v69 v71 v73 tw Wtw btw Win bin
      = reluT (linT dot_S1000x192_S192x192_S1000x192_1_0_0_1_n_n
          (concatenate S1000x192 1 (six v59 (select v71 v69 v73) v14
              (reluT (linT dot_S1000x768_S768x32_S1000x32_1_0_0_1_n_n tw Wtw btw bitsLt_bf16_f32
                transposes_S32x768_p1_0_S768x32 shapeCasts_S1x32_S1x32 broadcasts_S1x32_S1000x32)) v29 v44)
            concatenates_S1000x32_S1000x32_S1000x32_S1000x32_S1000x32_S1000x32_S1000x192_d1)
          Win bin bitsLt_bf16_f32 transposes_S192x192_p1_0_S192x192 shapeCasts_S1x192_S1x192
          broadcasts_S1x192_S1000x192)).trans ?_
  refine (relu_linT dot_S1000x192_S192x192_S1000x192_1_0_0_1_n_n rfl rfl (fun _ _ => rfl) (fun _ _ => rfl) rfl rfl
    _ Win bin _ _ _ _).trans ?_
  refine congrArg (fun z => Spec.act (M := 1000) (K := 192) (P := 192) z Win (Spec.row bin)) ?_
  refine (cat_apply _ _ _ _ _ _ _).trans ?_
  refine congrArg (fun z => Spec.cat6 v59 (select v71 v69 v73) v14 z v29 v44) ?_
  exact relu_linT dot_S1000x768_S768x32_S1000x32_1_0_0_1_n_n rfl rfl (fun _ _ => rfl) (fun _ _ => rfl) rfl rfl
    tw Wtw btw _ _ _ _

theorem hz : (![0, 0] : Fin 2 → Nat) = fun _ => 0 := funext fun a => by fin_cases a <;> rfl

/-- What the body leaves in the output's block is the first stage of the blocks it read. -/
theorem pay0_eq (x0 x1 x2 x5 : Vec Ideal S1000x768 .f32) (x3 : Vec Ideal S1000x5 .f32) (x4 : Vec Ideal S1000x1 .f32)
    (x6 x8 x10 x16 : Vec Ideal S32x768 .f32) (x7 x9 x11 x13 x15 x17 : Vec Ideal S1x32 .f32)
    (x12 : Vec Ideal S32x5 .f32) (x14 : Vec Ideal S32x1 .f32) (x18 : Vec Ideal S192x192 .f32) (x19 : Vec Ideal S1x192 .f32) :
    Gen.out0_20 (F := Ideal) x0 x1 x2 x3 x4 x5 x6 x7 x8 x9 x10 x11 x12 x13 x14 x15 x16 x17 x18 x19
      = Spec.stage0 (M := 1000) x0 x1 x2 x5 x3 x4 x6 x8 x10 x16 x12 x14 x18
          (Spec.row x7) (Spec.row x9) (Spec.row x11) (Spec.row x17) (Spec.row x13) (Spec.row x15) (Spec.row x19) := by
  unfold Gen.out0_20
  rw [View.canon_unit_zero hz]
  simp only [View.ld_unit_zero (S := S1000x768) hz, View.ld_unit_zero (S := S32x768) hz, View.ld_unit_zero (S := S1x32) hz,
    View.ld_unit_zero (S := S1000x5) hz, View.ld_unit_zero (S := S32x5) hz, View.ld_unit_zero (S := S1000x1) hz,
    View.ld_unit_zero (S := S32x1) hz, View.ld_unit_zero (S := S192x192) hz, View.ld_unit_zero (S := S1x192) hz]
  rw [pay1_eq, pay789_eq, pay2_eq, pay3_eq, pay54_eq, pay6_eq]
  rfl

end Cert.KernelIdeal.RegVal0

end
-- ==== Proof.KerBranch.lean ====
/-
  The first region of the tiled program as a function of whole arrays.

  Grid point t of the fifty reads rows 1000·t … 1000·t + 999 of the six input arrays, the seven weights and the
  seven bias rows whole, and writes the same rows of the result. What it writes is the network's first stage of
  the blocks it read. Every layer of that stage reads row p of its input only — entry (p, q) of x · Wᵀ is
  Σₖ x(p, k) · W(q, k), the bias and the rectifier act entry by entry, and laying six results side by side keeps
  the row — so the block of the result is the block of the first stage of the whole arrays, and the fifty blocks
  tile the 50000 rows.
-/
import proofs.«136469_j28432683499972_1_alg».proof.Proof.Gen.KernelIdeal.Frame
import proofs.«136469_j28432683499972_1_alg».proof.Proof.Spec
import proofs.«136469_j28432683499972_1_alg».proof.Proof.KerBranchPay
import Idealize.ShloMosaic.Lib.Pipeline.Value
import Idealize.ShloMosaic.Lib.ValueIdx

set_option maxRecDepth 16384

noncomputable section

namespace Cert.KernelIdeal.RegVal0

open Cert.KernelIdeal Cert.KernelIdeal.Gen Idealize.ShloMosaic Idealize.ShloMosaic.TcCoe Idealize.ShloMosaic.ValueIdx
open Idealize.ShloMosaic.Pipeline (Dat)
open scoped BigOperators

/-! ## Row-locality of the first stage -/

/-- Entry (p, q) of a rectified layer reads row p of its input: if row p of one input is row r of another, the two
    layers (same weight, same bias) agree at (p, q) and (r, q). -/
theorem act_rows {M N K P : ℕ} (x' : Spec.Arr2 M K) (x : Spec.Arr2 N K) (W : Spec.Arr2 P K) (β : Fin P → EReal)
    (p : Fin M) (r : Fin N) (hx : ∀ k : Fin K, x' (ix2 p k) = x (ix2 r k)) (q : Fin P) :
    Spec.act x' W β (ix2 p q) = Spec.act x W β (ix2 r q) := by
  rw [Spec.act_apply, Spec.act_apply]
  exact congrArg (fun s => Spec.lrelu (s + β q)) (Finset.sum_congr rfl fun k _ => by rw [hx k])

/-- Six blocks side by side keep the row: column j of row p is column j mod 32 of row p of piece j div 32. -/
theorem cat6_rows {M N : ℕ} (a0' a1' a2' a3' a4' a5' : Spec.Arr2 M 32) (a0 a1 a2 a3 a4 a5 : Spec.Arr2 N 32)
    (p : Fin M) (r : Fin N)
    (h0 : ∀ s : Fin 32, a0' (ix2 p s) = a0 (ix2 r s)) (h1 : ∀ s : Fin 32, a1' (ix2 p s) = a1 (ix2 r s))
    (h2 : ∀ s : Fin 32, a2' (ix2 p s) = a2 (ix2 r s)) (h3 : ∀ s : Fin 32, a3' (ix2 p s) = a3 (ix2 r s))
    (h4 : ∀ s : Fin 32, a4' (ix2 p s) = a4 (ix2 r s)) (h5 : ∀ s : Fin 32, a5' (ix2 p s) = a5 (ix2 r s))
    (j : Fin 192) :
    Spec.cat6 a0' a1' a2' a3' a4' a5' (ix2 p j) = Spec.cat6 a0 a1 a2 a3 a4 a5 (ix2 r j) := by
  rw [Spec.cat6_apply, Spec.cat6_apply]
  have hj := j.isLt
  obtain h | h | h | h | h | h : j.val / 32 = 0 ∨ j.val / 32 = 1 ∨ j.val / 32 = 2 ∨ j.val / 32 = 3
      ∨ j.val / 32 = 4 ∨ j.val / 32 = 5 := by omega
  · rw [h]; exact h0 _
  · rw [h]; exact h1 _
  · rw [h]; exact h2 _
  · rw [h]; exact h3 _
  · rw [h]; exact h4 _
  · rw [h]; exact h5 _

/-- The first stage reads row p of its six inputs only: computed on blocks whose row p is row r of the whole inputs,
    with the same weights and biases, its entry (p, q) is entry (r, q) of the first stage of the whole inputs. -/
theorem stage0_rows {M N : ℕ}
    (des' pre' x' tw' : Spec.Arr2 M 768) (np' : Spec.Arr2 M 5) (nc' : Spec.Arr2 M 1)
    (Wdes' Wpre' Wx' Wtw' : Spec.Arr2 32 768) (Wnp' : Spec.Arr2 32 5) (Wnc' : Spec.Arr2 32 1) (Win' : Spec.Arr2 192 192)
    (bdes' bpre' bx' btw' bnp' bnc' : Spec.Arr2 1 32) (bin' : Spec.Arr2 1 192)
    (des pre x tw : Spec.Arr2 N 768) (np : Spec.Arr2 N 5) (nc : Spec.Arr2 N 1)
    (Wdes Wpre Wx Wtw : Spec.Arr2 32 768) (Wnp : Spec.Arr2 32 5) (Wnc : Spec.Arr2 32 1) (Win : Spec.Arr2 192 192)
    (bdes bpre bx btw bnp bnc : Spec.Arr2 1 32) (bin : Spec.Arr2 1 192)
    (p : Fin M) (r : Fin N)
    (hdes : ∀ k : Fin 768, des' (ix2 p k) = des (ix2 r k)) (hpre : ∀ k : Fin 768, pre' (ix2 p k) = pre (ix2 r k))
    (hx : ∀ k : Fin 768, x' (ix2 p k) = x (ix2 r k)) (htw : ∀ k : Fin 768, tw' (ix2 p k) = tw (ix2 r k))
    (hnp : ∀ k : Fin 5, np' (ix2 p k) = np (ix2 r k)) (hnc : ∀ k : Fin 1, nc' (ix2 p k) = nc (ix2 r k))
    (eWdes : Wdes' = Wdes) (eWpre : Wpre' = Wpre) (eWx : Wx' = Wx) (eWtw : Wtw' = Wtw) (eWnp : Wnp' = Wnp)
    (eWnc : Wnc' = Wnc) (eWin : Win' = Win)
    (ebdes : bdes' = bdes) (ebpre : bpre' = bpre) (ebx : bx' = bx) (ebtw : btw' = btw) (ebnp : bnp' = bnp)
    (ebnc : bnc' = bnc) (ebin : bin' = bin) (q : Fin 192) :
    Spec.stage0 des' pre' x' tw' np' nc' Wdes' Wpre' Wx' Wtw' Wnp' Wnc' Win'
        (Spec.row bdes') (Spec.row bpre') (Spec.row bx') (Spec.row btw') (Spec.row bnp') (Spec.row bnc') (Spec.row bin') (ix2 p q)
      = Spec.stage0 des pre x tw np nc Wdes Wpre Wx Wtw Wnp Wnc Win
        (Spec.row bdes) (Spec.row bpre) (Spec.row bx) (Spec.row btw) (Spec.row bnp) (Spec.row bnc) (Spec.row bin) (ix2 r q) := by
  subst eWdes eWpre eWx eWtw eWnp eWnc eWin ebdes ebpre ebx ebtw ebnp ebnc ebin
  unfold Spec.stage0
  refine act_rows _ _ _ _ p r (fun k => ?_) q
  exact cat6_rows _ _ _ _ _ _ _ _ _ _ _ _ p r (fun s => act_rows _ _ _ _ p r hnp s) (fun s => act_rows _ _ _ _ p r hnc s)
    (fun s => act_rows _ _ _ _ p r hdes s) (fun s => act_rows _ _ _ _ p r htw s) (fun s => act_rows _ _ _ _ p r hpre s)
    (fun s => act_rows _ _ _ _ p r hx s) k

/-! ## The blocks -/

/-- The block indices of the six row-tiled input windows at grid point t: each is block number t along the rows, as
    the result's is, and the one block along the columns. -/
theorem idxRow0 : ∀ t : Fin cfg0.N, (win0_0.index t (0 : Fin 2) = win0_20.index t (0 : Fin 2) ∧ win0_0.index t (1 : Fin 2) = 0)
    ∧ (win0_1.index t (0 : Fin 2) = win0_20.index t (0 : Fin 2) ∧ win0_1.index t (1 : Fin 2) = 0)
    ∧ (win0_2.index t (0 : Fin 2) = win0_20.index t (0 : Fin 2) ∧ win0_2.index t (1 : Fin 2) = 0)
    ∧ (win0_5.index t (0 : Fin 2) = win0_20.index t (0 : Fin 2) ∧ win0_5.index t (1 : Fin 2) = 0)
    ∧ (win0_3.index t (0 : Fin 2) = win0_20.index t (0 : Fin 2) ∧ win0_3.index t (1 : Fin 2) = 0)
    ∧ (win0_4.index t (0 : Fin 2) = win0_20.index t (0 : Fin 2) ∧ win0_4.index t (1 : Fin 2) = 0)
    ∧ (win0_20.index t (0 : Fin 2) ≤ 49 ∧ win0_20.index t (1 : Fin 2) = 0) :=
  (by decide +kernel : ∀ t : Fin grid0.N, _)

/-- The weights' and the bias rows' windows hold their one whole block at every grid point. -/
theorem idxWhole0 : ∀ t : Fin cfg0.N, (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0)
    ∧ (win0_10.index t (0 : Fin 2) = 0 ∧ win0_10.index t (1 : Fin 2) = 0)
    ∧ (win0_11.index t (0 : Fin 2) = 0 ∧ win0_11.index t (1 : Fin 2) = 0)
    ∧ (win0_12.index t (0 : Fin 2) = 0 ∧ win0_12.index t (1 : Fin 2) = 0)
    ∧ (win0_13.index t (0 : Fin 2) = 0 ∧ win0_13.index t (1 : Fin 2) = 0)
    ∧ (win0_14.index t (0 : Fin 2) = 0 ∧ win0_14.index t (1 : Fin 2) = 0)
    ∧ (win0_15.index t (0 : Fin 2) = 0 ∧ win0_15.index t (1 : Fin 2) = 0)
    ∧ (win0_16.index t (0 : Fin 2) = 0 ∧ win0_16.index t (1 : Fin 2) = 0)
    ∧ (win0_17.index t (0 : Fin 2) = 0 ∧ win0_17.index t (1 : Fin 2) = 0)
    ∧ (win0_18.index t (0 : Fin 2) = 0 ∧ win0_18.index t (1 : Fin 2) = 0)
    ∧ (win0_19.index t (0 : Fin 2) = 0 ∧ win0_19.index t (1 : Fin 2) = 0) :=
  (by decide +kernel : ∀ t : Fin grid0.N, _)

/-- Every one of the fifty row blocks is some grid point's. -/
theorem onto0 : ∀ q0 : Fin 50, ∃ t : Fin cfg0.N, win0_20.index t = ![q0.val, 0] :=
  (by decide +kernel : ∀ q0 : Fin 50, ∃ t : Fin grid0.N, win0_20.index t = ![q0.val, 0])

variable (V : (c : Dev nD) → (b : Ref sig .tc) → Buf (Elt Ideal) ((c : Thread nD τ).loc b))

/-- The first stage of the whole arrays as the region finds them. -/
abbrev G0 (c : Dev nD) : Spec.Arr2 50000 192 :=
  Spec.stage0 (M := 50000) (V c main_arg6) (V c main_arg0) (V c main_arg1) (V c main_arg7) (V c main_arg4) (V c main_arg5) (V c main_arg8) (V c main_arg10) (V c main_arg12) (V c main_arg18) (V c main_arg14) (V c main_arg16) (V c main_arg20)
    (Spec.row (V c main_v0)) (Spec.row (V c main_v1)) (Spec.row (V c main_v2)) (Spec.row (V c main_v5)) (Spec.row (V c main_v3)) (Spec.row (V c main_v4)) (Spec.row (V c main_v6))

/-- Window 0's block at grid point t is rows 1000·t … 1000·t + 999 of its array. -/
theorem rowblk0_0 (c : Dev nD) (t : Fin cfg0.N) (p : Fin 1000) (r : Fin 50000)
    (hr : r.val = win0_20.index t (0 : Fin 2) * 1000 + p.val) (k : Fin 768) :
    (iblk0 V c 0 t : Spec.Arr2 1000 768) (ix2 p k) = V c main_arg6 (ix2 r k) := by
  have hR := idxRow0 t
  show V c main_arg6 (((cfg0.win 0).blk t).view.emb (ix2 p k)) = _
  refine congrArg (V c main_arg6) (funext fun a => Fin.ext ?_)
  match a with
  | ⟨0, _⟩ => show win0_0.index t (0 : Fin 2) * 1000 + 1 * p.val = r.val; omega
  | ⟨1, _⟩ => show win0_0.index t (1 : Fin 2) * 768 + 1 * k.val = k.val; omega

/-- Window 1's block at grid point t is rows 1000·t … 1000·t + 999 of its array. -/
theorem rowblk0_1 (c : Dev nD) (t : Fin cfg0.N) (p : Fin 1000) (r : Fin 50000)
    (hr : r.val = win0_20.index t (0 : Fin 2) * 1000 + p.val) (k : Fin 768) :
    (iblk0 V c 1 t : Spec.Arr2 1000 768) (ix2 p k) = V c main_arg0 (ix2 r k) := by
  have hR := idxRow0 t
  show V c main_arg0 (((cfg0.win 1).blk t).view.emb (ix2 p k)) = _
  refine congrArg (V c main_arg0) (funext fun a => Fin.ext ?_)
  match a with
  | ⟨0, _⟩ => show win0_1.index t (0 : Fin 2) * 1000 + 1 * p.val = r.val; omega
  | ⟨1, _⟩ => show win0_1.index t (1 : Fin 2) * 768 + 1 * k.val = k.val; omega

/-- Window 2's block at grid point t is rows 1000·t … 1000·t + 999 of its array. -/
theorem rowblk0_2 (c : Dev nD) (t : Fin cfg0.N) (p : Fin 1000) (r : Fin 50000)
    (hr : r.val = win0_20.index t (0 : Fin 2) * 1000 + p.val) (k : Fin 768) :
    (iblk0 V c 2 t : Spec.Arr2 1000 768) (ix2 p k) = V c main_arg1 (ix2 r k) := by
  have hR := idxRow0 t
  show V c main_arg1 (((cfg0.win 2).blk t).view.emb (ix2 p k)) = _
  refine congrArg (V c main_arg1) (funext fun a => Fin.ext ?_)
  match a with
  | ⟨0, _⟩ => show win0_2.index t (0 : Fin 2) * 1000 + 1 * p.val = r.val; omega
  | ⟨1, _⟩ => show win0_2.index t (1 : Fin 2) * 768 + 1 * k.val = k.val; omega

/-- Window 5's block at grid point t is rows 1000·t … 1000·t + 999 of its array. -/
theorem rowblk0_5 (c : Dev nD) (t : Fin cfg0.N) (p : Fin 1000) (r : Fin 50000)
    (hr : r.val = win0_20.index t (0 : Fin 2) * 1000 + p.val) (k : Fin 768) :
    (iblk0 V c 5 t : Spec.Arr2 1000 768) (ix2 p k) = V c main_arg7 (ix2 r k) := by
  have hR := idxRow0 t
  show V c main_arg7 (((cfg0.win 5).blk t).view.emb (ix2 p k)) = _
  refine congrArg (V c main_arg7) (funext fun a => Fin.ext ?_)
  match a with
  | ⟨0, _⟩ => show win0_5.index t (0 : Fin 2) * 1000 + 1 * p.val = r.val; omega
  | ⟨1, _⟩ => show win0_5.index t (1 : Fin 2) * 768 + 1 * k.val = k.val; omega

/-- Window 3's block at grid point t is rows 1000·t … 1000·t + 999 of its array. -/
theorem rowblk0_3 (c : Dev nD) (t : Fin cfg0.N) (p : Fin 1000) (r : Fin 50000)
    (hr : r.val = win0_20.index t (0 : Fin 2) * 1000 + p.val) (k : Fin 5) :
    (iblk0 V c 3 t : Spec.Arr2 1000 5) (ix2 p k) = V c main_arg4 (ix2 r k) := by
  have hR := idxRow0 t
  show V c main_arg4 (((cfg0.win 3).blk t).view.emb (ix2 p k)) = _
  refine congrArg (V c main_arg4) (funext fun a => Fin.ext ?_)
  match a with
  | ⟨0, _⟩ => show win0_3.index t (0 : Fin 2) * 1000 + 1 * p.val = r.val; omega
  | ⟨1, _⟩ => show win0_3.index t (1 : Fin 2) * 5 + 1 * k.val = k.val; omega

/-- Window 4's block at grid point t is rows 1000·t … 1000·t + 999 of its array. -/
theorem rowblk0_4 (c : Dev nD) (t : Fin cfg0.N) (p : Fin 1000) (r : Fin 50000)
    (hr : r.val = win0_20.index t (0 : Fin 2) * 1000 + p.val) (k : Fin 1) :
    (iblk0 V c 4 t : Spec.Arr2 1000 1) (ix2 p k) = V c main_arg5 (ix2 r k) := by
  have hR := idxRow0 t
  show V c main_arg5 (((cfg0.win 4).blk t).view.emb (ix2 p k)) = _
  refine congrArg (V c main_arg5) (funext fun a => Fin.ext ?_)
  match a with
  | ⟨0, _⟩ => show win0_4.index t (0 : Fin 2) * 1000 + 1 * p.val = r.val; omega
  | ⟨1, _⟩ => show win0_4.index t (1 : Fin 2) * 1 + 1 * k.val = k.val; omega

/-- Window 6's block at every grid point is its whole array. -/
theorem wholeblk0_6 (c : Dev nD) (t : Fin cfg0.N) : (iblk0 V c 6 t : Spec.Arr2 32 768) = V c main_arg8 := by
  have hW := idxWhole0 t
  funext y
  show V c main_arg8 (((cfg0.win 6).blk t).view.emb y) = V c main_arg8 y
  refine congrArg (V c main_arg8) (funext fun a => Fin.ext ?_)
  match a with
  | ⟨0, _⟩ => show win0_6.index t (0 : Fin 2) * 32 + 1 * (y 0).val = (y 0).val; omega
  | ⟨1, _⟩ => show win0_6.index t (1 : Fin 2) * 768 + 1 * (y 1).val = (y 1).val; omega

/-- Window 8's block at every grid point is its whole array. -/
theorem wholeblk0_8 (c : Dev nD) (t : Fin cfg0.N) : (iblk0 V c 8 t : Spec.Arr2 32 768) = V c main_arg10 := by
  have hW := idxWhole0 t
  funext y
  show V c main_arg10 (((cfg0.win 8).blk t).view.emb y) = V c main_arg10 y
  refine congrArg (V c main_arg10) (funext fun a => Fin.ext ?_)
  match a with
  | ⟨0, _⟩ => show win0_8.index t (0 : Fin 2) * 32 + 1 * (y 0).val = (y 0).val; omega
  | ⟨1, _⟩ => show win0_8.index t (1 : Fin 2) * 768 + 1 * (y 1).val = (y 1).val; omega

/-- Window 10's block at every grid point is its whole array. -/
theorem wholeblk0_10 (c : Dev nD) (t : Fin cfg0.N) : (iblk0 V c 10 t : Spec.Arr2 32 768) = V c main_arg12 := by
  have hW := idxWhole0 t
  funext y
  show V c main_arg12 (((cfg0.win 10).blk t).view.emb y) = V c main_arg12 y
  refine congrArg (V c main_arg12) (funext fun a => Fin.ext ?_)
  match a with
  | ⟨0, _⟩ => show win0_10.index t (0 : Fin 2) * 32 + 1 * (y 0).val = (y 0).val; omega
  | ⟨1, _⟩ => show win0_10.index t (1 : Fin 2) * 768 + 1 * (y 1).val = (y 1).val; omega

/-- Window 16's block at every grid point is its whole array. -/
theorem wholeblk0_16 (c : Dev nD) (t : Fin cfg0.N) : (iblk0 V c 16 t : Spec.Arr2 32 768) = V c main_arg18 := by
  have hW := idxWhole0 t
  funext y
  show V c main_arg18 (((cfg0.win 16).blk t).view.emb y) = V c main_arg18 y
  refine congrArg (V c main_arg18) (funext fun a => Fin.ext ?_)
  match a with
  | ⟨0, _⟩ => show win0_16.index t (0 : Fin 2) * 32 + 1 * (y 0).val = (y 0).val; omega
  | ⟨1, _⟩ => show win0_16.index t (1 : Fin 2) * 768 + 1 * (y 1).val = (y 1).val; omega

/-- Window 12's block at every grid point is its whole array. -/
theorem wholeblk0_12 (c : Dev nD) (t : Fin cfg0.N) : (iblk0 V c 12 t : Spec.Arr2 32 5) = V c main_arg14 := by
  have hW := idxWhole0 t
  funext y
  show V c main_arg14 (((cfg0.win 12).blk t).view.emb y) = V c main_arg14 y
  refine congrArg (V c main_arg14) (funext fun a => Fin.ext ?_)
  match a with
  | ⟨0, _⟩ => show win0_12.index t (0 : Fin 2) * 32 + 1 * (y 0).val = (y 0).val; omega
  | ⟨1, _⟩ => show win0_12.index t (1 : Fin 2) * 5 + 1 * (y 1).val = (y 1).val; omega

/-- Window 14's block at every grid point is its whole array. -/
theorem wholeblk0_14 (c : Dev nD) (t : Fin cfg0.N) : (iblk0 V c 14 t : Spec.Arr2 32 1) = V c main_arg16 := by
  have hW := idxWhole0 t
  funext y
  show V c main_arg16 (((cfg0.win 14).blk t).view.emb y) = V c main_arg16 y
  refine congrArg (V c main_arg16) (funext fun a => Fin.ext ?_)
  match a with
  | ⟨0, _⟩ => show win0_14.index t (0 : Fin 2) * 32 + 1 * (y 0).val = (y 0).val; omega
  | ⟨1, _⟩ => show win0_14.index t (1 : Fin 2) * 1 + 1 * (y 1).val = (y 1).val; omega

/-- Window 18's block at every grid point is its whole array. -/
theorem wholeblk0_18 (c : Dev nD) (t : Fin cfg0.N) : (iblk0 V c 18 t : Spec.Arr2 192 192) = V c main_arg20 := by
  have hW := idxWhole0 t
  funext y
  show V c main_arg20 (((cfg0.win 18).blk t).view.emb y) = V c main_arg20 y
  refine congrArg (V c main_arg20) (funext fun a => Fin.ext ?_)
  match a with
  | ⟨0, _⟩ => show win0_18.index t (0 : Fin 2) * 192 + 1 * (y 0).val = (y 0).val; omega
  | ⟨1, _⟩ => show win0_18.index t (1 : Fin 2) * 192 + 1 * (y 1).val = (y 1).val; omega

/-- Window 7's block at every grid point is its whole array. -/
theorem wholeblk0_7 (c : Dev nD) (t : Fin cfg0.N) : (iblk0 V c 7 t : Spec.Arr2 1 32) = V c main_v0 := by
  have hW := idxWhole0 t
  funext y
  show V c main_v0 (((cfg0.win 7).blk t).view.emb y) = V c main_v0 y
  refine congrArg (V c main_v0) (funext fun a => Fin.ext ?_)
  match a with
  | ⟨0, _⟩ => show win0_7.index t (0 : Fin 2) * 1 + 1 * (y 0).val = (y 0).val; omega
  | ⟨1, _⟩ => show win0_7.index t (1 : Fin 2) * 32 + 1 * (y 1).val = (y 1).val; omega

/-- Window 9's block at every grid point is its whole array. -/
theorem wholeblk0_9 (c : Dev nD) (t : Fin cfg0.N) : (iblk0 V c 9 t : Spec.Arr2 1 32) = V c main_v1 := by
  have hW := idxWhole0 t
  funext y
  show V c main_v1 (((cfg0.win 9).blk t).view.emb y) = V c main_v1 y
  refine congrArg (V c main_v1) (funext fun a => Fin.ext ?_)
  match a with
  | ⟨0, _⟩ => show win0_9.index t (0 : Fin 2) * 1 + 1 * (y 0).val = (y 0).val; omega
  | ⟨1, _⟩ => show win0_9.index t (1 : Fin 2) * 32 + 1 * (y 1).val = (y 1).val; omega

/-- Window 11's block at every grid point is its whole array. -/
theorem wholeblk0_11 (c : Dev nD) (t : Fin cfg0.N) : (iblk0 V c 11 t : Spec.Arr2 1 32) = V c main_v2 := by
  have hW := idxWhole0 t
  funext y
  show V c main_v2 (((cfg0.win 11).blk t).view.emb y) = V c main_v2 y
  refine congrArg (V c main_v2) (funext fun a => Fin.ext ?_)
  match a with
  | ⟨0, _⟩ => show win0_11.index t (0 : Fin 2) * 1 + 1 * (y 0).val = (y 0).val; omega
  | ⟨1, _⟩ => show win0_11.index t (1 : Fin 2) * 32 + 1 * (y 1).val = (y 1).val; omega

/-- Window 17's block at every grid point is its whole array. -/
theorem wholeblk0_17 (c : Dev nD) (t : Fin cfg0.N) : (iblk0 V c 17 t : Spec.Arr2 1 32) = V c main_v5 := by
  have hW := idxWhole0 t
  funext y
  show V c main_v5 (((cfg0.win 17).blk t).view.emb y) = V c main_v5 y
  refine congrArg (V c main_v5) (funext fun a => Fin.ext ?_)
  match a with
  | ⟨0, _⟩ => show win0_17.index t (0 : Fin 2) * 1 + 1 * (y 0).val = (y 0).val; omega
  | ⟨1, _⟩ => show win0_17.index t (1 : Fin 2) * 32 + 1 * (y 1).val = (y 1).val; omega

/-- Window 13's block at every grid point is its whole array. -/
theorem wholeblk0_13 (c : Dev nD) (t : Fin cfg0.N) : (iblk0 V c 13 t : Spec.Arr2 1 32) = V c main_v3 := by
  have hW := idxWhole0 t
  funext y
  show V c main_v3 (((cfg0.win 13).blk t).view.emb y) = V c main_v3 y
  refine congrArg (V c main_v3) (funext fun a => Fin.ext ?_)
  match a with
  | ⟨0, _⟩ => show win0_13.index t (0 : Fin 2) * 1 + 1 * (y 0).val = (y 0).val; omega
  | ⟨1, _⟩ => show win0_13.index t (1 : Fin 2) * 32 + 1 * (y 1).val = (y 1).val; omega

/-- Window 15's block at every grid point is its whole array. -/
theorem wholeblk0_15 (c : Dev nD) (t : Fin cfg0.N) : (iblk0 V c 15 t : Spec.Arr2 1 32) = V c main_v4 := by
  have hW := idxWhole0 t
  funext y
  show V c main_v4 (((cfg0.win 15).blk t).view.emb y) = V c main_v4 y
  refine congrArg (V c main_v4) (funext fun a => Fin.ext ?_)
  match a with
  | ⟨0, _⟩ => show win0_15.index t (0 : Fin 2) * 1 + 1 * (y 0).val = (y 0).val; omega
  | ⟨1, _⟩ => show win0_15.index t (1 : Fin 2) * 32 + 1 * (y 1).val = (y 1).val; omega

/-- Window 19's block at every grid point is its whole array. -/
theorem wholeblk0_19 (c : Dev nD) (t : Fin cfg0.N) : (iblk0 V c 19 t : Spec.Arr2 1 192) = V c main_v6 := by
  have hW := idxWhole0 t
  funext y
  show V c main_v6 (((cfg0.win 19).blk t).view.emb y) = V c main_v6 y
  refine congrArg (V c main_v6) (funext fun a => Fin.ext ?_)
  match a with
  | ⟨0, _⟩ => show win0_19.index t (0 : Fin 2) * 1 + 1 * (y 0).val = (y 0).val; omega
  | ⟨1, _⟩ => show win0_19.index t (1 : Fin 2) * 192 + 1 * (y 1).val = (y 1).val; omega

/-- What grid point t writes back is block t of the first stage of the whole arrays. -/
theorem flushed0_eq (c : Dev nD) (t : Fin cfg0.N) :
    (dat0 (F := Ideal) V c).flushed 20 t = ((cfg0.win 20).blk t).view.read (Elt Ideal) (G0 V c) := by
  show (cfg0.win 20).cut (grid0.coords t) ((dat0 V c).after 20 t) = _
  rw [after0_20, pay0_eq (iblk0 V c 0 t) (iblk0 V c 1 t) (iblk0 V c 2 t) (iblk0 V c 5 t) (iblk0 V c 3 t) (iblk0 V c 4 t) (iblk0 V c 6 t) (iblk0 V c 8 t) (iblk0 V c 10 t) (iblk0 V c 16 t) (iblk0 V c 7 t) (iblk0 V c 9 t) (iblk0 V c 11 t) (iblk0 V c 13 t) (iblk0 V c 15 t) (iblk0 V c 17 t) (iblk0 V c 12 t) (iblk0 V c 14 t) (iblk0 V c 18 t) (iblk0 V c 19 t)]
  have hR := idxRow0 t
  funext j
  have hj0 : (j 0).val < 1000 := (j 0).isLt
  have hj1 : (j 1).val < 192 := (j 1).isLt
  have hP : win0_20.index t (0 : Fin 2) * 1000 + (j 0).val < 50000 := by omega
  have hy : (cfg0.win 20).xinj (grid0.coords t) j = ix2 (⟨(j 0).val, hj0⟩ : Fin 1000) (⟨(j 1).val, hj1⟩ : Fin 192) :=
    funext fun a => by match a with | ⟨0, _⟩ => rfl | ⟨1, _⟩ => rfl
  have hi : ((cfg0.win 20).blk t).view.emb j
      = ix2 (⟨win0_20.index t (0 : Fin 2) * 1000 + (j 0).val, hP⟩ : Fin 50000) (⟨(j 1).val, hj1⟩ : Fin 192) :=
    funext fun a => Fin.ext (by
      match a with
      | ⟨0, _⟩ => show win0_20.index t (0 : Fin 2) * 1000 + 1 * (j 0).val = win0_20.index t (0 : Fin 2) * 1000 + (j 0).val; omega
      | ⟨1, _⟩ => show win0_20.index t (1 : Fin 2) * 192 + 1 * (j 1).val = (j 1).val; omega)
  show Spec.stage0 (M := 1000) (iblk0 V c 0 t) (iblk0 V c 1 t) (iblk0 V c 2 t) (iblk0 V c 5 t) (iblk0 V c 3 t) (iblk0 V c 4 t) (iblk0 V c 6 t) (iblk0 V c 8 t) (iblk0 V c 10 t) (iblk0 V c 16 t) (iblk0 V c 12 t) (iblk0 V c 14 t) (iblk0 V c 18 t)
      (Spec.row (iblk0 V c 7 t)) (Spec.row (iblk0 V c 9 t)) (Spec.row (iblk0 V c 11 t)) (Spec.row (iblk0 V c 17 t)) (Spec.row (iblk0 V c 13 t)) (Spec.row (iblk0 V c 15 t)) (Spec.row (iblk0 V c 19 t))
      ((cfg0.win 20).xinj (grid0.coords t) j)
    = G0 V c (((cfg0.win 20).blk t).view.emb j)
  rw [hy, hi]
  exact stage0_rows (iblk0 V c 0 t) (iblk0 V c 1 t) (iblk0 V c 2 t) (iblk0 V c 5 t) (iblk0 V c 3 t) (iblk0 V c 4 t) (iblk0 V c 6 t) (iblk0 V c 8 t) (iblk0 V c 10 t) (iblk0 V c 16 t) (iblk0 V c 12 t) (iblk0 V c 14 t) (iblk0 V c 18 t) (iblk0 V c 7 t) (iblk0 V c 9 t) (iblk0 V c 11 t) (iblk0 V c 17 t) (iblk0 V c 13 t) (iblk0 V c 15 t) (iblk0 V c 19 t)
    (V c main_arg6) (V c main_arg0) (V c main_arg1) (V c main_arg7) (V c main_arg4) (V c main_arg5) (V c main_arg8) (V c main_arg10) (V c main_arg12) (V c main_arg18) (V c main_arg14) (V c main_arg16) (V c main_arg20) (V c main_v0) (V c main_v1) (V c main_v2) (V c main_v5) (V c main_v3) (V c main_v4) (V c main_v6)
    (⟨(j 0).val, hj0⟩ : Fin 1000) (⟨win0_20.index t (0 : Fin 2) * 1000 + (j 0).val, hP⟩ : Fin 50000)
    (rowblk0_0 V c t _ _ rfl) (rowblk0_1 V c t _ _ rfl) (rowblk0_2 V c t _ _ rfl) (rowblk0_5 V c t _ _ rfl) (rowblk0_3 V c t _ _ rfl) (rowblk0_4 V c t _ _ rfl)
    (wholeblk0_6 V c t) (wholeblk0_8 V c t) (wholeblk0_10 V c t) (wholeblk0_16 V c t) (wholeblk0_12 V c t) (wholeblk0_14 V c t) (wholeblk0_18 V c t) (wholeblk0_7 V c t) (wholeblk0_9 V c t) (wholeblk0_11 V c t) (wholeblk0_17 V c t) (wholeblk0_13 V c t) (wholeblk0_15 V c t) (wholeblk0_19 V c t) (⟨(j 1).val, hj1⟩ : Fin 192)

/-- An index of the result array is in grid point t's block iff each coordinate is in the block's range on its axis. -/
theorem mem_blk0 (t : Fin cfg0.N) (i : S50000x192.Idx) :
    i ∈ ((cfg0.win 20).blk t).view.set ↔ ∀ a : Fin 2, win0_20.index t a * S1000x192.size a ≤ (i a).val
      ∧ (i a).val < win0_20.index t a * S1000x192.size a + S1000x192.size a := by
  show i ∈ ((View.whole main_v7).slice (win0_20.rect t)).set ↔ _
  rw [View.set_slice_whole, Rect.mem_set_unit]
  exact Iff.rfl

/-- Row r of the result is in the block of the grid point whose block number is r / 1000: the fifty blocks tile the rows. -/
theorem cover0 (i : S50000x192.Idx) :
    ∃ t : Fin cfg0.N, (cfg0.win 20).flush t = true ∧ i ∈ ((cfg0.win 20).blk t).view.set := by
  have hi0 : (i 0).val < 50000 := (i 0).isLt
  have hi1 : (i 1).val < 192 := (i 1).isLt
  obtain ⟨t, ht⟩ := onto0 ⟨(i 0).val / 1000, by omega⟩
  have q0 : win0_20.index t (0 : Fin 2) = (i 0).val / 1000 := congrFun ht 0
  have q1 : win0_20.index t (1 : Fin 2) = 0 := congrFun ht 1
  refine ⟨t, flush0_20 t, ?_⟩
  rw [mem_blk0]
  intro a
  match a with
  | ⟨0, _⟩ => show win0_20.index t (0 : Fin 2) * 1000 ≤ (i 0).val ∧ (i 0).val < win0_20.index t (0 : Fin 2) * 1000 + 1000; omega
  | ⟨1, _⟩ => show win0_20.index t (1 : Fin 2) * 192 ≤ (i 1).val ∧ (i 1).val < win0_20.index t (1 : Fin 2) * 192 + 192; omega

/-- THE FIRST REGION'S RESULT: after its fifty grid points the result array is the network's first stage of the six
    input arrays, the seven weights and the seven bias rows as the region finds them. -/
theorem arr0 (c : Dev nD) : (dat0 (F := Ideal) V c).arrAt 20 cfg0.N
    = Spec.stage0 (M := 50000) (V c main_arg6) (V c main_arg0) (V c main_arg1) (V c main_arg7) (V c main_arg4) (V c main_arg5) (V c main_arg8) (V c main_arg10) (V c main_arg12) (V c main_arg18) (V c main_arg14) (V c main_arg16) (V c main_arg20)
    (Spec.row (V c main_v0)) (Spec.row (V c main_v1)) (Spec.row (V c main_v2)) (Spec.row (V c main_v5)) (Spec.row (V c main_v3)) (Spec.row (V c main_v4)) (Spec.row (V c main_v6)) :=
  (dat0 (F := Ideal) V c).arrAt_eq_of_cover 20 _ (fun t _ => flushed0_eq V c t) cover0

end Cert.KernelIdeal.RegVal0

end
-- ==== Proof.KerMm.lean ====
/-
  The two middle regions of the tiled program as functions of whole arrays.

  Each of these regions multiplies an array of 50000 rows by the transpose of a 192 × 192 weight, one block of
  5000 rows at a time: grid point t reads rows 5000·t … 5000·t + 4999 of the input and the whole weight, and writes
  the same rows of the result. Entry (p, q) of a block's product is Σₖ x(p, k) · W(q, k): it reads row p of the
  block only, so the block of the result is the block of the whole product x · Wᵀ, and the ten blocks tile the
  50000 rows. Changing the float format of an operand is the identity on the extended reals.
-/
import proofs.«136469_j28432683499972_1_alg».proof.Proof.Gen.KernelIdeal.Frame
import proofs.«136469_j28432683499972_1_alg».proof.Proof.Spec
import proofs.«136469_j28432683499972_1_alg».proof.Proof.LibPlainDot
import Idealize.ShloMosaic.Lib.Pipeline.Value
import Idealize.ShloMosaic.Lib.ValueIdx

set_option maxRecDepth 16384

noncomputable section

namespace Cert.KernelIdeal.RegVal

open Cert.KernelIdeal Cert.KernelIdeal.Gen Idealize.ShloMosaic Idealize.ShloMosaic.TcCoe Idealize.ShloMosaic.ValueIdx
open Idealize.ShloMosaic.Pipeline (Dat)
open scoped BigOperators

/-- A block's product: the payload of the first of the two regions is x · Wᵀ on a block of 5000 rows. -/
theorem pay_mm1 (x : Vec Ideal S5000x192 .f32) (W : Vec Ideal S192x192 .f32) :
    k1_pay1 (F := Ideal) x W = Spec.mulT (M := 5000) (K := 192) (P := 192) x W := by
  funext j
  obtain ⟨p, q, rfl⟩ : ∃ (p : Fin 5000) (q : Fin 192), j = ix2 p q := ⟨j 0, j 1, eq_ix2 j⟩
  unfold k1_pay1
  rw [Spec.mulT_apply]
  refine (Cert.LibPlainDot.matmul_zero_apply dot_S5000x192_S192x192_S5000x192_1_0_0_1_n_n rfl rfl
    (fun _ _ => rfl) (fun _ _ => rfl) rfl rfl none _ _ p q).trans ?_
  refine Finset.sum_congr rfl fun k _ => ?_
  rw [shapeCast_self, transpose_apply [1, 0] _ transposes_S192x192_p1_0_S192x192 (ix2 k q) (ix2 q k)
    (fun b => by match b with | ⟨0, _⟩ => rfl | ⟨1, _⟩ => rfl)]
  rfl

/-- Entry (p, q) of a block's product reads row p of the block and the weight; when that row is row P of the whole
    array and the weight is the whole weight, it is entry (P, q) of the whole product. -/
theorem blk_mm1 (A : Spec.Arr2 50000 192) (Wt : Spec.Arr2 192 192)
    (x : Vec Ideal S5000x192 .f32) (W : Vec Ideal S192x192 .f32) (p : Fin 5000) (q : Fin 192) (P : Fin 50000)
    (hx : ∀ k : Fin 192, x (ix2 p k) = A (ix2 P k)) (hW : ∀ (q k : Fin 192), W (ix2 q k) = Wt (ix2 q k)) :
    k1_pay1 (F := Ideal) x W (ix2 p q) = Spec.mulT A Wt (ix2 P q) := by
  rw [pay_mm1, Spec.mulT_apply, Spec.mulT_apply]
  exact Finset.sum_congr rfl fun k _ => by rw [hx k, hW q k]

/-- The zero offsets of a whole-block access. -/
theorem hz_mm : (![0, 0] : Fin 2 → Nat) = fun _ => 0 := funext fun a => by fin_cases a <;> rfl

/-- The block indices of the first region's three windows at grid point t: the input's and the result's block is
    number t along the rows, the weight's is the one whole block. -/
theorem idx1 : ∀ t : Fin cfg1.N, win1_0.index t (0 : Fin 2) = win1_2.index t (0 : Fin 2)
    ∧ win1_0.index t (1 : Fin 2) = 0
    ∧ win1_1.index t (0 : Fin 2) = 0 ∧ win1_1.index t (1 : Fin 2) = 0
    ∧ win1_2.index t (0 : Fin 2) ≤ 9 ∧ win1_2.index t (1 : Fin 2) = 0 :=
  (by decide +kernel : ∀ t : Fin grid1.N, _)

/-- Every one of the ten row blocks is some grid point's. -/
theorem onto1 : ∀ q0 : Fin 10, ∃ t : Fin cfg1.N, win1_2.index t = ![q0.val, 0] :=
  (by decide +kernel : ∀ q0 : Fin 10, ∃ t : Fin grid1.N, win1_2.index t = ![q0.val, 0])

variable (V : (c : Dev nD) → (b : Ref sig .tc) → Buf (Elt Ideal) ((c : Thread nD τ).loc b))

/-- What grid point t writes back is block t of the whole product. -/
theorem flushed1_eq (c : Dev nD) (t : Fin cfg1.N) :
    (dat1 (F := Ideal) V c).flushed 2 t = ((cfg1.win 2).blk t).view.read (Elt Ideal)
      (Spec.mulT (M := 50000) (K := 192) (P := 192) (V c main_v7) (V c main_arg22)) := by
  show (cfg1.win 2).cut (grid1.coords t) ((dat1 V c).after 2 t) = _
  rw [after1_2]
  unfold out1_2
  rw [View.canon_unit_zero hz_mm]
  simp only [View.ld_unit_zero (S := S5000x192) hz_mm, View.ld_unit_zero (S := S192x192) hz_mm]
  obtain ⟨e0, e1, e2, e3, e4, e5⟩ := idx1 t
  funext j
  have hj0 : (j 0).val < 5000 := (j 0).isLt
  have hj1 : (j 1).val < 192 := (j 1).isLt
  have hP : win1_2.index t (0 : Fin 2) * 5000 + (j 0).val < 50000 := by omega
  have hy : (cfg1.win 2).xinj (grid1.coords t) j = ix2 (⟨(j 0).val, hj0⟩ : Fin 5000) (⟨(j 1).val, hj1⟩ : Fin 192) :=
    funext fun a => by match a with | ⟨0, _⟩ => rfl | ⟨1, _⟩ => rfl
  have hi : ((cfg1.win 2).blk t).view.emb j
      = ix2 (⟨win1_2.index t (0 : Fin 2) * 5000 + (j 0).val, hP⟩ : Fin 50000) (⟨(j 1).val, hj1⟩ : Fin 192) :=
    funext fun a => Fin.ext (by
      match a with
      | ⟨0, _⟩ => show win1_2.index t (0 : Fin 2) * 5000 + 1 * (j 0).val = win1_2.index t (0 : Fin 2) * 5000 + (j 0).val; omega
      | ⟨1, _⟩ => show win1_2.index t (1 : Fin 2) * 192 + 1 * (j 1).val = (j 1).val; omega)
  show k1_pay1 (iblk1 V c 0 t) (iblk1 V c 1 t) ((cfg1.win 2).xinj (grid1.coords t) j)
    = Spec.mulT (M := 50000) (K := 192) (P := 192) (V c main_v7) (V c main_arg22) (((cfg1.win 2).blk t).view.emb j)
  rw [hy, hi]
  refine blk_mm1 (V c main_v7) (V c main_arg22) (iblk1 V c 0 t) (iblk1 V c 1 t) _ _ _ (fun k => ?_) (fun q k => ?_)
  · show V c main_v7 (((cfg1.win 0).blk t).view.emb (ix2 (⟨(j 0).val, hj0⟩ : Fin 5000) k)) = _
    refine congrArg (V c main_v7) (funext fun a => Fin.ext ?_)
    match a with
    | ⟨0, _⟩ => show win1_0.index t (0 : Fin 2) * 5000 + 1 * (j 0).val = win1_2.index t (0 : Fin 2) * 5000 + (j 0).val; omega
    | ⟨1, _⟩ => show win1_0.index t (1 : Fin 2) * 192 + 1 * k.val = k.val; omega
  · show V c main_arg22 (((cfg1.win 1).blk t).view.emb (ix2 q k)) = _
    refine congrArg (V c main_arg22) (funext fun a => Fin.ext ?_)
    match a with
    | ⟨0, _⟩ => show win1_1.index t (0 : Fin 2) * 192 + 1 * q.val = q.val; omega
    | ⟨1, _⟩ => show win1_1.index t (1 : Fin 2) * 192 + 1 * k.val = k.val; omega

/-- An index of the result array is in grid point t's block iff each coordinate is in the block's range on its axis. -/
theorem mem_blk1 (t : Fin cfg1.N) (i : S50000x192.Idx) :
    i ∈ ((cfg1.win 2).blk t).view.set ↔ ∀ a : Fin 2, win1_2.index t a * S5000x192.size a ≤ (i a).val
      ∧ (i a).val < win1_2.index t a * S5000x192.size a + S5000x192.size a := by
  show i ∈ ((View.whole main_v34).slice (win1_2.rect t)).set ↔ _
  rw [View.set_slice_whole, Rect.mem_set_unit]
  exact Iff.rfl

/-- Row r of the result is in the block of the grid point whose block number is r / 5000: the ten blocks tile the rows. -/
theorem cover1 (i : S50000x192.Idx) :
    ∃ t : Fin cfg1.N, (cfg1.win 2).flush t = true ∧ i ∈ ((cfg1.win 2).blk t).view.set := by
  have hi0 : (i 0).val < 50000 := (i 0).isLt
  have hi1 : (i 1).val < 192 := (i 1).isLt
  obtain ⟨t, ht⟩ := onto1 ⟨(i 0).val / 5000, by omega⟩
  have q0 : win1_2.index t (0 : Fin 2) = (i 0).val / 5000 := congrFun ht 0
  have q1 : win1_2.index t (1 : Fin 2) = 0 := congrFun ht 1
  refine ⟨t, flush1_2 t, ?_⟩
  rw [mem_blk1]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 192 ≤ (i 1).val ∧ (i 1).val < win1_2.index t (1 : Fin 2) * 192 + 192; omega

/-- THE FIRST REGION'S RESULT: after its ten grid points the result array is the whole product of the input array as the
    region finds it by the transpose of the weight as the region finds it. -/
theorem arr1 (c : Dev nD) : (dat1 (F := Ideal) V c).arrAt 2 cfg1.N
    = Spec.mulT (M := 50000) (K := 192) (P := 192) (V c main_v7) (V c main_arg22) :=
  (dat1 (F := Ideal) V c).arrAt_eq_of_cover 2 _ (fun t _ => flushed1_eq V c t) cover1

/-! ## The second region: the same product on its own buffers -/

/-- A block's product: the payload of the second of the two regions is x · Wᵀ on a block of 5000 rows. -/
theorem pay_mm2 (x : Vec Ideal S5000x192 .f32) (W : Vec Ideal S192x192 .f32) :
    k2_pay1 (F := Ideal) x W = Spec.mulT (M := 5000) (K := 192) (P := 192) x W := by
  funext j
  obtain ⟨p, q, rfl⟩ : ∃ (p : Fin 5000) (q : Fin 192), j = ix2 p q := ⟨j 0, j 1, eq_ix2 j⟩
  unfold k2_pay1
  rw [Spec.mulT_apply]
  refine (Cert.LibPlainDot.matmul_zero_apply dot_S5000x192_S192x192_S5000x192_1_0_0_1_n_n rfl rfl
    (fun _ _ => rfl) (fun _ _ => rfl) rfl rfl none _ _ p q).trans ?_
  refine Finset.sum_congr rfl fun k _ => ?_
  rw [shapeCast_self, transpose_apply [1, 0] _ transposes_S192x192_p1_0_S192x192 (ix2 k q) (ix2 q k)
    (fun b => by match b with | ⟨0, _⟩ => rfl | ⟨1, _⟩ => rfl)]
  rfl

/-- Entry (p, q) of a block's product reads row p of the block and the weight; when that row is row P of the whole
    array and the weight is the whole weight, it is entry (P, q) of the whole product. -/
theorem blk_mm2 (A : Spec.Arr2 50000 192) (Wt : Spec.Arr2 192 192)
    (x : Vec Ideal S5000x192 .f32) (W : Vec Ideal S192x192 .f32) (p : Fin 5000) (q : Fin 192) (P : Fin 50000)
    (hx : ∀ k : Fin 192, x (ix2 p k) = A (ix2 P k)) (hW : ∀ (q k : Fin 192), W (ix2 q k) = Wt (ix2 q k)) :
    k2_pay1 (F := Ideal) x W (ix2 p q) = Spec.mulT A Wt (ix2 P q) := by
  rw [pay_mm2, Spec.mulT_apply, Spec.mulT_apply]
  exact Finset.sum_congr rfl fun k _ => by rw [hx k, hW q k]

/-- The block indices of the second region's three windows at grid point t: the input's and the result's block is
    number t along the rows, the weight's is the one whole block. -/
theorem idx2 : ∀ t : Fin cfg2.N, win2_0.index t (0 : Fin 2) = win2_2.index t (0 : Fin 2)
    ∧ win2_0.index t (1 : Fin 2) = 0
    ∧ win2_1.index t (0 : Fin 2) = 0 ∧ win2_1.index t (1 : Fin 2) = 0
    ∧ win2_2.index t (0 : Fin 2) ≤ 9 ∧ win2_2.index t (1 : Fin 2) = 0 :=
  (by decide +kernel : ∀ t : Fin grid2.N, _)

/-- Every one of the ten row blocks is some grid point's. -/
theorem onto2 : ∀ q0 : Fin 10, ∃ t : Fin cfg2.N, win2_2.index t = ![q0.val, 0] :=
  (by decide +kernel : ∀ q0 : Fin 10, ∃ t : Fin grid2.N, win2_2.index t = ![q0.val, 0])

/-- What grid point t writes back is block t of the whole product. -/
theorem flushed2_eq (c : Dev nD) (t : Fin cfg2.N) :
    (dat2 (F := Ideal) V c).flushed 2 t = ((cfg2.win 2).blk t).view.read (Elt Ideal)
      (Spec.mulT (M := 50000) (K := 192) (P := 192) (V c main_v56) (V c main_arg24)) := by
  show (cfg2.win 2).cut (grid2.coords t) ((dat2 V c).after 2 t) = _
  rw [after2_2]
  unfold out2_2
  rw [View.canon_unit_zero hz_mm]
  simp only [View.ld_unit_zero (S := S5000x192) hz_mm, View.ld_unit_zero (S := S192x192) hz_mm]
  obtain ⟨e0, e1, e2, e3, e4, e5⟩ := idx2 t
  funext j
  have hj0 : (j 0).val < 5000 := (j 0).isLt
  have hj1 : (j 1).val < 192 := (j 1).isLt
  have hP : win2_2.index t (0 : Fin 2) * 5000 + (j 0).val < 50000 := by omega
  have hy : (cfg2.win 2).xinj (grid2.coords t) j = ix2 (⟨(j 0).val, hj0⟩ : Fin 5000) (⟨(j 1).val, hj1⟩ : Fin 192) :=
    funext fun a => by match a with | ⟨0, _⟩ => rfl | ⟨1, _⟩ => rfl
  have hi : ((cfg2.win 2).blk t).view.emb j
      = ix2 (⟨win2_2.index t (0 : Fin 2) * 5000 + (j 0).val, hP⟩ : Fin 50000) (⟨(j 1).val, hj1⟩ : Fin 192) :=
    funext fun a => Fin.ext (by
      match a with
      | ⟨0, _⟩ => show win2_2.index t (0 : Fin 2) * 5000 + 1 * (j 0).val = win2_2.index t (0 : Fin 2) * 5000 + (j 0).val; omega
      | ⟨1, _⟩ => show win2_2.index t (1 : Fin 2) * 192 + 1 * (j 1).val = (j 1).val; omega)
  show k2_pay1 (iblk2 V c 0 t) (iblk2 V c 1 t) ((cfg2.win 2).xinj (grid2.coords t) j)
    = Spec.mulT (M := 50000) (K := 192) (P := 192) (V c main_v56) (V c main_arg24) (((cfg2.win 2).blk t).view.emb j)
  rw [hy, hi]
  refine blk_mm2 (V c main_v56) (V c main_arg24) (iblk2 V c 0 t) (iblk2 V c 1 t) _ _ _ (fun k => ?_) (fun q k => ?_)
  · show V c main_v56 (((cfg2.win 0).blk t).view.emb (ix2 (⟨(j 0).val, hj0⟩ : Fin 5000) k)) = _
    refine congrArg (V c main_v56) (funext fun a => Fin.ext ?_)
    match a with
    | ⟨0, _⟩ => show win2_0.index t (0 : Fin 2) * 5000 + 1 * (j 0).val = win2_2.index t (0 : Fin 2) * 5000 + (j 0).val; omega
    | ⟨1, _⟩ => show win2_0.index t (1 : Fin 2) * 192 + 1 * k.val = k.val; omega
  · show V c main_arg24 (((cfg2.win 1).blk t).view.emb (ix2 q k)) = _
    refine congrArg (V c main_arg24) (funext fun a => Fin.ext ?_)
    match a with
    | ⟨0, _⟩ => show win2_1.index t (0 : Fin 2) * 192 + 1 * q.val = q.val; omega
    | ⟨1, _⟩ => show win2_1.index t (1 : Fin 2) * 192 + 1 * k.val = k.val; omega

/-- An index of the result array is in grid point t's block iff each coordinate is in the block's range on its axis. -/
theorem mem_blk2 (t : Fin cfg2.N) (i : S50000x192.Idx) :
    i ∈ ((cfg2.win 2).blk t).view.set ↔ ∀ a : Fin 2, win2_2.index t a * S5000x192.size a ≤ (i a).val
      ∧ (i a).val < win2_2.index t a * S5000x192.size a + S5000x192.size a := by
  show i ∈ ((View.whole main_v57).slice (win2_2.rect t)).set ↔ _
  rw [View.set_slice_whole, Rect.mem_set_unit]
  exact Iff.rfl

/-- Row r of the result is in the block of the grid point whose block number is r / 5000: the ten blocks tile the rows. -/
theorem cover2 (i : S50000x192.Idx) :
    ∃ t : Fin cfg2.N, (cfg2.win 2).flush t = true ∧ i ∈ ((cfg2.win 2).blk t).view.set := by
  have hi0 : (i 0).val < 50000 := (i 0).isLt
  have hi1 : (i 1).val < 192 := (i 1).isLt
  obtain ⟨t, ht⟩ := onto2 ⟨(i 0).val / 5000, by omega⟩
  have q0 : win2_2.index t (0 : Fin 2) = (i 0).val / 5000 := congrFun ht 0
  have q1 : win2_2.index t (1 : Fin 2) = 0 := congrFun ht 1
  refine ⟨t, flush2_2 t, ?_⟩
  rw [mem_blk2]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 192 ≤ (i 1).val ∧ (i 1).val < win2_2.index t (1 : Fin 2) * 192 + 192; omega

/-- THE SECOND REGION'S RESULT: after its ten grid points the result array is the whole product of the input array as the
    region finds it by the transpose of the weight as the region finds it. -/
theorem arr2 (c : Dev nD) : (dat2 (F := Ideal) V c).arrAt 2 cfg2.N
    = Spec.mulT (M := 50000) (K := 192) (P := 192) (V c main_v56) (V c main_arg24) :=
  (dat2 (F := Ideal) V c).arrAt_eq_of_cover 2 _ (fun t _ => flushed2_eq V c t) cover2

end Cert.KernelIdeal.RegVal

end
-- ==== Proof.KerOut.lean ====
/-
  The last region of the tiled program as functions of whole arrays.

  The region reads an array h of 50000 rows and 192 columns one block of 5000 rows at a time, together with two
  weights and two biases held whole, and writes two results: em = the rectified layer of h of width 96, and
  out = the plain layer of em of width 2. Entry (p, q) of em reads row p of h only, and entry (p, q) of out reads
  row p of em only, so what grid point t writes is block t of the whole-array functions, and the ten blocks tile
  the 50000 rows. Changing the float format of an operand is the identity on the extended reals; the rectifier is
  written in the same order as the specification's, y where 0 ≤ y and y · slope elsewhere.
-/
import proofs.«136469_j28432683499972_1_alg».proof.Proof.Gen.KernelIdeal.Frame
import proofs.«136469_j28432683499972_1_alg».proof.Proof.Spec
import proofs.«136469_j28432683499972_1_alg».proof.Proof.LibPlainDot
import Idealize.ShloMosaic.Lib.Pipeline.Value
import Idealize.ShloMosaic.Lib.ValueIdx

set_option maxRecDepth 16384

noncomputable section

namespace Cert.KernelIdeal.RegVal

open Cert.KernelIdeal Cert.KernelIdeal.Gen Idealize.ShloMosaic Idealize.ShloMosaic.TcCoe Idealize.ShloMosaic.ValueIdx
open Idealize.ShloMosaic.Pipeline (Dat)
open scoped BigOperators

/-- The rectifier as the region writes it on a whole array — compare with zero, multiply by the slope, choose — is the
    specification's rectifier at every index. -/
theorem lrelu_vec {s : Shape} (y : FVec Ideal s .f32) (i : s.Idx) :
    select (cmpf .oge y (broadcast s (Scalar.ofBits (F := Ideal) .f32 0x00000000#32))) y
      (mulf y (broadcast s (Scalar.ofBits (F := Ideal) .f32 0x3C23D70A#32))) i = Spec.lrelu (y i) := rfl

/-- A block of em: the first payload is the rectified layer on a block of 5000 rows. -/
theorem pay_em (x : Vec Ideal S5000x192 .f32) (W : Vec Ideal S96x192 .f32) (b : Vec Ideal S1x96 .f32) :
    k3_pay1 (F := Ideal) x W b = Spec.act (M := 5000) (K := 192) (P := 96) x W (Spec.row b) := by
  funext j
  obtain ⟨p, q, rfl⟩ : ∃ (p : Fin 5000) (q : Fin 96), j = ix2 p q := ⟨j 0, j 1, eq_ix2 j⟩
  unfold k3_pay1
  rw [Spec.act_apply]
  refine (lrelu_vec _ _).trans (congrArg Spec.lrelu ?_)
  refine (addf_apply _ _ _).trans (congrArg₂ (· + ·) ?_ ?_)
  · refine (Cert.LibPlainDot.matmul_zero_apply dot_S5000x192_S192x96_S5000x96_1_0_0_1_n_n rfl rfl
      (fun _ _ => rfl) (fun _ _ => rfl) rfl rfl none _ _ p q).trans ?_
    refine Finset.sum_congr rfl fun k _ => ?_
    rw [shapeCast_self, transpose_apply [1, 0] _ transposes_S96x192_p1_0_S192x96 (ix2 k q) (ix2 q k)
      (fun b => by match b with | ⟨0, _⟩ => rfl | ⟨1, _⟩ => rfl)]
    rfl
  · rw [broadcastTo_apply _ broadcasts_S1x96_S5000x96 (ix2 p q) (ix2 (0 : Fin 1) q)
      (fun a => by match a with | ⟨0, _⟩ => rfl | ⟨1, _⟩ => rfl), shapeCast_self]
    rfl

/-- A block of out: the second payload is the plain layer of the block of em. -/
theorem pay_out (x : Vec Ideal S5000x192 .f32) (W : Vec Ideal S96x192 .f32) (b : Vec Ideal S1x96 .f32)
    (W2 : Vec Ideal S2x96 .f32) (b2 : Vec Ideal S1x2 .f32) :
    k3_pay2 (F := Ideal) x W b W2 b2
      = Spec.lin (M := 5000) (K := 96) (P := 2) (Spec.act (M := 5000) (K := 192) (P := 96) x W (Spec.row b)) W2 (Spec.row b2) := by
  funext j
  obtain ⟨p, q, rfl⟩ : ∃ (p : Fin 5000) (q : Fin 2), j = ix2 p q := ⟨j 0, j 1, eq_ix2 j⟩
  unfold k3_pay2
  rw [Spec.lin_apply]
  refine (addf_apply _ _ _).trans (congrArg₂ (· + ·) ?_ ?_)
  · refine (Cert.LibPlainDot.matmul_zero_apply dot_S5000x96_S96x2_S5000x2_1_0_0_1_n_n rfl rfl
      (fun _ _ => rfl) (fun _ _ => rfl) rfl rfl none _ _ p q).trans ?_
    refine Finset.sum_congr rfl fun k _ => ?_
    rw [truncf_apply, pay_em, transpose_apply [1, 0] _ transposes_S2x96_p1_0_S96x2 (ix2 k q) (ix2 q k)
      (fun b => by match b with | ⟨0, _⟩ => rfl | ⟨1, _⟩ => rfl)]
    rfl
  · rw [broadcastTo_apply _ broadcasts_S1x2_S5000x2 (ix2 p q) (ix2 (0 : Fin 1) q)
      (fun a => by match a with | ⟨0, _⟩ => rfl | ⟨1, _⟩ => rfl), shapeCast_self]
    rfl

/-- Entry (p, q) of the rectified layer reads row p of its input, the weight and the bias; when that row is row P of a
    whole array, and weight and bias are the whole weight and bias, it is entry (P, q) of the whole array's layer. -/
theorem act_row (A : Spec.Arr2 50000 192) (Wt : Spec.Arr2 96 192) (bt : Spec.Arr2 1 96)
    (x : Spec.Arr2 5000 192) (W : Spec.Arr2 96 192) (b : Spec.Arr2 1 96) (p : Fin 5000) (q : Fin 96) (P : Fin 50000)
    (hx : ∀ k : Fin 192, x (ix2 p k) = A (ix2 P k)) (hW : ∀ (q : Fin 96) (k : Fin 192), W (ix2 q k) = Wt (ix2 q k))
    (hb : ∀ q : Fin 96, b (ix2 (0 : Fin 1) q) = bt (ix2 (0 : Fin 1) q)) :
    Spec.act x W (Spec.row b) (ix2 p q) = Spec.act A Wt (Spec.row bt) (ix2 P q) := by
  rw [Spec.act_apply, Spec.act_apply]
  exact congrArg Spec.lrelu (congrArg₂ (· + ·) (Finset.sum_congr rfl fun k _ => by rw [hx k, hW q k]) (hb q))

/-- The same for a block of em. -/
theorem blk_em (A : Spec.Arr2 50000 192) (Wt : Spec.Arr2 96 192) (bt : Spec.Arr2 1 96)
    (x : Vec Ideal S5000x192 .f32) (W : Vec Ideal S96x192 .f32) (b : Vec Ideal S1x96 .f32)
    (p : Fin 5000) (q : Fin 96) (P : Fin 50000)
    (hx : ∀ k : Fin 192, x (ix2 p k) = A (ix2 P k)) (hW : ∀ (q : Fin 96) (k : Fin 192), W (ix2 q k) = Wt (ix2 q k))
    (hb : ∀ q : Fin 96, b (ix2 (0 : Fin 1) q) = bt (ix2 (0 : Fin 1) q)) :
    k3_pay1 (F := Ideal) x W b (ix2 p q) = Spec.act A Wt (Spec.row bt) (ix2 P q) := by
  rw [pay_em]
  exact act_row A Wt bt x W b p q P hx hW hb

/-- Entry (p, q) of a block of out reads row p of the block of em, hence row p of the block of h: it is entry (P, q) of
    the whole array's two layers. -/
theorem blk_out (A : Spec.Arr2 50000 192) (Wt : Spec.Arr2 96 192) (bt : Spec.Arr2 1 96) (W2t : Spec.Arr2 2 96) (b2t : Spec.Arr2 1 2)
    (x : Vec Ideal S5000x192 .f32) (W : Vec Ideal S96x192 .f32) (b : Vec Ideal S1x96 .f32)
    (W2 : Vec Ideal S2x96 .f32) (b2 : Vec Ideal S1x2 .f32) (p : Fin 5000) (q : Fin 2) (P : Fin 50000)
    (hx : ∀ k : Fin 192, x (ix2 p k) = A (ix2 P k)) (hW : ∀ (q : Fin 96) (k : Fin 192), W (ix2 q k) = Wt (ix2 q k))
    (hb : ∀ q : Fin 96, b (ix2 (0 : Fin 1) q) = bt (ix2 (0 : Fin 1) q))
    (hW2 : ∀ (q : Fin 2) (k : Fin 96), W2 (ix2 q k) = W2t (ix2 q k))
    (hb2 : ∀ q : Fin 2, b2 (ix2 (0 : Fin 1) q) = b2t (ix2 (0 : Fin 1) q)) :
    k3_pay2 (F := Ideal) x W b W2 b2 (ix2 p q)
      = Spec.lin (Spec.act A Wt (Spec.row bt)) W2t (Spec.row b2t) (ix2 P q) := by
  rw [pay_out, Spec.lin_apply, Spec.lin_apply]
  exact congrArg₂ (· + ·)
    (Finset.sum_congr rfl fun k _ => by rw [act_row A Wt bt x W b p k P hx hW hb, hW2 q k]) (hb2 q)

/-- The zero offsets of a whole-block access. -/
theorem hz_out : (![0, 0] : Fin 2 → Nat) = fun _ => 0 := funext fun a => by fin_cases a <;> rfl

/-- The block indices of the region's seven windows at grid point t: the block of h and of each result is number t
    along the rows; each weight and bias is its one whole block. -/
theorem idx3 : ∀ t : Fin cfg3.N, win3_0.index t (0 : Fin 2) = win3_5.index t (0 : Fin 2)
    ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) ≤ 9 ∧ win3_5.index t (1 : Fin 2) = 0
    ∧ win3_6.index t (0 : Fin 2) = win3_5.index t (0 : Fin 2) ∧ win3_6.index t (1 : Fin 2) = 0 :=
  (by decide +kernel : ∀ t : Fin grid3.N, _)

/-- Every one of the ten row blocks of em is some grid point's, -/
theorem onto3_em : ∀ q0 : Fin 10, ∃ t : Fin cfg3.N, win3_5.index t = ![q0.val, 0] :=
  (by decide +kernel : ∀ q0 : Fin 10, ∃ t : Fin grid3.N, win3_5.index t = ![q0.val, 0])

/-- and so is every one of the ten row blocks of out. -/
theorem onto3_out : ∀ q0 : Fin 10, ∃ t : Fin cfg3.N, win3_6.index t = ![q0.val, 0] :=
  (by decide +kernel : ∀ q0 : Fin 10, ∃ t : Fin grid3.N, win3_6.index t = ![q0.val, 0])

variable (V : (c : Dev nD) → (b : Ref sig .tc) → Buf (Elt Ideal) ((c : Thread nD τ).loc b))

/-- Row p of the block of h at grid point t is row 5000 · (block number) + p of h as the region finds it. -/
theorem blk3_h (c : Dev nD) (t : Fin cfg3.N) (p : Fin 5000) (k : Fin 192) (P : Fin 50000)
    (hP : P.val = win3_0.index t (0 : Fin 2) * 5000 + p.val) :
    iblk3 (F := Ideal) V c 0 t (ix2 p k) = V c main_v79 (ix2 P k) := by
  obtain ⟨e0, e1, -⟩ := idx3 t
  show V c main_v79 (((cfg3.win 0).blk t).view.emb (ix2 p k)) = _
  refine congrArg (V c main_v79) (funext fun a => Fin.ext ?_)
  match a with
  | ⟨0, _⟩ => show win3_0.index t (0 : Fin 2) * 5000 + 1 * p.val = P.val; omega
  | ⟨1, _⟩ => show win3_0.index t (1 : Fin 2) * 192 + 1 * k.val = k.val; omega

/-- The block of the first weight at every grid point is the weight as the region finds it; -/
theorem blk3_W1 (c : Dev nD) (t : Fin cfg3.N) (q : Fin 96) (k : Fin 192) :
    iblk3 (F := Ideal) V c 1 t (ix2 q k) = V c main_arg26 (ix2 q k) := by
  obtain ⟨-, -, e2, e3, -⟩ := idx3 t
  show V c main_arg26 (((cfg3.win 1).blk t).view.emb (ix2 q k)) = _
  refine congrArg (V c main_arg26) (funext fun a => Fin.ext ?_)
  match a with
  | ⟨0, _⟩ => show win3_1.index t (0 : Fin 2) * 96 + 1 * q.val = q.val; omega
  | ⟨1, _⟩ => show win3_1.index t (1 : Fin 2) * 192 + 1 * k.val = k.val; omega

/-- so is the first bias's, -/
theorem blk3_b1 (c : Dev nD) (t : Fin cfg3.N) (q : Fin 96) :
    iblk3 (F := Ideal) V c 2 t (ix2 (0 : Fin 1) q) = V c main_v80 (ix2 (0 : Fin 1) q) := by
  obtain ⟨-, -, -, -, e4, e5, -⟩ := idx3 t
  show V c main_v80 (((cfg3.win 2).blk t).view.emb (ix2 (0 : Fin 1) q)) = _
  refine congrArg (V c main_v80) (funext fun a => Fin.ext ?_)
  match a with
  | ⟨0, _⟩ => show win3_2.index t (0 : Fin 2) * 1 + 1 * 0 = 0; omega
  | ⟨1, _⟩ => show win3_2.index t (1 : Fin 2) * 96 + 1 * q.val = q.val; omega

/-- the second weight's, -/
theorem blk3_W2 (c : Dev nD) (t : Fin cfg3.N) (q : Fin 2) (k : Fin 96) :
    iblk3 (F := Ideal) V c 3 t (ix2 q k) = V c main_arg28 (ix2 q k) := by
  obtain ⟨-, -, -, -, -, -, e6, e7, -⟩ := idx3 t
  show V c main_arg28 (((cfg3.win 3).blk t).view.emb (ix2 q k)) = _
  refine congrArg (V c main_arg28) (funext fun a => Fin.ext ?_)
  match a with
  | ⟨0, _⟩ => show win3_3.index t (0 : Fin 2) * 2 + 1 * q.val = q.val; omega
  | ⟨1, _⟩ => show win3_3.index t (1 : Fin 2) * 96 + 1 * k.val = k.val; omega

/-- and the second bias's. -/
theorem blk3_b2 (c : Dev nD) (t : Fin cfg3.N) (q : Fin 2) :
    iblk3 (F := Ideal) V c 4 t (ix2 (0 : Fin 1) q) = V c main_v81 (ix2 (0 : Fin 1) q) := by
  obtain ⟨-, -, -, -, -, -, -, -, e8, e9, -⟩ := idx3 t
  show V c main_v81 (((cfg3.win 4).blk t).view.emb (ix2 (0 : Fin 1) q)) = _
  refine congrArg (V c main_v81) (funext fun a => Fin.ext ?_)
  match a with
  | ⟨0, _⟩ => show win3_4.index t (0 : Fin 2) * 1 + 1 * 0 = 0; omega
  | ⟨1, _⟩ => show win3_4.index t (1 : Fin 2) * 2 + 1 * q.val = q.val; omega

/-- What grid point t writes back to em is block t of the whole array's rectified layer. -/
theorem flushed3_em_eq (c : Dev nD) (t : Fin cfg3.N) :
    (dat3 (F := Ideal) V c).flushed 5 t = ((cfg3.win 5).blk t).view.read (Elt Ideal)
      (Spec.act (M := 50000) (K := 192) (P := 96) (V c main_v79) (V c main_arg26) (Spec.row (P := 96) (V c main_v80))) := by
  show (cfg3.win 5).cut (grid3.coords t) ((dat3 V c).after 5 t) = _
  rw [after3_5]
  unfold out3_5
  rw [View.canon_unit_zero hz_out]
  simp only [View.ld_unit_zero (S := S5000x192) hz_out, View.ld_unit_zero (S := S96x192) hz_out,
    View.ld_unit_zero (S := S1x96) hz_out]
  obtain ⟨e0, -, -, -, -, -, -, -, -, -, e10, e11, -⟩ := idx3 t
  funext j
  have hj0 : (j 0).val < 5000 := (j 0).isLt
  have hj1 : (j 1).val < 96 := (j 1).isLt
  have hP : win3_5.index t (0 : Fin 2) * 5000 + (j 0).val < 50000 := by omega
  have hy : (cfg3.win 5).xinj (grid3.coords t) j = ix2 (⟨(j 0).val, hj0⟩ : Fin 5000) (⟨(j 1).val, hj1⟩ : Fin 96) :=
    funext fun a => by match a with | ⟨0, _⟩ => rfl | ⟨1, _⟩ => rfl
  have hi : ((cfg3.win 5).blk t).view.emb j
      = ix2 (⟨win3_5.index t (0 : Fin 2) * 5000 + (j 0).val, hP⟩ : Fin 50000) (⟨(j 1).val, hj1⟩ : Fin 96) :=
    funext fun a => Fin.ext (by
      match a with
      | ⟨0, _⟩ => show win3_5.index t (0 : Fin 2) * 5000 + 1 * (j 0).val = win3_5.index t (0 : Fin 2) * 5000 + (j 0).val; omega
      | ⟨1, _⟩ => show win3_5.index t (1 : Fin 2) * 96 + 1 * (j 1).val = (j 1).val; omega)
  show k3_pay1 (iblk3 V c 0 t) (iblk3 V c 1 t) (iblk3 V c 2 t) ((cfg3.win 5).xinj (grid3.coords t) j)
    = Spec.act (M := 50000) (K := 192) (P := 96) (V c main_v79) (V c main_arg26) (Spec.row (P := 96) (V c main_v80))
        (((cfg3.win 5).blk t).view.emb j)
  rw [hy, hi]
  exact blk_em (V c main_v79) (V c main_arg26) (V c main_v80) (iblk3 V c 0 t) (iblk3 V c 1 t) (iblk3 V c 2 t) _ _ _
    (fun k => blk3_h V c t _ k _ (by
      show win3_5.index t (0 : Fin 2) * 5000 + (j 0).val = win3_0.index t (0 : Fin 2) * 5000 + (j 0).val; omega))
    (fun q k => blk3_W1 V c t q k) (fun q => blk3_b1 V c t q)

/-- What grid point t writes back to out is block t of the whole array's two layers. -/
theorem flushed3_out_eq (c : Dev nD) (t : Fin cfg3.N) :
    (dat3 (F := Ideal) V c).flushed 6 t = ((cfg3.win 6).blk t).view.read (Elt Ideal)
      (Spec.lin (M := 50000) (K := 96) (P := 2)
        (Spec.act (M := 50000) (K := 192) (P := 96) (V c main_v79) (V c main_arg26) (Spec.row (P := 96) (V c main_v80)))
        (V c main_arg28) (Spec.row (P := 2) (V c main_v81))) := by
  show (cfg3.win 6).cut (grid3.coords t) ((dat3 V c).after 6 t) = _
  rw [after3_6]
  unfold out3_6
  rw [View.canon_unit_zero hz_out]
  simp only [View.ld_unit_zero (S := S5000x192) hz_out, View.ld_unit_zero (S := S96x192) hz_out,
    View.ld_unit_zero (S := S1x96) hz_out, View.ld_unit_zero (S := S2x96) hz_out, View.ld_unit_zero (S := S1x2) hz_out]
  obtain ⟨e0, -, -, -, -, -, -, -, -, -, e10, e11, e12, e13⟩ := idx3 t
  funext j
  have hj0 : (j 0).val < 5000 := (j 0).isLt
  have hj1 : (j 1).val < 2 := (j 1).isLt
  have hP : win3_6.index t (0 : Fin 2) * 5000 + (j 0).val < 50000 := by omega
  have hy : (cfg3.win 6).xinj (grid3.coords t) j = ix2 (⟨(j 0).val, hj0⟩ : Fin 5000) (⟨(j 1).val, hj1⟩ : Fin 2) :=
    funext fun a => by match a with | ⟨0, _⟩ => rfl | ⟨1, _⟩ => rfl
  have hi : ((cfg3.win 6).blk t).view.emb j
      = ix2 (⟨win3_6.index t (0 : Fin 2) * 5000 + (j 0).val, hP⟩ : Fin 50000) (⟨(j 1).val, hj1⟩ : Fin 2) :=
    funext fun a => Fin.ext (by
      match a with
      | ⟨0, _⟩ => show win3_6.index t (0 : Fin 2) * 5000 + 1 * (j 0).val = win3_6.index t (0 : Fin 2) * 5000 + (j 0).val; omega
      | ⟨1, _⟩ => show win3_6.index t (1 : Fin 2) * 2 + 1 * (j 1).val = (j 1).val; omega)
  show k3_pay2 (iblk3 V c 0 t) (iblk3 V c 1 t) (iblk3 V c 2 t) (iblk3 V c 3 t) (iblk3 V c 4 t)
      ((cfg3.win 6).xinj (grid3.coords t) j)
    = Spec.lin (M := 50000) (K := 96) (P := 2)
        (Spec.act (M := 50000) (K := 192) (P := 96) (V c main_v79) (V c main_arg26) (Spec.row (P := 96) (V c main_v80)))
        (V c main_arg28) (Spec.row (P := 2) (V c main_v81)) (((cfg3.win 6).blk t).view.emb j)
  rw [hy, hi]
  exact blk_out (V c main_v79) (V c main_arg26) (V c main_v80) (V c main_arg28) (V c main_v81)
    (iblk3 V c 0 t) (iblk3 V c 1 t) (iblk3 V c 2 t) (iblk3 V c 3 t) (iblk3 V c 4 t) _ _ _
    (fun k => blk3_h V c t _ k _ (by
      show win3_6.index t (0 : Fin 2) * 5000 + (j 0).val = win3_0.index t (0 : Fin 2) * 5000 + (j 0).val; omega))
    (fun q k => blk3_W1 V c t q k) (fun q => blk3_b1 V c t q) (fun q k => blk3_W2 V c t q k) (fun q => blk3_b2 V c t q)

/-- An index of em is in grid point t's block iff each coordinate is in the block's range on its axis. -/
theorem mem_blk3_em (t : Fin cfg3.N) (i : S50000x96.Idx) :
    i ∈ ((cfg3.win 5).blk t).view.set ↔ ∀ a : Fin 2, win3_5.index t a * S5000x96.size a ≤ (i a).val
      ∧ (i a).val < win3_5.index t a * S5000x96.size a + S5000x96.size a := by
  show i ∈ ((View.whole main_v82_0).slice (win3_5.rect t)).set ↔ _
  rw [View.set_slice_whole, Rect.mem_set_unit]
  exact Iff.rfl

/-- The same for out. -/
theorem mem_blk3_out (t : Fin cfg3.N) (i : S50000x2.Idx) :
    i ∈ ((cfg3.win 6).blk t).view.set ↔ ∀ a : Fin 2, win3_6.index t a * S5000x2.size a ≤ (i a).val
      ∧ (i a).val < win3_6.index t a * S5000x2.size a + S5000x2.size a := by
  show i ∈ ((View.whole main_v82_1).slice (win3_6.rect t)).set ↔ _
  rw [View.set_slice_whole, Rect.mem_set_unit]
  exact Iff.rfl

/-- Row r of em is in the block of the grid point whose block number is r / 5000: the ten blocks tile the rows. -/
theorem cover3_em (i : S50000x96.Idx) :
    ∃ t : Fin cfg3.N, (cfg3.win 5).flush t = true ∧ i ∈ ((cfg3.win 5).blk t).view.set := by
  have hi0 : (i 0).val < 50000 := (i 0).isLt
  have hi1 : (i 1).val < 96 := (i 1).isLt
  obtain ⟨t, ht⟩ := onto3_em ⟨(i 0).val / 5000, by omega⟩
  have q0 : win3_5.index t (0 : Fin 2) = (i 0).val / 5000 := congrFun ht 0
  have q1 : win3_5.index t (1 : Fin 2) = 0 := congrFun ht 1
  refine ⟨t, flush3_5 t, ?_⟩
  rw [mem_blk3_em]
  intro a
  match a with
  | ⟨0, _⟩ => show win3_5.index t (0 : Fin 2) * 5000 ≤ (i 0).val ∧ (i 0).val < win3_5.index t (0 : Fin 2) * 5000 + 5000; omega
  | ⟨1, _⟩ => show win3_5.index t (1 : Fin 2) * 96 ≤ (i 1).val ∧ (i 1).val < win3_5.index t (1 : Fin 2) * 96 + 96; omega

/-- The same for out. -/
theorem cover3_out (i : S50000x2.Idx) :
    ∃ t : Fin cfg3.N, (cfg3.win 6).flush t = true ∧ i ∈ ((cfg3.win 6).blk t).view.set := by
  have hi0 : (i 0).val < 50000 := (i 0).isLt
  have hi1 : (i 1).val < 2 := (i 1).isLt
  obtain ⟨t, ht⟩ := onto3_out ⟨(i 0).val / 5000, by omega⟩
  have q0 : win3_6.index t (0 : Fin 2) = (i 0).val / 5000 := congrFun ht 0
  have q1 : win3_6.index t (1 : Fin 2) = 0 := congrFun ht 1
  refine ⟨t, flush3_6 t, ?_⟩
  rw [mem_blk3_out]
  intro a
  match a with
  | ⟨0, _⟩ => show win3_6.index t (0 : Fin 2) * 5000 ≤ (i 0).val ∧ (i 0).val < win3_6.index t (0 : Fin 2) * 5000 + 5000; omega
  | ⟨1, _⟩ => show win3_6.index t (1 : Fin 2) * 2 ≤ (i 1).val ∧ (i 1).val < win3_6.index t (1 : Fin 2) * 2 + 2; omega

/-- THE LAST REGION'S FIRST RESULT: after its ten grid points em is the rectified layer of h as the region finds it, with
    the first weight and bias as the region finds them. -/
theorem arr3_em (c : Dev nD) : (dat3 (F := Ideal) V c).arrAt 5 cfg3.N
    = Spec.act (M := 50000) (K := 192) (P := 96) (V c main_v79) (V c main_arg26) (Spec.row (P := 96) (V c main_v80)) :=
  (dat3 (F := Ideal) V c).arrAt_eq_of_cover 5 _ (fun t _ => flushed3_em_eq V c t) cover3_em

/-- THE LAST REGION'S SECOND RESULT: out is the plain layer of that em with the second weight and bias as the region
    finds them. -/
theorem arr3_out (c : Dev nD) : (dat3 (F := Ideal) V c).arrAt 6 cfg3.N
    = Spec.lin (M := 50000) (K := 96) (P := 2)
        (Spec.act (M := 50000) (K := 192) (P := 96) (V c main_v79) (V c main_arg26) (Spec.row (P := 96) (V c main_v80)))
        (V c main_arg28) (Spec.row (P := 2) (V c main_v81)) :=
  (dat3 (F := Ideal) V c).arrAt_eq_of_cover 6 _ (fun t _ => flushed3_out_eq V c t) cover3_out

end Cert.KernelIdeal.RegVal

end
-- ==== Proof.RefTerms.lean ====
/-
  The reference network's results as pure functions of its argument arrays, read on the extended reals, cut where the
  computation alternates between dense layers and the edge gather / scatter.

  Each definition is the composition, in order, of the operations the printed program applies:
  a dense layer is  x · Wᵀ  (the weight transposed, then contracted)  plus the bias broadcast along the rows, and the
  leaky rectifier is  select (0 ≤ y) y (s · y)  with the slope s broadcast from a scalar.  The aggregation step reads
  the edge list (row 0 the sources, row 1 the targets), counts each target's incoming edges plus one (the degree),
  weights an edge by  rsqrt(deg src) · rsqrt(deg dst),  adds the weighted source rows into the target rows, and adds
  the node's own row divided by its degree, and the bias.
-/
import proofs.«136469_j28432683499972_1_alg».proof.ReferenceIdeal
import Idealize.ShloMosaic.PureOps.Ideal

noncomputable section

namespace Cert.ReferenceIdeal.Terms

open Cert.ReferenceIdeal Idealize.ShloMosaic Idealize.SL.Sem
open Facts₀ Facts

variable [Facts]

/-- The leaky rectifier on a [50000, 32] array with the slope held in a scalar array:
    the entries that are ≥ 0 are kept, the others are multiplied by the slope. -/
def lrelu32 (y : FVec Ideal S50000x32 .f32) (s : FVec Ideal S_ .f32) : FVec Ideal S50000x32 .f32 :=
  select (cmpf .oge y (broadcastInDim S50000x32 ![] bcast_S_S50000x32 (constant (F := Ideal) S_ .f32 0x00000000#32)))
    y (mulf (broadcastInDim S50000x32 ![] bcast_S_S50000x32 (id s)) y)

/-- The same on a [50000, 192] array. -/
def lrelu192 (y : FVec Ideal S50000x192 .f32) (s : FVec Ideal S_ .f32) : FVec Ideal S50000x192 .f32 :=
  select (cmpf .oge y (broadcastInDim S50000x192 ![] bcast_S_S50000x192 (constant (F := Ideal) S_ .f32 0x00000000#32)))
    y (mulf (broadcastInDim S50000x192 ![] bcast_S_S50000x192 (id s)) y)

/-- The same on a [50000, 96] array. -/
def lrelu96 (y : FVec Ideal S50000x96 .f32) (s : FVec Ideal S_ .f32) : FVec Ideal S50000x96 .f32 :=
  select (cmpf .oge y (broadcastInDim S50000x96 ![] bcast_S_S50000x96 (constant (F := Ideal) S_ .f32 0x00000000#32)))
    y (mulf (broadcastInDim S50000x96 ![] bcast_S_S50000x96 (id s)) y)

/-- A [32]-bias as a [50000, 32] array: the same row everywhere. -/
def bias32 (b : FVec Ideal S32 .f32) : FVec Ideal S50000x32 .f32 :=
  broadcastInDim S50000x32 ![0, 1] bcast_S1x32_S50000x32_0_1 (broadcastInDim S1x32 ![1] bcast_S32_S1x32_1 b)

/-- A [192]-bias as a [50000, 192] array. -/
def bias192 (b : FVec Ideal S192 .f32) : FVec Ideal S50000x192 .f32 :=
  broadcastInDim S50000x192 ![0, 1] bcast_S1x192_S50000x192_0_1 (broadcastInDim S1x192 ![1] bcast_S192_S1x192_1 b)

/-- A rectified layer 768 → 32: rectify (x · Wᵀ + b). -/
def layer768 (x : FVec Ideal S50000x768 .f32) (W : FVec Ideal S32x768 .f32) (b : FVec Ideal S32 .f32) :
    FVec Ideal S50000x32 .f32 :=
  lrelu32 (addf (Host.dotGeneral (F := Ideal) dot_S50000x768_S768x32_S50000x32_1_0_0_1_n_n none x
      (transpose S768x32 [1, 0] W transposes_S32x768_S768x32_1_0)) (bias32 b))
    (constant (F := Ideal) S_ .f32 0x3C23D70A#32)

/-- A rectified layer 5 → 32. -/
def layer5 (x : FVec Ideal S50000x5 .f32) (W : FVec Ideal S32x5 .f32) (b : FVec Ideal S32 .f32) :
    FVec Ideal S50000x32 .f32 :=
  lrelu32 (addf (Host.dotGeneral (F := Ideal) dot_S50000x5_S5x32_S50000x32_1_0_0_1_n_n none x
      (transpose S5x32 [1, 0] W transposes_S32x5_S5x32_1_0)) (bias32 b))
    (constant (F := Ideal) S_ .f32 0x3C23D70A#32)

/-- A rectified layer 1 → 32. -/
def layer1 (x : FVec Ideal S50000x1 .f32) (W : FVec Ideal S32x1 .f32) (b : FVec Ideal S32 .f32) :
    FVec Ideal S50000x32 .f32 :=
  lrelu32 (addf (Host.dotGeneral (F := Ideal) dot_S50000x1_S1x32_S50000x32_1_0_0_1_n_n none x
      (transpose S1x32 [1, 0] W transposes_S32x1_S1x32_1_0)) (bias32 b))
    (constant (F := Ideal) S_ .f32 0x3C23D70A#32)

/-- The first stage: six rectified layers of width 32, laid side by side in the order
    (the [50000, 5] input, the [50000, 1] input, argument 6, argument 7, argument 0, argument 1),
    then a rectified layer 192 → 192. -/
def dense0 (a0 a1 : FVec Ideal S50000x768 .f32) (a4 : FVec Ideal S50000x5 .f32) (a5 : FVec Ideal S50000x1 .f32)
    (a6 a7 : FVec Ideal S50000x768 .f32)
    (a8 : FVec Ideal S32x768 .f32) (a9 : FVec Ideal S32 .f32) (a10 : FVec Ideal S32x768 .f32) (a11 : FVec Ideal S32 .f32)
    (a12 : FVec Ideal S32x768 .f32) (a13 : FVec Ideal S32 .f32) (a14 : FVec Ideal S32x5 .f32) (a15 : FVec Ideal S32 .f32)
    (a16 : FVec Ideal S32x1 .f32) (a17 : FVec Ideal S32 .f32) (a18 : FVec Ideal S32x768 .f32) (a19 : FVec Ideal S32 .f32)
    (a20 : FVec Ideal S192x192 .f32) (a21 : FVec Ideal S192 .f32) : FVec Ideal S50000x192 .f32 :=
  lrelu192 (addf (Host.dotGeneral (F := Ideal) dot_S50000x192_S192x192_S50000x192_1_0_0_1_n_n none
      (concatenate S50000x192 1
        [⟨S50000x32, layer5 a4 a14 a15⟩, ⟨S50000x32, layer1 a5 a16 a17⟩, ⟨S50000x32, layer768 a6 a8 a9⟩,
         ⟨S50000x32, layer768 a7 a18 a19⟩, ⟨S50000x32, layer768 a0 a10 a11⟩, ⟨S50000x32, layer768 a1 a12 a13⟩]
        concatenates_S50000x32_S50000x32_S50000x32_S50000x32_S50000x32_S50000x32_S50000x192_d1)
      (transpose S192x192 [1, 0] a20 transposes_S192x192_S192x192_1_0)) (bias192 a21))
    (constant (F := Ideal) S_ .f32 0x3C23D70A#32)

/-- h · Wᵀ for a [192, 192] weight. -/
def hw (h : FVec Ideal S50000x192 .f32) (W : FVec Ideal S192x192 .f32) : FVec Ideal S50000x192 .f32 :=
  Host.dotGeneral (F := Ideal) dot_S50000x192_S192x192_S50000x192_1_0_0_1_n_n none h
    (transpose S192x192 [1, 0] W transposes_S192x192_S192x192_1_0)

/-- The source node of every edge: row 0 of the edge list. -/
def src (ei : IVec S2x800000 32) : IVec S800000 32 :=
  shapeCast S800000 (extractStridedSlice S1x800000 ![0, 0] ei slices_S2x800000_S1x800000_0_0) shapeCasts_S1x800000_S800000

/-- The target node of every edge: row 1 of the edge list. -/
def dst (ei : IVec S2x800000 32) : IVec S800000 32 :=
  shapeCast S800000 (extractStridedSlice S1x800000 ![1, 0] ei slices_S2x800000_S1x800000_1_0) shapeCasts_S1x800000_S800000

/-- Node numbers as gather indices: a negative number counts from the end (50000 is added to it), and the list is
    given a trailing axis of extent 1. -/
def wrap (v : IVec S800000 32) : IVec S800000x1 32 :=
  broadcastInDim S800000x1 ![0] bcast_S800000_S800000x1_0
    (select (cmpi .slt v (broadcastInDim S800000 ![] bcast_S_S800000 (constantI S_ 32 0#32)))
      (addi v (broadcastInDim S800000 ![] bcast_S_S800000 (constantI S_ 32 50000#32))) v)

/-- The degree of every node: one, plus the number of edges that end in it. -/
def deg (ei : IVec S2x800000 32) : FVec Ideal S50000 .f32 :=
  addf (Host.scatterAdd (F := Ideal) scatter_S50000_S800000x1_S800000_n_0_0_1
      (broadcastInDim S50000 ![] bcast_S_S50000 (constant (F := Ideal) S_ .f32 0x00000000#32))
      (broadcastInDim S800000x1 ![0] bcast_S800000_S800000x1_0 (dst ei))
      (broadcastInDim S800000 ![] bcast_S_S800000 (constant (F := Ideal) S_ .f32 0x3F800000#32)))
    (broadcastInDim S50000 ![] bcast_S_S50000 (constant (F := Ideal) S_ .f32 0x3F800000#32))

/-- The weight of every edge: rsqrt(deg of its source) · rsqrt(deg of its target). -/
def ew (ei : IVec S2x800000 32) : FVec Ideal S800000 .f32 :=
  mulf (Host.gather gather_S50000_S800000x1_S800000_n_0_n_n_0_1_1 (Host.rsqrt (deg ei)) (wrap (src ei)))
    (Host.gather gather_S50000_S800000x1_S800000_n_0_n_n_0_1_1 (Host.rsqrt (deg ei)) (wrap (dst ei)))

/-- One aggregation step on the rows hW: into every node the weighted rows of the sources of its incoming edges are
    added, then the node's own row divided by its degree, then the bias. -/
def combine (hW : FVec Ideal S50000x192 .f32) (ei : IVec S2x800000 32) (b : FVec Ideal S192 .f32) :
    FVec Ideal S50000x192 .f32 :=
  addf (addf
      (Host.scatterAdd (F := Ideal) scatter_S50000x192_S800000x1_S800000x192_1_0_0_1
        (broadcastInDim S50000x192 ![] bcast_S_S50000x192 (constant (F := Ideal) S_ .f32 0x00000000#32))
        (broadcastInDim S800000x1 ![0] bcast_S800000_S800000x1_0 (dst ei))
        (mulf (Host.gather gather_S50000x192_S800000x1_S800000x192_1_0_n_n_0_1_1192 hW (wrap (src ei)))
          (broadcastInDim S800000x192 ![0, 1] bcast_S800000x1_S800000x192_0_1
            (broadcastInDim S800000x1 ![0] bcast_S800000_S800000x1_0 (ew ei)))))
      (mulf hW (broadcastInDim S50000x192 ![0, 1] bcast_S50000x1_S50000x192_0_1
        (broadcastInDim S50000x1 ![0] bcast_S50000_S50000x1_0
          (Host.divf (broadcastInDim S50000 ![] bcast_S_S50000 (constant (F := Ideal) S_ .f32 0x3F800000#32)) (deg ei))))))
    (bias192 b)

/-- The rectified layer 192 → 96. -/
def emT (h : FVec Ideal S50000x192 .f32) (W : FVec Ideal S96x192 .f32) (b : FVec Ideal S96 .f32) :
    FVec Ideal S50000x96 .f32 :=
  lrelu96 (addf (Host.dotGeneral (F := Ideal) dot_S50000x192_S192x96_S50000x96_1_0_0_1_n_n none h
      (transpose S192x96 [1, 0] W transposes_S96x192_S192x96_1_0))
      (broadcastInDim S50000x96 ![0, 1] bcast_S1x96_S50000x96_0_1 (broadcastInDim S1x96 ![1] bcast_S96_S1x96_1 b)))
    (constant (F := Ideal) S_ .f32 0x3C23D70A#32)

/-- The last layer 96 → 2, not rectified. -/
def outT (e : FVec Ideal S50000x96 .f32) (W : FVec Ideal S2x96 .f32) (b : FVec Ideal S2 .f32) :
    FVec Ideal S50000x2 .f32 :=
  addf (Host.dotGeneral (F := Ideal) dot_S50000x96_S96x2_S50000x2_1_0_0_1_n_n none e
      (transpose S96x2 [1, 0] W transposes_S2x96_S96x2_1_0))
    (broadcastInDim S50000x2 ![0, 1] bcast_S1x2_S50000x2_0_1 (broadcastInDim S1x2 ![1] bcast_S2_S1x2_1 b))

end Cert.ReferenceIdeal.Terms

end
-- ==== Proof.LibHostDot.lean ====
/-
  A plain matrix product on the host, read at an index, on the extended reals.

  For dimension numbers that contract the left operand's second axis against the right operand's first — an [M, K] array
  times a [K, P] array — the host's product read at row `p` and column `q` is `Σ k, l (p, k) · r (k, q)` over the K
  contraction coordinates: the sum over the contraction's index set, which has one axis, re-indexed through that axis's
  coordinate. The two facts about the free axes are taken as hypotheses, since for given dimension numbers they hold by
  computation.
-/
import Idealize.ShloMosaic.PureOps.Ideal.Laws
import Idealize.ShloMosaic.Lib.ValueIdx

noncomputable section

open scoped BigOperators

namespace Cert.LibHostDot

open Idealize.ShloMosaic Idealize.ShloMosaic.ValueIdx

/-- The host's matrix product at (p, q) is the sum over the contraction coordinate of the left operand at (p, k) times the
    right operand at (k, q). -/
theorem dotGeneral_plain_apply {M K P : ℕ} {φ₁ φ₂ : FTy}
    (D : DotDims ⟨2, ![M, K]⟩ ⟨2, ![K, P]⟩ ⟨2, ![M, P]⟩)
    (hlc : D.lhsContracting = [1]) (hrc : D.rhsContracting = [0])
    (hl0 : ∀ (j : (⟨2, ![M, P]⟩ : Shape).Idx) (c : D.contr.Idx), (D.lhsIdx j c 0).val = (j 0).val)
    (hr1 : ∀ (j : (⟨2, ![M, P]⟩ : Shape).Idx) (c : D.contr.Idx), (D.rhsIdx j c 1).val = (j 1).val)
    (hrank : D.contr.rank = 1) (hsize : D.contr.size ⟨0, by omega⟩ = K)
    (prec : Option ContractPrecision)
    (l : FVec Ideal ⟨2, ![M, K]⟩ φ₁) (r : FVec Ideal ⟨2, ![K, P]⟩ φ₂) (p : Fin M) (q : Fin P) :
    Host.dotGeneral D prec l r (ix2 p q) = ∑ k : Fin K, l (ix2 p k) * r (ix2 k q) := by
  simp only [Host.dotGeneral]
  rw [Ideal.dotGeneral_apply, ← Equiv.sum_comp (contrEquiv1 D K hrank hsize).symm]
  refine Finset.sum_congr rfl fun k _ => ?_
  have hk := contrEquiv1_symm_val D K hrank hsize k
  have el : D.lhsIdx (ix2 p q) ((contrEquiv1 D K hrank hsize).symm k) = ix2 p k := funext fun a => Fin.ext (by
    match a with
    | ⟨0, _⟩ => exact hl0 _ _
    | ⟨1, _⟩ => exact (D.lhsIdx_val_of_single hlc _ _).trans hk)
  have er : D.rhsIdx (ix2 p q) ((contrEquiv1 D K hrank hsize).symm k) = ix2 k q := funext fun a => Fin.ext (by
    match a with
    | ⟨0, _⟩ => exact (D.rhsIdx_val_of_single hrc _ _).trans hk
    | ⟨1, _⟩ => exact hr1 _ _)
  rw [el, er]

end Cert.LibHostDot

end
-- ==== Proof.RefDense.lean ====
/-
  The reference's dense layers, read entry by entry on the extended reals.

  Each dense layer of the reference is: transpose the weight, multiply, lay the bias along every row, add, and
  (for a rectified layer) select between y and slope · y by the test 0 ≤ y.  Read at row p and column q this is
  Σₖ x(p, k) · W(q, k) + b(q),  followed by the rectifier of that number.  The only algebra is that slope · y is
  y · slope.  Six layers of width 32 are laid side by side: column j of the concatenation is column j mod 32 of
  piece j div 32.
-/
import proofs.«136469_j28432683499972_1_alg».proof.ReferenceIdeal
import proofs.«136469_j28432683499972_1_alg».proof.Proof.Gen.ReferenceIdeal
import proofs.«136469_j28432683499972_1_alg».proof.Proof.RefTerms
import proofs.«136469_j28432683499972_1_alg».proof.Proof.Spec
import proofs.«136469_j28432683499972_1_alg».proof.Proof.LibHostDot
import Idealize.ShloMosaic.Lib.Pipeline.Value
import Idealize.ShloMosaic.Lib.ValueLayout
import Idealize.ShloMosaic.Lib.KernelVsHost

noncomputable section

open scoped BigOperators

namespace Cert.ReferenceIdeal.RefDense

open Idealize.ShloMosaic Idealize.ShloMosaic.ValueIdx

/-! ## A product with a transposed weight -/

/-- The host's product of x with the transpose of W, at (p, q), is Σₖ x(p, k) · W(q, k). -/
theorem dotT_apply {M K P : ℕ}
    (D : DotDims ⟨2, ![M, K]⟩ ⟨2, ![K, P]⟩ ⟨2, ![M, P]⟩)
    (hlc : D.lhsContracting = [1]) (hrc : D.rhsContracting = [0])
    (hl0 : ∀ (j : (⟨2, ![M, P]⟩ : Shape).Idx) (c : D.contr.Idx), (D.lhsIdx j c 0).val = (j 0).val)
    (hr1 : ∀ (j : (⟨2, ![M, P]⟩ : Shape).Idx) (c : D.contr.Idx), (D.rhsIdx j c 1).val = (j 1).val)
    (hrank : D.contr.rank = 1) (hsize : D.contr.size ⟨0, by omega⟩ = K)
    (hT : (⟨2, ![P, K]⟩ : Shape).Transposes [1, 0] ⟨2, ![K, P]⟩)
    (x : FVec Ideal ⟨2, ![M, K]⟩ .f32) (W : FVec Ideal ⟨2, ![P, K]⟩ .f32) (p : Fin M) (q : Fin P) :
    Host.dotGeneral D none x (transpose ⟨2, ![K, P]⟩ [1, 0] W hT) (ix2 p q)
      = ∑ k : Fin K, x (ix2 p k) * W (ix2 q k) := by
  rw [Cert.LibHostDot.dotGeneral_plain_apply D hlc hrc hl0 hr1 hrank hsize]
  refine Finset.sum_congr rfl fun k _ => ?_
  rw [transpose_ix2_apply]

/-- The same as an equation of arrays: the product with the transposed weight is x · Wᵀ. -/
theorem dotT_eq {M K P : ℕ}
    (D : DotDims ⟨2, ![M, K]⟩ ⟨2, ![K, P]⟩ ⟨2, ![M, P]⟩)
    (hlc : D.lhsContracting = [1]) (hrc : D.rhsContracting = [0])
    (hl0 : ∀ (j : (⟨2, ![M, P]⟩ : Shape).Idx) (c : D.contr.Idx), (D.lhsIdx j c 0).val = (j 0).val)
    (hr1 : ∀ (j : (⟨2, ![M, P]⟩ : Shape).Idx) (c : D.contr.Idx), (D.rhsIdx j c 1).val = (j 1).val)
    (hrank : D.contr.rank = 1) (hsize : D.contr.size ⟨0, by omega⟩ = K)
    (hT : (⟨2, ![P, K]⟩ : Shape).Transposes [1, 0] ⟨2, ![K, P]⟩)
    (x : FVec Ideal ⟨2, ![M, K]⟩ .f32) (W : FVec Ideal ⟨2, ![P, K]⟩ .f32) :
    Host.dotGeneral D none x (transpose ⟨2, ![K, P]⟩ [1, 0] W hT) = Spec.mulT x W := by
  funext i
  obtain ⟨p, q, rfl⟩ : ∃ (p : Fin M) (q : Fin P), i = ix2 p q := ⟨i 0, i 1, eq_ix2 i⟩
  rw [Spec.mulT_apply]
  exact dotT_apply D hlc hrc hl0 hr1 hrank hsize hT x W p q

/-! ## A bias laid along every row -/

/-- A vector of P entries made a one-row array and laid along M rows reads, at (p, q), its entry q. -/
theorem biasRows_apply {M P : ℕ}
    (h1 : (⟨1, ![P]⟩ : Shape).BroadcastsInDim ⟨2, ![1, P]⟩ ![1])
    (h2 : (⟨2, ![1, P]⟩ : Shape).BroadcastsInDim ⟨2, ![M, P]⟩ ![0, 1])
    (b : FVec Ideal ⟨1, ![P]⟩ .f32) (p : Fin M) (q : Fin P) :
    broadcastInDim ⟨2, ![M, P]⟩ ![0, 1] h2 (broadcastInDim ⟨2, ![1, P]⟩ ![1] h1 b) (ix2 p q) = b (ix1 q) := by
  rw [broadcastInDim_oneRow_apply]
  refine broadcastInDim_apply ![1] h1 b (ix2 (0 : Fin 1) q) (ix1 q) ?_
  intro a
  match a with
  | ⟨0, _⟩ =>
    show q.val = if P = 1 then 0 else q.val
    split
    · have := q.isLt; omega
    · rfl

/-! ## The rectifier -/

/-- A number broadcast to every entry of an array reads that number everywhere. -/
theorem scalarBcast_apply {t : Shape} (h : (⟨0, ![]⟩ : Shape).BroadcastsInDim t ![])
    (c : FVec Ideal ⟨0, ![]⟩ .f32) (i : t.Idx) :
    broadcastInDim t ![] h c i = c ix0 :=
  broadcastInDim_apply ![] h c i ix0 (fun a => a.elim0)

/-- The reference's rectifier — the test 0 ≤ y against a broadcast zero, the slope broadcast and multiplied on the
    left, the selection — is, entry by entry, the rectifier of the specification: slope · y = y · slope. -/
theorem lrelu_apply {t : Shape} (h : (⟨0, ![]⟩ : Shape).BroadcastsInDim t ![])
    (y : FVec Ideal t .f32) (i : t.Idx) :
    select (cmpf .oge y (broadcastInDim t ![] h (constant (F := Ideal) ⟨0, ![]⟩ .f32 0x00000000#32)))
        y (mulf (broadcastInDim t ![] h (id (constant (F := Ideal) ⟨0, ![]⟩ .f32 0x3C23D70A#32))) y) i
      = Spec.lrelu (y i) := by
  rw [select_apply, cmpf_apply, mulf_apply, scalarBcast_apply, scalarBcast_apply]
  show Scalar.select (FloatOps.cmpf .oge (y i) (Ideal.ofBits .f32 0x00000000#32)) (y i)
      (Ideal.ofBits .f32 0x3C23D70A#32 * y i) = _
  unfold Spec.lrelu Spec.zero32 Spec.slope
  rw [mul_comm]

/-! ## Six pieces side by side -/

/-- Six [M, 32] arrays concatenated along the columns: column j is column j mod 32 of piece j div 32. -/
theorem cat6_eq {M : ℕ}
    (h : Shape.Concatenates [(⟨2, ![M, 32]⟩ : Shape), ⟨2, ![M, 32]⟩, ⟨2, ![M, 32]⟩, ⟨2, ![M, 32]⟩, ⟨2, ![M, 32]⟩,
      ⟨2, ![M, 32]⟩] ⟨2, ![M, 192]⟩ 1)
    (u0 u1 u2 u3 u4 u5 : FVec Ideal ⟨2, ![M, 32]⟩ .f32) :
    concatenate (⟨2, ![M, 192]⟩ : Shape) 1
        [⟨(⟨2, ![M, 32]⟩ : Shape), u0⟩, ⟨(⟨2, ![M, 32]⟩ : Shape), u1⟩, ⟨(⟨2, ![M, 32]⟩ : Shape), u2⟩,
         ⟨(⟨2, ![M, 32]⟩ : Shape), u3⟩, ⟨(⟨2, ![M, 32]⟩ : Shape), u4⟩, ⟨(⟨2, ![M, 32]⟩ : Shape), u5⟩] h
      = Spec.cat6 u0 u1 u2 u3 u4 u5 := by
  funext i
  obtain ⟨p, j, rfl⟩ : ∃ (p : Fin M) (j : Fin 192), i = ix2 p j := ⟨i 0, i 1, eq_ix2 i⟩
  rw [Spec.cat6_apply]
  have hj := j.isLt
  -- off the column axis the coordinates agree; on it, 32 · k + j mod 32 = j
  have hoff : ∀ (r : Fin 32) (b : Fin (⟨2, ![M, 32]⟩ : Shape).rank), b.cast rfl ≠ (1 : Fin (⟨2, ![M, 192]⟩ : Shape).rank) →
      ((ix2 p r : (⟨2, ![M, 32]⟩ : Shape).Idx) b).val = ((ix2 p j : (⟨2, ![M, 192]⟩ : Shape).Idx) (b.cast rfl)).val := by
    intro r b hb
    match b with
    | ⟨0, _⟩ => rfl
    | ⟨1, _⟩ => exact absurd rfl hb
  have piece : ∀ (k : ℕ) (hk : k < 6) (u : FVec Ideal (⟨2, ![M, 32]⟩ : Shape) .f32) (pre : ℕ),
      ([⟨(⟨2, ![M, 32]⟩ : Shape), u0⟩, ⟨(⟨2, ![M, 32]⟩ : Shape), u1⟩, ⟨(⟨2, ![M, 32]⟩ : Shape), u2⟩, ⟨(⟨2, ![M, 32]⟩ : Shape), u3⟩, ⟨(⟨2, ![M, 32]⟩ : Shape), u4⟩, ⟨(⟨2, ![M, 32]⟩ : Shape), u5⟩] : List ((s : Shape) × (s.Idx → Ideal .f32)))[k]'hk = ⟨(⟨2, ![M, 32]⟩ : Shape), u⟩ →
      32 * k = pre → pre + j.val % 32 = j.val →
      concatenate (⟨2, ![M, 192]⟩ : Shape) 1 [⟨(⟨2, ![M, 32]⟩ : Shape), u0⟩, ⟨(⟨2, ![M, 32]⟩ : Shape), u1⟩, ⟨(⟨2, ![M, 32]⟩ : Shape), u2⟩, ⟨(⟨2, ![M, 32]⟩ : Shape), u3⟩, ⟨(⟨2, ![M, 32]⟩ : Shape), u4⟩, ⟨(⟨2, ![M, 32]⟩ : Shape), u5⟩] h (ix2 p j)
        = u (ix2 p ⟨j.val % 32, Nat.mod_lt _ (by decide)⟩) := by
    intro k hk u pre hx hpre ha
    refine concatenate_apply_piece (t := (⟨2, ![M, 192]⟩ : Shape)) 1 [⟨(⟨2, ![M, 32]⟩ : Shape), u0⟩, ⟨(⟨2, ![M, 32]⟩ : Shape), u1⟩, ⟨(⟨2, ![M, 32]⟩ : Shape), u2⟩, ⟨(⟨2, ![M, 32]⟩ : Shape), u3⟩, ⟨(⟨2, ![M, 32]⟩ : Shape), u4⟩, ⟨(⟨2, ![M, 32]⟩ : Shape), u5⟩] h (ix2 p j) k hk (⟨2, ![M, 32]⟩ : Shape) u hx rfl pre ?_
      (ix2 p ⟨j.val % 32, Nat.mod_lt _ (by decide)⟩) (hoff _) ha
    subst hpre
    interval_cases k <;> rfl
  obtain ⟨k, hk⟩ : ∃ k, j.val / 32 = k := ⟨_, rfl⟩
  have hk6 : k < 6 := by omega
  rw [hk]
  interval_cases k
  · exact piece 0 (by decide) u0 0 rfl rfl (by omega)
  · exact piece 1 (by decide) u1 32 rfl rfl (by omega)
  · exact piece 2 (by decide) u2 64 rfl rfl (by omega)
  · exact piece 3 (by decide) u3 96 rfl rfl (by omega)
  · exact piece 4 (by decide) u4 128 rfl rfl (by omega)
  · exact piece 5 (by decide) u5 160 rfl rfl (by omega)

/-! ## A whole layer -/

/-- A dense layer without rectifier: product with the transposed weight plus the bias along the rows. -/
theorem lin_eq {M K P : ℕ}
    (D : DotDims ⟨2, ![M, K]⟩ ⟨2, ![K, P]⟩ ⟨2, ![M, P]⟩)
    (hlc : D.lhsContracting = [1]) (hrc : D.rhsContracting = [0])
    (hl0 : ∀ (j : (⟨2, ![M, P]⟩ : Shape).Idx) (c : D.contr.Idx), (D.lhsIdx j c 0).val = (j 0).val)
    (hr1 : ∀ (j : (⟨2, ![M, P]⟩ : Shape).Idx) (c : D.contr.Idx), (D.rhsIdx j c 1).val = (j 1).val)
    (hrank : D.contr.rank = 1) (hsize : D.contr.size ⟨0, by omega⟩ = K)
    (hT : (⟨2, ![P, K]⟩ : Shape).Transposes [1, 0] ⟨2, ![K, P]⟩)
    (h1 : (⟨1, ![P]⟩ : Shape).BroadcastsInDim ⟨2, ![1, P]⟩ ![1])
    (h2 : (⟨2, ![1, P]⟩ : Shape).BroadcastsInDim ⟨2, ![M, P]⟩ ![0, 1])
    (x : FVec Ideal ⟨2, ![M, K]⟩ .f32) (W : FVec Ideal ⟨2, ![P, K]⟩ .f32) (b : FVec Ideal ⟨1, ![P]⟩ .f32) :
    addf (Host.dotGeneral D none x (transpose ⟨2, ![K, P]⟩ [1, 0] W hT))
        (broadcastInDim ⟨2, ![M, P]⟩ ![0, 1] h2 (broadcastInDim ⟨2, ![1, P]⟩ ![1] h1 b))
      = Spec.lin x W (Spec.vec b) := by
  funext i
  obtain ⟨p, q, rfl⟩ : ∃ (p : Fin M) (q : Fin P), i = ix2 p q := ⟨i 0, i 1, eq_ix2 i⟩
  rw [addf_apply, dotT_apply D hlc hrc hl0 hr1 hrank hsize hT, biasRows_apply, Spec.lin_apply]
  rfl

/-- The rectifier applied to a layer without rectifier is the rectified layer. -/
theorem lrelu_lin_eq {M K P : ℕ} (h0 : (⟨0, ![]⟩ : Shape).BroadcastsInDim ⟨2, ![M, P]⟩ ![])
    (x : FVec Ideal ⟨2, ![M, K]⟩ .f32) (W : FVec Ideal ⟨2, ![P, K]⟩ .f32) (β : Fin P → EReal) :
    select (cmpf .oge (Spec.lin x W β)
          (broadcastInDim ⟨2, ![M, P]⟩ ![] h0 (constant (F := Ideal) ⟨0, ![]⟩ .f32 0x00000000#32)))
        (Spec.lin x W β)
        (mulf (broadcastInDim ⟨2, ![M, P]⟩ ![] h0 (id (constant (F := Ideal) ⟨0, ![]⟩ .f32 0x3C23D70A#32)))
          (Spec.lin x W β))
      = Spec.act x W β := by
  funext i
  rw [lrelu_apply]
  rfl

/-- A rectified dense layer: the rectifier of (product with the transposed weight plus the bias along the rows). -/
theorem act_eq {M K P : ℕ}
    (D : DotDims ⟨2, ![M, K]⟩ ⟨2, ![K, P]⟩ ⟨2, ![M, P]⟩)
    (hlc : D.lhsContracting = [1]) (hrc : D.rhsContracting = [0])
    (hl0 : ∀ (j : (⟨2, ![M, P]⟩ : Shape).Idx) (c : D.contr.Idx), (D.lhsIdx j c 0).val = (j 0).val)
    (hr1 : ∀ (j : (⟨2, ![M, P]⟩ : Shape).Idx) (c : D.contr.Idx), (D.rhsIdx j c 1).val = (j 1).val)
    (hrank : D.contr.rank = 1) (hsize : D.contr.size ⟨0, by omega⟩ = K)
    (hT : (⟨2, ![P, K]⟩ : Shape).Transposes [1, 0] ⟨2, ![K, P]⟩)
    (h1 : (⟨1, ![P]⟩ : Shape).BroadcastsInDim ⟨2, ![1, P]⟩ ![1])
    (h2 : (⟨2, ![1, P]⟩ : Shape).BroadcastsInDim ⟨2, ![M, P]⟩ ![0, 1])
    (h0 : (⟨0, ![]⟩ : Shape).BroadcastsInDim ⟨2, ![M, P]⟩ ![])
    (x : FVec Ideal ⟨2, ![M, K]⟩ .f32) (W : FVec Ideal ⟨2, ![P, K]⟩ .f32) (b : FVec Ideal ⟨1, ![P]⟩ .f32) :
    select (cmpf .oge
          (addf (Host.dotGeneral D none x (transpose ⟨2, ![K, P]⟩ [1, 0] W hT))
            (broadcastInDim ⟨2, ![M, P]⟩ ![0, 1] h2 (broadcastInDim ⟨2, ![1, P]⟩ ![1] h1 b)))
          (broadcastInDim ⟨2, ![M, P]⟩ ![] h0 (constant (F := Ideal) ⟨0, ![]⟩ .f32 0x00000000#32)))
        (addf (Host.dotGeneral D none x (transpose ⟨2, ![K, P]⟩ [1, 0] W hT))
          (broadcastInDim ⟨2, ![M, P]⟩ ![0, 1] h2 (broadcastInDim ⟨2, ![1, P]⟩ ![1] h1 b)))
        (mulf (broadcastInDim ⟨2, ![M, P]⟩ ![] h0 (id (constant (F := Ideal) ⟨0, ![]⟩ .f32 0x3C23D70A#32)))
          (addf (Host.dotGeneral D none x (transpose ⟨2, ![K, P]⟩ [1, 0] W hT))
            (broadcastInDim ⟨2, ![M, P]⟩ ![0, 1] h2 (broadcastInDim ⟨2, ![1, P]⟩ ![1] h1 b))))
      = Spec.act x W (Spec.vec b) := by
  rw [lin_eq D hlc hrc hl0 hr1 hrank hsize hT h1 h2 x W b]
  exact lrelu_lin_eq h0 x W (Spec.vec b)

/-! ## The reference's dense parts -/

/-- h · Wcᵀ. -/
theorem hw_eq (h : FVec Ideal S50000x192 .f32) (W : FVec Ideal S192x192 .f32) :
    Terms.hw h W = Spec.mulT h W := by
  unfold Terms.hw
  exact dotT_eq _ rfl rfl (fun _ _ => rfl) (fun _ _ => rfl) rfl rfl _ h W

/-- The rectified layer 192 → 96. -/
theorem emT_eq (h : FVec Ideal S50000x192 .f32) (W : FVec Ideal S96x192 .f32) (b : FVec Ideal S96 .f32) :
    Terms.emT h W b = Spec.act h W (Spec.vec b) := by
  unfold Terms.emT Terms.lrelu96
  exact act_eq _ rfl rfl (fun _ _ => rfl) (fun _ _ => rfl) rfl rfl _ _ _ _ h W b

/-- The last layer 96 → 2. -/
theorem outT_eq (e : FVec Ideal S50000x96 .f32) (W : FVec Ideal S2x96 .f32) (b : FVec Ideal S2 .f32) :
    Terms.outT e W b = Spec.lin e W (Spec.vec b) := by
  unfold Terms.outT
  exact lin_eq _ rfl rfl (fun _ _ => rfl) (fun _ _ => rfl) rfl rfl _ _ _ e W b

/-- A rectified layer 768 → 32. -/
theorem layer768_eq (x : FVec Ideal S50000x768 .f32) (W : FVec Ideal S32x768 .f32) (b : FVec Ideal S32 .f32) :
    Terms.layer768 x W b = Spec.act x W (Spec.vec b) := by
  unfold Terms.layer768 Terms.lrelu32 Terms.bias32
  exact act_eq _ rfl rfl (fun _ _ => rfl) (fun _ _ => rfl) rfl rfl _ _ _ _ x W b

/-- A rectified layer 5 → 32. -/
theorem layer5_eq (x : FVec Ideal S50000x5 .f32) (W : FVec Ideal S32x5 .f32) (b : FVec Ideal S32 .f32) :
    Terms.layer5 x W b = Spec.act x W (Spec.vec b) := by
  unfold Terms.layer5 Terms.lrelu32 Terms.bias32
  exact act_eq _ rfl rfl (fun _ _ => rfl) (fun _ _ => rfl) rfl rfl _ _ _ _ x W b

/-- A rectified layer 1 → 32. -/
theorem layer1_eq (x : FVec Ideal S50000x1 .f32) (W : FVec Ideal S32x1 .f32) (b : FVec Ideal S32 .f32) :
    Terms.layer1 x W b = Spec.act x W (Spec.vec b) := by
  unfold Terms.layer1 Terms.lrelu32 Terms.bias32
  exact act_eq _ rfl rfl (fun _ _ => rfl) (fun _ _ => rfl) rfl rfl _ _ _ _ x W b

/-- The first stage: six rectified layers of width 32 side by side, then a rectified layer of width 192. -/
theorem dense0_eq (a0 a1 : FVec Ideal S50000x768 .f32) (a4 : FVec Ideal S50000x5 .f32) (a5 : FVec Ideal S50000x1 .f32)
    (a6 a7 : FVec Ideal S50000x768 .f32)
    (a8 : FVec Ideal S32x768 .f32) (a9 : FVec Ideal S32 .f32) (a10 : FVec Ideal S32x768 .f32) (a11 : FVec Ideal S32 .f32)
    (a12 : FVec Ideal S32x768 .f32) (a13 : FVec Ideal S32 .f32) (a14 : FVec Ideal S32x5 .f32) (a15 : FVec Ideal S32 .f32)
    (a16 : FVec Ideal S32x1 .f32) (a17 : FVec Ideal S32 .f32) (a18 : FVec Ideal S32x768 .f32) (a19 : FVec Ideal S32 .f32)
    (a20 : FVec Ideal S192x192 .f32) (a21 : FVec Ideal S192 .f32) :
    Terms.dense0 a0 a1 a4 a5 a6 a7 a8 a9 a10 a11 a12 a13 a14 a15 a16 a17 a18 a19 a20 a21
      = Spec.stage0 a6 a0 a1 a7 a4 a5 a8 a10 a12 a18 a14 a16 a20 (Spec.vec a9) (Spec.vec a11) (Spec.vec a13)
          (Spec.vec a19) (Spec.vec a15) (Spec.vec a17) (Spec.vec a21) := by
  unfold Terms.dense0 Terms.lrelu192 Terms.bias192 Spec.stage0
  rw [cat6_eq, layer5_eq, layer1_eq, layer768_eq a6, layer768_eq a7, layer768_eq a0, layer768_eq a1]
  exact act_eq _ rfl rfl (fun _ _ => rfl) (fun _ _ => rfl) rfl rfl _ _ _ _ _ a20 a21

end Cert.ReferenceIdeal.RefDense

end
-- ==== Proof.Bridge.lean ====
/-
  The reference network's two results, restated over the specification's dense layers and the edge aggregation
  written once as pure functions.

  The network is: the first stage h0 (six rectified layers side by side, then a rectified layer of width 192);
  twice, h ↦ aggregate(h · Wcᵀ) over the edges plus the bias; then em = rectified layer 192 → 96 and
  out = layer 96 → 2.  The reference's dense parts are the specification's layers entry by entry, and its
  aggregation step is, operation for operation, the aggregation function used on the other side.
-/
import proofs.«136469_j28432683499972_1_alg».proof.Proof.Gen.KernelIdeal
import proofs.«136469_j28432683499972_1_alg».proof.Proof.Gen.ReferenceIdeal
import proofs.«136469_j28432683499972_1_alg».proof.Proof.RefTerms
import proofs.«136469_j28432683499972_1_alg».proof.Proof.RefDense
import proofs.«136469_j28432683499972_1_alg».proof.Proof.KerGlue
import proofs.«136469_j28432683499972_1_alg».proof.Proof.Spec
import Idealize.ShloMosaic.Lib.ValueLayout

noncomputable section

namespace Cert.Bridge

open Idealize.ShloMosaic Idealize.ShloMosaic.ValueIdx
open Cert.ReferenceIdeal
open Cert.KernelIdeal.Glue

/-! ## The aggregation step -/

/-- The reference's aggregation step is the aggregation function of the edge list's two rows, the edge weights and
    the degrees: the same operations in the same order. -/
theorem combine_eq (hW : FVec Ideal Cert.ReferenceIdeal.S50000x192 .f32) (ei : IVec Cert.ReferenceIdeal.S2x800000 32)
    (b : FVec Ideal Cert.ReferenceIdeal.S192 .f32) :
    Cert.ReferenceIdeal.Terms.combine hW ei b
      = combK hW (srcK ei) (dstK ei) (normK (srcK ei) (dstK ei) (degK (dstK ei))) (degK (dstK ei)) b := by
  unfold Cert.ReferenceIdeal.Terms.combine combK Cert.ReferenceIdeal.Terms.bias192 Cert.ReferenceIdeal.Terms.ew
    Cert.ReferenceIdeal.Terms.deg Cert.ReferenceIdeal.Terms.wrap Cert.ReferenceIdeal.Terms.src Cert.ReferenceIdeal.Terms.dst
    normK degK colK wrapK srcK dstK
  rfl

/-! ## A vector as a one-row array -/

/-- A length-P vector recast as a [1, P] row reads as the vector. -/
theorem row_reshape {P : Nat} (v : FVec Ideal (⟨1, ![P]⟩ : Shape) .f32)
    (h : (⟨1, ![P]⟩ : Shape).ShapeCasts ⟨2, ![1, P]⟩) :
    Spec.row (fun i => shapeCast (⟨2, ![1, P]⟩ : Shape) v h i) = Spec.vec v := by
  funext q
  exact shapeCast_a_1a_apply v h 0 q

/-! ## The network after each stage -/

/-- The first stage. -/
def H0 (a0 a1 : FVec Ideal S50000x768 .f32) (a4 : FVec Ideal S50000x5 .f32) (a5 : FVec Ideal S50000x1 .f32)
    (a6 a7 : FVec Ideal S50000x768 .f32)
    (a8 : FVec Ideal S32x768 .f32) (a9 : FVec Ideal S32 .f32) (a10 : FVec Ideal S32x768 .f32) (a11 : FVec Ideal S32 .f32)
    (a12 : FVec Ideal S32x768 .f32) (a13 : FVec Ideal S32 .f32) (a14 : FVec Ideal S32x5 .f32) (a15 : FVec Ideal S32 .f32)
    (a16 : FVec Ideal S32x1 .f32) (a17 : FVec Ideal S32 .f32) (a18 : FVec Ideal S32x768 .f32) (a19 : FVec Ideal S32 .f32)
    (a20 : FVec Ideal S192x192 .f32) (a21 : FVec Ideal S192 .f32) : FVec Ideal S50000x192 .f32 :=
  Spec.stage0 a6 a0 a1 a7 a4 a5 a8 a10 a12 a18 a14 a16 a20 (Spec.vec a9) (Spec.vec a11) (Spec.vec a13)
    (Spec.vec a19) (Spec.vec a15) (Spec.vec a17) (Spec.vec a21)

/-- One graph layer: h · Wᵀ aggregated over the edges, plus the bias. -/
def step (h : FVec Ideal S50000x192 .f32) (W : FVec Ideal S192x192 .f32) (ei : IVec S2x800000 32)
    (b : FVec Ideal S192 .f32) : FVec Ideal S50000x192 .f32 :=
  combK (Spec.mulT h W) (srcK ei) (dstK ei) (normK (srcK ei) (dstK ei) (degK (dstK ei))) (degK (dstK ei)) b

/-- The node features after the two graph layers. -/
def H2 (a0 a1 : FVec Ideal S50000x768 .f32) (a2 : IVec S2x800000 32)
    (a4 : FVec Ideal S50000x5 .f32) (a5 : FVec Ideal S50000x1 .f32) (a6 a7 : FVec Ideal S50000x768 .f32)
    (a8 : FVec Ideal S32x768 .f32) (a9 : FVec Ideal S32 .f32) (a10 : FVec Ideal S32x768 .f32) (a11 : FVec Ideal S32 .f32)
    (a12 : FVec Ideal S32x768 .f32) (a13 : FVec Ideal S32 .f32) (a14 : FVec Ideal S32x5 .f32) (a15 : FVec Ideal S32 .f32)
    (a16 : FVec Ideal S32x1 .f32) (a17 : FVec Ideal S32 .f32) (a18 : FVec Ideal S32x768 .f32) (a19 : FVec Ideal S32 .f32)
    (a20 : FVec Ideal S192x192 .f32) (a21 : FVec Ideal S192 .f32) (a22 : FVec Ideal S192x192 .f32) (a23 : FVec Ideal S192 .f32)
    (a24 : FVec Ideal S192x192 .f32) (a25 : FVec Ideal S192 .f32) : FVec Ideal S50000x192 .f32 :=
  step (step (H0 a0 a1 a4 a5 a6 a7 a8 a9 a10 a11 a12 a13 a14 a15 a16 a17 a18 a19 a20 a21) a22 a2 a23) a24 a2 a25

/-- The node features after the two graph layers, written out. -/
theorem H2_def (a0 a1 : FVec Ideal S50000x768 .f32) (a2 : IVec S2x800000 32)
    (a4 : FVec Ideal S50000x5 .f32) (a5 : FVec Ideal S50000x1 .f32) (a6 a7 : FVec Ideal S50000x768 .f32)
    (a8 : FVec Ideal S32x768 .f32) (a9 : FVec Ideal S32 .f32) (a10 : FVec Ideal S32x768 .f32) (a11 : FVec Ideal S32 .f32)
    (a12 : FVec Ideal S32x768 .f32) (a13 : FVec Ideal S32 .f32) (a14 : FVec Ideal S32x5 .f32) (a15 : FVec Ideal S32 .f32)
    (a16 : FVec Ideal S32x1 .f32) (a17 : FVec Ideal S32 .f32) (a18 : FVec Ideal S32x768 .f32) (a19 : FVec Ideal S32 .f32)
    (a20 : FVec Ideal S192x192 .f32) (a21 : FVec Ideal S192 .f32) (a22 : FVec Ideal S192x192 .f32) (a23 : FVec Ideal S192 .f32)
    (a24 : FVec Ideal S192x192 .f32) (a25 : FVec Ideal S192 .f32) :
    H2 a0 a1 a2 a4 a5 a6 a7 a8 a9 a10 a11 a12 a13 a14 a15 a16 a17 a18 a19 a20 a21 a22 a23 a24 a25
      = combK (Spec.mulT
          (combK (Spec.mulT
              (Spec.stage0 a6 a0 a1 a7 a4 a5 a8 a10 a12 a18 a14 a16 a20 (Spec.vec a9) (Spec.vec a11) (Spec.vec a13)
                (Spec.vec a19) (Spec.vec a15) (Spec.vec a17) (Spec.vec a21)) a22)
            (srcK a2) (dstK a2) (normK (srcK a2) (dstK a2) (degK (dstK a2))) (degK (dstK a2)) a23) a24)
        (srcK a2) (dstK a2) (normK (srcK a2) (dstK a2) (degK (dstK a2))) (degK (dstK a2)) a25 := rfl

/-! ## The reference's two results -/

/-- The reference's embedding is the rectified layer 192 → 96 of the features after the two graph layers. -/
theorem refEm_eq (a0 a1 : FVec Ideal S50000x768 .f32) (a2 : IVec S2x800000 32)
    (a4 : FVec Ideal S50000x5 .f32) (a5 : FVec Ideal S50000x1 .f32) (a6 a7 : FVec Ideal S50000x768 .f32)
    (a8 : FVec Ideal S32x768 .f32) (a9 : FVec Ideal S32 .f32) (a10 : FVec Ideal S32x768 .f32) (a11 : FVec Ideal S32 .f32)
    (a12 : FVec Ideal S32x768 .f32) (a13 : FVec Ideal S32 .f32) (a14 : FVec Ideal S32x5 .f32) (a15 : FVec Ideal S32 .f32)
    (a16 : FVec Ideal S32x1 .f32) (a17 : FVec Ideal S32 .f32) (a18 : FVec Ideal S32x768 .f32) (a19 : FVec Ideal S32 .f32)
    (a20 : FVec Ideal S192x192 .f32) (a21 : FVec Ideal S192 .f32) (a22 : FVec Ideal S192x192 .f32) (a23 : FVec Ideal S192 .f32)
    (a24 : FVec Ideal S192x192 .f32) (a25 : FVec Ideal S192 .f32) (a26 : FVec Ideal S96x192 .f32) (a27 : FVec Ideal S96 .f32) :
    Terms.emT (Terms.combine (Terms.hw (Terms.combine (Terms.hw
        (Terms.dense0 a0 a1 a4 a5 a6 a7 a8 a9 a10 a11 a12 a13 a14 a15 a16 a17 a18 a19 a20 a21) a22) a2 a23) a24) a2 a25)
        a26 a27
      = Spec.act (H2 a0 a1 a2 a4 a5 a6 a7 a8 a9 a10 a11 a12 a13 a14 a15 a16 a17 a18 a19 a20 a21 a22 a23 a24 a25)
          a26 (Spec.vec a27) := by
  rw [RefDense.emT_eq, combine_eq, RefDense.hw_eq, combine_eq, RefDense.hw_eq, RefDense.dense0_eq]
  rfl

/-- The reference's output is the layer 96 → 2 of its embedding. -/
theorem refOut_eq (a0 a1 : FVec Ideal S50000x768 .f32) (a2 : IVec S2x800000 32)
    (a4 : FVec Ideal S50000x5 .f32) (a5 : FVec Ideal S50000x1 .f32) (a6 a7 : FVec Ideal S50000x768 .f32)
    (a8 : FVec Ideal S32x768 .f32) (a9 : FVec Ideal S32 .f32) (a10 : FVec Ideal S32x768 .f32) (a11 : FVec Ideal S32 .f32)
    (a12 : FVec Ideal S32x768 .f32) (a13 : FVec Ideal S32 .f32) (a14 : FVec Ideal S32x5 .f32) (a15 : FVec Ideal S32 .f32)
    (a16 : FVec Ideal S32x1 .f32) (a17 : FVec Ideal S32 .f32) (a18 : FVec Ideal S32x768 .f32) (a19 : FVec Ideal S32 .f32)
    (a20 : FVec Ideal S192x192 .f32) (a21 : FVec Ideal S192 .f32) (a22 : FVec Ideal S192x192 .f32) (a23 : FVec Ideal S192 .f32)
    (a24 : FVec Ideal S192x192 .f32) (a25 : FVec Ideal S192 .f32) (a26 : FVec Ideal S96x192 .f32) (a27 : FVec Ideal S96 .f32)
    (a28 : FVec Ideal S2x96 .f32) (a29 : FVec Ideal S2 .f32) :
    Terms.outT (Terms.emT (Terms.combine (Terms.hw (Terms.combine (Terms.hw
        (Terms.dense0 a0 a1 a4 a5 a6 a7 a8 a9 a10 a11 a12 a13 a14 a15 a16 a17 a18 a19 a20 a21) a22) a2 a23) a24) a2 a25)
        a26 a27) a28 a29
      = Spec.lin (Spec.act (H2 a0 a1 a2 a4 a5 a6 a7 a8 a9 a10 a11 a12 a13 a14 a15 a16 a17 a18 a19 a20 a21 a22 a23 a24 a25)
          a26 (Spec.vec a27)) a28 (Spec.vec a29) := by
  rw [RefDense.outT_eq, refEm_eq]

end Cert.Bridge

end
-- ==== Proof.KerValue.lean ====
/-
  The kernel program's two results as functions of the launch memory.

  Stage by stage: the first region leaves the first-stage features h0; each graph layer is a region computing
  h · Wᵀ followed by the host's aggregation; the last region leaves em, the rectified layer on the second graph
  layer's result, and out, the last layer on em. Every region's entry contents are read back to the launch memory
  through the fold, so both results are the network's functions of the thirty argument arrays.
-/
import proofs.«136469_j28432683499972_1_alg».proof.Proof.Gen.KernelIdeal.Frame
import proofs.«136469_j28432683499972_1_alg».proof.Proof.KerFold
import proofs.«136469_j28432683499972_1_alg».proof.Proof.KerBranch
import proofs.«136469_j28432683499972_1_alg».proof.Proof.KerMm
import proofs.«136469_j28432683499972_1_alg».proof.Proof.KerOut
import proofs.«136469_j28432683499972_1_alg».proof.Proof.Bridge

set_option maxRecDepth 16384

noncomputable section

namespace Cert.KernelIdeal.Value

open Cert.KernelIdeal Cert.KernelIdeal.Gen Cert.KernelIdeal.Glue Cert.KernelIdeal.Fold
open Idealize.ShloMosaic Idealize.ShloMosaic.TcCoe Idealize.SL.Sem

variable (m : (ℓ : Loc nD τ sig) → Buf (Elt Ideal) ℓ) (ρ : Dev nD → PrngReg)

/-- The launch memory's array in buffer b of core c. -/
abbrev A (c : Dev nD) (b : Ref sig .tc) : Buf (Elt Ideal) ((c : Thread nD τ).loc b) := m ((c : Thread nD τ).loc b)

/-- The first-stage features, and the features after the two graph layers, of the launch memory. -/
def h0K (c : Dev nD) : FVec Ideal S50000x192 .f32 :=
  Cert.Bridge.H0 (A m c main_arg0) (A m c main_arg1) (A m c main_arg4) (A m c main_arg5) (A m c main_arg6) (A m c main_arg7)
    (A m c main_arg8) (A m c main_arg9) (A m c main_arg10) (A m c main_arg11) (A m c main_arg12) (A m c main_arg13)
    (A m c main_arg14) (A m c main_arg15) (A m c main_arg16) (A m c main_arg17) (A m c main_arg18) (A m c main_arg19)
    (A m c main_arg20) (A m c main_arg21)

def h1K (c : Dev nD) : FVec Ideal S50000x192 .f32 :=
  Cert.Bridge.step (h0K m c) (A m c main_arg22) (A m c main_arg2) (A m c main_arg23)

def h2K (c : Dev nD) : FVec Ideal S50000x192 .f32 :=
  Cert.Bridge.step (h1K m c) (A m c main_arg24) (A m c main_arg2) (A m c main_arg25)

/-- The three named stages are the bridge's one term. -/
theorem h2K_eq (c : Dev nD) : h2K m c
    = Cert.Bridge.H2 (A m c main_arg0) (A m c main_arg1) (A m c main_arg2) (A m c main_arg4) (A m c main_arg5) (A m c main_arg6)
        (A m c main_arg7) (A m c main_arg8) (A m c main_arg9) (A m c main_arg10) (A m c main_arg11) (A m c main_arg12)
        (A m c main_arg13) (A m c main_arg14) (A m c main_arg15) (A m c main_arg16) (A m c main_arg17) (A m c main_arg18)
        (A m c main_arg19) (A m c main_arg20) (A m c main_arg21) (A m c main_arg22) (A m c main_arg23) (A m c main_arg24)
        (A m c main_arg25) := rfl

/-! ## Region 0 -/

theorem W2_h0 (c : Dev nD) : W2 m ρ c (Proc.devRef .tc main_v7) = h0K m c := by
  rw [show W2 m ρ c (Proc.devRef .tc main_v7) = (dat0 (V1 m ρ) c).arrAt 20 cfg0.N from W2_arr m ρ c 20,
    Cert.KernelIdeal.RegVal0.arr0 (V1 m ρ) c]
  rw [show V1 m ρ c main_arg6 = _ from W1_arg6 m ρ c, show V1 m ρ c main_arg0 = _ from W1_arg0 m ρ c,
    show V1 m ρ c main_arg1 = _ from W1_arg1 m ρ c, show V1 m ρ c main_arg7 = _ from W1_arg7 m ρ c,
    show V1 m ρ c main_arg4 = _ from W1_arg4 m ρ c, show V1 m ρ c main_arg5 = _ from W1_arg5 m ρ c,
    show V1 m ρ c main_arg8 = _ from W1_arg8 m ρ c, show V1 m ρ c main_arg10 = _ from W1_arg10 m ρ c,
    show V1 m ρ c main_arg12 = _ from W1_arg12 m ρ c, show V1 m ρ c main_arg18 = _ from W1_arg18 m ρ c,
    show V1 m ρ c main_arg14 = _ from W1_arg14 m ρ c, show V1 m ρ c main_arg16 = _ from W1_arg16 m ρ c,
    show V1 m ρ c main_arg20 = _ from W1_arg20 m ρ c,
    show V1 m ρ c main_v0 = _ from W1_v0 m ρ c, show V1 m ρ c main_v1 = _ from W1_v1 m ρ c,
    show V1 m ρ c main_v2 = _ from W1_v2 m ρ c, show V1 m ρ c main_v5 = _ from W1_v5 m ρ c,
    show V1 m ρ c main_v3 = _ from W1_v3 m ρ c, show V1 m ρ c main_v4 = _ from W1_v4 m ρ c,
    show V1 m ρ c main_v6 = _ from W1_v6 m ρ c]
  rw [Cert.Bridge.row_reshape, Cert.Bridge.row_reshape, Cert.Bridge.row_reshape, Cert.Bridge.row_reshape,
    Cert.Bridge.row_reshape, Cert.Bridge.row_reshape, Cert.Bridge.row_reshape]
  rfl

/-! ## The first graph layer -/

theorem W4_v34 (c : Dev nD) : W4 m ρ c (Proc.devRef .tc main_v34) = Spec.mulT (h0K m c) (A m c main_arg22) := by
  rw [show W4 m ρ c (Proc.devRef .tc main_v34) = (dat1 (V3 m ρ) c).arrAt 2 cfg1.N from W4_arr m ρ c 2,
    Cert.KernelIdeal.RegVal.arr1 (V3 m ρ) c]
  rw [show V3 m ρ c main_v7 = _ from (W3_v7 m ρ c).trans (W2_h0 m ρ c), show V3 m ρ c main_arg22 = _ from W3_arg22 m ρ c]

theorem W5_h1 (c : Dev nD) : W5 m ρ c (Proc.devRef .tc main_v56) = h1K m c := by
  rw [W5_v56, W4_v34, W4_src, W4_dst, W4_norm, W4_deg, W4_arg23]
  rfl

/-! ## The second graph layer -/

theorem W6_v57 (c : Dev nD) : W6 m ρ c (Proc.devRef .tc main_v57) = Spec.mulT (h1K m c) (A m c main_arg24) := by
  rw [show W6 m ρ c (Proc.devRef .tc main_v57) = (dat2 (V5 m ρ) c).arrAt 2 cfg2.N from W6_arr m ρ c 2,
    Cert.KernelIdeal.RegVal.arr2 (V5 m ρ) c]
  rw [show V5 m ρ c main_v56 = _ from W5_h1 m ρ c, show V5 m ρ c main_arg24 = _ from W5_arg24 m ρ c]

theorem W7_h2 (c : Dev nD) : W7 m ρ c (Proc.devRef .tc main_v79) = h2K m c := by
  rw [W7_v79, W6_v57, W6_src, W6_dst, W6_norm, W6_deg, W6_arg25]
  rfl

/-! ## The last region: the two results -/

theorem em_val (c : Dev nD) : W8 m ρ c (Proc.devRef .tc main_v82_0)
    = Spec.act (h2K m c) (A m c main_arg26) (Spec.vec (A m c main_arg27)) := by
  rw [show W8 m ρ c (Proc.devRef .tc main_v82_0) = (dat3 (V7 m ρ) c).arrAt 5 cfg3.N from W8_arr m ρ c 5,
    Cert.KernelIdeal.RegVal.arr3_em (V7 m ρ) c]
  rw [show V7 m ρ c main_v79 = _ from W7_h2 m ρ c, show V7 m ρ c main_arg26 = _ from W7_arg26 m ρ c,
    show V7 m ρ c main_v80 = _ from W7_v80 m ρ c]
  rw [Cert.Bridge.row_reshape]

theorem out_val (c : Dev nD) : W8 m ρ c (Proc.devRef .tc main_v82_1)
    = Spec.lin (Spec.act (h2K m c) (A m c main_arg26) (Spec.vec (A m c main_arg27))) (A m c main_arg28)
        (Spec.vec (A m c main_arg29)) := by
  rw [show W8 m ρ c (Proc.devRef .tc main_v82_1) = (dat3 (V7 m ρ) c).arrAt 6 cfg3.N from W8_arr m ρ c 6,
    Cert.KernelIdeal.RegVal.arr3_out (V7 m ρ) c]
  rw [show V7 m ρ c main_v79 = _ from W7_h2 m ρ c, show V7 m ρ c main_arg26 = _ from W7_arg26 m ρ c,
    show V7 m ρ c main_v80 = _ from W7_v80 m ρ c, show V7 m ρ c main_arg28 = _ from W7_arg28 m ρ c,
    show V7 m ρ c main_v81 = _ from W7_v81 m ρ c]
  rw [Cert.Bridge.row_reshape, Cert.Bridge.row_reshape]

end Cert.KernelIdeal.Value

end
-- ==== Proof.LibTypedRef.lean ====
/-
  Typed references to buffers: moving contents between a value's type and its buffer's type.

  A typed reference carries a buffer together with a proof that the buffer's type is the value's type. Contents are moved
  from the value's type to the buffer's, and back, by a cast along that proof. A cast never changes the value: a value
  moved out and back is itself, and a moved value equals any value it is equal to across the two types.
-/
import Idealize.ShloMosaic.Lib.StableHlo

noncomputable section

namespace Cert.LibTypedRef

open Idealize.ShloMosaic

variable {sig : RefSig} {T : BufTy} {Val : EltTy → Type}

/-- Contents moved to the buffer's type and back are unchanged. -/
theorem ofBuf_toBuf (x : StableHlo.TRef sig T) (v : T.Contents Val) : x.ofBuf (x.toBuf v) = v :=
  eq_of_heq ((cast_heq _ _).trans (cast_heq _ _))

/-- Contents read at the value's type are any value of that type they equal across the two types. -/
theorem ofBuf_of_heq (x : StableHlo.TRef sig T) (v : x.ref.ty.Contents Val) (w : T.Contents Val) (h : HEq v w) :
    x.ofBuf v = w :=
  eq_of_heq ((cast_heq _ v).trans h)

/-- Contents written at the buffer's type are any value of that type they equal across the two types. -/
theorem toBuf_of_heq (x : StableHlo.TRef sig T) (v : T.Contents Val) (w : x.ref.ty.Contents Val) (h : HEq v w) :
    x.toBuf v = w :=
  eq_of_heq ((cast_heq _ v).trans h)

end Cert.LibTypedRef

end
-- ==== Proof.RefRunDefs.lean ====
/-
  The reference program's host operations as a table, cut into seven consecutive windows, and the contents of the
  device's buffers after each window.

  A call of the outlined rectifier is listed as the seven operations of its body (the select of the function it calls
  included) over the buffers of that call.  After window K the buffers hold  valK V0 = after wK (val(K-1) V0);  a buffer
  that window K does not write holds after it what it held before.
-/
import proofs.«136469_j28432683499972_1_alg».proof.Proof.RefTerms
import proofs.«136469_j28432683499972_1_alg».proof.Proof.LibTypedRef
import Idealize.ShloMosaic.Lib.StableHlo.Run

noncomputable section

namespace Cert.ReferenceIdeal.RefRun

open Cert.ReferenceIdeal Idealize.ShloMosaic Idealize.ShloMosaic.TcCoe Idealize.SL.Sem Idealize.ShloMosaic.StableHlo
open Facts₀ Facts

variable [Facts]
variable {F : FTy → Type} [FloatOps F]

/-- Window 1: the three rectified layers 768 → 32 on arguments 6, 0 and 1 (results %5, %11, %17). -/
abbrev w1 : List (HloOp τ sig (Elt F)) :=
  [ unary main_arg8 main_v0 ((transpose S768x32 [1, 0] · transposes_S32x768_S768x32_1_0) : (⟨S32x768, .f32⟩ : BufTy).Contents (Elt F) → (⟨S768x32, .f32⟩ : BufTy).Contents (Elt F)),
    binary main_arg6 main_v0 main_v1 ((fun l r => Host.dotGeneral dot_S50000x768_S768x32_S50000x32_1_0_0_1_n_n none l r) : (⟨S50000x768, .f32⟩ : BufTy).Contents (Elt F) → (⟨S768x32, .f32⟩ : BufTy).Contents (Elt F) → (⟨S50000x32, .f32⟩ : BufTy).Contents (Elt F)),
    unary main_arg9 main_v2 (broadcastInDim S1x32 ![1] bcast_S32_S1x32_1 : (⟨S32, .f32⟩ : BufTy).Contents (Elt F) → (⟨S1x32, .f32⟩ : BufTy).Contents (Elt F)),
    unary main_v2 main_v3 (broadcastInDim S50000x32 ![0, 1] bcast_S1x32_S50000x32_0_1 : (⟨S1x32, .f32⟩ : BufTy).Contents (Elt F) → (⟨S50000x32, .f32⟩ : BufTy).Contents (Elt F)),
    binary main_v1 main_v3 main_v4 (addf : (⟨S50000x32, .f32⟩ : BufTy).Contents (Elt F) → (⟨S50000x32, .f32⟩ : BufTy).Contents (Elt F) → (⟨S50000x32, .f32⟩ : BufTy).Contents (Elt F)),
    nullary main_cst (constant S_ .f32 0x3C23D70A#32),
    TRef.nullary main_call0.cst (constant S_ .f32 0x00000000#32),
    TRef.unary main_call0.cst main_call0.v0 (broadcastInDim S50000x32 ![] bcast_S_S50000x32),
    TRef.binary (.of main_v4) main_call0.v0 main_call0.v1 (cmpf .oge),
    TRef.unary (.of main_cst) main_call0.v2 id,
    TRef.unary main_call0.v2 main_call0.v3 (broadcastInDim S50000x32 ![] bcast_S_S50000x32),
    TRef.binary main_call0.v3 (.of main_v4) main_call0.v4 mulf,
    TRef.ternary main_call0.v1 (.of main_v4) main_call0.v4 main_call0.call0.v0 select,
    unary main_arg10 main_v6 ((transpose S768x32 [1, 0] · transposes_S32x768_S768x32_1_0) : (⟨S32x768, .f32⟩ : BufTy).Contents (Elt F) → (⟨S768x32, .f32⟩ : BufTy).Contents (Elt F)),
    binary main_arg0 main_v6 main_v7 ((fun l r => Host.dotGeneral dot_S50000x768_S768x32_S50000x32_1_0_0_1_n_n none l r) : (⟨S50000x768, .f32⟩ : BufTy).Contents (Elt F) → (⟨S768x32, .f32⟩ : BufTy).Contents (Elt F) → (⟨S50000x32, .f32⟩ : BufTy).Contents (Elt F)),
    unary main_arg11 main_v8 (broadcastInDim S1x32 ![1] bcast_S32_S1x32_1 : (⟨S32, .f32⟩ : BufTy).Contents (Elt F) → (⟨S1x32, .f32⟩ : BufTy).Contents (Elt F)),
    unary main_v8 main_v9 (broadcastInDim S50000x32 ![0, 1] bcast_S1x32_S50000x32_0_1 : (⟨S1x32, .f32⟩ : BufTy).Contents (Elt F) → (⟨S50000x32, .f32⟩ : BufTy).Contents (Elt F)),
    binary main_v7 main_v9 main_v10 (addf : (⟨S50000x32, .f32⟩ : BufTy).Contents (Elt F) → (⟨S50000x32, .f32⟩ : BufTy).Contents (Elt F) → (⟨S50000x32, .f32⟩ : BufTy).Contents (Elt F)),
    nullary main_cst_0 (constant S_ .f32 0x3C23D70A#32),
    TRef.nullary main_call1.cst (constant S_ .f32 0x00000000#32),
    TRef.unary main_call1.cst main_call1.v0 (broadcastInDim S50000x32 ![] bcast_S_S50000x32),
    TRef.binary (.of main_v10) main_call1.v0 main_call1.v1 (cmpf .oge),
    TRef.unary (.of main_cst_0) main_call1.v2 id,
    TRef.unary main_call1.v2 main_call1.v3 (broadcastInDim S50000x32 ![] bcast_S_S50000x32),
    TRef.binary main_call1.v3 (.of main_v10) main_call1.v4 mulf,
    TRef.ternary main_call1.v1 (.of main_v10) main_call1.v4 main_call1.call0.v0 select,
    unary main_arg12 main_v12 ((transpose S768x32 [1, 0] · transposes_S32x768_S768x32_1_0) : (⟨S32x768, .f32⟩ : BufTy).Contents (Elt F) → (⟨S768x32, .f32⟩ : BufTy).Contents (Elt F)),
    binary main_arg1 main_v12 main_v13 ((fun l r => Host.dotGeneral dot_S50000x768_S768x32_S50000x32_1_0_0_1_n_n none l r) : (⟨S50000x768, .f32⟩ : BufTy).Contents (Elt F) → (⟨S768x32, .f32⟩ : BufTy).Contents (Elt F) → (⟨S50000x32, .f32⟩ : BufTy).Contents (Elt F)),
    unary main_arg13 main_v14 (broadcastInDim S1x32 ![1] bcast_S32_S1x32_1 : (⟨S32, .f32⟩ : BufTy).Contents (Elt F) → (⟨S1x32, .f32⟩ : BufTy).Contents (Elt F)),
    unary main_v14 main_v15 (broadcastInDim S50000x32 ![0, 1] bcast_S1x32_S50000x32_0_1 : (⟨S1x32, .f32⟩ : BufTy).Contents (Elt F) → (⟨S50000x32, .f32⟩ : BufTy).Contents (Elt F)),
    binary main_v13 main_v15 main_v16 (addf : (⟨S50000x32, .f32⟩ : BufTy).Contents (Elt F) → (⟨S50000x32, .f32⟩ : BufTy).Contents (Elt F) → (⟨S50000x32, .f32⟩ : BufTy).Contents (Elt F)),
    nullary main_cst_1 (constant S_ .f32 0x3C23D70A#32),
    TRef.nullary main_call2.cst (constant S_ .f32 0x00000000#32),
    TRef.unary main_call2.cst main_call2.v0 (broadcastInDim S50000x32 ![] bcast_S_S50000x32),
    TRef.binary (.of main_v16) main_call2.v0 main_call2.v1 (cmpf .oge),
    TRef.unary (.of main_cst_1) main_call2.v2 id,
    TRef.unary main_call2.v2 main_call2.v3 (broadcastInDim S50000x32 ![] bcast_S_S50000x32),
    TRef.binary main_call2.v3 (.of main_v16) main_call2.v4 mulf,
    TRef.ternary main_call2.v1 (.of main_v16) main_call2.v4 main_call2.call0.v0 select ]

/-- Window 2: the rectified layers 5 → 32, 1 → 32 and 768 → 32 on arguments 4, 5 and 7 (results %23, %29, %35). -/
abbrev w2 : List (HloOp τ sig (Elt F)) :=
  [ unary main_arg14 main_v18 ((transpose S5x32 [1, 0] · transposes_S32x5_S5x32_1_0) : (⟨S32x5, .f32⟩ : BufTy).Contents (Elt F) → (⟨S5x32, .f32⟩ : BufTy).Contents (Elt F)),
    binary main_arg4 main_v18 main_v19 ((fun l r => Host.dotGeneral dot_S50000x5_S5x32_S50000x32_1_0_0_1_n_n none l r) : (⟨S50000x5, .f32⟩ : BufTy).Contents (Elt F) → (⟨S5x32, .f32⟩ : BufTy).Contents (Elt F) → (⟨S50000x32, .f32⟩ : BufTy).Contents (Elt F)),
    unary main_arg15 main_v20 (broadcastInDim S1x32 ![1] bcast_S32_S1x32_1 : (⟨S32, .f32⟩ : BufTy).Contents (Elt F) → (⟨S1x32, .f32⟩ : BufTy).Contents (Elt F)),
    unary main_v20 main_v21 (broadcastInDim S50000x32 ![0, 1] bcast_S1x32_S50000x32_0_1 : (⟨S1x32, .f32⟩ : BufTy).Contents (Elt F) → (⟨S50000x32, .f32⟩ : BufTy).Contents (Elt F)),
    binary main_v19 main_v21 main_v22 (addf : (⟨S50000x32, .f32⟩ : BufTy).Contents (Elt F) → (⟨S50000x32, .f32⟩ : BufTy).Contents (Elt F) → (⟨S50000x32, .f32⟩ : BufTy).Contents (Elt F)),
    nullary main_cst_2 (constant S_ .f32 0x3C23D70A#32),
    TRef.nullary main_call3.cst (constant S_ .f32 0x00000000#32),
    TRef.unary main_call3.cst main_call3.v0 (broadcastInDim S50000x32 ![] bcast_S_S50000x32),
    TRef.binary (.of main_v22) main_call3.v0 main_call3.v1 (cmpf .oge),
    TRef.unary (.of main_cst_2) main_call3.v2 id,
    TRef.unary main_call3.v2 main_call3.v3 (broadcastInDim S50000x32 ![] bcast_S_S50000x32),
    TRef.binary main_call3.v3 (.of main_v22) main_call3.v4 mulf,
    TRef.ternary main_call3.v1 (.of main_v22) main_call3.v4 main_call3.call0.v0 select,
    unary main_arg16 main_v24 ((transpose S1x32 [1, 0] · transposes_S32x1_S1x32_1_0) : (⟨S32x1, .f32⟩ : BufTy).Contents (Elt F) → (⟨S1x32, .f32⟩ : BufTy).Contents (Elt F)),
    binary main_arg5 main_v24 main_v25 ((fun l r => Host.dotGeneral dot_S50000x1_S1x32_S50000x32_1_0_0_1_n_n none l r) : (⟨S50000x1, .f32⟩ : BufTy).Contents (Elt F) → (⟨S1x32, .f32⟩ : BufTy).Contents (Elt F) → (⟨S50000x32, .f32⟩ : BufTy).Contents (Elt F)),
    unary main_arg17 main_v26 (broadcastInDim S1x32 ![1] bcast_S32_S1x32_1 : (⟨S32, .f32⟩ : BufTy).Contents (Elt F) → (⟨S1x32, .f32⟩ : BufTy).Contents (Elt F)),
    unary main_v26 main_v27 (broadcastInDim S50000x32 ![0, 1] bcast_S1x32_S50000x32_0_1 : (⟨S1x32, .f32⟩ : BufTy).Contents (Elt F) → (⟨S50000x32, .f32⟩ : BufTy).Contents (Elt F)),
    binary main_v25 main_v27 main_v28 (addf : (⟨S50000x32, .f32⟩ : BufTy).Contents (Elt F) → (⟨S50000x32, .f32⟩ : BufTy).Contents (Elt F) → (⟨S50000x32, .f32⟩ : BufTy).Contents (Elt F)),
    nullary main_cst_3 (constant S_ .f32 0x3C23D70A#32),
    TRef.nullary main_call4.cst (constant S_ .f32 0x00000000#32),
    TRef.unary main_call4.cst main_call4.v0 (broadcastInDim S50000x32 ![] bcast_S_S50000x32),
    TRef.binary (.of main_v28) main_call4.v0 main_call4.v1 (cmpf .oge),
    TRef.unary (.of main_cst_3) main_call4.v2 id,
    TRef.unary main_call4.v2 main_call4.v3 (broadcastInDim S50000x32 ![] bcast_S_S50000x32),
    TRef.binary main_call4.v3 (.of main_v28) main_call4.v4 mulf,
    TRef.ternary main_call4.v1 (.of main_v28) main_call4.v4 main_call4.call0.v0 select,
    unary main_arg18 main_v30 ((transpose S768x32 [1, 0] · transposes_S32x768_S768x32_1_0) : (⟨S32x768, .f32⟩ : BufTy).Contents (Elt F) → (⟨S768x32, .f32⟩ : BufTy).Contents (Elt F)),
    binary main_arg7 main_v30 main_v31 ((fun l r => Host.dotGeneral dot_S50000x768_S768x32_S50000x32_1_0_0_1_n_n none l r) : (⟨S50000x768, .f32⟩ : BufTy).Contents (Elt F) → (⟨S768x32, .f32⟩ : BufTy).Contents (Elt F) → (⟨S50000x32, .f32⟩ : BufTy).Contents (Elt F)),
    unary main_arg19 main_v32 (broadcastInDim S1x32 ![1] bcast_S32_S1x32_1 : (⟨S32, .f32⟩ : BufTy).Contents (Elt F) → (⟨S1x32, .f32⟩ : BufTy).Contents (Elt F)),
    unary main_v32 main_v33 (broadcastInDim S50000x32 ![0, 1] bcast_S1x32_S50000x32_0_1 : (⟨S1x32, .f32⟩ : BufTy).Contents (Elt F) → (⟨S50000x32, .f32⟩ : BufTy).Contents (Elt F)),
    binary main_v31 main_v33 main_v34 (addf : (⟨S50000x32, .f32⟩ : BufTy).Contents (Elt F) → (⟨S50000x32, .f32⟩ : BufTy).Contents (Elt F) → (⟨S50000x32, .f32⟩ : BufTy).Contents (Elt F)),
    nullary main_cst_4 (constant S_ .f32 0x3C23D70A#32),
    TRef.nullary main_call5.cst (constant S_ .f32 0x00000000#32),
    TRef.unary main_call5.cst main_call5.v0 (broadcastInDim S50000x32 ![] bcast_S_S50000x32),
    TRef.binary (.of main_v34) main_call5.v0 main_call5.v1 (cmpf .oge),
    TRef.unary (.of main_cst_4) main_call5.v2 id,
    TRef.unary main_call5.v2 main_call5.v3 (broadcastInDim S50000x32 ![] bcast_S_S50000x32),
    TRef.binary main_call5.v3 (.of main_v34) main_call5.v4 mulf,
    TRef.ternary main_call5.v1 (.of main_v34) main_call5.v4 main_call5.call0.v0 select ]

/-- Window 3: the six pieces side by side, the rectified layer 192 → 192 (%42), the two rows of the edge list (%44, %46), the first product with the transposed weight (%48), and the constant arrays of ones and zeros (%49, %50). -/
abbrev w3 : List (HloOp τ sig (Elt F)) :=
  [ nary ![main_v23, main_v29, main_v5, main_v35, main_v11, main_v17] main_v36 (fun u => concatenate S50000x192 1 [⟨S50000x32, u 0⟩, ⟨S50000x32, u 1⟩, ⟨S50000x32, u 2⟩, ⟨S50000x32, u 3⟩, ⟨S50000x32, u 4⟩, ⟨S50000x32, u 5⟩] concatenates_S50000x32_S50000x32_S50000x32_S50000x32_S50000x32_S50000x32_S50000x192_d1),
    unary main_arg20 main_v37 ((transpose S192x192 [1, 0] · transposes_S192x192_S192x192_1_0) : (⟨S192x192, .f32⟩ : BufTy).Contents (Elt F) → (⟨S192x192, .f32⟩ : BufTy).Contents (Elt F)),
    binary main_v36 main_v37 main_v38 ((fun l r => Host.dotGeneral dot_S50000x192_S192x192_S50000x192_1_0_0_1_n_n none l r) : (⟨S50000x192, .f32⟩ : BufTy).Contents (Elt F) → (⟨S192x192, .f32⟩ : BufTy).Contents (Elt F) → (⟨S50000x192, .f32⟩ : BufTy).Contents (Elt F)),
    unary main_arg21 main_v39 (broadcastInDim S1x192 ![1] bcast_S192_S1x192_1 : (⟨S192, .f32⟩ : BufTy).Contents (Elt F) → (⟨S1x192, .f32⟩ : BufTy).Contents (Elt F)),
    unary main_v39 main_v40 (broadcastInDim S50000x192 ![0, 1] bcast_S1x192_S50000x192_0_1 : (⟨S1x192, .f32⟩ : BufTy).Contents (Elt F) → (⟨S50000x192, .f32⟩ : BufTy).Contents (Elt F)),
    binary main_v38 main_v40 main_v41 (addf : (⟨S50000x192, .f32⟩ : BufTy).Contents (Elt F) → (⟨S50000x192, .f32⟩ : BufTy).Contents (Elt F) → (⟨S50000x192, .f32⟩ : BufTy).Contents (Elt F)),
    nullary main_cst_5 (constant S_ .f32 0x3C23D70A#32),
    TRef.nullary main_call6.cst (constant S_ .f32 0x00000000#32),
    TRef.unary main_call6.cst main_call6.v0 (broadcastInDim S50000x192 ![] bcast_S_S50000x192),
    TRef.binary (.of main_v41) main_call6.v0 main_call6.v1 (cmpf .oge),
    TRef.unary (.of main_cst_5) main_call6.v2 id,
    TRef.unary main_call6.v2 main_call6.v3 (broadcastInDim S50000x192 ![] bcast_S_S50000x192),
    TRef.binary main_call6.v3 (.of main_v41) main_call6.v4 mulf,
    TRef.ternary main_call6.v1 (.of main_v41) main_call6.v4 main_call6.call0.v0 select,
    unary main_arg2 main_v43 ((extractStridedSlice S1x800000 ![0, 0] · slices_S2x800000_S1x800000_0_0) : (⟨S2x800000, .i32⟩ : BufTy).Contents (Elt F) → (⟨S1x800000, .i32⟩ : BufTy).Contents (Elt F)),
    reshape main_v43 main_v44 rfl shapeCasts_S1x800000_S800000,
    unary main_arg2 main_v45 ((extractStridedSlice S1x800000 ![1, 0] · slices_S2x800000_S1x800000_1_0) : (⟨S2x800000, .i32⟩ : BufTy).Contents (Elt F) → (⟨S1x800000, .i32⟩ : BufTy).Contents (Elt F)),
    reshape main_v45 main_v46 rfl shapeCasts_S1x800000_S800000,
    unary main_arg22 main_v47 ((transpose S192x192 [1, 0] · transposes_S192x192_S192x192_1_0) : (⟨S192x192, .f32⟩ : BufTy).Contents (Elt F) → (⟨S192x192, .f32⟩ : BufTy).Contents (Elt F)),
    binary main_v42 main_v47 main_v48 ((fun l r => Host.dotGeneral dot_S50000x192_S192x192_S50000x192_1_0_0_1_n_n none l r) : (⟨S50000x192, .f32⟩ : BufTy).Contents (Elt F) → (⟨S192x192, .f32⟩ : BufTy).Contents (Elt F) → (⟨S50000x192, .f32⟩ : BufTy).Contents (Elt F)),
    nullary main_cst_6 (constant S_ .f32 0x3F800000#32),
    unary main_cst_6 main_v49 (broadcastInDim S800000 ![] bcast_S_S800000 : (⟨S_, .f32⟩ : BufTy).Contents (Elt F) → (⟨S800000, .f32⟩ : BufTy).Contents (Elt F)),
    nullary main_cst_7 (constant S_ .f32 0x00000000#32),
    unary main_cst_7 main_v50 (broadcastInDim S50000 ![] bcast_S_S50000 : (⟨S_, .f32⟩ : BufTy).Contents (Elt F) → (⟨S50000, .f32⟩ : BufTy).Contents (Elt F)) ]

/-- Window 4: the first aggregation: degrees, edge weights, gather, scatter-add, the node's own row over its degree, the bias (%51 … %92). -/
abbrev w4 : List (HloOp τ sig (Elt F)) :=
  [ unary main_v46 main_v51 (broadcastInDim S800000x1 ![0] bcast_S800000_S800000x1_0 : (⟨S800000, .i32⟩ : BufTy).Contents (Elt F) → (⟨S800000x1, .i32⟩ : BufTy).Contents (Elt F)),
    ternary main_v50 main_v51 main_v49 main_v52 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    nullary main_cst_8 (constant S_ .f32 0x3F800000#32),
    unary main_cst_8 main_v53 (broadcastInDim S50000 ![] bcast_S_S50000 : (⟨S_, .f32⟩ : BufTy).Contents (Elt F) → (⟨S50000, .f32⟩ : BufTy).Contents (Elt F)),
    binary main_v52 main_v53 main_v54 (addf : (⟨S50000, .f32⟩ : BufTy).Contents (Elt F) → (⟨S50000, .f32⟩ : BufTy).Contents (Elt F) → (⟨S50000, .f32⟩ : BufTy).Contents (Elt F)),
    unary main_v54 main_v55 (Host.rsqrt : (⟨S50000, .f32⟩ : BufTy).Contents (Elt F) → (⟨S50000, .f32⟩ : BufTy).Contents (Elt F)),
    nullary main_c (constantI S_ 32 0#32),
    unary main_c main_v56 (broadcastInDim S800000 ![] bcast_S_S800000 : (⟨S_, .i32⟩ : BufTy).Contents (Elt F) → (⟨S800000, .i32⟩ : BufTy).Contents (Elt F)),
    binary main_v44 main_v56 main_v57 (cmpi .slt : (⟨S800000, .i32⟩ : BufTy).Contents (Elt F) → (⟨S800000, .i32⟩ : BufTy).Contents (Elt F) → (⟨S800000, .i1⟩ : BufTy).Contents (Elt F)),
    nullary main_c_9 (constantI S_ 32 50000#32),
    unary main_c_9 main_v58 (broadcastInDim S800000 ![] bcast_S_S800000 : (⟨S_, .i32⟩ : BufTy).Contents (Elt F) → (⟨S800000, .i32⟩ : BufTy).Contents (Elt F)),
    binary main_v44 main_v58 main_v59 (addi : (⟨S800000, .i32⟩ : BufTy).Contents (Elt F) → (⟨S800000, .i32⟩ : BufTy).Contents (Elt F) → (⟨S800000, .i32⟩ : BufTy).Contents (Elt F)),
    ternary main_v57 main_v59 main_v44 main_v60 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v60 main_v61 (broadcastInDim S800000x1 ![0] bcast_S800000_S800000x1_0 : (⟨S800000, .i32⟩ : BufTy).Contents (Elt F) → (⟨S800000x1, .i32⟩ : BufTy).Contents (Elt F)),
    binary main_v55 main_v61 main_v62 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    nullary main_c_10 (constantI S_ 32 0#32),
    unary main_c_10 main_v63 (broadcastInDim S800000 ![] bcast_S_S800000 : (⟨S_, .i32⟩ : BufTy).Contents (Elt F) → (⟨S800000, .i32⟩ : BufTy).Contents (Elt F)),
    binary main_v46 main_v63 main_v64 (cmpi .slt : (⟨S800000, .i32⟩ : BufTy).Contents (Elt F) → (⟨S800000, .i32⟩ : BufTy).Contents (Elt F) → (⟨S800000, .i1⟩ : BufTy).Contents (Elt F)),
    nullary main_c_11 (constantI S_ 32 50000#32),
    unary main_c_11 main_v65 (broadcastInDim S800000 ![] bcast_S_S800000 : (⟨S_, .i32⟩ : BufTy).Contents (Elt F) → (⟨S800000, .i32⟩ : BufTy).Contents (Elt F)),
    binary main_v46 main_v65 main_v66 (addi : (⟨S800000, .i32⟩ : BufTy).Contents (Elt F) → (⟨S800000, .i32⟩ : BufTy).Contents (Elt F) → (⟨S800000, .i32⟩ : BufTy).Contents (Elt F)),
    ternary main_v64 main_v66 main_v46 main_v67 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v67 main_v68 (broadcastInDim S800000x1 ![0] bcast_S800000_S800000x1_0 : (⟨S800000, .i32⟩ : BufTy).Contents (Elt F) → (⟨S800000x1, .i32⟩ : BufTy).Contents (Elt F)),
    binary main_v55 main_v68 main_v69 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    binary main_v62 main_v69 main_v70 (mulf : (⟨S800000, .f32⟩ : BufTy).Contents (Elt F) → (⟨S800000, .f32⟩ : BufTy).Contents (Elt F) → (⟨S800000, .f32⟩ : BufTy).Contents (Elt F)),
    nullary main_c_12 (constantI S_ 32 0#32),
    unary main_c_12 main_v71 (broadcastInDim S800000 ![] bcast_S_S800000 : (⟨S_, .i32⟩ : BufTy).Contents (Elt F) → (⟨S800000, .i32⟩ : BufTy).Contents (Elt F)),
    binary main_v44 main_v71 main_v72 (cmpi .slt : (⟨S800000, .i32⟩ : BufTy).Contents (Elt F) → (⟨S800000, .i32⟩ : BufTy).Contents (Elt F) → (⟨S800000, .i1⟩ : BufTy).Contents (Elt F)),
    nullary main_c_13 (constantI S_ 32 50000#32),
    unary main_c_13 main_v73 (broadcastInDim S800000 ![] bcast_S_S800000 : (⟨S_, .i32⟩ : BufTy).Contents (Elt F) → (⟨S800000, .i32⟩ : BufTy).Contents (Elt F)),
    binary main_v44 main_v73 main_v74 (addi : (⟨S800000, .i32⟩ : BufTy).Contents (Elt F) → (⟨S800000, .i32⟩ : BufTy).Contents (Elt F) → (⟨S800000, .i32⟩ : BufTy).Contents (Elt F)),
    ternary main_v72 main_v74 main_v44 main_v75 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v75 main_v76 (broadcastInDim S800000x1 ![0] bcast_S800000_S800000x1_0 : (⟨S800000, .i32⟩ : BufTy).Contents (Elt F) → (⟨S800000x1, .i32⟩ : BufTy).Contents (Elt F)),
    binary main_v48 main_v76 main_v77 ((fun x i => Host.gather gather_S50000x192_S800000x1_S800000x192_1_0_n_n_0_1_1192 x i) : (⟨S50000x192, .f32⟩ : BufTy).Contents (Elt F) → (⟨S800000x1, .i32⟩ : BufTy).Contents (Elt F) → (⟨S800000x192, .f32⟩ : BufTy).Contents (Elt F)),
    unary main_v70 main_v78 (broadcastInDim S800000x1 ![0] bcast_S800000_S800000x1_0 : (⟨S800000, .f32⟩ : BufTy).Contents (Elt F) → (⟨S800000x1, .f32⟩ : BufTy).Contents (Elt F)),
    unary main_v78 main_v79 (broadcastInDim S800000x192 ![0, 1] bcast_S800000x1_S800000x192_0_1 : (⟨S800000x1, .f32⟩ : BufTy).Contents (Elt F) → (⟨S800000x192, .f32⟩ : BufTy).Contents (Elt F)),
    binary main_v77 main_v79 main_v80 (mulf : (⟨S800000x192, .f32⟩ : BufTy).Contents (Elt F) → (⟨S800000x192, .f32⟩ : BufTy).Contents (Elt F) → (⟨S800000x192, .f32⟩ : BufTy).Contents (Elt F)),
    nullary main_cst_14 (constant S_ .f32 0x00000000#32),
    unary main_cst_14 main_v81 (broadcastInDim S50000x192 ![] bcast_S_S50000x192 : (⟨S_, .f32⟩ : BufTy).Contents (Elt F) → (⟨S50000x192, .f32⟩ : BufTy).Contents (Elt F)),
    unary main_v46 main_v82 (broadcastInDim S800000x1 ![0] bcast_S800000_S800000x1_0 : (⟨S800000, .i32⟩ : BufTy).Contents (Elt F) → (⟨S800000x1, .i32⟩ : BufTy).Contents (Elt F)),
    ternary main_v81 main_v82 main_v80 main_v83 ((fun x i u => Host.scatterAdd scatter_S50000x192_S800000x1_S800000x192_1_0_0_1 x i u) : (⟨S50000x192, .f32⟩ : BufTy).Contents (Elt F) → (⟨S800000x1, .i32⟩ : BufTy).Contents (Elt F) → (⟨S800000x192, .f32⟩ : BufTy).Contents (Elt F) → (⟨S50000x192, .f32⟩ : BufTy).Contents (Elt F)),
    nullary main_cst_15 (constant S_ .f32 0x3F800000#32),
    unary main_cst_15 main_v84 (broadcastInDim S50000 ![] bcast_S_S50000 : (⟨S_, .f32⟩ : BufTy).Contents (Elt F) → (⟨S50000, .f32⟩ : BufTy).Contents (Elt F)),
    binary main_v84 main_v54 main_v85 (Host.divf : (⟨S50000, .f32⟩ : BufTy).Contents (Elt F) → (⟨S50000, .f32⟩ : BufTy).Contents (Elt F) → (⟨S50000, .f32⟩ : BufTy).Contents (Elt F)),
    unary main_v85 main_v86 (broadcastInDim S50000x1 ![0] bcast_S50000_S50000x1_0 : (⟨S50000, .f32⟩ : BufTy).Contents (Elt F) → (⟨S50000x1, .f32⟩ : BufTy).Contents (Elt F)),
    unary main_v86 main_v87 (broadcastInDim S50000x192 ![0, 1] bcast_S50000x1_S50000x192_0_1 : (⟨S50000x1, .f32⟩ : BufTy).Contents (Elt F) → (⟨S50000x192, .f32⟩ : BufTy).Contents (Elt F)),
    binary main_v48 main_v87 main_v88 (mulf : (⟨S50000x192, .f32⟩ : BufTy).Contents (Elt F) → (⟨S50000x192, .f32⟩ : BufTy).Contents (Elt F) → (⟨S50000x192, .f32⟩ : BufTy).Contents (Elt F)),
    binary main_v83 main_v88 main_v89 (addf : (⟨S50000x192, .f32⟩ : BufTy).Contents (Elt F) → (⟨S50000x192, .f32⟩ : BufTy).Contents (Elt F) → (⟨S50000x192, .f32⟩ : BufTy).Contents (Elt F)),
    unary main_arg23 main_v90 (broadcastInDim S1x192 ![1] bcast_S192_S1x192_1 : (⟨S192, .f32⟩ : BufTy).Contents (Elt F) → (⟨S1x192, .f32⟩ : BufTy).Contents (Elt F)),
    unary main_v90 main_v91 (broadcastInDim S50000x192 ![0, 1] bcast_S1x192_S50000x192_0_1 : (⟨S1x192, .f32⟩ : BufTy).Contents (Elt F) → (⟨S50000x192, .f32⟩ : BufTy).Contents (Elt F)),
    binary main_v89 main_v91 main_v92 (addf : (⟨S50000x192, .f32⟩ : BufTy).Contents (Elt F) → (⟨S50000x192, .f32⟩ : BufTy).Contents (Elt F) → (⟨S50000x192, .f32⟩ : BufTy).Contents (Elt F)) ]

/-- Window 5: the second product with the transposed weight (%94) and the start of the second degree count (%95 … %98 and the scalar one). -/
abbrev w5 : List (HloOp τ sig (Elt F)) :=
  [ unary main_arg24 main_v93 ((transpose S192x192 [1, 0] · transposes_S192x192_S192x192_1_0) : (⟨S192x192, .f32⟩ : BufTy).Contents (Elt F) → (⟨S192x192, .f32⟩ : BufTy).Contents (Elt F)),
    binary main_v92 main_v93 main_v94 ((fun l r => Host.dotGeneral dot_S50000x192_S192x192_S50000x192_1_0_0_1_n_n none l r) : (⟨S50000x192, .f32⟩ : BufTy).Contents (Elt F) → (⟨S192x192, .f32⟩ : BufTy).Contents (Elt F) → (⟨S50000x192, .f32⟩ : BufTy).Contents (Elt F)),
    nullary main_cst_16 (constant S_ .f32 0x3F800000#32),
    unary main_cst_16 main_v95 (broadcastInDim S800000 ![] bcast_S_S800000 : (⟨S_, .f32⟩ : BufTy).Contents (Elt F) → (⟨S800000, .f32⟩ : BufTy).Contents (Elt F)),
    nullary main_cst_17 (constant S_ .f32 0x00000000#32),
    unary main_cst_17 main_v96 (broadcastInDim S50000 ![] bcast_S_S50000 : (⟨S_, .f32⟩ : BufTy).Contents (Elt F) → (⟨S50000, .f32⟩ : BufTy).Contents (Elt F)),
    unary main_v46 main_v97 (broadcastInDim S800000x1 ![0] bcast_S800000_S800000x1_0 : (⟨S800000, .i32⟩ : BufTy).Contents (Elt F) → (⟨S800000x1, .i32⟩ : BufTy).Contents (Elt F)),
    ternary main_v96 main_v97 main_v95 main_v98 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    nullary main_cst_18 (constant S_ .f32 0x3F800000#32) ]

/-- Window 6: the second aggregation (%99 … %138). -/
abbrev w6 : List (HloOp τ sig (Elt F)) :=
  [ unary main_cst_18 main_v99 (broadcastInDim S50000 ![] bcast_S_S50000 : (⟨S_, .f32⟩ : BufTy).Contents (Elt F) → (⟨S50000, .f32⟩ : BufTy).Contents (Elt F)),
    binary main_v98 main_v99 main_v100 (addf : (⟨S50000, .f32⟩ : BufTy).Contents (Elt F) → (⟨S50000, .f32⟩ : BufTy).Contents (Elt F) → (⟨S50000, .f32⟩ : BufTy).Contents (Elt F)),
    unary main_v100 main_v101 (Host.rsqrt : (⟨S50000, .f32⟩ : BufTy).Contents (Elt F) → (⟨S50000, .f32⟩ : BufTy).Contents (Elt F)),
    nullary main_c_19 (constantI S_ 32 0#32),
    unary main_c_19 main_v102 (broadcastInDim S800000 ![] bcast_S_S800000 : (⟨S_, .i32⟩ : BufTy).Contents (Elt F) → (⟨S800000, .i32⟩ : BufTy).Contents (Elt F)),
    binary main_v44 main_v102 main_v103 (cmpi .slt : (⟨S800000, .i32⟩ : BufTy).Contents (Elt F) → (⟨S800000, .i32⟩ : BufTy).Contents (Elt F) → (⟨S800000, .i1⟩ : BufTy).Contents (Elt F)),
    nullary main_c_20 (constantI S_ 32 50000#32),
    unary main_c_20 main_v104 (broadcastInDim S800000 ![] bcast_S_S800000 : (⟨S_, .i32⟩ : BufTy).Contents (Elt F) → (⟨S800000, .i32⟩ : BufTy).Contents (Elt F)),
    binary main_v44 main_v104 main_v105 (addi : (⟨S800000, .i32⟩ : BufTy).Contents (Elt F) → (⟨S800000, .i32⟩ : BufTy).Contents (Elt F) → (⟨S800000, .i32⟩ : BufTy).Contents (Elt F)),
    ternary main_v103 main_v105 main_v44 main_v106 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v106 main_v107 (broadcastInDim S800000x1 ![0] bcast_S800000_S800000x1_0 : (⟨S800000, .i32⟩ : BufTy).Contents (Elt F) → (⟨S800000x1, .i32⟩ : BufTy).Contents (Elt F)),
    binary main_v101 main_v107 main_v108 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    nullary main_c_21 (constantI S_ 32 0#32),
    unary main_c_21 main_v109 (broadcastInDim S800000 ![] bcast_S_S800000 : (⟨S_, .i32⟩ : BufTy).Contents (Elt F) → (⟨S800000, .i32⟩ : BufTy).Contents (Elt F)),
    binary main_v46 main_v109 main_v110 (cmpi .slt : (⟨S800000, .i32⟩ : BufTy).Contents (Elt F) → (⟨S800000, .i32⟩ : BufTy).Contents (Elt F) → (⟨S800000, .i1⟩ : BufTy).Contents (Elt F)),
    nullary main_c_22 (constantI S_ 32 50000#32),
    unary main_c_22 main_v111 (broadcastInDim S800000 ![] bcast_S_S800000 : (⟨S_, .i32⟩ : BufTy).Contents (Elt F) → (⟨S800000, .i32⟩ : BufTy).Contents (Elt F)),
    binary main_v46 main_v111 main_v112 (addi : (⟨S800000, .i32⟩ : BufTy).Contents (Elt F) → (⟨S800000, .i32⟩ : BufTy).Contents (Elt F) → (⟨S800000, .i32⟩ : BufTy).Contents (Elt F)),
    ternary main_v110 main_v112 main_v46 main_v113 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v113 main_v114 (broadcastInDim S800000x1 ![0] bcast_S800000_S800000x1_0 : (⟨S800000, .i32⟩ : BufTy).Contents (Elt F) → (⟨S800000x1, .i32⟩ : BufTy).Contents (Elt F)),
    binary main_v101 main_v114 main_v115 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    binary main_v108 main_v115 main_v116 (mulf : (⟨S800000, .f32⟩ : BufTy).Contents (Elt F) → (⟨S800000, .f32⟩ : BufTy).Contents (Elt F) → (⟨S800000, .f32⟩ : BufTy).Contents (Elt F)),
    nullary main_c_23 (constantI S_ 32 0#32),
    unary main_c_23 main_v117 (broadcastInDim S800000 ![] bcast_S_S800000 : (⟨S_, .i32⟩ : BufTy).Contents (Elt F) → (⟨S800000, .i32⟩ : BufTy).Contents (Elt F)),
    binary main_v44 main_v117 main_v118 (cmpi .slt : (⟨S800000, .i32⟩ : BufTy).Contents (Elt F) → (⟨S800000, .i32⟩ : BufTy).Contents (Elt F) → (⟨S800000, .i1⟩ : BufTy).Contents (Elt F)),
    nullary main_c_24 (constantI S_ 32 50000#32),
    unary main_c_24 main_v119 (broadcastInDim S800000 ![] bcast_S_S800000 : (⟨S_, .i32⟩ : BufTy).Contents (Elt F) → (⟨S800000, .i32⟩ : BufTy).Contents (Elt F)),
    binary main_v44 main_v119 main_v120 (addi : (⟨S800000, .i32⟩ : BufTy).Contents (Elt F) → (⟨S800000, .i32⟩ : BufTy).Contents (Elt F) → (⟨S800000, .i32⟩ : BufTy).Contents (Elt F)),
    ternary main_v118 main_v120 main_v44 main_v121 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v121 main_v122 (broadcastInDim S800000x1 ![0] bcast_S800000_S800000x1_0 : (⟨S800000, .i32⟩ : BufTy).Contents (Elt F) → (⟨S800000x1, .i32⟩ : BufTy).Contents (Elt F)),
    binary main_v94 main_v122 main_v123 ((fun x i => Host.gather gather_S50000x192_S800000x1_S800000x192_1_0_n_n_0_1_1192 x i) : (⟨S50000x192, .f32⟩ : BufTy).Contents (Elt F) → (⟨S800000x1, .i32⟩ : BufTy).Contents (Elt F) → (⟨S800000x192, .f32⟩ : BufTy).Contents (Elt F)),
    unary main_v116 main_v124 (broadcastInDim S800000x1 ![0] bcast_S800000_S800000x1_0 : (⟨S800000, .f32⟩ : BufTy).Contents (Elt F) → (⟨S800000x1, .f32⟩ : BufTy).Contents (Elt F)),
    unary main_v124 main_v125 (broadcastInDim S800000x192 ![0, 1] bcast_S800000x1_S800000x192_0_1 : (⟨S800000x1, .f32⟩ : BufTy).Contents (Elt F) → (⟨S800000x192, .f32⟩ : BufTy).Contents (Elt F)),
    binary main_v123 main_v125 main_v126 (mulf : (⟨S800000x192, .f32⟩ : BufTy).Contents (Elt F) → (⟨S800000x192, .f32⟩ : BufTy).Contents (Elt F) → (⟨S800000x192, .f32⟩ : BufTy).Contents (Elt F)),
    nullary main_cst_25 (constant S_ .f32 0x00000000#32),
    unary main_cst_25 main_v127 (broadcastInDim S50000x192 ![] bcast_S_S50000x192 : (⟨S_, .f32⟩ : BufTy).Contents (Elt F) → (⟨S50000x192, .f32⟩ : BufTy).Contents (Elt F)),
    unary main_v46 main_v128 (broadcastInDim S800000x1 ![0] bcast_S800000_S800000x1_0 : (⟨S800000, .i32⟩ : BufTy).Contents (Elt F) → (⟨S800000x1, .i32⟩ : BufTy).Contents (Elt F)),
    ternary main_v127 main_v128 main_v126 main_v129 ((fun x i u => Host.scatterAdd scatter_S50000x192_S800000x1_S800000x192_1_0_0_1 x i u) : (⟨S50000x192, .f32⟩ : BufTy).Contents (Elt F) → (⟨S800000x1, .i32⟩ : BufTy).Contents (Elt F) → (⟨S800000x192, .f32⟩ : BufTy).Contents (Elt F) → (⟨S50000x192, .f32⟩ : BufTy).Contents (Elt F)),
    nullary main_cst_26 (constant S_ .f32 0x3F800000#32),
    unary main_cst_26 main_v130 (broadcastInDim S50000 ![] bcast_S_S50000 : (⟨S_, .f32⟩ : BufTy).Contents (Elt F) → (⟨S50000, .f32⟩ : BufTy).Contents (Elt F)),
    binary main_v130 main_v100 main_v131 (Host.divf : (⟨S50000, .f32⟩ : BufTy).Contents (Elt F) → (⟨S50000, .f32⟩ : BufTy).Contents (Elt F) → (⟨S50000, .f32⟩ : BufTy).Contents (Elt F)),
    unary main_v131 main_v132 (broadcastInDim S50000x1 ![0] bcast_S50000_S50000x1_0 : (⟨S50000, .f32⟩ : BufTy).Contents (Elt F) → (⟨S50000x1, .f32⟩ : BufTy).Contents (Elt F)),
    unary main_v132 main_v133 (broadcastInDim S50000x192 ![0, 1] bcast_S50000x1_S50000x192_0_1 : (⟨S50000x1, .f32⟩ : BufTy).Contents (Elt F) → (⟨S50000x192, .f32⟩ : BufTy).Contents (Elt F)),
    binary main_v94 main_v133 main_v134 (mulf : (⟨S50000x192, .f32⟩ : BufTy).Contents (Elt F) → (⟨S50000x192, .f32⟩ : BufTy).Contents (Elt F) → (⟨S50000x192, .f32⟩ : BufTy).Contents (Elt F)),
    binary main_v129 main_v134 main_v135 (addf : (⟨S50000x192, .f32⟩ : BufTy).Contents (Elt F) → (⟨S50000x192, .f32⟩ : BufTy).Contents (Elt F) → (⟨S50000x192, .f32⟩ : BufTy).Contents (Elt F)),
    unary main_arg25 main_v136 (broadcastInDim S1x192 ![1] bcast_S192_S1x192_1 : (⟨S192, .f32⟩ : BufTy).Contents (Elt F) → (⟨S1x192, .f32⟩ : BufTy).Contents (Elt F)),
    unary main_v136 main_v137 (broadcastInDim S50000x192 ![0, 1] bcast_S1x192_S50000x192_0_1 : (⟨S1x192, .f32⟩ : BufTy).Contents (Elt F) → (⟨S50000x192, .f32⟩ : BufTy).Contents (Elt F)),
    binary main_v135 main_v137 main_v138 (addf : (⟨S50000x192, .f32⟩ : BufTy).Contents (Elt F) → (⟨S50000x192, .f32⟩ : BufTy).Contents (Elt F) → (⟨S50000x192, .f32⟩ : BufTy).Contents (Elt F)) ]

/-- Window 7: the rectified layer 192 → 96 (%144) and the last layer 96 → 2 (%149). -/
abbrev w7 : List (HloOp τ sig (Elt F)) :=
  [ unary main_arg26 main_v139 ((transpose S192x96 [1, 0] · transposes_S96x192_S192x96_1_0) : (⟨S96x192, .f32⟩ : BufTy).Contents (Elt F) → (⟨S192x96, .f32⟩ : BufTy).Contents (Elt F)),
    binary main_v138 main_v139 main_v140 ((fun l r => Host.dotGeneral dot_S50000x192_S192x96_S50000x96_1_0_0_1_n_n none l r) : (⟨S50000x192, .f32⟩ : BufTy).Contents (Elt F) → (⟨S192x96, .f32⟩ : BufTy).Contents (Elt F) → (⟨S50000x96, .f32⟩ : BufTy).Contents (Elt F)),
    unary main_arg27 main_v141 (broadcastInDim S1x96 ![1] bcast_S96_S1x96_1 : (⟨S96, .f32⟩ : BufTy).Contents (Elt F) → (⟨S1x96, .f32⟩ : BufTy).Contents (Elt F)),
    unary main_v141 main_v142 (broadcastInDim S50000x96 ![0, 1] bcast_S1x96_S50000x96_0_1 : (⟨S1x96, .f32⟩ : BufTy).Contents (Elt F) → (⟨S50000x96, .f32⟩ : BufTy).Contents (Elt F)),
    binary main_v140 main_v142 main_v143 (addf : (⟨S50000x96, .f32⟩ : BufTy).Contents (Elt F) → (⟨S50000x96, .f32⟩ : BufTy).Contents (Elt F) → (⟨S50000x96, .f32⟩ : BufTy).Contents (Elt F)),
    nullary main_cst_27 (constant S_ .f32 0x3C23D70A#32),
    TRef.nullary main_call7.cst (constant S_ .f32 0x00000000#32),
    TRef.unary main_call7.cst main_call7.v0 (broadcastInDim S50000x96 ![] bcast_S_S50000x96),
    TRef.binary (.of main_v143) main_call7.v0 main_call7.v1 (cmpf .oge),
    TRef.unary (.of main_cst_27) main_call7.v2 id,
    TRef.unary main_call7.v2 main_call7.v3 (broadcastInDim S50000x96 ![] bcast_S_S50000x96),
    TRef.binary main_call7.v3 (.of main_v143) main_call7.v4 mulf,
    TRef.ternary main_call7.v1 (.of main_v143) main_call7.v4 main_call7.call0.v0 select,
    unary main_arg28 main_v145 ((transpose S96x2 [1, 0] · transposes_S2x96_S96x2_1_0) : (⟨S2x96, .f32⟩ : BufTy).Contents (Elt F) → (⟨S96x2, .f32⟩ : BufTy).Contents (Elt F)),
    binary main_v144 main_v145 main_v146 ((fun l r => Host.dotGeneral dot_S50000x96_S96x2_S50000x2_1_0_0_1_n_n none l r) : (⟨S50000x96, .f32⟩ : BufTy).Contents (Elt F) → (⟨S96x2, .f32⟩ : BufTy).Contents (Elt F) → (⟨S50000x2, .f32⟩ : BufTy).Contents (Elt F)),
    unary main_arg29 main_v147 (broadcastInDim S1x2 ![1] bcast_S2_S1x2_1 : (⟨S2, .f32⟩ : BufTy).Contents (Elt F) → (⟨S1x2, .f32⟩ : BufTy).Contents (Elt F)),
    unary main_v147 main_v148 (broadcastInDim S50000x2 ![0, 1] bcast_S1x2_S50000x2_0_1 : (⟨S1x2, .f32⟩ : BufTy).Contents (Elt F) → (⟨S50000x2, .f32⟩ : BufTy).Contents (Elt F)),
    binary main_v146 main_v148 main_v149 (addf : (⟨S50000x2, .f32⟩ : BufTy).Contents (Elt F) → (⟨S50000x2, .f32⟩ : BufTy).Contents (Elt F) → (⟨S50000x2, .f32⟩ : BufTy).Contents (Elt F)) ]

/-- The buffers that window 1 writes. -/
abbrev w1_W : List (Ref sig .tc) := [main_v0, main_v1, main_v2, main_v3, main_v4, main_cst, main_call0_cst, main_call0_v0, main_call0_v1, main_call0_v2, main_call0_v3, main_call0_v4, main_v5, main_v6, main_v7, main_v8, main_v9, main_v10, main_cst_0, main_call1_cst, main_call1_v0, main_call1_v1, main_call1_v2, main_call1_v3, main_call1_v4, main_v11, main_v12, main_v13, main_v14, main_v15, main_v16, main_cst_1, main_call2_cst, main_call2_v0, main_call2_v1, main_call2_v2, main_call2_v3, main_call2_v4, main_v17]
set_option maxRecDepth 8192 in
theorem w1_writes : (w1 : List (HloOp τ sig (Elt F))).Forall fun op => op.writes ⊆ (w1_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
set_option maxRecDepth 8192 in
theorem w1_sub : (w1 : List (HloOp τ sig (Elt F))).Forall fun op => op.bufs ⊆ tcRefs τ sig :=
  ⟨unary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., unary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., unary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub ..⟩

/-- The buffers that window 2 writes. -/
abbrev w2_W : List (Ref sig .tc) := [main_v18, main_v19, main_v20, main_v21, main_v22, main_cst_2, main_call3_cst, main_call3_v0, main_call3_v1, main_call3_v2, main_call3_v3, main_call3_v4, main_v23, main_v24, main_v25, main_v26, main_v27, main_v28, main_cst_3, main_call4_cst, main_call4_v0, main_call4_v1, main_call4_v2, main_call4_v3, main_call4_v4, main_v29, main_v30, main_v31, main_v32, main_v33, main_v34, main_cst_4, main_call5_cst, main_call5_v0, main_call5_v1, main_call5_v2, main_call5_v3, main_call5_v4, main_v35]
set_option maxRecDepth 8192 in
theorem w2_writes : (w2 : List (HloOp τ sig (Elt F))).Forall fun op => op.writes ⊆ (w2_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
set_option maxRecDepth 8192 in
theorem w2_sub : (w2 : List (HloOp τ sig (Elt F))).Forall fun op => op.bufs ⊆ tcRefs τ sig :=
  ⟨unary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., unary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., unary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub ..⟩

/-- The buffers that window 3 writes. -/
abbrev w3_W : List (Ref sig .tc) := [main_v36, main_v37, main_v38, main_v39, main_v40, main_v41, main_cst_5, main_call6_cst, main_call6_v0, main_call6_v1, main_call6_v2, main_call6_v3, main_call6_v4, main_v42, main_v43, main_v44, main_v45, main_v46, main_v47, main_v48, main_cst_6, main_v49, main_cst_7, main_v50]
set_option maxRecDepth 8192 in
theorem w3_writes : (w3 : List (HloOp τ sig (Elt F))).Forall fun op => op.writes ⊆ (w3_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
set_option maxRecDepth 8192 in
theorem w3_sub : (w3 : List (HloOp τ sig (Elt F))).Forall fun op => op.bufs ⊆ tcRefs τ sig :=
  ⟨nary_bufs_sub .., unary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., unary_bufs_sub .., reshape_bufs_sub .., unary_bufs_sub .., reshape_bufs_sub .., unary_bufs_sub .., binary_bufs_sub .., nullary_bufs_sub .., unary_bufs_sub .., nullary_bufs_sub .., unary_bufs_sub ..⟩

/-- The buffers that window 4 writes. -/
abbrev w4_W : List (Ref sig .tc) := [main_v51, main_v52, main_cst_8, main_v53, main_v54, main_v55, main_c, main_v56, main_v57, main_c_9, main_v58, main_v59, main_v60, main_v61, main_v62, main_c_10, main_v63, main_v64, main_c_11, main_v65, main_v66, main_v67, main_v68, main_v69, main_v70, main_c_12, main_v71, main_v72, main_c_13, main_v73, main_v74, main_v75, main_v76, main_v77, main_v78, main_v79, main_v80, main_cst_14, main_v81, main_v82, main_v83, main_cst_15, main_v84, main_v85, main_v86, main_v87, main_v88, main_v89, main_v90, main_v91, main_v92]
set_option maxRecDepth 8192 in
theorem w4_writes : (w4 : List (HloOp τ sig (Elt F))).Forall fun op => op.writes ⊆ (w4_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
set_option maxRecDepth 8192 in
theorem w4_sub : (w4 : List (HloOp τ sig (Elt F))).Forall fun op => op.bufs ⊆ tcRefs τ sig :=
  ⟨unary_bufs_sub .., ternary_bufs_sub .., nullary_bufs_sub .., unary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., nullary_bufs_sub .., unary_bufs_sub .., binary_bufs_sub .., unary_bufs_sub .., unary_bufs_sub .., binary_bufs_sub .., binary_bufs_sub .., unary_bufs_sub .., unary_bufs_sub .., binary_bufs_sub ..⟩

/-- The buffers that window 5 writes. -/
abbrev w5_W : List (Ref sig .tc) := [main_v93, main_v94, main_cst_16, main_v95, main_cst_17, main_v96, main_v97, main_v98, main_cst_18]
set_option maxRecDepth 8192 in
theorem w5_writes : (w5 : List (HloOp τ sig (Elt F))).Forall fun op => op.writes ⊆ (w5_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
set_option maxRecDepth 8192 in
theorem w5_sub : (w5 : List (HloOp τ sig (Elt F))).Forall fun op => op.bufs ⊆ tcRefs τ sig :=
  ⟨unary_bufs_sub .., binary_bufs_sub .., nullary_bufs_sub .., unary_bufs_sub .., nullary_bufs_sub .., unary_bufs_sub .., unary_bufs_sub .., ternary_bufs_sub .., nullary_bufs_sub ..⟩

/-- The buffers that window 6 writes. -/
abbrev w6_W : List (Ref sig .tc) := [main_v99, main_v100, main_v101, main_c_19, main_v102, main_v103, main_c_20, main_v104, main_v105, main_v106, main_v107, main_v108, main_c_21, main_v109, main_v110, main_c_22, main_v111, main_v112, main_v113, main_v114, main_v115, main_v116, main_c_23, main_v117, main_v118, main_c_24, main_v119, main_v120, main_v121, main_v122, main_v123, main_v124, main_v125, main_v126, main_cst_25, main_v127, main_v128, main_v129, main_cst_26, main_v130, main_v131, main_v132, main_v133, main_v134, main_v135, main_v136, main_v137, main_v138]
set_option maxRecDepth 8192 in
theorem w6_writes : (w6 : List (HloOp τ sig (Elt F))).Forall fun op => op.writes ⊆ (w6_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
set_option maxRecDepth 8192 in
theorem w6_sub : (w6 : List (HloOp τ sig (Elt F))).Forall fun op => op.bufs ⊆ tcRefs τ sig :=
  ⟨unary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., nullary_bufs_sub .., unary_bufs_sub .., binary_bufs_sub .., unary_bufs_sub .., unary_bufs_sub .., binary_bufs_sub .., binary_bufs_sub .., unary_bufs_sub .., unary_bufs_sub .., binary_bufs_sub ..⟩

/-- The buffers that window 7 writes. -/
abbrev w7_W : List (Ref sig .tc) := [main_v139, main_v140, main_v141, main_v142, main_v143, main_cst_27, main_call7_cst, main_call7_v0, main_call7_v1, main_call7_v2, main_call7_v3, main_call7_v4, main_v144, main_v145, main_v146, main_v147, main_v148, main_v149]
set_option maxRecDepth 8192 in
theorem w7_writes : (w7 : List (HloOp τ sig (Elt F))).Forall fun op => op.writes ⊆ (w7_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
set_option maxRecDepth 8192 in
theorem w7_sub : (w7 : List (HloOp τ sig (Elt F))).Forall fun op => op.bufs ⊆ tcRefs τ sig :=
  ⟨unary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., unary_bufs_sub .., binary_bufs_sub .., unary_bufs_sub .., unary_bufs_sub .., binary_bufs_sub ..⟩

/-- The device's buffer contents before the first window. -/
def val0 (V0 : Valuation τ sig (Elt F)) : Valuation τ sig (Elt F) := V0
/-- The device's buffer contents after the first 1 window. -/
def val1 (V0 : Valuation τ sig (Elt F)) : Valuation τ sig (Elt F) := after w1 (val0 V0)
/-- A buffer that window 1 does not write keeps its contents through it. -/
theorem val1_keep (V0 : Valuation τ sig (Elt F)) (r : Ref sig .tc) (h : r ∉ w1_W) :
    val1 V0 (Proc.devRef .tc r) = val0 V0 (Proc.devRef .tc r) :=
  after_of_writes_sub w1 _ w1_writes h
/-- The device's buffer contents after the first 2 windows. -/
def val2 (V0 : Valuation τ sig (Elt F)) : Valuation τ sig (Elt F) := after w2 (val1 V0)
/-- A buffer that window 2 does not write keeps its contents through it. -/
theorem val2_keep (V0 : Valuation τ sig (Elt F)) (r : Ref sig .tc) (h : r ∉ w2_W) :
    val2 V0 (Proc.devRef .tc r) = val1 V0 (Proc.devRef .tc r) :=
  after_of_writes_sub w2 _ w2_writes h
/-- The device's buffer contents after the first 3 windows. -/
def val3 (V0 : Valuation τ sig (Elt F)) : Valuation τ sig (Elt F) := after w3 (val2 V0)
/-- A buffer that window 3 does not write keeps its contents through it. -/
theorem val3_keep (V0 : Valuation τ sig (Elt F)) (r : Ref sig .tc) (h : r ∉ w3_W) :
    val3 V0 (Proc.devRef .tc r) = val2 V0 (Proc.devRef .tc r) :=
  after_of_writes_sub w3 _ w3_writes h
/-- The device's buffer contents after the first 4 windows. -/
def val4 (V0 : Valuation τ sig (Elt F)) : Valuation τ sig (Elt F) := after w4 (val3 V0)
/-- A buffer that window 4 does not write keeps its contents through it. -/
theorem val4_keep (V0 : Valuation τ sig (Elt F)) (r : Ref sig .tc) (h : r ∉ w4_W) :
    val4 V0 (Proc.devRef .tc r) = val3 V0 (Proc.devRef .tc r) :=
  after_of_writes_sub w4 _ w4_writes h
/-- The device's buffer contents after the first 5 windows. -/
def val5 (V0 : Valuation τ sig (Elt F)) : Valuation τ sig (Elt F) := after w5 (val4 V0)
/-- A buffer that window 5 does not write keeps its contents through it. -/
theorem val5_keep (V0 : Valuation τ sig (Elt F)) (r : Ref sig .tc) (h : r ∉ w5_W) :
    val5 V0 (Proc.devRef .tc r) = val4 V0 (Proc.devRef .tc r) :=
  after_of_writes_sub w5 _ w5_writes h
/-- The device's buffer contents after the first 6 windows. -/
def val6 (V0 : Valuation τ sig (Elt F)) : Valuation τ sig (Elt F) := after w6 (val5 V0)
/-- A buffer that window 6 does not write keeps its contents through it. -/
theorem val6_keep (V0 : Valuation τ sig (Elt F)) (r : Ref sig .tc) (h : r ∉ w6_W) :
    val6 V0 (Proc.devRef .tc r) = val5 V0 (Proc.devRef .tc r) :=
  after_of_writes_sub w6 _ w6_writes h
/-- The device's buffer contents after the first 7 windows. -/
def val7 (V0 : Valuation τ sig (Elt F)) : Valuation τ sig (Elt F) := after w7 (val6 V0)
/-- A buffer that window 7 does not write keeps its contents through it. -/
theorem val7_keep (V0 : Valuation τ sig (Elt F)) (r : Ref sig .tc) (h : r ∉ w7_W) :
    val7 V0 (Proc.devRef .tc r) = val6 V0 (Proc.devRef .tc r) :=
  after_of_writes_sub w7 _ w7_writes h

end Cert.ReferenceIdeal.RefRun

end
-- ==== Proof.RefMainEq.lean ====
/-
  The reference's @main is the straight line of its host operations: each printed part is the line of the windows it
  spans (a call of the outlined rectifier being the operations of its body), and @main runs the parts in order.
-/
import proofs.«136469_j28432683499972_1_alg».proof.Proof.RefRunDefs
import Idealize.ShloMosaic.Lib.StableHlo.Run

noncomputable section

namespace Cert.ReferenceIdeal.RefRun

open Cert.ReferenceIdeal Idealize.ShloMosaic Idealize.ShloMosaic.TcCoe Idealize.SL.Sem Idealize.ShloMosaic.StableHlo
open Facts₀ Facts

variable [Facts]
variable {F : FTy → Type} [FloatOps F]

set_option maxRecDepth 16384 in
set_option maxHeartbeats 4000000 in
/-- The first printed part is windows 1 to 3. -/
theorem part0_eq (c : Dev nD) : main_part0 (F := F) c = seq (w1 ++ (w2 ++ w3)) := by
  simp only [seq_append]
  simp only [main_part0, fn_leaky_relu.body, fn_where.body, fn_leaky_relu_0.body, fn_where_1.body, w1, w2, w3, seq, bind_assoc, pure_bind]
  rfl

set_option maxRecDepth 16384 in
set_option maxHeartbeats 4000000 in
/-- The second printed part is windows 4 and 5. -/
theorem part1_eq (c : Dev nD) : main_part1 (F := F) c = seq (w4 ++ w5) := by
  simp only [seq_append]
  simp only [main_part1, w4, w5, seq, bind_assoc, pure_bind]
  rfl

set_option maxRecDepth 16384 in
set_option maxHeartbeats 4000000 in
/-- The third printed part is windows 6 and 7. -/
theorem part2_eq (c : Dev nD) : main_part2 (F := F) c = seq (w6 ++ w7) := by
  simp only [seq_append]
  simp only [main_part2, fn_leaky_relu_2.body, fn_where_3.body, w6, w7, seq, bind_assoc, pure_bind]
  rfl

/-- The last printed part does nothing. -/
theorem part3_eq (c : Dev nD) : main_part3 (F := F) c = seq [] := rfl

/-- @main's 228 host operations, in order. -/
abbrev ops : List (HloOp τ sig (Elt F)) := (w1 ++ (w2 ++ w3)) ++ ((w4 ++ w5) ++ ((w6 ++ w7) ++ []))

/-- @main is that straight line. -/
theorem main_eq (c : Dev nD) : main (F := F) c = seq ops := by
  simp only [ops]
  rw [seq_append (w1 ++ (w2 ++ w3)), seq_append (w4 ++ w5), seq_append (w6 ++ w7), ← part0_eq c, ← part1_eq c, ← part2_eq c, ← part3_eq c]
  rfl

theorem scopedRefs_eq : (Finset.univ.filter fun b : Ref sig .tc => b.isScoped) = ∅ := by decide
theorem scopedSems_eq : (Finset.univ.filter fun sm : SemLoc sig => sm.isScoped .tc) = ∅ := by decide

/-- Every operation touches TensorCore buffers only. -/
theorem ops_sub : (ops : List (HloOp τ sig (Elt F))).Forall fun op => op.bufs ⊆ tcRefs τ sig :=
  List.forall_iff_forall_mem.mpr fun op h => by
    simp only [ops, List.mem_append, List.not_mem_nil, or_false] at h
    rcases h with (h | h | h) | (h | h) | (h | h)
    exacts [List.forall_iff_forall_mem.mp w1_sub op h, List.forall_iff_forall_mem.mp w2_sub op h,
      List.forall_iff_forall_mem.mp w3_sub op h, List.forall_iff_forall_mem.mp w4_sub op h,
      List.forall_iff_forall_mem.mp w5_sub op h, List.forall_iff_forall_mem.mp w6_sub op h,
      List.forall_iff_forall_mem.mp w7_sub op h]

/-- The buffers after two lines run one after the other: the second line's fold over the first's. -/
theorem after_app (l₁ l₂ : List (HloOp τ sig (Elt F))) (V : Valuation τ sig (Elt F)) :
    after (l₁ ++ l₂) V = after l₂ (after l₁ V) := by
  induction l₁ generalizing V with
  | nil => rfl
  | cons op l ih => exact ih _

/-- The buffers after the whole line are the buffers after the seventh window. -/
theorem after_ops (V0 : Valuation τ sig (Elt F)) : after ops V0 = val7 V0 := by
  simp only [ops, after_app, after_nil]
  rfl

/-- The run of @main, every buffer read back as the fold of the operations over the launch contents. -/
theorem run_ops (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m ρ

end Cert.ReferenceIdeal.RefRun

end
-- ==== Proof.RefWin123.lean ====
/-
  What the first three windows of the reference's host operations leave in the buffers later windows read, as the pure
  terms of the network: a window's result buffer holds the composition of the window's operations applied to what its
  input buffers held, whatever the other buffers held.
-/
import proofs.«136469_j28432683499972_1_alg».proof.Proof.RefRunDefs
import Idealize.ShloMosaic.Lib.StableHlo.Run

noncomputable section

namespace Cert.ReferenceIdeal.RefRun

open Cert.ReferenceIdeal Idealize.ShloMosaic Idealize.ShloMosaic.TcCoe Idealize.SL.Sem Idealize.ShloMosaic.StableHlo
open Facts₀ Facts

variable [Facts]
variable {F : FTy → Type} [FloatOps F]

attribute [local irreducible] select cmpf addf mulf broadcastInDim transpose constant concatenate extractStridedSlice shapeCast Host.scatterAdd Host.gather Host.rsqrt Host.divf constantI cmpi addi in
set_option maxRecDepth 8192 in
set_option maxHeartbeats 2000000 in
theorem win1_main_v5 (W : Valuation τ sig (Elt Ideal)) :
    after (w1 (F := Ideal)) W (Proc.devRef .tc main_v5) = Terms.layer768 (W (Proc.devRef .tc main_arg6)) (W (Proc.devRef .tc main_arg8)) (W (Proc.devRef .tc main_arg9)) := by
  simp only [w1]
  after_results_simp
  rfl

attribute [local irreducible] select cmpf addf mulf broadcastInDim transpose constant concatenate extractStridedSlice shapeCast Host.scatterAdd Host.gather Host.rsqrt Host.divf constantI cmpi addi in
set_option maxRecDepth 8192 in
set_option maxHeartbeats 2000000 in
theorem win1_main_v11 (W : Valuation τ sig (Elt Ideal)) :
    after (w1 (F := Ideal)) W (Proc.devRef .tc main_v11) = Terms.layer768 (W (Proc.devRef .tc main_arg0)) (W (Proc.devRef .tc main_arg10)) (W (Proc.devRef .tc main_arg11)) := by
  simp only [w1]
  after_results_simp
  rfl

attribute [local irreducible] select cmpf addf mulf broadcastInDim transpose constant concatenate extractStridedSlice shapeCast Host.scatterAdd Host.gather Host.rsqrt Host.divf constantI cmpi addi in
set_option maxRecDepth 8192 in
set_option maxHeartbeats 2000000 in
theorem win1_main_v17 (W : Valuation τ sig (Elt Ideal)) :
    after (w1 (F := Ideal)) W (Proc.devRef .tc main_v17) = Terms.layer768 (W (Proc.devRef .tc main_arg1)) (W (Proc.devRef .tc main_arg12)) (W (Proc.devRef .tc main_arg13)) := by
  simp only [w1]
  after_results_simp
  rfl

attribute [local irreducible] select cmpf addf mulf broadcastInDim transpose constant concatenate extractStridedSlice shapeCast Host.scatterAdd Host.gather Host.rsqrt Host.divf constantI cmpi addi in
set_option maxRecDepth 8192 in
set_option maxHeartbeats 2000000 in
theorem win2_main_v23 (W : Valuation τ sig (Elt Ideal)) :
    after (w2 (F := Ideal)) W (Proc.devRef .tc main_v23) = Terms.layer5 (W (Proc.devRef .tc main_arg4)) (W (Proc.devRef .tc main_arg14)) (W (Proc.devRef .tc main_arg15)) := by
  simp only [w2]
  after_results_simp
  rfl

attribute [local irreducible] select cmpf addf mulf broadcastInDim transpose constant concatenate extractStridedSlice shapeCast Host.scatterAdd Host.gather Host.rsqrt Host.divf constantI cmpi addi in
set_option maxRecDepth 8192 in
set_option maxHeartbeats 2000000 in
theorem win2_main_v29 (W : Valuation τ sig (Elt Ideal)) :
    after (w2 (F := Ideal)) W (Proc.devRef .tc main_v29) = Terms.layer1 (W (Proc.devRef .tc main_arg5)) (W (Proc.devRef .tc main_arg16)) (W (Proc.devRef .tc main_arg17)) := by
  simp only [w2]
  after_results_simp
  rfl

attribute [local irreducible] select cmpf addf mulf broadcastInDim transpose constant concatenate extractStridedSlice shapeCast Host.scatterAdd Host.gather Host.rsqrt Host.divf constantI cmpi addi in
set_option maxRecDepth 8192 in
set_option maxHeartbeats 2000000 in
theorem win2_main_v35 (W : Valuation τ sig (Elt Ideal)) :
    after (w2 (F := Ideal)) W (Proc.devRef .tc main_v35) = Terms.layer768 (W (Proc.devRef .tc main_arg7)) (W (Proc.devRef .tc main_arg18)) (W (Proc.devRef .tc main_arg19)) := by
  simp only [w2]
  after_results_simp
  rfl

/-- The first stage's result from the six pieces: the pieces side by side, then the rectified layer 192 → 192. -/
def stage (p23 p29 p5 p35 p11 p17 : FVec Ideal S50000x32 .f32) (a20 : FVec Ideal S192x192 .f32) (a21 : FVec Ideal S192 .f32) :
    FVec Ideal S50000x192 .f32 :=
  Terms.lrelu192 (addf (Host.dotGeneral (F := Ideal) dot_S50000x192_S192x192_S50000x192_1_0_0_1_n_n none
      (concatenate S50000x192 1
        [⟨S50000x32, p23⟩, ⟨S50000x32, p29⟩, ⟨S50000x32, p5⟩, ⟨S50000x32, p35⟩, ⟨S50000x32, p11⟩, ⟨S50000x32, p17⟩]
        concatenates_S50000x32_S50000x32_S50000x32_S50000x32_S50000x32_S50000x32_S50000x192_d1)
      (transpose S192x192 [1, 0] a20 transposes_S192x192_S192x192_1_0)) (Terms.bias192 a21))
    (constant (F := Ideal) S_ .f32 0x3C23D70A#32)

attribute [local irreducible] select cmpf addf mulf broadcastInDim transpose constant concatenate extractStridedSlice shapeCast Host.scatterAdd Host.gather Host.rsqrt Host.divf constantI cmpi addi in
set_option maxRecDepth 8192 in
set_option maxHeartbeats 2000000 in
theorem win3_main_v48 (W : Valuation τ sig (Elt Ideal)) :
    after (w3 (F := Ideal)) W (Proc.devRef .tc main_v48) = Terms.hw (stage (W (Proc.devRef .tc main_v23)) (W (Proc.devRef .tc main_v29)) (W (Proc.devRef .tc main_v5)) (W (Proc.devRef .tc main_v35)) (W (Proc.devRef .tc main_v11)) (W (Proc.devRef .tc main_v17)) (W (Proc.devRef .tc main_arg20)) (W (Proc.devRef .tc main_arg21))) (W (Proc.devRef .tc main_arg22)) := by
  simp only [w3]
  after_results_simp
  rfl

attribute [local irreducible] select cmpf addf mulf broadcastInDim transpose constant concatenate extractStridedSlice shapeCast Host.scatterAdd Host.gather Host.rsqrt Host.divf constantI cmpi addi in
set_option maxRecDepth 8192 in
set_option maxHeartbeats 2000000 in
theorem win3_main_v44 (W : Valuation τ sig (Elt Ideal)) :
    after (w3 (F := Ideal)) W (Proc.devRef .tc main_v44) = Terms.src (W (Proc.devRef .tc main_arg2)) := by
  simp only [w3]
  after_results_simp
  rfl

attribute [local irreducible] select cmpf addf mulf broadcastInDim transpose constant concatenate extractStridedSlice shapeCast Host.scatterAdd Host.gather Host.rsqrt Host.divf constantI cmpi addi in
set_option maxRecDepth 8192 in
set_option maxHeartbeats 2000000 in
theorem win3_main_v46 (W : Valuation τ sig (Elt Ideal)) :
    after (w3 (F := Ideal)) W (Proc.devRef .tc main_v46) = Terms.dst (W (Proc.devRef .tc main_arg2)) := by
  simp only [w3]
  after_results_simp
  rfl

attribute [local irreducible] select cmpf addf mulf broadcastInDim transpose constant concatenate extractStridedSlice shapeCast Host.scatterAdd Host.gather Host.rsqrt Host.divf constantI cmpi addi in
set_option maxRecDepth 8192 in
set_option maxHeartbeats 2000000 in
theorem win3_main_v49 (W : Valuation τ sig (Elt Ideal)) :
    after (w3 (F := Ideal)) W (Proc.devRef .tc main_v49) = broadcastInDim S800000 ![] bcast_S_S800000 (constant (F := Ideal) S_ .f32 0x3F800000#32) := by
  simp only [w3]
  after_results_simp

attribute [local irreducible] select cmpf addf mulf broadcastInDim transpose constant concatenate extractStridedSlice shapeCast Host.scatterAdd Host.gather Host.rsqrt Host.divf constantI cmpi addi in
set_option maxRecDepth 8192 in
set_option maxHeartbeats 2000000 in
theorem win3_main_v50 (W : Valuation τ sig (Elt Ideal)) :
    after (w3 (F := Ideal)) W (Proc.devRef .tc main_v50) = broadcastInDim S50000 ![] bcast_S_S50000 (constant (F := Ideal) S_ .f32 0x00000000#32) := by
  simp only [w3]
  after_results_simp

end Cert.ReferenceIdeal.RefRun

end
-- ==== Proof.RefWin4.lean ====
/-
  The first aggregation of the reference, read off its operations.

  Window 4 of the reference's host operations takes the features already multiplied by the layer's weight, the two
  rows of the edge list, a vector of ones over the edges and a vector of zeros over the nodes, and computes: the
  degree of every node (one plus the number of edges that end in it), the weight of every edge (the inverse square
  roots of its two end degrees multiplied), the weighted source rows added into the target rows, the node's own row
  divided by its degree, and the bias.  Composed in order, its operations are the aggregation step.
-/
import proofs.«136469_j28432683499972_1_alg».proof.Proof.RefRunDefs

noncomputable section

namespace Cert.ReferenceIdeal.RefRun

open Cert.ReferenceIdeal Idealize.ShloMosaic Idealize.ShloMosaic.TcCoe Idealize.SL.Sem Idealize.ShloMosaic.StableHlo
open Facts₀ Facts

variable [Facts]

attribute [local irreducible] select cmpf addf mulf broadcastInDim transpose constant concatenate extractStridedSlice shapeCast Host.scatterAdd Host.gather Host.rsqrt Host.divf constantI cmpi addi in
set_option maxRecDepth 8192 in
set_option maxHeartbeats 2000000 in
/-- After window 4 the buffer of %92 holds the aggregation step of the buffer of %48, the edge list and the bias. -/
theorem win4_main_v92 (W : Valuation τ sig (Elt Ideal)) (ei : IVec S2x800000 32)
    (h44 : W (Proc.devRef .tc main_v44) = Terms.src ei)
    (h46 : W (Proc.devRef .tc main_v46) = Terms.dst ei)
    (h49 : W (Proc.devRef .tc main_v49)
      = broadcastInDim S800000 ![] bcast_S_S800000 (constant (F := Ideal) S_ .f32 0x3F800000#32))
    (h50 : W (Proc.devRef .tc main_v50)
      = broadcastInDim S50000 ![] bcast_S_S50000 (constant (F := Ideal) S_ .f32 0x00000000#32)) :
    after (w4 (F := Ideal)) W (Proc.devRef .tc main_v92)
      = Terms.combine (W (Proc.devRef .tc main_v48)) ei (W (Proc.devRef .tc main_arg23)) := by
  simp only [w4]
  after_results_simp
  simp only [h44, h46, h49, h50]
  rfl

end Cert.ReferenceIdeal.RefRun

end
-- ==== Proof.RefWin5.lean ====
/-
  The fifth stretch of the reference program, read at the three buffers later stretches use.

  It multiplies the rows left by the first aggregation by the transpose of the second 192 × 192 weight, starts the
  second count of incoming edges — a scatter of ones over the edges' targets into an array of zeros — and sets the
  scalar one. Each buffer ends at the composition, in order, of the operations that wrote it.
-/
import proofs.«136469_j28432683499972_1_alg».proof.Proof.RefRunDefs

noncomputable section

namespace Cert.ReferenceIdeal.RefRun

open Cert.ReferenceIdeal Idealize.ShloMosaic Idealize.ShloMosaic.TcCoe Idealize.SL.Sem Idealize.ShloMosaic.StableHlo
open Facts₀ Facts

variable [Facts]

attribute [local irreducible] select cmpf addf mulf broadcastInDim transpose constant concatenate extractStridedSlice shapeCast Host.scatterAdd Host.gather Host.rsqrt Host.divf constantI cmpi addi in
set_option maxRecDepth 8192 in
set_option maxHeartbeats 2000000 in
/-- The product of the aggregated rows with the transposed weight. -/
theorem win5_main_v94 (W : Valuation τ sig (Elt Ideal)) :
    after (w5 (F := Ideal)) W (Proc.devRef .tc main_v94)
      = Terms.hw (W (Proc.devRef .tc main_v92)) (W (Proc.devRef .tc main_arg24)) := by
  simp only [w5]
  after_results_simp
  rfl

attribute [local irreducible] select cmpf addf mulf broadcastInDim transpose constant concatenate extractStridedSlice shapeCast Host.scatterAdd Host.gather Host.rsqrt Host.divf constantI cmpi addi in
set_option maxRecDepth 8192 in
set_option maxHeartbeats 2000000 in
/-- The count of incoming edges: ones scattered over the targets into zeros. -/
theorem win5_main_v98 (W : Valuation τ sig (Elt Ideal)) (ei : IVec S2x800000 32)
    (h46 : W (Proc.devRef .tc main_v46) = Terms.dst ei) :
    after (w5 (F := Ideal)) W (Proc.devRef .tc main_v98)
      = Host.scatterAdd (F := Ideal) scatter_S50000_S800000x1_S800000_n_0_0_1
          (broadcastInDim S50000 ![] bcast_S_S50000 (constant (F := Ideal) S_ .f32 0x00000000#32))
          (broadcastInDim S800000x1 ![0] bcast_S800000_S800000x1_0 (Terms.dst ei))
          (broadcastInDim S800000 ![] bcast_S_S800000 (constant (F := Ideal) S_ .f32 0x3F800000#32)) := by
  simp only [w5]
  after_results_simp
  simp only [h46]

attribute [local irreducible] select cmpf addf mulf broadcastInDim transpose constant concatenate extractStridedSlice shapeCast Host.scatterAdd Host.gather Host.rsqrt Host.divf constantI cmpi addi in
set_option maxRecDepth 8192 in
set_option maxHeartbeats 2000000 in
/-- The scalar one. -/
theorem win5_main_cst_18 (W : Valuation τ sig (Elt Ideal)) :
    after (w5 (F := Ideal)) W (Proc.devRef .tc main_cst_18) = constant (F := Ideal) S_ .f32 0x3F800000#32 := by
  simp only [w5]
  after_results_simp

end Cert.ReferenceIdeal.RefRun

end
-- ==== Proof.RefWin6.lean ====
/-
  The second aggregation step of the reference network, read off its window of host operations.

  The window adds one to the count of incoming edges (the degree), takes its reciprocal square root, turns the source
  and the target of every edge into gather indices, weights every edge by the product of the two gathered values, adds
  the weighted source rows of h · Wᵀ into the target rows, adds every node's own row divided by its degree, and adds
  the bias. Composed in that order the operations are the aggregation step of the network's description, applied to
  the rows the window finds and the edge list.
-/
import proofs.«136469_j28432683499972_1_alg».proof.Proof.RefRunDefs

noncomputable section

namespace Cert.ReferenceIdeal.RefRun

open Cert.ReferenceIdeal Idealize.ShloMosaic Idealize.ShloMosaic.TcCoe Idealize.SL.Sem Idealize.ShloMosaic.StableHlo
open Facts₀ Facts

variable [Facts]

attribute [local irreducible] select cmpf addf mulf broadcastInDim transpose constant concatenate extractStridedSlice shapeCast Host.scatterAdd Host.gather Host.rsqrt Host.divf constantI cmpi addi in
set_option maxRecDepth 8192 in
set_option maxHeartbeats 2000000 in
/-- After the window, the buffer of the step's result holds the aggregation step of the rows in the buffer of h · Wᵀ,
    when the window finds the edges' sources and targets, the count of incoming edges and the constant one in their
    buffers. -/
theorem win6_main_v138 (W : Valuation τ sig (Elt Ideal)) (ei : IVec S2x800000 32)
    (h44 : W (Proc.devRef .tc main_v44) = Terms.src ei) (h46 : W (Proc.devRef .tc main_v46) = Terms.dst ei)
    (h98 : W (Proc.devRef .tc main_v98)
      = Host.scatterAdd (F := Ideal) scatter_S50000_S800000x1_S800000_n_0_0_1
          (broadcastInDim S50000 ![] bcast_S_S50000 (constant (F := Ideal) S_ .f32 0x00000000#32))
          (broadcastInDim S800000x1 ![0] bcast_S800000_S800000x1_0 (Terms.dst ei))
          (broadcastInDim S800000 ![] bcast_S_S800000 (constant (F := Ideal) S_ .f32 0x3F800000#32)))
    (h18 : W (Proc.devRef .tc main_cst_18) = constant (F := Ideal) S_ .f32 0x3F800000#32) :
    after (w6 (F := Ideal)) W (Proc.devRef .tc main_v138)
      = Terms.combine (W (Proc.devRef .tc main_v94)) ei (W (Proc.devRef .tc main_arg25)) := by
  simp only [w6]
  after_results_simp
  simp only [h44, h46, h98, h18]
  rfl

end Cert.ReferenceIdeal.RefRun

end
-- ==== Proof.RefWin7.lean ====
/-
  The last stretch of the reference program, read at its two results.

  It applies the rectified layer 192 → 96 to the rows left by the second aggregation (the weight transposed, the
  product, the bias broadcast along the rows, the leaky rectifier), and then the layer 96 → 2 without a rectifier.
  Each result ends at the composition, in order, of the operations that wrote it.
-/
import proofs.«136469_j28432683499972_1_alg».proof.Proof.RefRunDefs

noncomputable section

namespace Cert.ReferenceIdeal.RefRun

open Cert.ReferenceIdeal Idealize.ShloMosaic Idealize.ShloMosaic.TcCoe Idealize.SL.Sem Idealize.ShloMosaic.StableHlo
open Facts₀ Facts

variable [Facts]

attribute [local irreducible] select cmpf addf mulf broadcastInDim transpose constant concatenate extractStridedSlice shapeCast Host.scatterAdd Host.gather Host.rsqrt Host.divf constantI cmpi addi in
set_option maxRecDepth 8192 in
set_option maxHeartbeats 2000000 in
/-- The rectified layer 192 → 96. -/
theorem win7_main_v144 (W : Valuation τ sig (Elt Ideal)) :
    after (w7 (F := Ideal)) W (Proc.devRef .tc main_v144)
      = Terms.emT (W (Proc.devRef .tc main_v138)) (W (Proc.devRef .tc main_arg26)) (W (Proc.devRef .tc main_arg27)) := by
  simp only [w7]
  after_results_simp
  rfl

attribute [local irreducible] select cmpf addf mulf broadcastInDim transpose constant concatenate extractStridedSlice shapeCast Host.scatterAdd Host.gather Host.rsqrt Host.divf constantI cmpi addi in
set_option maxRecDepth 8192 in
set_option maxHeartbeats 2000000 in
/-- The last layer 96 → 2 of the rectified layer's result. -/
theorem win7_main_v149 (W : Valuation τ sig (Elt Ideal)) :
    after (w7 (F := Ideal)) W (Proc.devRef .tc main_v149)
      = Terms.outT (Terms.emT (W (Proc.devRef .tc main_v138)) (W (Proc.devRef .tc main_arg26)) (W (Proc.devRef .tc main_arg27)))
          (W (Proc.devRef .tc main_arg28)) (W (Proc.devRef .tc main_arg29)) := by
  simp only [w7]
  after_results_simp
  rfl

end Cert.ReferenceIdeal.RefRun

end
-- ==== Proof.RefRun.lean ====
/-
  The reference's run, read back as the network's pure terms: every weakly fair execution of @main terminates, the two
  result buffers hold the last layer and the rectified layer before it as functions of the argument arrays, and the
  argument arrays are unchanged.

  The buffers after the whole line of operations are the buffers after the seventh window.  Window by window, a buffer
  a window writes holds the window's term of what its input buffers held, and a buffer it does not write holds what it
  held; chaining the seven windows gives every needed buffer as a term of the launch contents of the arguments.
-/
import proofs.«136469_j28432683499972_1_alg».proof.Proof.RefMainEq
import proofs.«136469_j28432683499972_1_alg».proof.Proof.RefWin123
import proofs.«136469_j28432683499972_1_alg».proof.Proof.RefWin4
import proofs.«136469_j28432683499972_1_alg».proof.Proof.RefWin5
import proofs.«136469_j28432683499972_1_alg».proof.Proof.RefWin6
import proofs.«136469_j28432683499972_1_alg».proof.Proof.RefWin7

noncomputable section

namespace Cert.ReferenceIdeal.RefRun

open Cert.ReferenceIdeal Idealize.ShloMosaic Idealize.ShloMosaic.TcCoe Idealize.SL.Sem Idealize.ShloMosaic.StableHlo
open Facts₀ Facts

variable [Facts]

/-! ## A buffer none of the first K windows writes holds its launch contents after them -/

theorem keep1 (V0 : Valuation τ sig (Elt Ideal)) (r : Ref sig .tc) (h1 : r ∉ w1_W) : val1 V0 (Proc.devRef .tc r) = V0 (Proc.devRef .tc r) :=
  val1_keep V0 r h1
theorem keep2 (V0 : Valuation τ sig (Elt Ideal)) (r : Ref sig .tc) (h1 : r ∉ w1_W) (h2 : r ∉ w2_W) : val2 V0 (Proc.devRef .tc r) = V0 (Proc.devRef .tc r) :=
  (val2_keep V0 r h2).trans (keep1 V0 r h1)
theorem keep3 (V0 : Valuation τ sig (Elt Ideal)) (r : Ref sig .tc) (h1 : r ∉ w1_W) (h2 : r ∉ w2_W) (h3 : r ∉ w3_W) : val3 V0 (Proc.devRef .tc r) = V0 (Proc.devRef .tc r) :=
  (val3_keep V0 r h3).trans (keep2 V0 r h1 h2)
theorem keep4 (V0 : Valuation τ sig (Elt Ideal)) (r : Ref sig .tc) (h1 : r ∉ w1_W) (h2 : r ∉ w2_W) (h3 : r ∉ w3_W) (h4 : r ∉ w4_W) : val4 V0 (Proc.devRef .tc r) = V0 (Proc.devRef .tc r) :=
  (val4_keep V0 r h4).trans (keep3 V0 r h1 h2 h3)
theorem keep5 (V0 : Valuation τ sig (Elt Ideal)) (r : Ref sig .tc) (h1 : r ∉ w1_W) (h2 : r ∉ w2_W) (h3 : r ∉ w3_W) (h4 : r ∉ w4_W) (h5 : r ∉ w5_W) : val5 V0 (Proc.devRef .tc r) = V0 (Proc.devRef .tc r) :=
  (val5_keep V0 r h5).trans (keep4 V0 r h1 h2 h3 h4)
theorem keep6 (V0 : Valuation τ sig (Elt Ideal)) (r : Ref sig .tc) (h1 : r ∉ w1_W) (h2 : r ∉ w2_W) (h3 : r ∉ w3_W) (h4 : r ∉ w4_W) (h5 : r ∉ w5_W) (h6 : r ∉ w6_W) : val6 V0 (Proc.devRef .tc r) = V0 (Proc.devRef .tc r) :=
  (val6_keep V0 r h6).trans (keep5 V0 r h1 h2 h3 h4 h5)
theorem keep7 (V0 : Valuation τ sig (Elt Ideal)) (r : Ref sig .tc) (h1 : r ∉ w1_W) (h2 : r ∉ w2_W) (h3 : r ∉ w3_W) (h4 : r ∉ w4_W) (h5 : r ∉ w5_W) (h6 : r ∉ w6_W) (h7 : r ∉ w7_W) : val7 V0 (Proc.devRef .tc r) = V0 (Proc.devRef .tc r) :=
  (val7_keep V0 r h7).trans (keep6 V0 r h1 h2 h3 h4 h5 h6)

/-! ## The network's stages as terms of the buffers' launch contents -/

/-- The first stage (six rectified layers of width 32 side by side, then the rectified layer 192 → 192). -/
def tH0 (V0 : Valuation τ sig (Elt Ideal)) : FVec Ideal S50000x192 .f32 :=
  Terms.dense0 (V0 (Proc.devRef .tc main_arg0)) (V0 (Proc.devRef .tc main_arg1)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (V0 (Proc.devRef .tc main_arg17)) (V0 (Proc.devRef .tc main_arg18)) (V0 (Proc.devRef .tc main_arg19)) (V0 (Proc.devRef .tc main_arg20)) (V0 (Proc.devRef .tc main_arg21))
/-- The first stage times the first transposed weight. -/
def tHW1 (V0 : Valuation τ sig (Elt Ideal)) : FVec Ideal S50000x192 .f32 := Terms.hw (tH0 V0) (V0 (Proc.devRef .tc main_arg22))
/-- After the first aggregation. -/
def tH1 (V0 : Valuation τ sig (Elt Ideal)) : FVec Ideal S50000x192 .f32 := Terms.combine (tHW1 V0) (V0 (Proc.devRef .tc main_arg2)) (V0 (Proc.devRef .tc main_arg23))
/-- Times the second transposed weight. -/
def tHW2 (V0 : Valuation τ sig (Elt Ideal)) : FVec Ideal S50000x192 .f32 := Terms.hw (tH1 V0) (V0 (Proc.devRef .tc main_arg24))
/-- After the second aggregation. -/
def tH2 (V0 : Valuation τ sig (Elt Ideal)) : FVec Ideal S50000x192 .f32 := Terms.combine (tHW2 V0) (V0 (Proc.devRef .tc main_arg2)) (V0 (Proc.devRef .tc main_arg25))
/-- The rectified layer 192 → 96. -/
def tEm (V0 : Valuation τ sig (Elt Ideal)) : FVec Ideal S50000x96 .f32 := Terms.emT (tH2 V0) (V0 (Proc.devRef .tc main_arg26)) (V0 (Proc.devRef .tc main_arg27))
/-- The last layer 96 → 2. -/
def tOut (V0 : Valuation τ sig (Elt Ideal)) : FVec Ideal S50000x2 .f32 := Terms.outT (tEm V0) (V0 (Proc.devRef .tc main_arg28)) (V0 (Proc.devRef .tc main_arg29))

/-! ## Window by window -/

theorem s1_v5 (V0 : Valuation τ sig (Elt Ideal)) : val1 V0 (Proc.devRef .tc main_v5) = Terms.layer768 (V0 (Proc.devRef .tc main_arg6)) (V0 (Proc.devRef .tc main_arg8)) (V0 (Proc.devRef .tc main_arg9)) := win1_main_v5 V0
theorem s1_v11 (V0 : Valuation τ sig (Elt Ideal)) : val1 V0 (Proc.devRef .tc main_v11) = Terms.layer768 (V0 (Proc.devRef .tc main_arg0)) (V0 (Proc.devRef .tc main_arg10)) (V0 (Proc.devRef .tc main_arg11)) := win1_main_v11 V0
theorem s1_v17 (V0 : Valuation τ sig (Elt Ideal)) : val1 V0 (Proc.devRef .tc main_v17) = Terms.layer768 (V0 (Proc.devRef .tc main_arg1)) (V0 (Proc.devRef .tc main_arg12)) (V0 (Proc.devRef .tc main_arg13)) := win1_main_v17 V0

theorem s2_v23 (V0 : Valuation τ sig (Elt Ideal)) : val2 V0 (Proc.devRef .tc main_v23) = Terms.layer5 (V0 (Proc.devRef .tc main_arg4)) (V0 (Proc.devRef .tc main_arg14)) (V0 (Proc.devRef .tc main_arg15)) := by
  have h := win2_main_v23 (val1 V0)
  rw [keep1 V0 main_arg4 (by decide), keep1 V0 main_arg14 (by decide), keep1 V0 main_arg15 (by decide)] at h
  exact h
theorem s2_v29 (V0 : Valuation τ sig (Elt Ideal)) : val2 V0 (Proc.devRef .tc main_v29) = Terms.layer1 (V0 (Proc.devRef .tc main_arg5)) (V0 (Proc.devRef .tc main_arg16)) (V0 (Proc.devRef .tc main_arg17)) := by
  have h := win2_main_v29 (val1 V0)
  rw [keep1 V0 main_arg5 (by decide), keep1 V0 main_arg16 (by decide), keep1 V0 main_arg17 (by decide)] at h
  exact h
theorem s2_v35 (V0 : Valuation τ sig (Elt Ideal)) : val2 V0 (Proc.devRef .tc main_v35) = Terms.layer768 (V0 (Proc.devRef .tc main_arg7)) (V0 (Proc.devRef .tc main_arg18)) (V0 (Proc.devRef .tc main_arg19)) := by
  have h := win2_main_v35 (val1 V0)
  rw [keep1 V0 main_arg7 (by decide), keep1 V0 main_arg18 (by decide), keep1 V0 main_arg19 (by decide)] at h
  exact h
theorem s2_v5 (V0 : Valuation τ sig (Elt Ideal)) : val2 V0 (Proc.devRef .tc main_v5) = Terms.layer768 (V0 (Proc.devRef .tc main_arg6)) (V0 (Proc.devRef .tc main_arg8)) (V0 (Proc.devRef .tc main_arg9)) :=
  (val2_keep V0 main_v5 (by decide)).trans (s1_v5 V0)
theorem s2_v11 (V0 : Valuation τ sig (Elt Ideal)) : val2 V0 (Proc.devRef .tc main_v11) = Terms.layer768 (V0 (Proc.devRef .tc main_arg0)) (V0 (Proc.devRef .tc main_arg10)) (V0 (Proc.devRef .tc main_arg11)) :=
  (val2_keep V0 main_v11 (by decide)).trans (s1_v11 V0)
theorem s2_v17 (V0 : Valuation τ sig (Elt Ideal)) : val2 V0 (Proc.devRef .tc main_v17) = Terms.layer768 (V0 (Proc.devRef .tc main_arg1)) (V0 (Proc.devRef .tc main_arg12)) (V0 (Proc.devRef .tc main_arg13)) :=
  (val2_keep V0 main_v17 (by decide)).trans (s1_v17 V0)

attribute [local irreducible] select cmpf addf mulf broadcastInDim transpose constant concatenate extractStridedSlice shapeCast Host.scatterAdd Host.gather Host.rsqrt Host.divf constantI cmpi addi in
set_option maxRecDepth 8192 in
set_option maxHeartbeats 2000000 in
theorem s3_v48 (V0 : Valuation τ sig (Elt Ideal)) : val3 V0 (Proc.devRef .tc main_v48) = tHW1 V0 := by
  have h := win3_main_v48 (val2 V0)
  rw [s2_v23, s2_v29, s2_v5, s2_v35, s2_v11, s2_v17, keep2 V0 main_arg20 (by decide) (by decide),
    keep2 V0 main_arg21 (by decide) (by decide), keep2 V0 main_arg22 (by decide) (by decide)] at h
  exact h
theorem s3_v44 (V0 : Valuation τ sig (Elt Ideal)) : val3 V0 (Proc.devRef .tc main_v44) = Terms.src (V0 (Proc.devRef .tc main_arg2)) := by
  have h := win3_main_v44 (val2 V0)
  rw [keep2 V0 main_arg2 (by decide) (by decide)] at h
  exact h
theorem s3_v46 (V0 : Valuation τ sig (Elt Ideal)) : val3 V0 (Proc.devRef .tc main_v46) = Terms.dst (V0 (Proc.devRef .tc main_arg2)) := by
  have h := win3_main_v46 (val2 V0)
  rw [keep2 V0 main_arg2 (by decide) (by decide)] at h
  exact h
theorem s3_v49 (V0 : Valuation τ sig (Elt Ideal)) : val3 V0 (Proc.devRef .tc main_v49)
    = broadcastInDim S800000 ![] bcast_S_S800000 (constant (F := Ideal) S_ .f32 0x3F800000#32) := win3_main_v49 (val2 V0)
theorem s3_v50 (V0 : Valuation τ sig (Elt Ideal)) : val3 V0 (Proc.devRef .tc main_v50)
    = broadcastInDim S50000 ![] bcast_S_S50000 (constant (F := Ideal) S_ .f32 0x00000000#32) := win3_main_v50 (val2 V0)

theorem s4_v92 (V0 : Valuation τ sig (Elt Ideal)) : val4 V0 (Proc.devRef .tc main_v92) = tH1 V0 := by
  have h := win4_main_v92 (val3 V0) (V0 (Proc.devRef .tc main_arg2)) (s3_v44 V0) (s3_v46 V0) (s3_v49 V0) (s3_v50 V0)
  rw [s3_v48, keep3 V0 main_arg23 (by decide) (by decide) (by decide)] at h
  exact h
theorem s4_v44 (V0 : Valuation τ sig (Elt Ideal)) : val4 V0 (Proc.devRef .tc main_v44) = Terms.src (V0 (Proc.devRef .tc main_arg2)) :=
  (val4_keep V0 main_v44 (by decide)).trans (s3_v44 V0)
theorem s4_v46 (V0 : Valuation τ sig (Elt Ideal)) : val4 V0 (Proc.devRef .tc main_v46) = Terms.dst (V0 (Proc.devRef .tc main_arg2)) :=
  (val4_keep V0 main_v46 (by decide)).trans (s3_v46 V0)

theorem s5_v94 (V0 : Valuation τ sig (Elt Ideal)) : val5 V0 (Proc.devRef .tc main_v94) = tHW2 V0 := by
  have h := win5_main_v94 (val4 V0)
  rw [s4_v92, keep4 V0 main_arg24 (by decide) (by decide) (by decide) (by decide)] at h
  exact h
theorem s5_v44 (V0 : Valuation τ sig (Elt Ideal)) : val5 V0 (Proc.devRef .tc main_v44) = Terms.src (V0 (Proc.devRef .tc main_arg2)) :=
  (val5_keep V0 main_v44 (by decide)).trans (s4_v44 V0)
theorem s5_v46 (V0 : Valuation τ sig (Elt Ideal)) : val5 V0 (Proc.devRef .tc main_v46) = Terms.dst (V0 (Proc.devRef .tc main_arg2)) :=
  (val5_keep V0 main_v46 (by decide)).trans (s4_v46 V0)

theorem s6_v138 (V0 : Valuation τ sig (Elt Ideal)) : val6 V0 (Proc.devRef .tc main_v138) = tH2 V0 := by
  have h := win6_main_v138 (val5 V0) (V0 (Proc.devRef .tc main_arg2)) (s5_v44 V0) (s5_v46 V0)
    (win5_main_v98 (val4 V0) (V0 (Proc.devRef .tc main_arg2)) (s4_v46 V0)) (win5_main_cst_18 (val4 V0))
  rw [s5_v94, keep5 V0 main_arg25 (by decide) (by decide) (by decide) (by decide) (by decide)] at h
  exact h

theorem s7_v144 (V0 : Valuation τ sig (Elt Ideal)) : val7 V0 (Proc.devRef .tc main_v144) = tEm V0 := by
  have h := win7_main_v144 (val6 V0)
  rw [s6_v138, keep6 V0 main_arg26 (by decide) (by decide) (by decide) (by decide) (by decide) (by decide), keep6 V0 main_arg27 (by decide) (by decide) (by decide) (by decide) (by decide) (by decide)] at h
  exact h
theorem s7_v149 (V0 : Valuation τ sig (Elt Ideal)) : val7 V0 (Proc.devRef .tc main_v149) = tOut V0 := by
  have h := win7_main_v149 (val6 V0)
  rw [s6_v138, keep6 V0 main_arg26 (by decide) (by decide) (by decide) (by decide) (by decide) (by decide), keep6 V0 main_arg27 (by decide) (by decide) (by decide) (by decide) (by decide) (by decide),
    keep6 V0 main_arg28 (by decide) (by decide) (by decide) (by decide) (by decide) (by decide), keep6 V0 main_arg29 (by decide) (by decide) (by decide) (by decide) (by decide) (by decide)] at h
  exact h

/-! ## The run -/

/-- The rectified layer 192 → 96 of the reference, as a term of the launch memory's argument arrays. -/
def resEm (m : (ℓ : Loc nD τ sig) → Buf (Elt Ideal) ℓ) (c : Dev nD) : FVec Ideal S50000x96 .f32 :=
  Terms.emT (Terms.combine (Terms.hw (Terms.combine (Terms.hw
    (Terms.dense0 (m ((c.tc : Thread nD τ).loc main_arg0)) (m ((c.tc : Thread nD τ).loc main_arg1)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)))
    (m ((c.tc : Thread nD τ).loc main_arg22))) (m ((c.tc : Thread nD τ).loc main_arg2)) (m ((c.tc : Thread nD τ).loc main_arg23))) (m ((c.tc : Thread nD τ).loc main_arg24))) (m ((c.tc : Thread nD τ).loc main_arg2)) (m ((c.tc : Thread nD τ).loc main_arg25)))
    (m ((c.tc : Thread nD τ).loc main_arg26)) (m ((c.tc : Thread nD τ).loc main_arg27))

/-- The last layer 96 → 2 of the reference, as a term of the launch memory's argument arrays. -/
def resOut (m : (ℓ : Loc nD τ sig) → Buf (Elt Ideal) ℓ) (c : Dev nD) : FVec Ideal S50000x2 .f32 :=
  Terms.outT (resEm m c) (m ((c.tc : Thread nD τ).loc main_arg28)) (m ((c.tc : Thread nD τ).loc main_arg29))

theorem tEm_launch (m : (ℓ : Loc nD τ sig) → Buf (Elt Ideal) ℓ) (c : Dev nD) : tEm (launchContents m c) = resEm m c := rfl
theorem tOut_launch (m : (ℓ : Loc nD τ sig) → Buf (Elt Ideal) ℓ) (c : Dev nD) : tOut (launchContents m c) = resOut m c := rfl

/-- Every weakly fair execution of the reference's @main terminates; the two results are the network's last layer and
    the rectified layer before it, as terms of the argument arrays at launch; the argument arrays are unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      (r.2.mem ((c.tc : Thread nD τ).loc main_v149) = resOut m c ∧ r.2.mem ((c.tc : Thread nD τ).loc main_v144) = resEm m c)
      ∧ (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29))) :=
  (θ_run defs _ _).mono (fun _ h c =>
    ⟨⟨(h c main_v149).trans ((congrFun (after_ops _) _).trans ((s7_v149 _).trans (tOut_launch m c))),
      (h c main_v144).trans ((congrFun (after_ops _) _).trans ((s7_v144 _).trans (tEm_launch m c)))⟩,
     (h c main_arg0).trans ((congrFun (after_ops _) _).trans (keep7 _ main_arg0 (by decide) (by decide) (by decide) (by decide) (by decide) (by decide) (by decide))),
     (h c main_arg1).trans ((congrFun (after_ops _) _).trans (keep7 _ main_arg1 (by decide) (by decide) (by decide) (by decide) (by decide) (by decide) (by decide))),
     (h c main_arg2).trans ((congrFun (after_ops _) _).trans (keep7 _ main_arg2 (by decide) (by decide) (by decide) (by decide) (by decide) (by decide) (by decide))),
     (h c main_arg3).trans ((congrFun (after_ops _) _).trans (keep7 _ main_arg3 (by decide) (by decide) (by decide) (by decide) (by decide) (by decide) (by decide))),
     (h c main_arg4).trans ((congrFun (after_ops _) _).trans (keep7 _ main_arg4 (by decide) (by decide) (by decide) (by decide) (by decide) (by decide) (by decide))),
     (h c main_arg5).trans ((congrFun (after_ops _) _).trans (keep7 _ main_arg5 (by decide) (by decide) (by decide) (by decide) (by decide) (by decide) (by decide))),
     (h c main_arg6).trans ((congrFun (after_ops _) _).trans (keep7 _ main_arg6 (by decide) (by decide) (by decide) (by decide) (by decide) (by decide) (by decide))),
     (h c main_arg7).trans ((congrFun (after_ops _) _).trans (keep7 _ main_arg7 (by decide) (by decide) (by decide) (by decide) (by decide) (by decide) (by decide))),
     (h c main_arg8).trans ((congrFun (after_ops _) _).trans (keep7 _ main_arg8 (by decide) (by decide) (by decide) (by decide) (by decide) (by decide) (by decide))),
     (h c main_arg9).trans ((congrFun (after_ops _) _).trans (keep7 _ main_arg9 (by decide) (by decide) (by decide) (by decide) (by decide) (by decide) (by decide))),
     (h c main_arg10).trans ((congrFun (after_ops _) _).trans (keep7 _ main_arg10 (by decide) (by decide) (by decide) (by decide) (by decide) (by decide) (by decide))),
     (h c main_arg11).trans ((congrFun (after_ops _) _).trans (keep7 _ main_arg11 (by decide) (by decide) (by decide) (by decide) (by decide) (by decide) (by decide))),
     (h c main_arg12).trans ((congrFun (after_ops _) _).trans (keep7 _ main_arg12 (by decide) (by decide) (by decide) (by decide) (by decide) (by decide) (by decide))),
     (h c main_arg13).trans ((congrFun (after_ops _) _).trans (keep7 _ main_arg13 (by decide) (by decide) (by decide) (by decide) (by decide) (by decide) (by decide))),
     (h c main_arg14).trans ((congrFun (after_ops _) _).trans (keep7 _ main_arg14 (by decide) (by decide) (by decide) (by decide) (by decide) (by decide) (by decide))),
     (h c main_arg15).trans ((congrFun (after_ops _) _).trans (keep7 _ main_arg15 (by decide) (by decide) (by decide) (by decide) (by decide) (by decide) (by decide))),
     (h c main_arg16).trans ((congrFun (after_ops _) _).trans (keep7 _ main_arg16 (by decide) (by decide) (by decide) (by decide) (by decide) (by decide) (by decide))),
     (h c main_arg17).trans ((congrFun (after_ops _) _).trans (keep7 _ main_arg17 (by decide) (by decide) (by decide) (by decide) (by decide) (by decide) (by decide))),
     (h c main_arg18).trans ((congrFun (after_ops _) _).trans (keep7 _ main_arg18 (by decide) (by decide) (by decide) (by decide) (by decide) (by decide) (by decide))),
     (h c main_arg19).trans ((congrFun (after_ops _) _).trans (keep7 _ main_arg19 (by decide) (by decide) (by decide) (by decide) (by decide) (by decide) (by decide))),
     (h c main_arg20).trans ((congrFun (after_ops _) _).trans (keep7 _ main_arg20 (by decide) (by decide) (by decide) (by decide) (by decide) (by decide) (by decide))),
     (h c main_arg21).trans ((congrFun (after_ops _) _).trans (keep7 _ main_arg21 (by decide) (by decide) (by decide) (by decide) (by decide) (by decide) (by decide))),
     (h c main_arg22).trans ((congrFun (after_ops _) _).trans (keep7 _ main_arg22 (by decide) (by decide) (by decide) (by decide) (by decide) (by decide) (by decide))),
     (h c main_arg23).trans ((congrFun (after_ops _) _).trans (keep7 _ main_arg23 (by decide) (by decide) (by decide) (by decide) (by decide) (by decide) (by decide))),
     (h c main_arg24).trans ((congrFun (after_ops _) _).trans (keep7 _ main_arg24 (by decide) (by decide) (by decide) (by decide) (by decide) (by decide) (by decide))),
     (h c main_arg25).trans ((congrFun (after_ops _) _).trans (keep7 _ main_arg25 (by decide) (by decide) (by decide) (by decide) (by decide) (by decide) (by decide))),
     (h c main_arg26).trans ((congrFun (after_ops _) _).trans (keep7 _ main_arg26 (by decide) (by decide) (by decide) (by decide) (by decide) (by decide) (by decide))),
     (h c main_arg27).trans ((congrFun (after_ops _) _).trans (keep7 _ main_arg27 (by decide) (by decide) (by decide) (by decide) (by decide) (by decide) (by decide))),
     (h c main_arg28).trans ((congrFun (after_ops _) _).trans (keep7 _ main_arg28 (by decide) (by decide) (by decide) (by decide) (by decide) (by decide) (by decide))),
     (h c main_arg29).trans ((congrFun (after_ops _) _).trans (keep7 _ main_arg29 (by decide) (by decide) (by decide) (by decide) (by decide) (by decide) (by decide)))⟩)
    (run_ops m ρ)

end Cert.ReferenceIdeal.RefRun

end
-- ==== Proof.lean ====
/-
  Both programs compute one network, and the certificate says so at the extended reals.

  The network: six rectified dense layers of width 32 on the node features (numeric properties, category, description,
  tweets and the two text embeddings), laid side by side into 192 columns; a rectified dense layer 192 → 192; two
  graph layers, each  h ↦ Σ over edges u → v of (deg u · deg v)^(-1/2) · (h Wᵀ)(u) + (h Wᵀ)(v) / deg v + b ; a
  rectified dense layer 192 → 96, the second result; and a dense layer 96 → 2, the first result.

  The tiled program computes every dense layer block of rows by block of rows, which changes nothing because a dense
  layer's row p reads row p of its input only; it rounds to a shorter float format before each product, which on the
  extended reals is the identity; and it writes the rectifier's negative branch as y · s where the plain program
  writes s · y. The edge sums are the same host operations in both programs and are carried as one function. So the
  two results agree as they stand, for every input: no step uses that the inputs are finite.
-/
import proofs.«136469_j28432683499972_1_alg».proof.Defs
import proofs.«136469_j28432683499972_1_alg».proof.Proof.Gen.Kernel
import proofs.«136469_j28432683499972_1_alg».proof.Proof.Gen.Kernel.Frame
import proofs.«136469_j28432683499972_1_alg».proof.Proof.Gen.KernelIdeal
import proofs.«136469_j28432683499972_1_alg».proof.Proof.Gen.KernelIdeal.Frame
import proofs.«136469_j28432683499972_1_alg».proof.Proof.Gen.ReferenceIdeal
import proofs.«136469_j28432683499972_1_alg».proof.Proof.Gen.Pre_finite_inputs
import proofs.«136469_j28432683499972_1_alg».proof.Proof.KerRun
import proofs.«136469_j28432683499972_1_alg».proof.Proof.KerValue
import proofs.«136469_j28432683499972_1_alg».proof.Proof.RefRun
import proofs.«136469_j28432683499972_1_alg».proof.Proof.Bridge
import Idealize.ShloMosaic.Adequacy
import Idealize.ShloMosaic.Init

set_option maxRecDepth 16384

noncomputable section

namespace Cert.Proof

open Idealize.ShloMosaic Idealize.ShloMosaic.TcCoe Idealize.SL.Sem

/-- The word-level program runs and keeps its arguments. -/
theorem frame_k : Cert.frame_Kernel := fun m ρ _ => Cert.Kernel.Gen.frame m ρ

/-- So does its reading on the extended reals. -/
theorem frame_ki : Cert.frame_KernelIdeal := fun m ρ _ => Cert.KernelIdeal.Gen.frame m ρ

/-- The plain program runs and keeps its arguments: its run, with the results dropped. -/
theorem frame_ri : Cert.frame_ReferenceIdeal := fun m ρ _ =>
  (θ_run Cert.ReferenceIdeal.defs _ _).mono (fun _ h c => (h c).2) (Cert.ReferenceIdeal.RefRun.run m ρ)

set_option maxHeartbeats 2000000 in
/-- From memories that agree on the arguments, both programs end with the network's two results. -/
theorem algebraic : Cert.algebraic_KernelIdeal_ReferenceIdeal := by
  intro m ρ m' ρ' _ hagree
  refine ⟨fun c => Cert.KernelIdeal.Gen.W8 m ρ c (Proc.devRef .tc Cert.KernelIdeal.main_v82_1),
    fun c => Cert.KernelIdeal.Gen.W8 m ρ c (Proc.devRef .tc Cert.KernelIdeal.main_v82_0), ?_, ?_⟩
  · exact (θ_run Cert.KernelIdeal.defs _ _).mono (fun _ h c => ⟨(h c).1.1, (h c).1.2, (h c).2⟩)
      (Cert.KernelIdeal.Run.run_named m ρ)
  · refine (θ_run Cert.ReferenceIdeal.defs _ _).mono
      (fun _ h c => ⟨(h c).1.1.trans ?_, (h c).1.2.trans ?_, (h c).2⟩) (Cert.ReferenceIdeal.RefRun.run m' ρ')
    · obtain ⟨e0, e1, e2, -, e4, e5, e6, e7, e8, e9, e10, e11, e12, e13, e14, e15, e16, e17, e18, e19, e20, e21, e22, e23,
        e24, e25, e26, e27, e28, e29⟩ := hagree c
      refine Eq.trans ?_ (Cert.KernelIdeal.Value.out_val m ρ c).symm
      rw [Cert.KernelIdeal.Value.h2K_eq m c]
      unfold Cert.ReferenceIdeal.RefRun.resOut Cert.ReferenceIdeal.RefRun.resEm
      rw [Cert.Bridge.refOut_eq, e0, e1, e2, e4, e5, e6, e7, e8, e9, e10, e11, e12, e13, e14, e15, e16, e17, e18, e19, e20,
        e21, e22, e23, e24, e25, e26, e27, e28, e29]
    · obtain ⟨e0, e1, e2, -, e4, e5, e6, e7, e8, e9, e10, e11, e12, e13, e14, e15, e16, e17, e18, e19, e20, e21, e22, e23,
        e24, e25, e26, e27, -, -⟩ := hagree c
      refine Eq.trans ?_ (Cert.KernelIdeal.Value.em_val m ρ c).symm
      rw [Cert.KernelIdeal.Value.h2K_eq m c]
      unfold Cert.ReferenceIdeal.RefRun.resEm
      rw [Cert.Bridge.refEm_eq, e0, e1, e2, e4, e5, e6, e7, e8, e9, e10, e11, e12, e13, e14, e15, e16, e17, e18, e19, e20,
        e21, e22, e23, e24, e25, e26, e27]

theorem claim : Cert.Claim := ⟨Cert.Kernel.Gen.facts, Cert.KernelIdeal.Gen.facts, Cert.ReferenceIdeal.Gen.facts,
  Cert.Pre_finite_inputs.Gen.facts, frame_k, frame_ki, frame_ri, trivial, algebraic⟩

end Cert.Proof

end
